-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x128 : Shape := ⟨3, ![2, 512, 128]⟩
abbrev S2x512x3 : Shape := ⟨3, ![2, 512, 3]⟩
abbrev S258x128 : Shape := ⟨2, ![258, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S2x512x128 : S_.BroadcastsInDim S2x512x128 (![] : Fin 0 → Fin S2x512x128.rank)
  reducesTo_S2x512x128_S_d0_1_2 : S2x512x128.ReducesTo [0, 1, 2] S_
  h_S_ : 0 < S_.numel
  bcast_S_S2x512x3 : S_.BroadcastsInDim S2x512x3 (![] : Fin 0 → Fin S2x512x3.rank)
  reducesTo_S2x512x3_S_d0_1_2 : S2x512x3.ReducesTo [0, 1, 2] S_
  bcast_S_S258x128 : S_.BroadcastsInDim S258x128 (![] : Fin 0 → Fin S258x128.rank)
  reducesTo_S258x128_S_d0_1 : S258x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part5 {F : FTy → Type} [FloatOps F] (main_arg18 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S128x1 .f32) (main_arg15 : FVec F S256x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x1 .f32 := Host.absf main_arg14
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x1 .f32) (main_arg12 : FVec F S128x128 .f32) (main_arg13 : FVec F S128 .f32) (main_arg14 : FVec F S128x1 .f32) (main_arg15 : FVec F S256x128 .f32) (main_arg16 : FVec F S128 .f32) (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg11
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_v63 main_v67

def fn_part2 {F : FTy → Type} [FloatOps F] (main_arg7 : FVec F S128x1 .f32) (main_arg8 : FVec F S1 .f32) (main_arg9 : FVec F S128x128 .f32) (main_arg10 : FVec F S128 .f32) (main_arg11 : FVec F S128x1 .f32) (main_arg12 : FVec F S128x128 .f32) (main_arg13 : FVec F S128 .f32) (main_arg14 : FVec F S128x1 .f32) (main_arg15 : FVec F S256x128 .f32) (main_arg16 : FVec F S128 .f32) (main_arg17 : FVec F S128x128 .f32) (main_arg18 : FVec F S128 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_v48 main_v49 main_v50

def fn_part1 {F : FTy → Type} [FloatOps F] (main_arg4 : FVec F S128 .f32) (main_arg5 : FVec F S128x128 .f32) (main_arg6 : FVec F S128 .f32) (main_arg7 : FVec F S128x1 .f32) (main_arg8 : FVec F S1 .f32) (main_arg9 : FVec F S128x128 .f32) (main_arg10 : FVec F S128 .f32) (main_arg11 : FVec F S128x1 .f32) (main_arg12 : FVec F S128x128 .f32) (main_arg13 : FVec F S128 .f32) (main_arg14 : FVec F S128x1 .f32) (main_arg15 : FVec F S256x128 .f32) (main_arg16 : FVec F S128 .f32) (main_arg17 : FVec F S128x128 .f32) (main_arg18 : FVec F S128 .f32) (main_v13 : IVec S_ 1) (main_v16 : IVec S258x128 1) : IVec S_ 1 :=
  let main_c_5 : IVec S_ 1 := constantI S_ 1 1#1
  let main_v17 : IVec S_ 1 := (fun x v => Host.reduce IntOp.andi x v reducesTo_S258x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S2x512x128 .f32) (main_arg1 : FVec F S2x512x3 .f32) (main_arg2 : FVec F S2x512x3 .f32) (main_arg3 : FVec F S258x128 .f32) (main_arg4 : FVec F S128 .f32) (main_arg5 : FVec F S128x128 .f32) (main_arg6 : FVec F S128 .f32) (main_arg7 : FVec F S128x1 .f32) (main_arg8 : FVec F S1 .f32) (main_arg9 : FVec F S128x128 .f32) (main_arg10 : FVec F S128 .f32) (main_arg11 : FVec F S128x1 .f32) (main_arg12 : FVec F S128x128 .f32) (main_arg13 : FVec F S128 .f32) (main_arg14 : FVec F S128x1 .f32) (main_arg15 : FVec F S256x128 .f32) (main_arg16 : FVec F S128 .f32) (main_arg17 : FVec F S128x128 .f32) (main_arg18 : FVec F S128 .f32) : IVec S_ 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_c : IVec S_ 1 := constantI S_ 1 1#1
  let main_v3 : IVec S_ 1 := (fun x v => Host.reduce IntOp.andi x v reducesTo_S2x512x128_S_d0_1_2 h_S_) main_v2 main_c
  let main_v4 : FVec F S2x512x3 .f32 := Host.absf main_arg1
  let main_cst_0 : FVec F S_ .f32 := constant S_ .f32 0x7F800000#32
  let main_v5 : FVec F S2x512x3 .f32 := broadcastInDim S2x512x3 ![] bcast_S_S2x512x3 main_cst_0
  let main_v6 : IVec S2x512x3 1 := cmpf .olt main_v4 main_v5
  let main_c_1 : IVec S_ 1 := constantI S_ 1 1#1
  let main_v7 : IVec S_ 1 := (fun x v => Host.reduce IntOp.andi x v reducesTo_S2x512x3_S_d0_1_2 h_S_) main_v6 main_c_1
  let main_v8 : IVec S_ 1 := andi main_v3 main_v7
  let main_v9 : FVec F S2x512x3 .f32 := Host.absf main_arg2
  let main_cst_2 : FVec F S_ .f32 := constant S_ .f32 0x7F800000#32
  let main_v10 : FVec F S2x512x3 .f32 := broadcastInDim S2x512x3 ![] bcast_S_S2x512x3 main_cst_2
  let main_v11 : IVec S2x512x3 1 := cmpf .olt main_v9 main_v10
  let main_c_3 : IVec S_ 1 := constantI S_ 1 1#1
  let main_v12 : IVec S_ 1 := (fun x v => Host.reduce IntOp.andi x v reducesTo_S2x512x3_S_d0_1_2 h_S_) main_v11 main_c_3
  let main_v13 : IVec S_ 1 := andi main_v8 main_v12
  let main_v14 : FVec F S258x128 .f32 := Host.absf main_arg3
  let main_cst_4 : FVec F S_ .f32 := constant S_ .f32 0x7F800000#32
  let main_v15 : FVec F S258x128 .f32 := broadcastInDim S258x128 ![] bcast_S_S258x128 main_cst_4
  let main_v16 : IVec S258x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S2x512x128 : Shape := ⟨3, ![2, 512, 128]⟩
abbrev S2x512x3 : Shape := ⟨3, ![2, 512, 3]⟩
abbrev S258x128 : Shape := ⟨2, ![258, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x128 : Shape := ⟨2, ![1, 128]⟩
abbrev S1x64x128 : Shape := ⟨3, ![1, 64, 128]⟩
abbrev S1x64x3 : Shape := ⟨3, ![1, 64, 3]⟩
abbrev S64x3 : Shape := ⟨2, ![64, 3]⟩
abbrev S64x128 : Shape := ⟨2, ![64, 128]⟩
abbrev S64x1x3 : Shape := ⟨3, ![64, 1, 3]⟩
abbrev S64x64x3 : Shape := ⟨3, ![64, 64, 3]⟩
abbrev S64x64 : Shape := ⟨2, ![64, 64]⟩
abbrev S64x1x128 : Shape := ⟨3, ![64, 1, 128]⟩
abbrev S64x64x128 : Shape := ⟨3, ![64, 64, 128]⟩
abbrev S64x64x1 : Shape := ⟨3, ![64, 64, 1]⟩
abbrev S1x1x128 : Shape := ⟨3, ![1, 1, 128]⟩
abbrev S4096x128 : Shape := ⟨2, ![4096, 128]⟩
abbrev S4096x1 : Shape := ⟨2, ![4096, 1]⟩
abbrev S1x1 : Shape := ⟨2, ![1, 1]⟩
abbrev S64x256 : Shape := ⟨2, ![64, 256]⟩

abbrev nBuf : Space → Nat
  | .hbm => 28
  | .vmem => 40
  | .smem => 0
  | _ => 0

abbrev bufTy : (tb : Table) → Fin (tcTables nBuf tb) → BufTy
  | .hbm, ⟨0, _⟩ => ⟨S2x512x128, .f32⟩
  | .hbm, ⟨1, _⟩ => ⟨S2x512x3, .f32⟩
  | .hbm, ⟨2, _⟩ => ⟨S2x512x3, .f32⟩
  | .hbm, ⟨3, _⟩ => ⟨S258x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S256x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128x128, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S2x512x128, .f32⟩
  | .hbm, ⟨26, _⟩ => ⟨S2x512x3, .f32⟩
  | .hbm, ⟨27, _⟩ => ⟨S2x512x3, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x3, .f32⟩
  | .local _ .vmem, ⟨5, _⟩ => ⟨S1x64x3, .f32⟩
  | .local _ .vmem, ⟨6, _⟩ => ⟨S1x64x3, .f32⟩
  | .local _ .vmem, ⟨7, _⟩ => ⟨S1x64x3, .f32⟩
  | .local _ .vmem, ⟨8, _⟩ => ⟨S1x64x3, .f32⟩
  | .local _ .vmem, ⟨9, _⟩ => ⟨S1x64x3, .f32⟩
  | .local _ .vmem, ⟨10, _⟩ => ⟨S1x64x3, .f32⟩
  | .local _ .vmem, ⟨11, _⟩ => ⟨S1x64x3, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S128x1, .f32⟩
  | .local _ .vmem, ⟨20, _⟩ => ⟨S1, .f32⟩
  | .local _ .vmem, ⟨21, _⟩ => ⟨S128x128, .f32⟩
  | .local _ .vmem, ⟨22, _⟩ => ⟨S128, .f32⟩
  | .local _ .vmem, ⟨23, _⟩ => ⟨S128x1, .f32⟩
  | .local _ .vmem, ⟨24, _⟩ => ⟨S128x128, .f32⟩
  | .local _ .vmem, ⟨25, _⟩ => ⟨S128, .f32⟩
  | .local _ .vmem, ⟨26, _⟩ => ⟨S128x1, .f32⟩
  | .local _ .vmem, ⟨27, _⟩ => ⟨S256x128, .f32⟩
  | .local _ .vmem, ⟨28, _⟩ => ⟨S128, .f32⟩
  | .local _ .vmem, ⟨29, _⟩ => ⟨S128x128, .f32⟩
  | .local _ .vmem, ⟨30, _⟩ => ⟨S128, .f32⟩
  | .local _ .vmem, ⟨31, _⟩ => ⟨S1x64x128, .f32⟩
  | .local _ .vmem, ⟨32, _⟩ => ⟨S1x64x128, .f32⟩
  | .local _ .vmem, ⟨33, _⟩ => ⟨S1x64x3, .f32⟩
  | .local _ .vmem, ⟨34, _⟩ => ⟨S1x64x3, .f32⟩
  | .local _ .vmem, ⟨35, _⟩ => ⟨S1x64x3, .f32⟩
  | .local _ .vmem, ⟨36, _⟩ => ⟨S1x64x3, .f32⟩
  | .local _ .vmem, ⟨37, _⟩ => ⟨S64x3, .f32⟩
  | .local _ .vmem, ⟨38, _⟩ => ⟨S64x3, .f32⟩
  | .local _ .vmem, ⟨39, _⟩ => ⟨S64x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev main_v6_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_stg27_0 : Ref sig .tc := ⟨.vmem, 35, rfl⟩
abbrev cc0_stg27_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem25_1 : DmaSem sig := 32
abbrev cc0_sem26_0 : DmaSem sig := 33
abbrev cc0_sem26_1 : DmaSem sig := 34
abbrev cc0_sem27_0 : DmaSem sig := 35
abbrev cc0_sem27_1 : DmaSem sig := 36

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v127 : BitVec 1 := Scalar.cmpi .eq arg2 c7_i32
  let v128 : BitVec 32 := Scalar.extui v127
  let c0_i32_65 : BitVec 32 := 0#32
  let v129 : BitVec 1 := Scalar.cmpi .ne v128 c0_i32_65
  v129

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_25 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x64x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x64x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false, false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false, false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false, false]

abbrev stage0_20 : Fin 1 → Memref sig .tc .vmem S128x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false, false]

abbrev stage0_21 : Fin 1 → Memref sig .tc .vmem S256x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false, false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false, false]

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false, false]

abbrev stage0_24 : Fin 1 → Memref sig .tc .vmem S128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false, false]

abbrev stage0_25 : Fin 2 → Memref sig .tc .vmem S1x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true, false]

abbrev stage0_26 : Fin 2 → Memref sig .tc .vmem S1x64x3 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true, false]

abbrev stage0_27 : Fin 2 → Memref sig .tc .vmem S1x64x3 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true, false]

class Facts₀ : Prop where
  slices_S258x128_S128x128_0_0 : S258x128.Slices ![0, 0] S128x128
  slices_S258x128_S128x128_128_0 : S258x128.Slices ![128, 0] S128x128
  slices_S258x128_S1x128_256_0 : S258x128.Slices ![256, 0] S1x128
  shapeCasts_S1x128_S128 : S1x128.ShapeCasts S128
  slices_S258x128_S1x128_257_0 : S258x128.Slices ![257, 0] S1x128
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x64x3_S1x64x3_0_0_0 : ∀ a, (![0, 0, 0] : Fin 3 → Nat) a + S1x64x3.size a ≤ S1x64x3.size a
  h_S1x64x3 : 0 < S1x64x3.numel
  shapeCasts_S1x64x3_S64x3 : S1x64x3.ShapeCasts S64x3
  shapeCasts_S64x3_S64x1x3 : S64x3.ShapeCasts S64x1x3
  shapeCasts_S64x3_S1x64x3 : S64x3.ShapeCasts S1x64x3
  broadcasts_S64x1x3_S64x64x3 : S64x1x3.Broadcasts S64x64x3
  broadcasts_S1x64x3_S64x64x3 : S1x64x3.Broadcasts S64x64x3
  reduces_S64x64x3_S64x64 : S64x64x3.Reduces [2] S64x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S64x128_S64x1x128 : S64x128.ShapeCasts S64x1x128
  shapeCasts_S64x128_S1x64x128 : S64x128.ShapeCasts S1x64x128
  broadcasts_S64x1x128_S64x64x128 : S64x1x128.Broadcasts S64x64x128
  broadcasts_S1x64x128_S64x64x128 : S1x64x128.Broadcasts S64x64x128
  shapeCasts_S64x64_S64x64x1 : S64x64.ShapeCasts S64x64x1
  shapeCasts_S128_S1x1x128 : S128.ShapeCasts S1x1x128
  broadcasts_S64x64x1_S64x64x128 : S64x64x1.Broadcasts S64x64x128
  broadcasts_S1x1x128_S64x64x128 : S1x1x128.Broadcasts S64x64x128
  shapeCasts_S64x64x128_S4096x128 : S64x64x128.ShapeCasts S4096x128
  shapeCasts_S128_S1x128 : S128.ShapeCasts S1x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  broadcasts_S4096x1_S4096x128 : S4096x1.Broadcasts S4096x128
  shapeCasts_S4096x1_S64x64x1 : S4096x1.ShapeCasts S64x64x1
  broadcasts_S64x64x1_S64x64x3 : S64x64x1.Broadcasts S64x64x3
  reduces_S64x64x3_S64x3 : S64x64x3.Reduces [1] S64x3
  shapeCasts_S4096x128_S64x64x128 : S4096x128.ShapeCasts S64x64x128
  reduces_S64x64x128_S64x128 : S64x64x128.Reduces [1] S64x128
  concatenates_S64x128_S64x128_S64x256_d1 : Shape.Concatenates [S64x128, S64x128] S64x256 1
  inb_S256x128_S256x128_0_0 : ∀ a, (![0, 0] : Fin 2 → Nat) a + S256x128.size a ≤ S256x128.size a
  h_S256x128 : 0 < S256x128.numel
  broadcasts_S1x128_S64x128 : S1x128.Broadcasts S64x128
  dot_S64x128_S128x128_S64x128_1_0_0_1_n_n_wf : DotDims.WF S64x128 S128x128 S64x128 [1] [0] [0] [1] [] []
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  dot_S64x256_S256x128_S64x128_1_0_0_1_n_n_wf : DotDims.WF S64x256 S256x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S2x512x128.size a
  hwx0_0 : ∀ i : grid0.Coords, EltTy.bits .f32 = 32 ∨ (Rect.block (s := S2x512x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S2x512x128.size a
  hwx0_1 : ∀ i : grid0.Coords, EltTy.bits .f32 = 32 ∨ (Rect.block (s := S2x512x128) S1x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x3.size a ≤ S2x512x3.size a
  hwx0_2 : ∀ i : grid0.Coords, EltTy.bits .f32 = 32 ∨ (Rect.block (s := S2x512x3) S1x64x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x3.size a ≤ S2x512x3.size a
  hwx0_3 : ∀ i : grid0.Coords, EltTy.bits .f32 = 32 ∨ (Rect.block (s := S2x512x3) S1x64x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x3.size a ≤ S2x512x3.size a
  hwx0_4 : ∀ i : grid0.Coords, EltTy.bits .f32 = 32 ∨ (Rect.block (s := S2x512x3) S1x64x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x3.size a ≤ S2x512x3.size a
  hwx0_5 : ∀ i : grid0.Coords, EltTy.bits .f32 = 32 ∨ (Rect.block (s := S2x512x3) S1x64x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S128x1.size a
  hwx0_13 : ∀ i : grid0.Coords, EltTy.bits .f32 = 32 ∨ (Rect.block (s := S128x1) S128x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x1.size a ≤ S128x1.size a
  hwx0_17 : ∀ i : grid0.Coords, EltTy.bits .f32 = 32 ∨ (Rect.block (s := S128x1) S128x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x128.size a ≤ S128x128.size a
  hwx0_18 : ∀ i : grid0.Coords, EltTy.bits .f32 = 32 ∨ (Rect.block (s := S128x128) S128x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x1.size a ≤ S128x1.size a
  hwx0_20 : ∀ i : grid0.Coords, EltTy.bits .f32 = 32 ∨ (Rect.block (s := S128x1) S128x1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x128.size a ≤ S256x128.size a
  hwx0_21 : ∀ i : grid0.Coords, EltTy.bits .f32 = 32 ∨ (Rect.block (s := S256x128) S256x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128.size a ≤ S128.size a
  hwx0_22 : ∀ i : grid0.Coords, EltTy.bits .f32 = 32 ∨ (Rect.block (s := S128) S128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x128.size a ≤ S128x128.size a
  hwx0_23 : ∀ i : grid0.Coords, EltTy.bits .f32 = 32 ∨ (Rect.block (s := S128x128) S128x128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S128.size a ≤ S128.size a
  hwx0_24 : ∀ i : grid0.Coords, EltTy.bits .f32 = 32 ∨ (Rect.block (s := S128) S128.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1x64x128.size a ≤ S2x512x128.size a
  hwx0_25 : ∀ i : grid0.Coords, EltTy.bits .f32 = 32 ∨ (Rect.block (s := S2x512x128) S1x64x128.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1x64x3.size a ≤ S2x512x3.size a
  hwx0_26 : ∀ i : grid0.Coords, EltTy.bits .f32 = 32 ∨ (Rect.block (s := S2x512x3) S1x64x3.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S1x64x3.size a ≤ S2x512x3.size a
  hwx0_27 : ∀ i : grid0.Coords, EltTy.bits .f32 = 32 ∨ (Rect.block (s := S2x512x3) S1x64x3.size (cc0_transform_27 i) (hinb0_27 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x64x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x64x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1x64x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg4) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg5) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg6) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg7) S128x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg8) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg9) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg10) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg11) S128x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg12) S128x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg13) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg14) S128x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg15) S256x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg16) S128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg17) S128x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg18) S128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v6_0) S1x64x128.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v6_1) S1x64x3.size cc0_transform_26 reads0_26 true false 2 stage0_26 sem0_26
    hrank0 hreads0_26 hinb0_26 nbuf0_26 (Memref.isWhole_whole _) hwx0_26 hstage0_26

abbrev win0_27 : Pipeline.Window sig grid0 :=
  Pipeline.Window.ofSpec (Memref.whole main_v6_2) S1x64x3.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

abbrev idle0 : Fin 28 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun i => !(k0_cond2 i == 1#1) | 26 => fun i => !(k0_cond2 i == 1#1) | 27 => fun i => !(k0_cond2 i == 1#1) | ⟨_ + 28, h⟩ => absurd h (Nat.not_lt.2 (Nat.le_add_left _ _))

class Facts : Prop extends Facts₀ where

variable [Facts]
-- ==== ReferenceIdeal.lean ====
abbrev S2x512x128 : Shape := ⟨3, ![2, 512, 128]⟩
abbrev S2x512x3 : Shape := ⟨3, ![2, 512, 3]⟩
abbrev S258x128 : Shape := ⟨2, ![258, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S2x512x1x3 : Shape := ⟨4, ![2, 512, 1, 3]⟩
abbrev S2x1x512x3 : Shape := ⟨4, ![2, 1, 512, 3]⟩
abbrev S2x512x512x3 : Shape := ⟨4, ![2, 512, 512, 3]⟩
abbrev S_ : Shape := ⟨0, ![]⟩
abbrev S2x512x512 : Shape := ⟨3, ![2, 512, 512]⟩
abbrev S2x512x512x1 : Shape := ⟨4, ![2, 512, 512, 1]⟩
abbrev S2x512x1x128 : Shape := ⟨4, ![2, 512, 1, 128]⟩
abbrev S2x512x512x128 : Shape := ⟨4, ![2, 512, 512, 128]⟩
abbrev S2x1x512x128 : Shape := ⟨4, ![2, 1, 512, 128]⟩
abbrev S2x512x512x258 : Shape := ⟨4, ![2, 512, 512, 258]⟩
abbrev S1x1x1x128 : Shape := ⟨4, ![1, 1, 1, 128]⟩
abbrev S1x1x1x1 : Shape := ⟨4, ![1, 1, 1, 1]⟩
abbrev S2x512x256 : Shape := ⟨3, ![2, 512, 256]⟩
abbrev S1x1x128 : Shape := ⟨3, ![1, 1, 128]⟩

abbrev nBuf : Space → Nat
  | .hbm => 165
  | .vmem => 0
  | .smem => 0
  | _ => 0

abbrev hbmTy0_0 (i : Nat) : BufTy := match i % 128 with
  | 0 => ⟨S2x512x128, .f32⟩
  | 1 => ⟨S2x512x3, .f32⟩
  | 2 => ⟨S2x512x3, .f32⟩
  | 3 => ⟨S258x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S128x128, .f32⟩
  | 10 => ⟨S128, .f32⟩
  | 11 => ⟨S128x1, .f32⟩
  | 12 => ⟨S128x128, .f32⟩
  | 13 => ⟨S128, .f32⟩
  | 14 => ⟨S128x1, .f32⟩
  | 15 => ⟨S256x128, .f32⟩
  | 16 => ⟨S128, .f32⟩
  | 17 => ⟨S128x128, .f32⟩
  | 18 => ⟨S128, .f32⟩
  | 19 => ⟨S2x512x1x3, .f32⟩
  | 20 => ⟨S2x1x512x3, .f32⟩
  | 21 => ⟨S2x512x512x3, .f32⟩
  | 22 => ⟨S2x512x512x3, .f32⟩
  | 23 => ⟨S2x512x512x3, .f32⟩
  | 24 => ⟨S2x512x1x3, .f32⟩
  | 25 => ⟨S2x1x512x3, .f32⟩
  | 26 => ⟨S2x512x512x3, .f32⟩
  | 27 => ⟨S2x512x512x3, .f32⟩
  | 28 => ⟨S2x512x512x3, .f32⟩
  | 29 => ⟨S2x512x512x3, .f32⟩
  | 30 => ⟨S_, .f32⟩
  | 31 => ⟨S2x512x512, .f32⟩
  | 32 => ⟨S2x512x512x1, .f32⟩
  | 33 => ⟨S2x512x512x3, .f32⟩
  | 34 => ⟨S_, .f32⟩
  | 35 => ⟨S2x512x512, .f32⟩
  | 36 => ⟨S2x512x512x1, .f32⟩
  | 37 => ⟨S2x512x1x128, .f32⟩
  | 38 => ⟨S2x512x512x128, .f32⟩
  | 39 => ⟨S2x1x512x128, .f32⟩
  | 40 => ⟨S2x512x512x128, .f32⟩
  | 41 => ⟨S2x512x512x258, .f32⟩
  | 42 => ⟨S2x512x512x128, .f32⟩
  | 43 => ⟨S1x1x1x128, .f32⟩
  | 44 => ⟨S2x512x512x128, .f32⟩
  | 45 => ⟨S2x512x512x128, .f32⟩
  | 46 => ⟨S2x512x512x128, .f32⟩
  | 47 => ⟨S2x512x512x128, .f32⟩
  | 48 => ⟨S_, .f32⟩
  | 49 => ⟨S2x512x512x128, .f32⟩
  | 50 => ⟨S2x512x512x128, .f32⟩
  | 51 => ⟨S_, .f32⟩
  | 52 => ⟨S2x512x512x128, .f32⟩
  | 53 => ⟨S2x512x512x128, .f32⟩
  | 54 => ⟨S2x512x512x128, .f32⟩
  | 55 => ⟨S2x512x512x128, .f32⟩
  | 56 => ⟨S1x1x1x128, .f32⟩
  | 57 => ⟨S2x512x512x128, .f32⟩
  | 58 => ⟨S2x512x512x128, .f32⟩
  | 59 => ⟨S2x512x512x128, .f32⟩
  | 60 => ⟨S2x512x512x128, .f32⟩
  | 61 => ⟨S_, .f32⟩
  | 62 => ⟨S2x512x512x128, .f32⟩
  | 63 => ⟨S2x512x512x128, .f32⟩
  | 64 => ⟨S_, .f32⟩
  | 65 => ⟨S2x512x512x128, .f32⟩
  | 66 => ⟨S2x512x512x128, .f32⟩
  | 67 => ⟨S2x512x512x128, .f32⟩
  | 68 => ⟨S2x512x512x1, .f32⟩
  | 69 => ⟨S1x1x1x1, .f32⟩
  | 70 => ⟨S2x512x512x1, .f32⟩
  | 71 => ⟨S2x512x512x1, .f32⟩
  | 72 => ⟨S2x512x512x1, .f32⟩
  | 73 => ⟨S2x512x512x1, .f32⟩
  | 74 => ⟨S_, .f32⟩
  | 75 => ⟨S2x512x512x1, .f32⟩
  | 76 => ⟨S2x512x512x1, .f32⟩
  | 77 => ⟨S_, .f32⟩
  | 78 => ⟨S2x512x512x1, .f32⟩
  | 79 => ⟨S2x512x512x1, .f32⟩
  | 80 => ⟨S2x512x512x128, .f32⟩
  | 81 => ⟨S2x512x512x128, .f32⟩
  | 82 => ⟨S2x512x512x128, .f32⟩
  | 83 => ⟨S1x1x1x128, .f32⟩
  | 84 => ⟨S2x512x512x128, .f32⟩
  | 85 => ⟨S2x512x512x128, .f32⟩
  | 86 => ⟨S2x512x512x128, .f32⟩
  | 87 => ⟨S2x512x512x128, .f32⟩
  | 88 => ⟨S_, .f32⟩
  | 89 => ⟨S2x512x512x128, .f32⟩
  | 90 => ⟨S2x512x512x128, .f32⟩
  | 91 => ⟨S_, .f32⟩
  | 92 => ⟨S2x512x512x128, .f32⟩
  | 93 => ⟨S2x512x512x128, .f32⟩
  | 94 => ⟨S2x512x512x128, .f32⟩
  | 95 => ⟨S2x512x512x1, .f32⟩
  | 96 => ⟨S2x512x512x1, .f32⟩
  | 97 => ⟨S2x512x512x128, .f32⟩
  | 98 => ⟨S1x1x1x128, .f32⟩
  | 99 => ⟨S2x512x512x128, .f32⟩
  | 100 => ⟨S2x512x512x128, .f32⟩
  | 101 => ⟨S2x512x512x128, .f32⟩
  | 102 => ⟨S2x512x512x128, .f32⟩
  | 103 => ⟨S_, .f32⟩
  | 104 => ⟨S2x512x512x128, .f32⟩
  | 105 => ⟨S2x512x512x128, .f32⟩
  | 106 => ⟨S_, .f32⟩
  | 107 => ⟨S2x512x512x128, .f32⟩
  | 108 => ⟨S2x512x512x128, .f32⟩
  | 109 => ⟨S2x512x512x128, .f32⟩
  | 110 => ⟨S2x512x512x1, .f32⟩
  | 111 => ⟨S2x512x512x1, .f32⟩
  | 112 => ⟨S2x512x512x3, .f32⟩
  | 113 => ⟨S2x512x512x3, .f32⟩
  | 114 => ⟨S_, .f32⟩
  | 115 => ⟨S2x512x3, .f32⟩
  | 116 => ⟨S_, .f32⟩
  | 117 => ⟨S2x512x3, .f32⟩
  | 118 => ⟨S2x512x3, .f32⟩
  | 119 => ⟨S2x512x512x3, .f32⟩
  | 120 => ⟨S2x512x512x3, .f32⟩
  | 121 => ⟨S_, .f32⟩
  | 122 => ⟨S2x512x3, .f32⟩
  | 123 => ⟨S_, .f32⟩
  | 124 => ⟨S2x512x3, .f32⟩
  | 125 => ⟨S2x512x3, .f32⟩
  | 126 => ⟨S2x512x3, .f32⟩
  | 127 => ⟨S_, .f32⟩
  | _ => ⟨S2x512x128, .f32⟩

abbrev hbmTy0_1 (i : Nat) : BufTy := match i % 128 with
  | 0 => ⟨S_, .f32⟩
  | 1 => ⟨S_, .f32⟩
  | 2 => ⟨S2x512x3, .f32⟩
  | 3 => ⟨S2x512x3, .f32⟩
  | 4 => ⟨S_, .f32⟩
  | 5 => ⟨S2x512x3, .f32⟩
  | 6 => ⟨S2x512x3, .f32⟩
  | 7 => ⟨S2x512x3, .f32⟩
  | 8 => ⟨S_, .f32⟩
  | 9 => ⟨S_, .f32⟩
  | 10 => ⟨S_, .f32⟩
  | 11 => ⟨S2x512x3, .f32⟩
  | 12 => ⟨S2x512x3, .f32⟩
  | 13 => ⟨S_, .f32⟩
  | 14 => ⟨S2x512x3, .f32⟩
  | 15 => ⟨S2x512x3, .f32⟩
  | 16 => ⟨S_, .f32⟩
  | 17 => ⟨S2x512x128, .f32⟩
  | 18 => ⟨S2x512x256, .f32⟩
  | 19 => ⟨S2x512x128, .f32⟩
  | 20 => ⟨S1x1x128, .f32⟩
  | 21 => ⟨S2x512x128, .f32⟩
  | 22 => ⟨S2x512x128, .f32⟩
  | 23 => ⟨S2x512x128, .f32⟩
  | 24 => ⟨S2x512x128, .f32⟩
  | 25 => ⟨S_, .f32⟩
  | 26 => ⟨S2x512x128, .f32⟩
  | 27 => ⟨S2x512x128, .f32⟩
  | 28 => ⟨S_, .f32⟩
  | 29 => ⟨S2x512x128, .f32⟩
  | 30 => ⟨S2x512x128, .f32⟩
  | 31 => ⟨S2x512x128, .f32⟩
  | 32 => ⟨S2x512x128, .f32⟩
  | 33 => ⟨S1x1x128, .f32⟩
  | 34 => ⟨S2x512x128, .f32⟩
  | 35 => ⟨S2x512x128, .f32⟩
  | 36 => ⟨S2x512x128, .f32⟩
  | _ => ⟨S2x512x128, .f32⟩

abbrev hbmTy (i : Nat) : BufTy := match i / 128 with
  | 0 => hbmTy0_0 i
  | 1 => hbmTy0_1 i
  | _ => ⟨S2x512x128, .f32⟩

abbrev bufTy : (tb : Table) → Fin (tcTables nBuf tb) → BufTy
  | .hbm, ⟨i, _⟩ => hbmTy i
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_1 : Ref sig .tc := ⟨.hbm, 74, rfl⟩
abbrev main_v37 : Ref sig .tc := ⟨.hbm, 75, rfl⟩
abbrev main_v38 : Ref sig .tc := ⟨.hbm, 76, rfl⟩
abbrev main_cst_2 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_call2_v5 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_call3_v0 : Ref sig .tc := ⟨.hbm, 101, rfl⟩
abbrev main_call3_v1 : Ref sig .tc := ⟨.hbm, 102, rfl⟩
abbrev main_call3_cst : Ref sig .tc := ⟨.hbm, 103, rfl⟩
abbrev main_call3_v2 : Ref sig .tc := ⟨.hbm, 104, rfl⟩
abbrev main_call3_v3 : Ref sig .tc := ⟨.hbm, 105, rfl⟩
abbrev main_call3_cst_0 : Ref sig .tc := ⟨.hbm, 106, rfl⟩
abbrev main_call3_v4 : Ref sig .tc := ⟨.hbm, 107, rfl⟩
abbrev main_call3_v5 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_3 : Ref sig .tc := ⟨.hbm, 114, rfl⟩
abbrev main_v59 : Ref sig .tc := ⟨.hbm, 115, rfl⟩
abbrev main_cst_4 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_5 : Ref sig .tc := ⟨.hbm, 121, rfl⟩
abbrev main_v64 : Ref sig .tc := ⟨.hbm, 122, rfl⟩
abbrev main_cst_6 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_cst_7 : Ref sig .tc := ⟨.hbm, 127, rfl⟩
abbrev main_cst_8 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_v68 : Ref sig .tc := ⟨.hbm, 134, rfl⟩
abbrev main_v69 : Ref sig .tc := ⟨.hbm, 135, rfl⟩
abbrev main_cst_9 : Ref sig .tc := ⟨.hbm, 136, rfl⟩
abbrev main_cst_10 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v70 : Ref sig .tc := ⟨.hbm, 143, rfl⟩
abbrev main_cst_11 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩

abbrev nD : Nat := 1
abbrev τ : Topo := Topo.v7x

variable {F : FTy → Type} [FloatOps F]

class Facts₀ : Prop where
  bcast_S2x512x3_S2x512x1x3_0_1_3 : S2x512x3.BroadcastsInDim S2x512x1x3 (![0, 1, 3] : Fin 3 → Fin S2x512x1x3.rank)
  bcast_S2x512x3_S2x1x512x3_0_2_3 : S2x512x3.BroadcastsInDim S2x1x512x3 (![0, 2, 3] : Fin 3 → Fin S2x1x512x3.rank)
  bcast_S2x512x1x3_S2x512x512x3_0_1_2_3 : S2x512x1x3.BroadcastsInDim S2x512x512x3 (![0, 1, 2, 3] : Fin 4 → Fin S2x512x512x3.rank)
  bcast_S2x1x512x3_S2x512x512x3_0_1_2_3 : S2x1x512x3.BroadcastsInDim S2x512x512x3 (![0, 1, 2, 3] : Fin 4 → Fin S2x512x512x3.rank)
  reducesTo_S2x512x512x3_S2x512x512_d3 : S2x512x512x3.ReducesTo [3] S2x512x512
  h_S_ : 0 < S_.numel
  bcast_S2x512x512_S2x512x512x1_0_1_2 : S2x512x512.BroadcastsInDim S2x512x512x1 (![0, 1, 2] : Fin 3 → Fin S2x512x512x1.rank)
  bcast_S2x512x128_S2x512x1x128_0_1_3 : S2x512x128.BroadcastsInDim S2x512x1x128 (![0, 1, 3] : Fin 3 → Fin S2x512x1x128.rank)
  bcast_S2x512x1x128_S2x512x512x128_0_1_2_3 : S2x512x1x128.BroadcastsInDim S2x512x512x128 (![0, 1, 2, 3] : Fin 4 → Fin S2x512x512x128.rank)
  bcast_S2x512x128_S2x1x512x128_0_2_3 : S2x512x128.BroadcastsInDim S2x1x512x128 (![0, 2, 3] : Fin 3 → Fin S2x1x512x128.rank)
  bcast_S2x1x512x128_S2x512x512x128_0_1_2_3 : S2x1x512x128.BroadcastsInDim S2x512x512x128 (![0, 1, 2, 3] : Fin 4 → Fin S2x512x512x128.rank)
  concatenates_S2x512x512x128_S2x512x512x128_S2x512x512x1_S2x512x512x1_S2x512x512x258_d3 : Shape.Concatenates [S2x512x512x128, S2x512x512x128, S2x512x512x1, S2x512x512x1] S2x512x512x258 3
  bcast_S128_S1x1x1x128_3 : S128.BroadcastsInDim S1x1x1x128 (![3] : Fin 1 → Fin S1x1x1x128.rank)
  bcast_S1x1x1x128_S2x512x512x128_0_1_2_3 : S1x1x1x128.BroadcastsInDim S2x512x512x128 (![0, 1, 2, 3] : Fin 4 → Fin S2x512x512x128.rank)
  bcast_S_S2x512x512x128 : S_.BroadcastsInDim S2x512x512x128 (![] : Fin 0 → Fin S2x512x512x128.rank)
  bcast_S1_S1x1x1x1_3 : S1.BroadcastsInDim S1x1x1x1 (![3] : Fin 1 → Fin S1x1x1x1.rank)
  bcast_S1x1x1x1_S2x512x512x1_0_1_2_3 : S1x1x1x1.BroadcastsInDim S2x512x512x1 (![0, 1, 2, 3] : Fin 4 → Fin S2x512x512x1.rank)
  bcast_S_S2x512x512x1 : S_.BroadcastsInDim S2x512x512x1 (![] : Fin 0 → Fin S2x512x512x1.rank)
  bcast_S2x512x512x1_S2x512x512x128_0_1_2_3 : S2x512x512x1.BroadcastsInDim S2x512x512x128 (![0, 1, 2, 3] : Fin 4 → Fin S2x512x512x128.rank)
  bcast_S2x512x512x1_S2x512x512x3_0_1_2_3 : S2x512x512x1.BroadcastsInDim S2x512x512x3 (![0, 1, 2, 3] : Fin 4 → Fin S2x512x512x3.rank)
  reducesTo_S2x512x512x3_S2x512x3_d2 : S2x512x512x3.ReducesTo [2] S2x512x3
  bcast_S_S2x512x3 : S_.BroadcastsInDim S2x512x3 (![] : Fin 0 → Fin S2x512x3.rank)
  reducesTo_S2x512x512x128_S2x512x128_d2 : S2x512x512x128.ReducesTo [2] S2x512x128
  concatenates_S2x512x128_S2x512x128_S2x512x256_d2 : Shape.Concatenates [S2x512x128, S2x512x128] S2x512x256 2
  bcast_S128_S1x1x128_2 : S128.BroadcastsInDim S1x1x128 (![2] : Fin 1 → Fin S1x1x128.rank)
  bcast_S1x1x128_S2x512x128_0_1_2 : S1x1x128.BroadcastsInDim S2x512x128 (![0, 1, 2] : Fin 3 → Fin S2x512x128.rank)
  bcast_S_S2x512x128 : S_.BroadcastsInDim S2x512x128 (![] : Fin 0 → Fin S2x512x128.rank)
  dot_S2x512x512x258_S258x128_S2x512x512x128_3_0_012_1_n_n_wf : DotDims.WF S2x512x512x258 S258x128 S2x512x512x128 [3] [0] [0, 1, 2] [1] [] []
  dot_S2x512x512x128_S128x128_S2x512x512x128_3_0_012_1_n_n_wf : DotDims.WF S2x512x512x128 S128x128 S2x512x512x128 [3] [0] [0, 1, 2] [1] [] []
  dot_S2x512x512x128_S128x1_S2x512x512x1_3_0_012_1_n_n_wf : DotDims.WF S2x512x512x128 S128x1 S2x512x512x1 [3] [0] [0, 1, 2] [1] [] []
  dot_S2x512x256_S256x128_S2x512x128_2_0_01_1_n_n_wf : DotDims.WF S2x512x256 S256x128 S2x512x128 [2] [0] [0, 1] [1] [] []
  dot_S2x512x128_S128x128_S2x512x128_2_0_01_1_n_n_wf : DotDims.WF S2x512x128 S128x128 S2x512x128 [2] [0] [0, 1] [1] [] []

variable [Facts₀]

def dot_S2x512x512x258_S258x128_S2x512x512x128_3_0_012_1_n_n : DotDims S2x512x512x258 S258x128 S2x512x512x128 where
  lhsContracting := [3]
  rhsContracting := [0]
  lhsNonContracting := [0, 1, 2]
  rhsNonContracting := [1]
  lhsBatch := []
  rhsBatch := []
  wf := dot_S2x512x512x258_S258x128_S2x512x512x128_3_0_012_1_n_n_wf
def dot_S2x512x512x128_S128x128_S2x512x512x128_3_0_012_1_n_n : DotDims S2x512x512x128 S128x128 S2x512x512x128 where
  lhsContracting := [3]
  rhsContracting := [0]
  lhsNonContracting := [0, 1, 2]
  rhsNonContracting := [1]
  lhsBatch := []
  rhsBatch := []
  wf := dot_S2x512x512x128_S128x128_S2x512x512x128_3_0_012_1_n_n_wf
def dot_S2x512x512x128_S128x1_S2x512x512x1_3_0_012_1_n_n : DotDims S2x512x512x128 S128x1 S2x512x512x1 where
  lhsContracting := [3]
  rhsContracting := [0]
  lhsNonContracting := [0, 1, 2]
  rhsNonContracting := [1]
  lhsBatch := []
  rhsBatch := []
  wf := dot_S2x512x512x128_S128x1_S2x512x512x1_3_0_012_1_n_n_wf
def dot_S2x512x256_S256x128_S2x512x128_2_0_01_1_n_n : DotDims S2x512x256 S256x128 S2x512x128 where
  lhsContracting := [2]
  rhsContracting := [0]
  lhsNonContracting := [0, 1]
  rhsNonContracting := [1]
  lhsBatch := []
  rhsBatch := []
  wf := dot_S2x512x256_S256x128_S2x512x128_2_0_01_1_n_n_wf
def dot_S2x512x128_S128x128_S2x512x128_2_0_01_1_n_n : DotDims S2x512x128 S128x128 S2x512x128 where
  lhsContracting := [2]
  rhsContracting := [0]
  lhsNonContracting := [0, 1]
  rhsNonContracting := [1]
  lhsBatch := []
  rhsBatch := []
  wf := dot_S2x512x128_S128x128_S2x512x128_2_0_01_1_n_n_wf

class Facts : Prop extends Facts₀ where

variable [Facts]
-- ==== Proof.BDefs.lean ====
/-
  The tiled kernel's data, at any float instance F. A grid point t = (b, it, jt) sees 25 input blocks: rows
  64·it … 64·it+63 of h, pos, vel (the receiving tile), rows 64·jt … 64·jt+63 of the same arrays (the sending tile), and
  the weights whole. One point adds to three running sums held in scratch — the gated position and velocity
  differences and the messages of the sending tile, per receiving row — which are reset at jt = 0; at jt = 7 the point
  also writes the receiving tile's three result blocks from the finished sums. Here: the blocks, one point's effect on
  the sums (`step`), the sums after every point by recursion on the point (`accs`), the result blocks (`finH`,
  `finP`, `finV`), the invariant carried between points (the three scratch buffers at `accs`), and the pipeline's
  proof data. The receiving and the sending window of one array each hold half of it.
-/
import proofs.«145759_j13950053777588_1_alg».proof.Proof.Gen.Kernel.Launch
import proofs.«145759_j13950053777588_1_alg».proof.Proof.Gen.Kernel.Skeleton
import proofs.«145759_j13950053777588_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point's arithmetic, over the blocks it loads -/

/-- The 25 input blocks of one grid point: b0 / b1 the receiving / sending rows of h, b2 / b3 of pos, b4 / b5 of vel,
    b6 … b24 the weights (We1's two square parts and its last two rows, be1, We2, be2, Wa, ba, Wp1, bp1, Wp2, Wv1,
    bv1, Wv2, Wn1, bn1, Wn2, bn2). -/
structure Blk (F : FTy → Type) [FloatOps F] where
  b0 : Vec F S1x64x128 .f32
  b1 : Vec F S1x64x128 .f32
  b2 : Vec F S1x64x3 .f32
  b3 : Vec F S1x64x3 .f32
  b4 : Vec F S1x64x3 .f32
  b5 : Vec F S1x64x3 .f32
  b6 : Vec F S128x128 .f32
  b7 : Vec F S128x128 .f32
  b8 : Vec F S128 .f32
  b9 : Vec F S128 .f32
  b10 : Vec F S128 .f32
  b11 : Vec F S128x128 .f32
  b12 : Vec F S128 .f32
  b13 : Vec F S128x1 .f32
  b14 : Vec F S1 .f32
  b15 : Vec F S128x128 .f32
  b16 : Vec F S128 .f32
  b17 : Vec F S128x1 .f32
  b18 : Vec F S128x128 .f32
  b19 : Vec F S128 .f32
  b20 : Vec F S128x1 .f32
  b21 : Vec F S256x128 .f32
  b22 : Vec F S128 .f32
  b23 : Vec F S128x128 .f32
  b24 : Vec F S128 .f32

/-- The three running sums: gated position differences, gated velocity differences, messages. -/
abbrev Acc (F : FTy → Type) [FloatOps F] : Type := Vec F S64x3 .f32 × Vec F S64x3 .f32 × Vec F S64x128 .f32

/-- The second edge layer's output for the 64 × 64 edges of the tile, one edge per row. -/
def x70 (B : Blk F) : FVec F S4096x128 .f32 :=
  k0_pay20 (k0_pay11 B.b0) (k0_pay12 B.b1) (k0_pay17 B.b2 B.b3) (k0_pay18 B.b4 B.b5) (k0_pay19 B.b6)
    (constant S64x128 .f32 0x00000000#32) B.b7 B.b8 B.b9 B.b10 B.b11 B.b12
/-- The attention logit of each edge of the tile. -/
def x76 (B : Blk F) : FVec F S4096x1 .f32 :=
  k0_pay21 (k0_pay11 B.b0) (k0_pay12 B.b1) (k0_pay17 B.b2 B.b3) (k0_pay18 B.b4 B.b5) (k0_pay19 B.b6)
    (constant S64x128 .f32 0x00000000#32) B.b7 B.b8 B.b9 B.b10 B.b11 B.b12 B.b13 B.b14
/-- The sums after the point, from the sums before it. -/
def stepP (B : Blk F) (a : Vec F S64x3 .f32) : Vec F S64x3 .f32 :=
  k0_pay23 (k0_pay15 B.b2 B.b3) (x70 B) (x76 B) B.b15 B.b16 B.b17 a
def stepV (B : Blk F) (a : Vec F S64x3 .f32) : Vec F S64x3 .f32 :=
  k0_pay1 a (k0_pay24 (k0_pay16 B.b4 B.b5) (x70 B) (x76 B) B.b18 B.b19 B.b20)
def stepM (B : Blk F) (a : Vec F S64x128 .f32) : Vec F S64x128 .f32 :=
  k0_pay2 (k0_pay22 (x70 B) (x76 B)) a
def step (B : Blk F) (a : Acc F) : Acc F := (stepP B a.1, stepV B a.2.1, stepM B a.2.2)
/-- The sums a first sending tile starts from. -/
def zAcc : Acc F := (k0_pay8, k0_pay9, k0_pay10)
/-- The result blocks a last sending tile writes, from the finished sums. -/
def finH (B : Blk F) (aM : Vec F S64x128 .f32) : Vec F S1x64x128 .f32 := k0_pay7 (k0_pay11 B.b0) aM B.b21 B.b22 B.b23 B.b24
def finP (B : Blk F) (aP : Vec F S64x3 .f32) : Vec F S1x64x3 .f32 := k0_pay3 (k0_pay5 (k0_pay13 B.b2) aP)
def finV (B : Blk F) (aV : Vec F S64x3 .f32) : Vec F S1x64x3 .f32 := k0_pay4 (k0_pay6 (k0_pay14 B.b4) aV)

/-! ## The blocks and the sums at every point, from the contents the region is entered with -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input blocks of point `t`. -/
def blk (c : Dev nD) (t : Fin cfg0.N) : Blk F where
    b0 := iblk V c 0 t
    b1 := iblk V c 1 t
    b2 := iblk V c 2 t
    b3 := iblk V c 3 t
    b4 := iblk V c 4 t
    b5 := iblk V c 5 t
    b6 := iblk V c 6 t
    b7 := iblk V c 7 t
    b8 := iblk V c 8 t
    b9 := iblk V c 9 t
    b10 := iblk V c 10 t
    b11 := iblk V c 11 t
    b12 := iblk V c 12 t
    b13 := iblk V c 13 t
    b14 := iblk V c 14 t
    b15 := iblk V c 15 t
    b16 := iblk V c 16 t
    b17 := iblk V c 17 t
    b18 := iblk V c 18 t
    b19 := iblk V c 19 t
    b20 := iblk V c 20 t
    b21 := iblk V c 21 t
    b22 := iblk V c 22 t
    b23 := iblk V c 23 t
    b24 := iblk V c 24 t

/-- The three sums after point `n`: one step from zero when `n` starts a row of sending tiles (n ≡ 0 mod 8), else one step
    from the sums after point `n - 1`. -/
def accs (c : Dev nD) : (n : ℕ) → n < cfg0.N → Acc F
  | 0, hn => step (blk V c ⟨0, hn⟩) zAcc
  | n + 1, hn => step (blk V c ⟨n + 1, hn⟩) (if (n + 1) % 8 = 0 then zAcc else accs c n (Nat.lt_of_succ_lt hn))

theorem accs_first (c : Dev nD) (t : Fin cfg0.N) (h0 : t.val % 8 = 0) :
    accs V c t.val t.isLt = step (blk V c t) zAcc := by
  obtain ⟨n, hn⟩ := t
  cases n with
  | zero => rfl
  | succ n => show step _ (if (n + 1) % 8 = 0 then _ else _) = _; rw [if_pos h0]

theorem accs_next (c : Dev nD) (t : Fin cfg0.N) (h0 : ¬ t.val % 8 = 0) :
    accs V c t.val t.isLt = step (blk V c t) (accs V c (t.val - 1) (Nat.lt_of_le_of_lt (Nat.sub_le _ _) t.isLt)) := by
  obtain ⟨n, hn⟩ := t
  cases n with
  | zero => exact absurd (Nat.zero_mod _) h0
  | succ n => show step _ (if (n + 1) % 8 = 0 then _ else _) = _; rw [if_neg h0]; rfl

/-! ## The invariant between points and the proof data -/

/-- The scratch operands: whole scoped buffers of the kernel's own. -/
abbrev scM0 : Memref sig .tc .vmem S64x3 .f32 := Memref.whole cc0_scratch0
abbrev scM1 : Memref sig .tc .vmem S64x3 .f32 := Memref.whole cc0_scratch1
abbrev scM2 : Memref sig .tc .vmem S64x128 .f32 := Memref.whole cc0_scratch2

/-- Before the first point: every scratch at anything. After point `n`: the three scratch buffers at the sums after it.
    The generator register rides along at some state. -/
def PhiS (c : Dev nD) : (n : ℕ) → n ≤ cfg0.N → sProp 𝕄
  | 0, _ => Pipeline.ΦA spec0 c
  | n + 1, hn => iprop(owns (c : Thread nD τ) scM0 fullShare (accs V c n hn).1
      ∗ owns (c : Thread nD τ) scM1 fullShare (accs V c n hn).2.1
      ∗ owns (c : Thread nD τ) scM2 fullShare (accs V c n hn).2.2
      ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0 fullShare (accs V c n hn).1
      ∗ owns (c : Thread nD τ) scM1 fullShare (accs V c n hn).2.1
      ∗ owns (c : Thread nD τ) scM2 fullShare (accs V c n hn).2.2
      ∗ (∃ r, prngReg c r)) := rfl

theorem PhiS_pos (c : Dev nD) (n : ℕ) (h : n ≤ cfg0.N) (hz : n ≠ 0) :
    PhiS V c n h = iprop(owns (c : Thread nD τ) scM0 fullShare (accs V c (n - 1) (by omega)).1
      ∗ owns (c : Thread nD τ) scM1 fullShare (accs V c (n - 1) (by omega)).2.1
      ∗ owns (c : Thread nD τ) scM2 fullShare (accs V c (n - 1) (by omega)).2.2
      ∗ (∃ r, prngReg c r)) := by
  cases n with
  | zero => exact absurd rfl hz
  | succ n => rfl

/-- The pipeline's proof data on core `c`: the arrays as the region finds them; after the body each input's buffer at
    its block, each result's at the block written from the sums after the point (read only where the point is a last
    sending tile); the invariant `PhiS`; nothing owed; the two windows of h, of pos and of vel half of the array each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => iblk V c 20 t
    | ⟨21, _⟩ => iblk V c 21 t
    | ⟨22, _⟩ => iblk V c 22 t
    | ⟨23, _⟩ => iblk V c 23 t
    | ⟨24, _⟩ => iblk V c 24 t
    | ⟨25, _⟩ => finH (blk V c t) (accs V c t.val t.isLt).2.2
    | ⟨26, _⟩ => finP (blk V c t) (accs V c t.val t.isLt).1
    | ⟨27, _⟩ => finV (blk V c t) (accs V c t.val t.isLt).2.1
    | ⟨_ + 28, h⟩ => absurd h (Nat.not_lt.2 (Nat.le_add_left _ _))
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨21, _⟩ => fullShare
    | ⟨22, _⟩ => fullShare
    | ⟨23, _⟩ => fullShare
    | ⟨24, _⟩ => fullShare
    | ⟨25, _⟩ => fullShare
    | ⟨26, _⟩ => fullShare
    | ⟨27, _⟩ => fullShare
    | ⟨_ + 28, h⟩ => absurd h (Nat.not_lt.2 (Nat.le_add_left _ _))
  owed _ := 0

theorem A_eq (c : Dev nD) (w : Fin cfg0.W) : (dat0 V c).A w = V c (Pipeline.arrRef spec0 w) := by
  dsimp only [dat0]

theorem Phi_castSucc (c : Dev nD) (t : Fin cfg0.N) :
    (dat0 V c).Φ t.castSucc = PhiS V c t.val (Nat.le_of_lt t.isLt) := by
  dsimp only [dat0]; simp only [Fin.coe_castSucc]

theorem Phi_succ (c : Dev nD) (t : Fin cfg0.N) :
    (dat0 V c).Φ t.succ = PhiS V c (t.val + 1) t.isLt := rfl

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = iblk V c 5 t := by dsimp only [dat0]
theorem after_6 (c : Dev nD) (t : Fin cfg0.N) : (dat0 V c).after 6 t = iblk V c 6 t := by dsimp only [dat0]
theorem after_7 (c : Dev nD) (t : Fin cfg0.N) : (dat0 V c).after 7 t = iblk V c 7 t := by dsimp only [dat0]
theorem after_8 (c : Dev nD) (t : Fin cfg0.N) : (dat0 V c).after 8 t = iblk V c 8 t := by dsimp only [dat0]
theorem after_9 (c : Dev nD) (t : Fin cfg0.N) : (dat0 V c).after 9 t = iblk V c 9 t := by dsimp only [dat0]
theorem after_10 (c : Dev nD) (t : Fin cfg0.N) : (dat0 V c).after 10 t = iblk V c 10 t := by dsimp only [dat0]
theorem after_11 (c : Dev nD) (t : Fin cfg0.N) : (dat0 V c).after 11 t = iblk V c 11 t := by dsimp only [dat0]
theorem after_12 (c : Dev nD) (t : Fin cfg0.N) : (dat0 V c).after 12 t = iblk V c 12 t := by dsimp only [dat0]
theorem after_13 (c : Dev nD) (t : Fin cfg0.N) : (dat0 V c).after 13 t = iblk V c 13 t := by dsimp only [dat0]
theorem after_14 (c : Dev nD) (t : Fin cfg0.N) : (dat0 V c).after 14 t = iblk V c 14 t := by dsimp only [dat0]
theorem after_15 (c : Dev nD) (t : Fin cfg0.N) : (dat0 V c).after 15 t = iblk V c 15 t := by dsimp only [dat0]
theorem after_16 (c : Dev nD) (t : Fin cfg0.N) : (dat0 V c).after 16 t = iblk V c 16 t := by dsimp only [dat0]
theorem after_17 (c : Dev nD) (t : Fin cfg0.N) : (dat0 V c).after 17 t = iblk V c 17 t := by dsimp only [dat0]
theorem after_18 (c : Dev nD) (t : Fin cfg0.N) : (dat0 V c).after 18 t = iblk V c 18 t := by dsimp only [dat0]
theorem after_19 (c : Dev nD) (t : Fin cfg0.N) : (dat0 V c).after 19 t = iblk V c 19 t := by dsimp only [dat0]
theorem after_20 (c : Dev nD) (t : Fin cfg0.N) : (dat0 V c).after 20 t = iblk V c 20 t := by dsimp only [dat0]
theorem after_21 (c : Dev nD) (t : Fin cfg0.N) : (dat0 V c).after 21 t = iblk V c 21 t := by dsimp only [dat0]
theorem after_22 (c : Dev nD) (t : Fin cfg0.N) : (dat0 V c).after 22 t = iblk V c 22 t := by dsimp only [dat0]
theorem after_23 (c : Dev nD) (t : Fin cfg0.N) : (dat0 V c).after 23 t = iblk V c 23 t := by dsimp only [dat0]
theorem after_24 (c : Dev nD) (t : Fin cfg0.N) : (dat0 V c).after 24 t = iblk V c 24 t := by dsimp only [dat0]
theorem after_25 (c : Dev nD) (t : Fin cfg0.N) : (dat0 V c).after 25 t = finH (blk V c t) (accs V c t.val t.isLt).2.2 := by dsimp only [dat0]
theorem after_26 (c : Dev nD) (t : Fin cfg0.N) : (dat0 V c).after 26 t = finP (blk V c t) (accs V c t.val t.isLt).1 := by dsimp only [dat0]
theorem after_27 (c : Dev nD) (t : Fin cfg0.N) : (dat0 V c).after 27 t = finV (blk V c t) (accs V c t.val t.isLt).2.1 := by dsimp only [dat0]

/-! ## The contents the region is entered with -/

variable (m : (ℓ : Loc nD τ sig) → Buf (Elt F) ℓ)

/-- Core `c`'s buffers at launch, -/
abbrev W0 : Dev nD → Valuation τ sig (Elt F) := fun c b => m (c, b)
/-- after the six host operations that cut We1 into its two square parts and its last two rows (the region's entry), -/
abbrev W1 : Dev nD → Valuation τ sig (Elt F) := fun c => StableHlo.after hostOps0 (W0 m c)
/-- and the same read at the TensorCore's references: what the proof data take. -/
abbrev V1 : (c : Dev nD) → (b : Ref sig .tc) → Buf (Elt F) ((c : Thread nD τ).loc b) := fun c b => W1 m c b

end Cert.Kernel.Hand

end
-- ==== Proof.BRun1.lean ====
/-
  The launch's separation-logic plumbing, the arrays' part. The region's 28 windows read 25 distinct buffers: the first
  three arguments are each read by two windows (a receiving and a sending one), which hold half of the buffer each. Here:
  the pipeline's `arrays` written out window by window, the entry split (the unscoped buffers at the entry contents give
  every window its array, the three shared buffers cut in two halves) and the exit join (the halves put back, the three
  result buffers at what the write-backs left).
-/
import proofs.«145759_j13950053777588_1_alg».proof.Proof.BDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' arrays as points-tos of whole buffers -/

/-- A window's array is a whole buffer: the pipeline's points-to over its view's elements is the buffer's own. -/
theorem arr_pt (c : Dev nD) (w : Fin cfg0.W) (q : PosShare TreeShare)
    (f : Buf (Elt F) ((cfg0.win w).arr.view.loc (c : Thread nD τ))) :
    ((((cfg0.win w).arr.view.loc (c : Thread nD τ)) ↦[(cfg0.win w).arr.view.set]{q} f : sProp 𝕄))
      = ((((c : Thread nD τ).loc (Pipeline.arrRef spec0 w)) ↦{q} f : sProp 𝕄)) := by
  rw [(arr_whole0 w).set_eq_univ]

variable (V : (c : Dev nD) → (b : Ref sig .tc) → Buf (Elt F) ((c : Thread nD τ).loc b))

/-- The windowed arrays one by one: h, pos and vel twice, a half each (the receiving and the sending window), the
    weights and the three results whole. -/
theorem arrays_chain (c : Dev nD) (G : (w : Fin cfg0.W) → Buf (Elt F) ((cfg0.win w).arr.view.loc (c : Thread nD τ))) :
    ((dat0 V c).arrays G : sProp 𝕄) = iprop(
      (((c : Thread nD τ).loc main_arg0) ↦{fullShare.left} G 0)
      ∗ (((c : Thread nD τ).loc main_arg0) ↦{fullShare.right} G 1)
      ∗ (((c : Thread nD τ).loc main_arg1) ↦{fullShare.left} G 2)
      ∗ (((c : Thread nD τ).loc main_arg1) ↦{fullShare.right} G 3)
      ∗ (((c : Thread nD τ).loc main_arg2) ↦{fullShare.left} G 4)
      ∗ (((c : Thread nD τ).loc main_arg2) ↦{fullShare.right} G 5)
      ∗ (((c : Thread nD τ).loc main_v0) ↦{fullShare} G 6)
      ∗ (((c : Thread nD τ).loc main_v1) ↦{fullShare} G 7)
      ∗ (((c : Thread nD τ).loc main_v3) ↦{fullShare} G 8)
      ∗ (((c : Thread nD τ).loc main_v5) ↦{fullShare} G 9)
      ∗ (((c : Thread nD τ).loc main_arg4) ↦{fullShare} G 10)
      ∗ (((c : Thread nD τ).loc main_arg5) ↦{fullShare} G 11)
      ∗ (((c : Thread nD τ).loc main_arg6) ↦{fullShare} G 12)
      ∗ (((c : Thread nD τ).loc main_arg7) ↦{fullShare} G 13)
      ∗ (((c : Thread nD τ).loc main_arg8) ↦{fullShare} G 14)
      ∗ (((c : Thread nD τ).loc main_arg9) ↦{fullShare} G 15)
      ∗ (((c : Thread nD τ).loc main_arg10) ↦{fullShare} G 16)
      ∗ (((c : Thread nD τ).loc main_arg11) ↦{fullShare} G 17)
      ∗ (((c : Thread nD τ).loc main_arg12) ↦{fullShare} G 18)
      ∗ (((c : Thread nD τ).loc main_arg13) ↦{fullShare} G 19)
      ∗ (((c : Thread nD τ).loc main_arg14) ↦{fullShare} G 20)
      ∗ (((c : Thread nD τ).loc main_arg15) ↦{fullShare} G 21)
      ∗ (((c : Thread nD τ).loc main_arg16) ↦{fullShare} G 22)
      ∗ (((c : Thread nD τ).loc main_arg17) ↦{fullShare} G 23)
      ∗ (((c : Thread nD τ).loc main_arg18) ↦{fullShare} G 24)
      ∗ (((c : Thread nD τ).loc main_v6_0) ↦{fullShare} G 25)
      ∗ (((c : Thread nD τ).loc main_v6_1) ↦{fullShare} G 26)
      ∗ (((c : Thread nD τ).loc main_v6_2) ↦{fullShare} G 27)) := by
  unfold Dat.arrays
  refine (bigSep_congr fun w _ => arr_pt c w ((dat0 V c).share w) (G w)).trans ?_
  rw [bigSep_W0]
  rfl

/-- The same at contents read off a valuation of the references. -/
theorem arrays_chain' (c : Dev nD) (G : (b : Ref sig .tc) → Buf (Elt F) ((c : Thread nD τ).loc b)) :
    ((dat0 V c).arrays (fun w => G (Pipeline.arrRef spec0 w)) : sProp 𝕄) = iprop(
      (((c : Thread nD τ).loc main_arg0) ↦{fullShare.left} G main_arg0)
      ∗ (((c : Thread nD τ).loc main_arg0) ↦{fullShare.right} G main_arg0)
      ∗ (((c : Thread nD τ).loc main_arg1) ↦{fullShare.left} G main_arg1)
      ∗ (((c : Thread nD τ).loc main_arg1) ↦{fullShare.right} G main_arg1)
      ∗ (((c : Thread nD τ).loc main_arg2) ↦{fullShare.left} G main_arg2)
      ∗ (((c : Thread nD τ).loc main_arg2) ↦{fullShare.right} G main_arg2)
      ∗ (((c : Thread nD τ).loc main_v0) ↦{fullShare} G main_v0)
      ∗ (((c : Thread nD τ).loc main_v1) ↦{fullShare} G main_v1)
      ∗ (((c : Thread nD τ).loc main_v3) ↦{fullShare} G main_v3)
      ∗ (((c : Thread nD τ).loc main_v5) ↦{fullShare} G main_v5)
      ∗ (((c : Thread nD τ).loc main_arg4) ↦{fullShare} G main_arg4)
      ∗ (((c : Thread nD τ).loc main_arg5) ↦{fullShare} G main_arg5)
      ∗ (((c : Thread nD τ).loc main_arg6) ↦{fullShare} G main_arg6)
      ∗ (((c : Thread nD τ).loc main_arg7) ↦{fullShare} G main_arg7)
      ∗ (((c : Thread nD τ).loc main_arg8) ↦{fullShare} G main_arg8)
      ∗ (((c : Thread nD τ).loc main_arg9) ↦{fullShare} G main_arg9)
      ∗ (((c : Thread nD τ).loc main_arg10) ↦{fullShare} G main_arg10)
      ∗ (((c : Thread nD τ).loc main_arg11) ↦{fullShare} G main_arg11)
      ∗ (((c : Thread nD τ).loc main_arg12) ↦{fullShare} G main_arg12)
      ∗ (((c : Thread nD τ).loc main_arg13) ↦{fullShare} G main_arg13)
      ∗ (((c : Thread nD τ).loc main_arg14) ↦{fullShare} G main_arg14)
      ∗ (((c : Thread nD τ).loc main_arg15) ↦{fullShare} G main_arg15)
      ∗ (((c : Thread nD τ).loc main_arg16) ↦{fullShare} G main_arg16)
      ∗ (((c : Thread nD τ).loc main_arg17) ↦{fullShare} G main_arg17)
      ∗ (((c : Thread nD τ).loc main_arg18) ↦{fullShare} G main_arg18)
      ∗ (((c : Thread nD τ).loc main_v6_0) ↦{fullShare} G main_v6_0)
      ∗ (((c : Thread nD τ).loc main_v6_1) ↦{fullShare} G main_v6_1)
      ∗ (((c : Thread nD τ).loc main_v6_2) ↦{fullShare} G main_v6_2)) :=
  (arrays_chain V c _).trans rfl

/-! ## Entry: the arrays out of the unscoped buffers -/

/-- The distinct buffers behind the 28 windows, one by one. -/
theorem arrBufs_chain (c : Dev nD) (G : (b : Ref sig .tc) → Buf (Elt F) ((c : Thread nD τ).loc b)) :
    (Pipeline.arrBufs (Ix := Unit) (Name := ℕ) (U := UR sig nD τ) (Lvl := ℕ) spec0 c G : sProp 𝕄) = iprop(
      (((c : Thread nD τ).loc main_arg0) ↦{fullShare} G main_arg0)
      ∗ (((c : Thread nD τ).loc main_arg1) ↦{fullShare} G main_arg1)
      ∗ (((c : Thread nD τ).loc main_arg2) ↦{fullShare} G main_arg2)
      ∗ (((c : Thread nD τ).loc main_v0) ↦{fullShare} G main_v0)
      ∗ (((c : Thread nD τ).loc main_v1) ↦{fullShare} G main_v1)
      ∗ (((c : Thread nD τ).loc main_v3) ↦{fullShare} G main_v3)
      ∗ (((c : Thread nD τ).loc main_v5) ↦{fullShare} G main_v5)
      ∗ (((c : Thread nD τ).loc main_arg4) ↦{fullShare} G main_arg4)
      ∗ (((c : Thread nD τ).loc main_arg5) ↦{fullShare} G main_arg5)
      ∗ (((c : Thread nD τ).loc main_arg6) ↦{fullShare} G main_arg6)
      ∗ (((c : Thread nD τ).loc main_arg7) ↦{fullShare} G main_arg7)
      ∗ (((c : Thread nD τ).loc main_arg8) ↦{fullShare} G main_arg8)
      ∗ (((c : Thread nD τ).loc main_arg9) ↦{fullShare} G main_arg9)
      ∗ (((c : Thread nD τ).loc main_arg10) ↦{fullShare} G main_arg10)
      ∗ (((c : Thread nD τ).loc main_arg11) ↦{fullShare} G main_arg11)
      ∗ (((c : Thread nD τ).loc main_arg12) ↦{fullShare} G main_arg12)
      ∗ (((c : Thread nD τ).loc main_arg13) ↦{fullShare} G main_arg13)
      ∗ (((c : Thread nD τ).loc main_arg14) ↦{fullShare} G main_arg14)
      ∗ (((c : Thread nD τ).loc main_arg15) ↦{fullShare} G main_arg15)
      ∗ (((c : Thread nD τ).loc main_arg16) ↦{fullShare} G main_arg16)
      ∗ (((c : Thread nD τ).loc main_arg17) ↦{fullShare} G main_arg17)
      ∗ (((c : Thread nD τ).loc main_arg18) ↦{fullShare} G main_arg18)
      ∗ (((c : Thread nD τ).loc main_v6_0) ↦{fullShare} G main_v6_0)
      ∗ (((c : Thread nD τ).loc main_v6_1) ↦{fullShare} G main_v6_1)
      ∗ (((c : Thread nD τ).loc main_v6_2) ↦{fullShare} G main_v6_2)) := by
  unfold Pipeline.arrBufs
  rw [bigSep_eq_bigSepL_of_eq [main_arg0, main_arg1, main_arg2, main_v0, main_v1, main_v3, main_v5, main_arg4, main_arg5, main_arg6, main_arg7, main_arg8, main_arg9, main_arg10, main_arg11, main_arg12, main_arg13, main_arg14, main_arg15, main_arg16, main_arg17, main_arg18, main_v6_0, main_v6_1, main_v6_2] (by decide) (by decide)]
  rfl

/-- ENTRY: a core's unscoped buffers at `V c` are the windows' arrays at their entry contents — each of the three shared
    buffers cut into the two halves its two windows take — and the buffers no window reads. -/
theorem entry_arrays (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  have e : ((dat0 V c).arrays ((dat0 V c).arrAt · 0) : sProp 𝕄) = (dat0 V c).arrays (fun w => V c (Pipeline.arrRef spec0 w)) := rfl
  rw [Pipeline.unscopedBufs_split₀ cfgs 0 winFacts₀0.arr_unscoped c (V c), e, arrays_chain' V c (V c), arrBufs_chain c (V c)]
  iintro ⟨⟨H0, H1, H2, H3, H4, H5, H6, H7, H8, H9, H10, H11, H12, H13, H14, H15, H16, H17, H18, H19, H20, H21, H22, H23, H24⟩, Hrest⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  ihave H2 := (pointsTo_share (PosShare.mem_left_op_right fullShare)).1 $$ H2
  icases H2 with ⟨H2l, H2r⟩
  isplitr [Hrest]
  · isplitl [H0l]; · iexact H0l
    isplitl [H0r]; · iexact H0r
    isplitl [H1l]; · iexact H1l
    isplitl [H1r]; · iexact H1r
    isplitl [H2l]; · iexact H2l
    isplitl [H2r]; · iexact H2r
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · iexact Hrest

/-! ## Exit: the arrays back into the unscoped buffers -/

/-- The contents the region leaves: the three result buffers at what the write-backs of all the points left, every
    other buffer as entered. -/
def V2 (c : Dev nD) : (b : Ref sig .tc) → Buf (Elt F) ((c : Thread nD τ).loc b) :=
  Function.update (Function.update (Function.update (V c) main_v6_0 ((dat0 V c).arrAt 25 cfg0.N))
    main_v6_1 ((dat0 V c).arrAt 26 cfg0.N)) main_v6_2 ((dat0 V c).arrAt 27 cfg0.N)

theorem V2_v6_0 (c : Dev nD) : V2 V c main_v6_0 = (dat0 V c).arrAt 25 cfg0.N := by
  unfold V2; rw [Function.update_of_ne (by decide), Function.update_of_ne (by decide), Function.update_self]
theorem V2_v6_1 (c : Dev nD) : V2 V c main_v6_1 = (dat0 V c).arrAt 26 cfg0.N := by
  unfold V2; rw [Function.update_of_ne (by decide), Function.update_self]
theorem V2_v6_2 (c : Dev nD) : V2 V c main_v6_2 = (dat0 V c).arrAt 27 cfg0.N := by
  unfold V2; rw [Function.update_self]
/-- A buffer that is none of the three results is left as entered. -/
theorem V2_of_ne (c : Dev nD) (b : Ref sig .tc) (h0 : b ≠ main_v6_0) (h1 : b ≠ main_v6_1) (h2 : b ≠ main_v6_2) :
    V2 V c b = V c b := by
  unfold V2; rw [Function.update_of_ne h2, Function.update_of_ne h1, Function.update_of_ne h0]

/-- Every window's array ends at `V2`: an input window's array is never written, a result window's is its own buffer. -/
theorem arrAt_N (c : Dev nD) (w : Fin cfg0.W) : (dat0 V c).arrAt w cfg0.N = V2 V c (Pipeline.arrRef spec0 w) := by
  by_cases hin : (cfg0.win w).isOut = false
  · have hne : Pipeline.arrRef spec0 w ≠ main_v6_0 ∧ Pipeline.arrRef spec0 w ≠ main_v6_1 ∧ Pipeline.arrRef spec0 w ≠ main_v6_2 :=
      (show ∀ w : Fin 28, (cfg0.win w).isOut = false →
        Pipeline.arrRef spec0 w ≠ main_v6_0 ∧ Pipeline.arrRef spec0 w ≠ main_v6_1 ∧ Pipeline.arrRef spec0 w ≠ main_v6_2 from by decide) w hin
    rw [V2_of_ne V c _ hne.1 hne.2.1 hne.2.2]
    exact ((dat0 V c).arrAt_in w hin _).trans (A_eq V c w)
  · have hw : w = 25 ∨ w = 26 ∨ w = 27 :=
      (show ∀ w : Fin 28, ¬ (cfg0.win w).isOut = false → w = 25 ∨ w = 26 ∨ w = 27 from by decide) w hin
    rcases hw with rfl | rfl | rfl
    · exact (V2_v6_0 V c).symm
    · exact (V2_v6_1 V c).symm
    · exact (V2_v6_2 V c).symm

/-- The buffers no window reads are as entered. -/
theorem unscopedRest_V2 (c : Dev nD) :
    (Pipeline.unscopedRest (Ix := Unit) (Name := ℕ) (U := UR sig nD τ) (Lvl := ℕ) spec0 c (V2 V c) : sProp 𝕄) = Pipeline.unscopedRest (Ix := Unit) (Name := ℕ) (U := UR sig nD τ) (Lvl := ℕ) spec0 c (V c) := by
  rw [unscopedRest0_eq, unscopedRest0_eq, V2_of_ne V c main_arg3 (by decide) (by decide) (by decide),
    V2_of_ne V c main_v2 (by decide) (by decide) (by decide), V2_of_ne V c main_v4 (by decide) (by decide) (by decide)]

/-- EXIT: the windows' arrays at their final contents — the two halves of each shared buffer put back together — and
    the buffers no window reads are the core's unscoped buffers at `V2`. -/
theorem exit_arrays (c : Dev nD) :
    iprop((dat0 V c).arrays ((dat0 V c).arrAt · cfg0.N) ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V2 V c) : sProp 𝕄) := by
  have e : ((dat0 V c).arrays ((dat0 V c).arrAt · cfg0.N) : sProp 𝕄) = (dat0 V c).arrays (fun w => V2 V c (Pipeline.arrRef spec0 w)) :=
    congrArg _ (funext fun w => arrAt_N V c w)
  rw [Pipeline.unscopedBufs_split₀ cfgs 0 winFacts₀0.arr_unscoped c (V2 V c), e, arrays_chain' V c (V2 V c), arrBufs_chain c (V2 V c),
    unscopedRest_V2]
  iintro ⟨⟨H0l, H0r, H1l, H1r, H2l, H2r, H3, H4, H5, H6, H7, H8, H9, H10, H11, H12, H13, H14, H15, H16, H17, H18, H19, H20, H21, H22, H23, H24⟩, Hrest⟩
  ihave H0 := (pointsTo_share (PosShare.mem_left_op_right fullShare)).2 $$ [H0l H0r]
  · isplitl [H0l]; · iexact H0l
    iexact H0r
  ihave H1 := (pointsTo_share (PosShare.mem_left_op_right fullShare)).2 $$ [H1l H1r]
  · isplitl [H1l]; · iexact H1l
    iexact H1r
  ihave H2 := (pointsTo_share (PosShare.mem_left_op_right fullShare)).2 $$ [H2l H2r]
  · isplitl [H2l]; · iexact H2l
    iexact H2r
  isplitr [Hrest]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · iexact Hrest

end Cert.Kernel.Hand

end
-- ==== Proof.BEntry.lean ====
/-
  The buffers the region is entered with that no host operation has written: the nineteen argument arrays hold their
  launch contents.
-/
import proofs.«145759_j13950053777588_1_alg».proof.Proof.BDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer that none of the six host operations writes (they write the two square parts of We1, its two last rows and
    their two reshapes) holds at the region's entry what it held at launch. -/
theorem W1_of_ne (c : Dev nD) (b : Ref sig .tc) (h0 : b ≠ main_v0) (h1 : b ≠ main_v1) (h2 : b ≠ main_v2)
    (h3 : b ≠ main_v3) (h4 : b ≠ main_v4) (h5 : b ≠ main_v5) :
    W1 m c (Proc.devRef .tc b) = m ((c : Thread nD τ).loc b) :=
  (StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))).trans rfl

/-! No host operation writes an argument array: each is entered with as launched. -/
theorem V1_main_arg0 (c : Dev nD) : V1 m c main_arg0 = m ((c : Thread nD τ).loc main_arg0) :=
  W1_of_ne m c main_arg0 (by decide) (by decide) (by decide) (by decide) (by decide) (by decide)
theorem V1_main_arg1 (c : Dev nD) : V1 m c main_arg1 = m ((c : Thread nD τ).loc main_arg1) :=
  W1_of_ne m c main_arg1 (by decide) (by decide) (by decide) (by decide) (by decide) (by decide)
theorem V1_main_arg2 (c : Dev nD) : V1 m c main_arg2 = m ((c : Thread nD τ).loc main_arg2) :=
  W1_of_ne m c main_arg2 (by decide) (by decide) (by decide) (by decide) (by decide) (by decide)
theorem V1_main_arg3 (c : Dev nD) : V1 m c main_arg3 = m ((c : Thread nD τ).loc main_arg3) :=
  W1_of_ne m c main_arg3 (by decide) (by decide) (by decide) (by decide) (by decide) (by decide)
theorem V1_main_arg4 (c : Dev nD) : V1 m c main_arg4 = m ((c : Thread nD τ).loc main_arg4) :=
  W1_of_ne m c main_arg4 (by decide) (by decide) (by decide) (by decide) (by decide) (by decide)
theorem V1_main_arg5 (c : Dev nD) : V1 m c main_arg5 = m ((c : Thread nD τ).loc main_arg5) :=
  W1_of_ne m c main_arg5 (by decide) (by decide) (by decide) (by decide) (by decide) (by decide)
theorem V1_main_arg6 (c : Dev nD) : V1 m c main_arg6 = m ((c : Thread nD τ).loc main_arg6) :=
  W1_of_ne m c main_arg6 (by decide) (by decide) (by decide) (by decide) (by decide) (by decide)
theorem V1_main_arg7 (c : Dev nD) : V1 m c main_arg7 = m ((c : Thread nD τ).loc main_arg7) :=
  W1_of_ne m c main_arg7 (by decide) (by decide) (by decide) (by decide) (by decide) (by decide)
theorem V1_main_arg8 (c : Dev nD) : V1 m c main_arg8 = m ((c : Thread nD τ).loc main_arg8) :=
  W1_of_ne m c main_arg8 (by decide) (by decide) (by decide) (by decide) (by decide) (by decide)
theorem V1_main_arg9 (c : Dev nD) : V1 m c main_arg9 = m ((c : Thread nD τ).loc main_arg9) :=
  W1_of_ne m c main_arg9 (by decide) (by decide) (by decide) (by decide) (by decide) (by decide)
theorem V1_main_arg10 (c : Dev nD) : V1 m c main_arg10 = m ((c : Thread nD τ).loc main_arg10) :=
  W1_of_ne m c main_arg10 (by decide) (by decide) (by decide) (by decide) (by decide) (by decide)
theorem V1_main_arg11 (c : Dev nD) : V1 m c main_arg11 = m ((c : Thread nD τ).loc main_arg11) :=
  W1_of_ne m c main_arg11 (by decide) (by decide) (by decide) (by decide) (by decide) (by decide)
theorem V1_main_arg12 (c : Dev nD) : V1 m c main_arg12 = m ((c : Thread nD τ).loc main_arg12) :=
  W1_of_ne m c main_arg12 (by decide) (by decide) (by decide) (by decide) (by decide) (by decide)
theorem V1_main_arg13 (c : Dev nD) : V1 m c main_arg13 = m ((c : Thread nD τ).loc main_arg13) :=
  W1_of_ne m c main_arg13 (by decide) (by decide) (by decide) (by decide) (by decide) (by decide)
theorem V1_main_arg14 (c : Dev nD) : V1 m c main_arg14 = m ((c : Thread nD τ).loc main_arg14) :=
  W1_of_ne m c main_arg14 (by decide) (by decide) (by decide) (by decide) (by decide) (by decide)
theorem V1_main_arg15 (c : Dev nD) : V1 m c main_arg15 = m ((c : Thread nD τ).loc main_arg15) :=
  W1_of_ne m c main_arg15 (by decide) (by decide) (by decide) (by decide) (by decide) (by decide)
theorem V1_main_arg16 (c : Dev nD) : V1 m c main_arg16 = m ((c : Thread nD τ).loc main_arg16) :=
  W1_of_ne m c main_arg16 (by decide) (by decide) (by decide) (by decide) (by decide) (by decide)
theorem V1_main_arg17 (c : Dev nD) : V1 m c main_arg17 = m ((c : Thread nD τ).loc main_arg17) :=
  W1_of_ne m c main_arg17 (by decide) (by decide) (by decide) (by decide) (by decide) (by decide)
theorem V1_main_arg18 (c : Dev nD) : V1 m c main_arg18 = m ((c : Thread nD τ).loc main_arg18) :=
  W1_of_ne m c main_arg18 (by decide) (by decide) (by decide) (by decide) (by decide) (by decide)

end Cert.Kernel.Hand

end
-- ==== Proof.BRun.lean ====
/-
  The launch of the kernel program, at any float instance: @main is one stretch of six host operations and one
  pipelined region. The region as a segment over the thread state "every unscoped buffer at the boundary's contents, the
  generator register at some state, nothing owed" — its arrays split out of the unscoped buffers at entry and put back
  at exit (the three shared buffers as two halves), the three scratch buffers and the generator register into the
  invariant and out —, and the run: every weakly fair execution of @main terminates, the three result buffers end at
  what the write-backs of all the points left and every argument as launched. The body obligation is a hypothesis.
-/
import proofs.«145759_j13950053777588_1_alg».proof.Proof.BRun1
import proofs.«145759_j13950053777588_1_alg».proof.Proof.BEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data family and the thread state -/

/-- No pipeline has a prefetched table. -/
abbrev adm : (p : Fin 1) → (pcfgs (F := F) p).Adm := fun p => (cfgs p).toPCfg_adm

section Run

variable (m : (ℓ : Loc nD τ sig) → Buf (Elt F) ℓ)

/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m) c
  | ⟨_ + 1, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the core's generator register at some state and its `owes`, at nothing. -/
abbrev R (c : Dev nD) : sProp 𝕄 := iprop((∃ r, prngReg c r) ∗ ∃ W, owes (c : Thread nD τ) (0 : CellTallies nD τ sig Unit) W)

/-- The host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor

/-- An unscoped reference is among those the last thread state holds. -/
theorem mem_us (b : Ref sig .tc) (h : ¬ b.isScoped) : b ∈ Finset.univ.filter fun b : Ref sig .tc => ¬ b.isScoped :=
  Finset.mem_filter.mpr ⟨Finset.mem_univ b, h⟩

/-- The last thread state without the `owes`: every unscoped buffer at the exit contents, the generator register at some
    state. -/
abbrev Tₙ (c : Dev nD) : sProp 𝕄 :=
  iprop(unscopedBufs (Ix := Unit) (Name := ℕ) (U := UR sig nD τ) (Lvl := ℕ) c (V2 (V1 m) c) ∗ ∃ r, prngReg c r)

/-- The invariant after the last point: the three scratch buffers at the sums after it, the generator register. -/
theorem Phi_last (V : (c : Dev nD) → (b : Ref sig .tc) → Buf (Elt F) ((c : Thread nD τ).loc b)) (c : Dev nD) :
    (dat0 V c).Φ (Fin.last cfg0.N) = PhiS V c cfg0.N le_rfl := rfl

/-! ## The region as a segment -/

set_option backward.isDefEq.respectTransparency.types false in
/-- THE REGION over the thread state: entered from every unscoped buffer at `W1`, left at `V2`. -/
def reg0 (hbody : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hbody (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs (Ix := Unit) (Name := ℕ) (U := UR sig nD τ) (Lvl := ℕ) c (V1 m c) : sProp 𝕄)
        ⊢ iprop((pdats m 0 c).arrays ((pdats m 0 c).arrAt · 0) ∗ Pipeline.unscopedRest (Ix := Unit) (Name := ℕ) (U := UR sig nD τ) (Lvl := ℕ) spec0 c (V1 m c)) :=
      entry_arrays (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = PhiS (V1 m) c cfg0.N le_rfl from Phi_last (V1 m) c,
      PhiS_pos (V1 m) c cfg0.N le_rfl (by decide), scopedRest0_eq c]
    simp only [owns_whole]
    iintro ⟨H0, H1, H2, Hr⟩
    isplitl [Hr]; · iexact Hr
    isplitr; · iempintro
    isplitl [H0]; · iexists _; iexact H0
    isplitl [H1]; · iexists _; iexact H1
    iexists _; iexact H2
  hexit c := by
    have hjoin : iprop((pdats m 0 c).arrays ((pdats m 0 c).arrAt · cfg0.N) ∗ Pipeline.unscopedRest (Ix := Unit) (Name := ℕ) (U := UR sig nD τ) (Lvl := ℕ) spec0 c (V1 m c))
        ⊢ (unscopedBufs (Ix := Unit) (Name := ℕ) (U := UR sig nD τ) (Lvl := ℕ) c (V2 (V1 m) c) : sProp 𝕄) := exit_arrays (V1 m) c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs (hbody : ∀ (V : (c : Dev nD) → (b : Ref sig .tc) → Buf (Elt F) ((c : Thread nD τ).loc b)) (c : Dev nD), BodyObligation (dat0 (F := F) V c) (defs₀ (F := F)) Variants.none () Set.univ) : List (Pipeline.Seg (pcfgs (F := F)) adm (pdats m) () defs₀ 𝒱₀ L lv) :=
  [ .host (hseg hostOps0 hostOps0_sub hostOps0_fresh (W0 m)),
    .region (reg0 m hbody) ]

end Run

set_option backward.isDefEq.respectTransparency.types false in
/-- THE RUN: at the compiled mesh, from any memory with zero counters, every weakly fair execution of @main on the
    TensorCores terminates, nothing faulting, and every final state has the three result buffers at what the write-backs
    of all the points left and the nineteen arguments as launched. -/
theorem run_main (hbody : ∀ (V : (c : Dev nD) → (b : Ref sig .tc) → Buf (Elt F) ((c : Thread nD τ).loc b)) (c : Dev nD), BodyObligation (dat0 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v6_0) = (dat0 (V1 m) c).arrAt 25 cfg0.N
      ∧ r.2.mem ((c.tc : Thread nD τ).loc main_v6_1) = (dat0 (V1 m) c).arrAt 26 cfg0.N
      ∧ r.2.mem ((c.tc : Thread nD τ).loc main_v6_2) = (dat0 (V1 m) c).arrAt 27 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m) () cellOf_inj emb₁ defs₀ 𝒱₀ L lv m ρ main (segs m hbody)
    (fun c Q => by rw [main_segs adm (pdats m) () 𝒱₀ L lv (hseg hostOps0 hostOps0_sub hostOps0_fresh (W0 m)) (reg0 m hbody) rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c : Thread nD τ).loc b) = V2 (V1 m) c b)
    (hfin := fun c s' => by
      iintro ⟨⟨Hh, -⟩, HSI⟩
      unfold unscopedBufs
      imodintro
      iapply (pointsTo_read_all (Finset.univ.filter fun b : Ref sig .tc => ¬ b.isScoped) (fun b => (c : Thread nD τ).loc b) (V2 (V1 m) c) s')
      isplitl [Hh] <;> iassumption)
    (hQ := fun s h c =>
      ⟨(h c main_v6_0 (mem_us _ (by decide))).trans (V2_v6_0 (V1 m) c),
       (h c main_v6_1 (mem_us _ (by decide))).trans (V2_v6_1 (V1 m) c),
       (h c main_v6_2 (mem_us _ (by decide))).trans (V2_v6_2 (V1 m) c),
       (h c main_arg0 (mem_us _ (by decide))).trans ((V2_of_ne (V1 m) c main_arg0 (by decide) (by decide) (by decide)).trans (V1_main_arg0 m c)),
       (h c main_arg1 (mem_us _ (by decide))).trans ((V2_of_ne (V1 m) c main_arg1 (by decide) (by decide) (by decide)).trans (V1_main_arg1 m c)),
       (h c main_arg2 (mem_us _ (by decide))).trans ((V2_of_ne (V1 m) c main_arg2 (by decide) (by decide) (by decide)).trans (V1_main_arg2 m c)),
       (h c main_arg3 (mem_us _ (by decide))).trans ((V2_of_ne (V1 m) c main_arg3 (by decide) (by decide) (by decide)).trans (V1_main_arg3 m c)),
       (h c main_arg4 (mem_us _ (by decide))).trans ((V2_of_ne (V1 m) c main_arg4 (by decide) (by decide) (by decide)).trans (V1_main_arg4 m c)),
       (h c main_arg5 (mem_us _ (by decide))).trans ((V2_of_ne (V1 m) c main_arg5 (by decide) (by decide) (by decide)).trans (V1_main_arg5 m c)),
       (h c main_arg6 (mem_us _ (by decide))).trans ((V2_of_ne (V1 m) c main_arg6 (by decide) (by decide) (by decide)).trans (V1_main_arg6 m c)),
       (h c main_arg7 (mem_us _ (by decide))).trans ((V2_of_ne (V1 m) c main_arg7 (by decide) (by decide) (by decide)).trans (V1_main_arg7 m c)),
       (h c main_arg8 (mem_us _ (by decide))).trans ((V2_of_ne (V1 m) c main_arg8 (by decide) (by decide) (by decide)).trans (V1_main_arg8 m c)),
       (h c main_arg9 (mem_us _ (by decide))).trans ((V2_of_ne (V1 m) c main_arg9 (by decide) (by decide) (by decide)).trans (V1_main_arg9 m c)),
       (h c main_arg10 (mem_us _ (by decide))).trans ((V2_of_ne (V1 m) c main_arg10 (by decide) (by decide) (by decide)).trans (V1_main_arg10 m c)),
       (h c main_arg11 (mem_us _ (by decide))).trans ((V2_of_ne (V1 m) c main_arg11 (by decide) (by decide) (by decide)).trans (V1_main_arg11 m c)),
       (h c main_arg12 (mem_us _ (by decide))).trans ((V2_of_ne (V1 m) c main_arg12 (by decide) (by decide) (by decide)).trans (V1_main_arg12 m c)),
       (h c main_arg13 (mem_us _ (by decide))).trans ((V2_of_ne (V1 m) c main_arg13 (by decide) (by decide) (by decide)).trans (V1_main_arg13 m c)),
       (h c main_arg14 (mem_us _ (by decide))).trans ((V2_of_ne (V1 m) c main_arg14 (by decide) (by decide) (by decide)).trans (V1_main_arg14 m c)),
       (h c main_arg15 (mem_us _ (by decide))).trans ((V2_of_ne (V1 m) c main_arg15 (by decide) (by decide) (by decide)).trans (V1_main_arg15 m c)),
       (h c main_arg16 (mem_us _ (by decide))).trans ((V2_of_ne (V1 m) c main_arg16 (by decide) (by decide) (by decide)).trans (V1_main_arg16 m c)),
       (h c main_arg17 (mem_us _ (by decide))).trans ((V2_of_ne (V1 m) c main_arg17 (by decide) (by decide) (by decide)).trans (V1_main_arg17 m c)),
       (h c main_arg18 (mem_us _ (by decide))).trans ((V2_of_ne (V1 m) c main_arg18 (by decide) (by decide) (by decide)).trans (V1_main_arg18 m c))⟩)

end Cert.Kernel.Hand

end
-- ==== Proof.BBodyPre.lean ====
/-
  Small facts the kernel body's runs share: the two branch conditions of the body (the sending tile is the first /
  the last of its row) in closed form over the 128 grid points, where the three result windows are idle and where they
  are written back, and that a buffer whose last store overwrote it whole holds that store's value.
-/
import proofs.«145759_j13950053777588_1_alg».proof.Proof.BDefs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the sending tile is the first of its row. -/
abbrev cond0 (i : grid0.Coords) : Prop := (Scalar.cmpi .ne (Scalar.extui (Scalar.cmpi .eq (BitVec.ofNat 32 (i 2).val) 0#32)) 0#32) = 1#1
/-- The body's second branch: the sending tile is the last of its row. -/
abbrev cond1 (i : grid0.Coords) : Prop := k0_cond2 i = 1#1

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- A buffer whose LAST store overwrote it whole holds that store's value, whatever it held and whatever was stored before. -/
theorem last_store {S : Shape} {e : EltTy} (v : View sig .tc .vmem S e) (f : v.ty.Contents (Elt F)) {off : Fin S.rank → ℕ}
    (hz : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero hz inb y⟩), View.canon_cons_unit_zero hz]

/-! ## The branch conditions and the windows' idleness, decided over the grid -/

theorem hcond0 : ∀ t : Fin cfg0.N, cond0 (grid0.coords t) ↔ t.val % 8 = 0 :=
  (by decide +kernel : ∀ t : Fin grid0.N, cond0 (grid0.coords t) ↔ t.val % 8 = 0)
theorem hcond1 : ∀ t : Fin cfg0.N, cond1 (grid0.coords t) ↔ t.val % 8 = 7 :=
  (by decide +kernel : ∀ t : Fin grid0.N, cond1 (grid0.coords t) ↔ t.val % 8 = 7)

/-- The inputs are never idle; a result window is idle exactly where the sending tile is not the last, and is not
    written back there. -/
theorem liveIn : ∀ (w : Fin cfg0.W), w.val < 25 → ∀ t : Fin cfg0.N, cfg0.idle w (grid0.coords t) = false := by decide +kernel
theorem idleOut : ∀ (w : Fin cfg0.W), 25 ≤ w.val → ∀ t : Fin cfg0.N, ¬cond1 (grid0.coords t) → cfg0.idle w (grid0.coords t) = true := by decide +kernel
theorem noFlushOut : ∀ (w : Fin cfg0.W), 25 ≤ w.val → ∀ t : Fin cfg0.N, ¬cond1 (grid0.coords t) → (cfg0.win w).flush t = false := by decide +kernel
theorem liveOut : ∀ (w : Fin cfg0.W), 25 ≤ w.val → ∀ t : Fin cfg0.N, cond1 (grid0.coords t) → cfg0.idle w (grid0.coords t) = false := by decide +kernel

end Cert.Kernel.Hand

end
-- ==== Proof.BBody0.lean ====
/-
  The body obligation of the tiled kernel, at any float instance, from three runs of the kernel function — at a first,
  a middle and a last sending tile of a row. At every point each input window's buffer holds its block, fetched there or
  not; the three sums in scratch are at what the point before left (at anything before a first sending tile, which
  resets them); the result windows are idle except at a last sending tile, which writes them from the finished sums.
-/
import proofs.«145759_j13950053777588_1_alg».proof.Proof.BBodyPre

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows -/

/-- Input window 0's buffer holds its block at every point, fetched there or not. -/
theorem before_0 (c : Dev nD) (t : Fin cfg0.N) (d) : (dat0 V c).before 0 t d = (blk V c t).b0 :=
  ((dat0 V c).before_in_eq_fetched 0 rfl (fun _ => rfl) (fun _ _ _ => rfl) (fun t => by rw [after_0]; rfl) t d).trans rfl
/-- Input window 1's buffer holds its block at every point, fetched there or not. -/
theorem before_1 (c : Dev nD) (t : Fin cfg0.N) (d) : (dat0 V c).before 1 t d = (blk V c t).b1 :=
  ((dat0 V c).before_in_eq_fetched 1 rfl (fun _ => rfl) (fun _ _ _ => rfl) (fun t => by rw [after_1]; rfl) t d).trans rfl
/-- Input window 2's buffer holds its block at every point, fetched there or not. -/
theorem before_2 (c : Dev nD) (t : Fin cfg0.N) (d) : (dat0 V c).before 2 t d = (blk V c t).b2 :=
  ((dat0 V c).before_in_eq_fetched 2 rfl (fun _ => rfl) (fun _ _ _ => rfl) (fun t => by rw [after_2]; rfl) t d).trans rfl
/-- Input window 3's buffer holds its block at every point, fetched there or not. -/
theorem before_3 (c : Dev nD) (t : Fin cfg0.N) (d) : (dat0 V c).before 3 t d = (blk V c t).b3 :=
  ((dat0 V c).before_in_eq_fetched 3 rfl (fun _ => rfl) (fun _ _ _ => rfl) (fun t => by rw [after_3]; rfl) t d).trans rfl
/-- Input window 4's buffer holds its block at every point, fetched there or not. -/
theorem before_4 (c : Dev nD) (t : Fin cfg0.N) (d) : (dat0 V c).before 4 t d = (blk V c t).b4 :=
  ((dat0 V c).before_in_eq_fetched 4 rfl (fun _ => rfl) (fun _ _ _ => rfl) (fun t => by rw [after_4]; rfl) t d).trans rfl
/-- Input window 5's buffer holds its block at every point, fetched there or not. -/
theorem before_5 (c : Dev nD) (t : Fin cfg0.N) (d) : (dat0 V c).before 5 t d = (blk V c t).b5 :=
  ((dat0 V c).before_in_eq_fetched 5 rfl (fun _ => rfl) (fun _ _ _ => rfl) (fun t => by rw [after_5]; rfl) t d).trans rfl
/-- Input window 6's buffer holds its block at every point, fetched there or not. -/
theorem before_6 (c : Dev nD) (t : Fin cfg0.N) (d) : (dat0 V c).before 6 t d = (blk V c t).b6 :=
  ((dat0 V c).before_in_eq_fetched 6 rfl (fun _ => rfl) (fun _ _ _ => rfl) (fun t => by rw [after_6]; rfl) t d).trans rfl
/-- Input window 7's buffer holds its block at every point, fetched there or not. -/
theorem before_7 (c : Dev nD) (t : Fin cfg0.N) (d) : (dat0 V c).before 7 t d = (blk V c t).b7 :=
  ((dat0 V c).before_in_eq_fetched 7 rfl (fun _ => rfl) (fun _ _ _ => rfl) (fun t => by rw [after_7]; rfl) t d).trans rfl
/-- Input window 8's buffer holds its block at every point, fetched there or not. -/
theorem before_8 (c : Dev nD) (t : Fin cfg0.N) (d) : (dat0 V c).before 8 t d = (blk V c t).b8 :=
  ((dat0 V c).before_in_eq_fetched 8 rfl (fun _ => rfl) (fun _ _ _ => rfl) (fun t => by rw [after_8]; rfl) t d).trans rfl
/-- Input window 9's buffer holds its block at every point, fetched there or not. -/
theorem before_9 (c : Dev nD) (t : Fin cfg0.N) (d) : (dat0 V c).before 9 t d = (blk V c t).b9 :=
  ((dat0 V c).before_in_eq_fetched 9 rfl (fun _ => rfl) (fun _ _ _ => rfl) (fun t => by rw [after_9]; rfl) t d).trans rfl
/-- Input window 10's buffer holds its block at every point, fetched there or not. -/
theorem before_10 (c : Dev nD) (t : Fin cfg0.N) (d) : (dat0 V c).before 10 t d = (blk V c t).b10 :=
  ((dat0 V c).before_in_eq_fetched 10 rfl (fun _ => rfl) (fun _ _ _ => rfl) (fun t => by rw [after_10]; rfl) t d).trans rfl
/-- Input window 11's buffer holds its block at every point, fetched there or not. -/
theorem before_11 (c : Dev nD) (t : Fin cfg0.N) (d) : (dat0 V c).before 11 t d = (blk V c t).b11 :=
  ((dat0 V c).before_in_eq_fetched 11 rfl (fun _ => rfl) (fun _ _ _ => rfl) (fun t => by rw [after_11]; rfl) t d).trans rfl
/-- Input window 12's buffer holds its block at every point, fetched there or not. -/
theorem before_12 (c : Dev nD) (t : Fin cfg0.N) (d) : (dat0 V c).before 12 t d = (blk V c t).b12 :=
  ((dat0 V c).before_in_eq_fetched 12 rfl (fun _ => rfl) (fun _ _ _ => rfl) (fun t => by rw [after_12]; rfl) t d).trans rfl
/-- Input window 13's buffer holds its block at every point, fetched there or not. -/
theorem before_13 (c : Dev nD) (t : Fin cfg0.N) (d) : (dat0 V c).before 13 t d = (blk V c t).b13 :=
  ((dat0 V c).before_in_eq_fetched 13 rfl (fun _ => rfl) (fun _ _ _ => rfl) (fun t => by rw [after_13]; rfl) t d).trans rfl
/-- Input window 14's buffer holds its block at every point, fetched there or not. -/
theorem before_14 (c : Dev nD) (t : Fin cfg0.N) (d) : (dat0 V c).before 14 t d = (blk V c t).b14 :=
  ((dat0 V c).before_in_eq_fetched 14 rfl (fun _ => rfl) (fun _ _ _ => rfl) (fun t => by rw [after_14]; rfl) t d).trans rfl
/-- Input window 15's buffer holds its block at every point, fetched there or not. -/
theorem before_15 (c : Dev nD) (t : Fin cfg0.N) (d) : (dat0 V c).before 15 t d = (blk V c t).b15 :=
  ((dat0 V c).before_in_eq_fetched 15 rfl (fun _ => rfl) (fun _ _ _ => rfl) (fun t => by rw [after_15]; rfl) t d).trans rfl
/-- Input window 16's buffer holds its block at every point, fetched there or not. -/
theorem before_16 (c : Dev nD) (t : Fin cfg0.N) (d) : (dat0 V c).before 16 t d = (blk V c t).b16 :=
  ((dat0 V c).before_in_eq_fetched 16 rfl (fun _ => rfl) (fun _ _ _ => rfl) (fun t => by rw [after_16]; rfl) t d).trans rfl
/-- Input window 17's buffer holds its block at every point, fetched there or not. -/
theorem before_17 (c : Dev nD) (t : Fin cfg0.N) (d) : (dat0 V c).before 17 t d = (blk V c t).b17 :=
  ((dat0 V c).before_in_eq_fetched 17 rfl (fun _ => rfl) (fun _ _ _ => rfl) (fun t => by rw [after_17]; rfl) t d).trans rfl
/-- Input window 18's buffer holds its block at every point, fetched there or not. -/
theorem before_18 (c : Dev nD) (t : Fin cfg0.N) (d) : (dat0 V c).before 18 t d = (blk V c t).b18 :=
  ((dat0 V c).before_in_eq_fetched 18 rfl (fun _ => rfl) (fun _ _ _ => rfl) (fun t => by rw [after_18]; rfl) t d).trans rfl
/-- Input window 19's buffer holds its block at every point, fetched there or not. -/
theorem before_19 (c : Dev nD) (t : Fin cfg0.N) (d) : (dat0 V c).before 19 t d = (blk V c t).b19 :=
  ((dat0 V c).before_in_eq_fetched 19 rfl (fun _ => rfl) (fun _ _ _ => rfl) (fun t => by rw [after_19]; rfl) t d).trans rfl
/-- Input window 20's buffer holds its block at every point, fetched there or not. -/
theorem before_20 (c : Dev nD) (t : Fin cfg0.N) (d) : (dat0 V c).before 20 t d = (blk V c t).b20 :=
  ((dat0 V c).before_in_eq_fetched 20 rfl (fun _ => rfl) (fun _ _ _ => rfl) (fun t => by rw [after_20]; rfl) t d).trans rfl
/-- Input window 21's buffer holds its block at every point, fetched there or not. -/
theorem before_21 (c : Dev nD) (t : Fin cfg0.N) (d) : (dat0 V c).before 21 t d = (blk V c t).b21 :=
  ((dat0 V c).before_in_eq_fetched 21 rfl (fun _ => rfl) (fun _ _ _ => rfl) (fun t => by rw [after_21]; rfl) t d).trans rfl
/-- Input window 22's buffer holds its block at every point, fetched there or not. -/
theorem before_22 (c : Dev nD) (t : Fin cfg0.N) (d) : (dat0 V c).before 22 t d = (blk V c t).b22 :=
  ((dat0 V c).before_in_eq_fetched 22 rfl (fun _ => rfl) (fun _ _ _ => rfl) (fun t => by rw [after_22]; rfl) t d).trans rfl
/-- Input window 23's buffer holds its block at every point, fetched there or not. -/
theorem before_23 (c : Dev nD) (t : Fin cfg0.N) (d) : (dat0 V c).before 23 t d = (blk V c t).b23 :=
  ((dat0 V c).before_in_eq_fetched 23 rfl (fun _ => rfl) (fun _ _ _ => rfl) (fun t => by rw [after_23]; rfl) t d).trans rfl
/-- Input window 24's buffer holds its block at every point, fetched there or not. -/
theorem before_24 (c : Dev nD) (t : Fin cfg0.N) (d) : (dat0 V c).before 24 t d = (blk V c t).b24 :=
  ((dat0 V c).before_in_eq_fetched 24 rfl (fun _ => rfl) (fun _ _ _ => rfl) (fun t => by rw [after_24]; rfl) t d).trans rfl

/-! ## The staging memrefs and the invariant -/

abbrev ms0 (t : Fin cfg0.N) : Memref sig .tc .vmem S1x64x128 .f32 := win0_0.stage (cfg0.slots t 0)
abbrev ms1 (t : Fin cfg0.N) : Memref sig .tc .vmem S1x64x128 .f32 := win0_1.stage (cfg0.slots t 1)
abbrev ms2 (t : Fin cfg0.N) : Memref sig .tc .vmem S1x64x3 .f32 := win0_2.stage (cfg0.slots t 2)
abbrev ms3 (t : Fin cfg0.N) : Memref sig .tc .vmem S1x64x3 .f32 := win0_3.stage (cfg0.slots t 3)
abbrev ms4 (t : Fin cfg0.N) : Memref sig .tc .vmem S1x64x3 .f32 := win0_4.stage (cfg0.slots t 4)
abbrev ms5 (t : Fin cfg0.N) : Memref sig .tc .vmem S1x64x3 .f32 := win0_5.stage (cfg0.slots t 5)
abbrev ms6 (t : Fin cfg0.N) : Memref sig .tc .vmem S128x128 .f32 := win0_6.stage (cfg0.slots t 6)
abbrev ms7 (t : Fin cfg0.N) : Memref sig .tc .vmem S128x128 .f32 := win0_7.stage (cfg0.slots t 7)
abbrev ms8 (t : Fin cfg0.N) : Memref sig .tc .vmem S128 .f32 := win0_8.stage (cfg0.slots t 8)
abbrev ms9 (t : Fin cfg0.N) : Memref sig .tc .vmem S128 .f32 := win0_9.stage (cfg0.slots t 9)
abbrev ms10 (t : Fin cfg0.N) : Memref sig .tc .vmem S128 .f32 := win0_10.stage (cfg0.slots t 10)
abbrev ms11 (t : Fin cfg0.N) : Memref sig .tc .vmem S128x128 .f32 := win0_11.stage (cfg0.slots t 11)
abbrev ms12 (t : Fin cfg0.N) : Memref sig .tc .vmem S128 .f32 := win0_12.stage (cfg0.slots t 12)
abbrev ms13 (t : Fin cfg0.N) : Memref sig .tc .vmem S128x1 .f32 := win0_13.stage (cfg0.slots t 13)
abbrev ms14 (t : Fin cfg0.N) : Memref sig .tc .vmem S1 .f32 := win0_14.stage (cfg0.slots t 14)
abbrev ms15 (t : Fin cfg0.N) : Memref sig .tc .vmem S128x128 .f32 := win0_15.stage (cfg0.slots t 15)
abbrev ms16 (t : Fin cfg0.N) : Memref sig .tc .vmem S128 .f32 := win0_16.stage (cfg0.slots t 16)
abbrev ms17 (t : Fin cfg0.N) : Memref sig .tc .vmem S128x1 .f32 := win0_17.stage (cfg0.slots t 17)
abbrev ms18 (t : Fin cfg0.N) : Memref sig .tc .vmem S128x128 .f32 := win0_18.stage (cfg0.slots t 18)
abbrev ms19 (t : Fin cfg0.N) : Memref sig .tc .vmem S128 .f32 := win0_19.stage (cfg0.slots t 19)
abbrev ms20 (t : Fin cfg0.N) : Memref sig .tc .vmem S128x1 .f32 := win0_20.stage (cfg0.slots t 20)
abbrev ms21 (t : Fin cfg0.N) : Memref sig .tc .vmem S256x128 .f32 := win0_21.stage (cfg0.slots t 21)
abbrev ms22 (t : Fin cfg0.N) : Memref sig .tc .vmem S128 .f32 := win0_22.stage (cfg0.slots t 22)
abbrev ms23 (t : Fin cfg0.N) : Memref sig .tc .vmem S128x128 .f32 := win0_23.stage (cfg0.slots t 23)
abbrev ms24 (t : Fin cfg0.N) : Memref sig .tc .vmem S128 .f32 := win0_24.stage (cfg0.slots t 24)
abbrev ms25 (t : Fin cfg0.N) : Memref sig .tc .vmem S1x64x128 .f32 := win0_25.stage (cfg0.slots t 25)
abbrev ms26 (t : Fin cfg0.N) : Memref sig .tc .vmem S1x64x3 .f32 := win0_26.stage (cfg0.slots t 26)
abbrev ms27 (t : Fin cfg0.N) : Memref sig .tc .vmem S1x64x3 .f32 := win0_27.stage (cfg0.slots t 27)

/-- The invariant before the first point: the three scratch buffers at anything, the generator register. -/
theorem PhiA_eq (c : Dev nD) :
    (Pipeline.ΦA spec0 c : sProp 𝕄)
      = iprop(((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- Before any point the scratch buffers are held at some contents. -/
theorem Phi_forget (c : Dev nD) (t : Fin cfg0.N) :
    (dat0 V c).Φ t.castSucc ⊢ iprop(((∃ d, owns (c : Thread nD τ) scM0 fullShare d) ∗ (∃ d, owns (c : Thread nD τ) scM1 fullShare d)
          ∗ (∃ d, owns (c : Thread nD τ) scM2 fullShare d)) ∗ (∃ r, prngReg c r)) := by
  rw [Phi_castSucc]
  by_cases hz : t.val = 0
  · rw [PhiS_zero V c _ _ hz, PhiA_eq]
  · rw [PhiS_pos V c _ _ hz]
    iintro ⟨H0, H1, H2, Hg⟩
    isplitr [Hg]
    · isplitl [H0]; · iexists _; iexact H0
      isplitl [H1]; · iexists _; iexact H1
      iexists _; iexact H2
    · iexact Hg

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d))
    ∗ (∃ d, owns (c : Thread nD τ) (ms7 t) fullShare ((dat0 V c).before 7 t d))
    ∗ (∃ d, owns (c : Thread nD τ) (ms8 t) fullShare ((dat0 V c).before 8 t d))
    ∗ (∃ d, owns (c : Thread nD τ) (ms9 t) fullShare ((dat0 V c).before 9 t d))
    ∗ (∃ d, owns (c : Thread nD τ) (ms10 t) fullShare ((dat0 V c).before 10 t d))
    ∗ (∃ d, owns (c : Thread nD τ) (ms11 t) fullShare ((dat0 V c).before 11 t d))
    ∗ (∃ d, owns (c : Thread nD τ) (ms12 t) fullShare ((dat0 V c).before 12 t d))
    ∗ (∃ d, owns (c : Thread nD τ) (ms13 t) fullShare ((dat0 V c).before 13 t d))
    ∗ (∃ d, owns (c : Thread nD τ) (ms14 t) fullShare ((dat0 V c).before 14 t d))
    ∗ (∃ d, owns (c : Thread nD τ) (ms15 t) fullShare ((dat0 V c).before 15 t d))
    ∗ (∃ d, owns (c : Thread nD τ) (ms16 t) fullShare ((dat0 V c).before 16 t d))
    ∗ (∃ d, owns (c : Thread nD τ) (ms17 t) fullShare ((dat0 V c).before 17 t d))
    ∗ (∃ d, owns (c : Thread nD τ) (ms18 t) fullShare ((dat0 V c).before 18 t d))
    ∗ (∃ d, owns (c : Thread nD τ) (ms19 t) fullShare ((dat0 V c).before 19 t d))
    ∗ (∃ d, owns (c : Thread nD τ) (ms20 t) fullShare ((dat0 V c).before 20 t d))
    ∗ (∃ d, owns (c : Thread nD τ) (ms21 t) fullShare ((dat0 V c).before 21 t d))
    ∗ (∃ d, owns (c : Thread nD τ) (ms22 t) fullShare ((dat0 V c).before 22 t d))
    ∗ (∃ d, owns (c : Thread nD τ) (ms23 t) fullShare ((dat0 V c).before 23 t d))
    ∗ (∃ d, owns (c : Thread nD τ) (ms24 t) fullShare ((dat0 V c).before 24 t d))
    ∗ (∃ d, owns (c : Thread nD τ) (ms25 t) fullShare ((dat0 V c).before 25 t d))
    ∗ (∃ d, owns (c : Thread nD τ) (ms26 t) fullShare ((dat0 V c).before 26 t d))
    ∗ (∃ d, owns (c : Thread nD τ) (ms27 t) fullShare ((dat0 V c).before 27 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t
    ∗ (dat0 V c).leavesExact 17 t
    ∗ (dat0 V c).leavesExact 18 t
    ∗ (dat0 V c).leavesExact 19 t
    ∗ (dat0 V c).leavesExact 20 t
    ∗ (dat0 V c).leavesExact 21 t
    ∗ (dat0 V c).leavesExact 22 t
    ∗ (dat0 V c).leavesExact 23 t
    ∗ (dat0 V c).leavesExact 24 t
    ∗ (dat0 V c).leavesExact 25 t
    ∗ (dat0 V c).leavesExact 26 t
    ∗ (dat0 V c).leavesExact 27 t)

theorem leaves_0 (c : Dev nD) (t : Fin cfg0.N) :
    (dat0 V c).leavesExact 0 t = owns (c : Thread nD τ) (ms0 t) fullShare (blk V c t).b0 :=
  (show _ = owns (c : Thread nD τ) (ms0 t) fullShare ((dat0 V c).after 0 t) from rfl).trans (by rw [after_0]; rfl)
theorem leaves_1 (c : Dev nD) (t : Fin cfg0.N) :
    (dat0 V c).leavesExact 1 t = owns (c : Thread nD τ) (ms1 t) fullShare (blk V c t).b1 :=
  (show _ = owns (c : Thread nD τ) (ms1 t) fullShare ((dat0 V c).after 1 t) from rfl).trans (by rw [after_1]; rfl)
theorem leaves_2 (c : Dev nD) (t : Fin cfg0.N) :
    (dat0 V c).leavesExact 2 t = owns (c : Thread nD τ) (ms2 t) fullShare (blk V c t).b2 :=
  (show _ = owns (c : Thread nD τ) (ms2 t) fullShare ((dat0 V c).after 2 t) from rfl).trans (by rw [after_2]; rfl)
theorem leaves_3 (c : Dev nD) (t : Fin cfg0.N) :
    (dat0 V c).leavesExact 3 t = owns (c : Thread nD τ) (ms3 t) fullShare (blk V c t).b3 :=
  (show _ = owns (c : Thread nD τ) (ms3 t) fullShare ((dat0 V c).after 3 t) from rfl).trans (by rw [after_3]; rfl)
theorem leaves_4 (c : Dev nD) (t : Fin cfg0.N) :
    (dat0 V c).leavesExact 4 t = owns (c : Thread nD τ) (ms4 t) fullShare (blk V c t).b4 :=
  (show _ = owns (c : Thread nD τ) (ms4 t) fullShare ((dat0 V c).after 4 t) from rfl).trans (by rw [after_4]; rfl)
theorem leaves_5 (c : Dev nD) (t : Fin cfg0.N) :
    (dat0 V c).leavesExact 5 t = owns (c : Thread nD τ) (ms5 t) fullShare (blk V c t).b5 :=
  (show _ = owns (c : Thread nD τ) (ms5 t) fullShare ((dat0 V c).after 5 t) from rfl).trans (by rw [after_5]; rfl)
theorem leaves_6 (c : Dev nD) (t : Fin cfg0.N) :
    (dat0 V c).leavesExact 6 t = owns (c : Thread nD τ) (ms6 t) fullShare (blk V c t).b6 :=
  (show _ = owns (c : Thread nD τ) (ms6 t) fullShare ((dat0 V c).after 6 t) from rfl).trans (by rw [after_6]; rfl)
theorem leaves_7 (c : Dev nD) (t : Fin cfg0.N) :
    (dat0 V c).leavesExact 7 t = owns (c : Thread nD τ) (ms7 t) fullShare (blk V c t).b7 :=
  (show _ = owns (c : Thread nD τ) (ms7 t) fullShare ((dat0 V c).after 7 t) from rfl).trans (by rw [after_7]; rfl)
theorem leaves_8 (c : Dev nD) (t : Fin cfg0.N) :
    (dat0 V c).leavesExact 8 t = owns (c : Thread nD τ) (ms8 t) fullShare (blk V c t).b8 :=
  (show _ = owns (c : Thread nD τ) (ms8 t) fullShare ((dat0 V c).after 8 t) from rfl).trans (by rw [after_8]; rfl)
theorem leaves_9 (c : Dev nD) (t : Fin cfg0.N) :
    (dat0 V c).leavesExact 9 t = owns (c : Thread nD τ) (ms9 t) fullShare (blk V c t).b9 :=
  (show _ = owns (c : Thread nD τ) (ms9 t) fullShare ((dat0 V c).after 9 t) from rfl).trans (by rw [after_9]; rfl)
theorem leaves_10 (c : Dev nD) (t : Fin cfg0.N) :
    (dat0 V c).leavesExact 10 t = owns (c : Thread nD τ) (ms10 t) fullShare (blk V c t).b10 :=
  (show _ = owns (c : Thread nD τ) (ms10 t) fullShare ((dat0 V c).after 10 t) from rfl).trans (by rw [after_10]; rfl)
theorem leaves_11 (c : Dev nD) (t : Fin cfg0.N) :
    (dat0 V c).leavesExact 11 t = owns (c : Thread nD τ) (ms11 t) fullShare (blk V c t).b11 :=
  (show _ = owns (c : Thread nD τ) (ms11 t) fullShare ((dat0 V c).after 11 t) from rfl).trans (by rw [after_11]; rfl)
theorem leaves_12 (c : Dev nD) (t : Fin cfg0.N) :
    (dat0 V c).leavesExact 12 t = owns (c : Thread nD τ) (ms12 t) fullShare (blk V c t).b12 :=
  (show _ = owns (c : Thread nD τ) (ms12 t) fullShare ((dat0 V c).after 12 t) from rfl).trans (by rw [after_12]; rfl)
theorem leaves_13 (c : Dev nD) (t : Fin cfg0.N) :
    (dat0 V c).leavesExact 13 t = owns (c : Thread nD τ) (ms13 t) fullShare (blk V c t).b13 :=
  (show _ = owns (c : Thread nD τ) (ms13 t) fullShare ((dat0 V c).after 13 t) from rfl).trans (by rw [after_13]; rfl)
theorem leaves_14 (c : Dev nD) (t : Fin cfg0.N) :
    (dat0 V c).leavesExact 14 t = owns (c : Thread nD τ) (ms14 t) fullShare (blk V c t).b14 :=
  (show _ = owns (c : Thread nD τ) (ms14 t) fullShare ((dat0 V c).after 14 t) from rfl).trans (by rw [after_14]; rfl)
theorem leaves_15 (c : Dev nD) (t : Fin cfg0.N) :
    (dat0 V c).leavesExact 15 t = owns (c : Thread nD τ) (ms15 t) fullShare (blk V c t).b15 :=
  (show _ = owns (c : Thread nD τ) (ms15 t) fullShare ((dat0 V c).after 15 t) from rfl).trans (by rw [after_15]; rfl)
theorem leaves_16 (c : Dev nD) (t : Fin cfg0.N) :
    (dat0 V c).leavesExact 16 t = owns (c : Thread nD τ) (ms16 t) fullShare (blk V c t).b16 :=
  (show _ = owns (c : Thread nD τ) (ms16 t) fullShare ((dat0 V c).after 16 t) from rfl).trans (by rw [after_16]; rfl)
theorem leaves_17 (c : Dev nD) (t : Fin cfg0.N) :
    (dat0 V c).leavesExact 17 t = owns (c : Thread nD τ) (ms17 t) fullShare (blk V c t).b17 :=
  (show _ = owns (c : Thread nD τ) (ms17 t) fullShare ((dat0 V c).after 17 t) from rfl).trans (by rw [after_17]; rfl)
theorem leaves_18 (c : Dev nD) (t : Fin cfg0.N) :
    (dat0 V c).leavesExact 18 t = owns (c : Thread nD τ) (ms18 t) fullShare (blk V c t).b18 :=
  (show _ = owns (c : Thread nD τ) (ms18 t) fullShare ((dat0 V c).after 18 t) from rfl).trans (by rw [after_18]; rfl)
theorem leaves_19 (c : Dev nD) (t : Fin cfg0.N) :
    (dat0 V c).leavesExact 19 t = owns (c : Thread nD τ) (ms19 t) fullShare (blk V c t).b19 :=
  (show _ = owns (c : Thread nD τ) (ms19 t) fullShare ((dat0 V c).after 19 t) from rfl).trans (by rw [after_19]; rfl)
theorem leaves_20 (c : Dev nD) (t : Fin cfg0.N) :
    (dat0 V c).leavesExact 20 t = owns (c : Thread nD τ) (ms20 t) fullShare (blk V c t).b20 :=
  (show _ = owns (c : Thread nD τ) (ms20 t) fullShare ((dat0 V c).after 20 t) from rfl).trans (by rw [after_20]; rfl)
theorem leaves_21 (c : Dev nD) (t : Fin cfg0.N) :
    (dat0 V c).leavesExact 21 t = owns (c : Thread nD τ) (ms21 t) fullShare (blk V c t).b21 :=
  (show _ = owns (c : Thread nD τ) (ms21 t) fullShare ((dat0 V c).after 21 t) from rfl).trans (by rw [after_21]; rfl)
theorem leaves_22 (c : Dev nD) (t : Fin cfg0.N) :
    (dat0 V c).leavesExact 22 t = owns (c : Thread nD τ) (ms22 t) fullShare (blk V c t).b22 :=
  (show _ = owns (c : Thread nD τ) (ms22 t) fullShare ((dat0 V c).after 22 t) from rfl).trans (by rw [after_22]; rfl)
theorem leaves_23 (c : Dev nD) (t : Fin cfg0.N) :
    (dat0 V c).leavesExact 23 t = owns (c : Thread nD τ) (ms23 t) fullShare (blk V c t).b23 :=
  (show _ = owns (c : Thread nD τ) (ms23 t) fullShare ((dat0 V c).after 23 t) from rfl).trans (by rw [after_23]; rfl)
theorem leaves_24 (c : Dev nD) (t : Fin cfg0.N) :
    (dat0 V c).leavesExact 24 t = owns (c : Thread nD τ) (ms24 t) fullShare (blk V c t).b24 :=
  (show _ = owns (c : Thread nD τ) (ms24 t) fullShare ((dat0 V c).after 24 t) from rfl).trans (by rw [after_24]; rfl)

end Cert.Kernel.Hand

end
-- ==== Proof.BBodyF.lean ====
/-
  The kernel body at a grid point where the sending tile is the FIRST of its row: the three sums are reset to zero, then the tile is added; the result windows are not touched. On whole staging buffers holding the point's 25 input
  blocks the body runs without fault and hands every input buffer back as it was, the three scratch buffers at the sums
  after the point (one `step` of KDefs).
-/
import proofs.«145759_j13950053777588_1_alg».proof.Proof.BBodyPre
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_F (c : Dev nD) (i : grid0.Coords) (arg3 : Memref sig .tc .vmem S1x64x128 .f32) (harg3 : arg3.IsWhole) (arg4 : Memref sig .tc .vmem S1x64x128 .f32) (harg4 : arg4.IsWhole) (arg5 : Memref sig .tc .vmem S1x64x3 .f32) (harg5 : arg5.IsWhole) (arg6 : Memref sig .tc .vmem S1x64x3 .f32) (harg6 : arg6.IsWhole) (arg7 : Memref sig .tc .vmem S1x64x3 .f32) (harg7 : arg7.IsWhole) (arg8 : Memref sig .tc .vmem S1x64x3 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S128x1 .f32) (harg16 : arg16.IsWhole) (arg17 : Memref sig .tc .vmem S1 .f32) (harg17 : arg17.IsWhole) (arg18 : Memref sig .tc .vmem S128x128 .f32) (harg18 : arg18.IsWhole) (arg19 : Memref sig .tc .vmem S128 .f32) (harg19 : arg19.IsWhole) (arg20 : Memref sig .tc .vmem S128x1 .f32) (harg20 : arg20.IsWhole) (arg21 : Memref sig .tc .vmem S128x128 .f32) (harg21 : arg21.IsWhole) (arg22 : Memref sig .tc .vmem S128 .f32) (harg22 : arg22.IsWhole) (arg23 : Memref sig .tc .vmem S128x1 .f32) (harg23 : arg23.IsWhole) (arg24 : Memref sig .tc .vmem S256x128 .f32) (harg24 : arg24.IsWhole) (arg25 : Memref sig .tc .vmem S128 .f32) (harg25 : arg25.IsWhole) (arg26 : Memref sig .tc .vmem S128x128 .f32) (harg26 : arg26.IsWhole) (arg27 : Memref sig .tc .vmem S128 .f32) (harg27 : arg27.IsWhole) (arg28 : Memref sig .tc .vmem S1x64x128 .f32) (harg28 : arg28.IsWhole) (arg29 : Memref sig .tc .vmem S1x64x3 .f32) (harg29 : arg29.IsWhole) (arg30 : Memref sig .tc .vmem S1x64x3 .f32) (harg30 : arg30.IsWhole) (arg31 : Memref sig .tc .vmem S64x3 .f32) (harg31 : arg31.IsWhole) (arg32 : Memref sig .tc .vmem S64x3 .f32) (harg32 : arg32.IsWhole) (arg33 : Memref sig .tc .vmem S64x128 .f32) (harg33 : arg33.IsWhole)
    (hc0 : cond0 i) (hc1 : ¬cond1 i) (B : Blk F) (X28 : Vec F S1x64x128 .f32) (X29 X30 : Vec F S1x64x3 .f32) (E : Set ℕ) (K : PUnit → sProp 𝕄) :
    iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ owns (c : Thread nD τ) arg28 fullShare X28 ∗ owns (c : Thread nD τ) arg29 fullShare X29 ∗ owns (c : Thread nD τ) arg30 fullShare X30
        ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ owns (c : Thread nD τ) arg28 fullShare X28 ∗ owns (c : Thread nD τ) arg29 fullShare X29 ∗ owns (c : Thread nD τ) arg30 fullShare X30
            ∗ owns (c : Thread nD τ) arg31 fullShare (step B zAcc).1 ∗ owns (c : Thread nD τ) arg32 fullShare (step B zAcc).2.1 ∗ owns (c : Thread nD τ) arg33 fullShare (step B zAcc).2.2) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; · ipureintro; exact harg24.read_unread _
    iexact H21
  isplitl [H22]
  · iexists _; isplitr; · ipureintro; exact harg25.read_unread _
    iexact H22
  isplitl [H23]
  · iexists _; isplitr; · ipureintro; exact harg26.read_unread _
    iexact H23
  isplitl [H24]
  · iexists _; isplitr; · ipureintro; exact harg27.read_unread _
    iexact H24
  isplitl [H25]; · iexists _; isplitr; · ipureintro; exact hf25
                   iexact H25
  isplitl [H26]; · iexists _; isplitr; · ipureintro; exact hf26
                   iexact H26
  isplitl [H27]; · iexists _; isplitr; · ipureintro; exact hf27
                   iexact H27
  isplitl [HS0]
  · iexists _; isplitr
    swap; · iexact HS0
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [HS1]
  · iexists _; isplitr
    swap; · iexact HS1
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  · iexists _; isplitr
    swap; · iexact HS2
    ipureintro
    (try sl_unfold_run_names); rw [last_store (S := S64x128) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl

end Cert.Kernel.Hand

end
-- ==== Proof.BBodyM.lean ====
/-
  The kernel body at a grid point where the sending tile is neither the first nor the last of its row: the tile is added to the three sums; the result windows are not touched. On whole staging buffers holding the point's 25 input
  blocks the body runs without fault and hands every input buffer back as it was, the three scratch buffers at the sums
  after the point (one `step` of KDefs).
-/
import proofs.«145759_j13950053777588_1_alg».proof.Proof.BBodyPre
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_M (c : Dev nD) (i : grid0.Coords) (arg3 : Memref sig .tc .vmem S1x64x128 .f32) (harg3 : arg3.IsWhole) (arg4 : Memref sig .tc .vmem S1x64x128 .f32) (harg4 : arg4.IsWhole) (arg5 : Memref sig .tc .vmem S1x64x3 .f32) (harg5 : arg5.IsWhole) (arg6 : Memref sig .tc .vmem S1x64x3 .f32) (harg6 : arg6.IsWhole) (arg7 : Memref sig .tc .vmem S1x64x3 .f32) (harg7 : arg7.IsWhole) (arg8 : Memref sig .tc .vmem S1x64x3 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S128x1 .f32) (harg16 : arg16.IsWhole) (arg17 : Memref sig .tc .vmem S1 .f32) (harg17 : arg17.IsWhole) (arg18 : Memref sig .tc .vmem S128x128 .f32) (harg18 : arg18.IsWhole) (arg19 : Memref sig .tc .vmem S128 .f32) (harg19 : arg19.IsWhole) (arg20 : Memref sig .tc .vmem S128x1 .f32) (harg20 : arg20.IsWhole) (arg21 : Memref sig .tc .vmem S128x128 .f32) (harg21 : arg21.IsWhole) (arg22 : Memref sig .tc .vmem S128 .f32) (harg22 : arg22.IsWhole) (arg23 : Memref sig .tc .vmem S128x1 .f32) (harg23 : arg23.IsWhole) (arg24 : Memref sig .tc .vmem S256x128 .f32) (harg24 : arg24.IsWhole) (arg25 : Memref sig .tc .vmem S128 .f32) (harg25 : arg25.IsWhole) (arg26 : Memref sig .tc .vmem S128x128 .f32) (harg26 : arg26.IsWhole) (arg27 : Memref sig .tc .vmem S128 .f32) (harg27 : arg27.IsWhole) (arg28 : Memref sig .tc .vmem S1x64x128 .f32) (harg28 : arg28.IsWhole) (arg29 : Memref sig .tc .vmem S1x64x3 .f32) (harg29 : arg29.IsWhole) (arg30 : Memref sig .tc .vmem S1x64x3 .f32) (harg30 : arg30.IsWhole) (arg31 : Memref sig .tc .vmem S64x3 .f32) (harg31 : arg31.IsWhole) (arg32 : Memref sig .tc .vmem S64x3 .f32) (harg32 : arg32.IsWhole) (arg33 : Memref sig .tc .vmem S64x128 .f32) (harg33 : arg33.IsWhole)
    (hc0 : ¬cond0 i) (hc1 : ¬cond1 i) (B : Blk F) (a : Acc F) (X28 : Vec F S1x64x128 .f32) (X29 X30 : Vec F S1x64x3 .f32) (E : Set ℕ) (K : PUnit → sProp 𝕄) :
    iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ owns (c : Thread nD τ) arg28 fullShare X28 ∗ owns (c : Thread nD τ) arg29 fullShare X29 ∗ owns (c : Thread nD τ) arg30 fullShare X30
        ∗ owns (c : Thread nD τ) arg31 fullShare a.1 ∗ owns (c : Thread nD τ) arg32 fullShare a.2.1 ∗ owns (c : Thread nD τ) arg33 fullShare a.2.2
        ∗ (iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ owns (c : Thread nD τ) arg28 fullShare X28 ∗ owns (c : Thread nD τ) arg29 fullShare X29 ∗ owns (c : Thread nD τ) arg30 fullShare X30
            ∗ owns (c : Thread nD τ) arg31 fullShare (step B a).1 ∗ owns (c : Thread nD τ) arg32 fullShare (step B a).2.1 ∗ owns (c : Thread nD τ) arg33 fullShare (step B a).2.2) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
  obtain rfl := harg31.eq_unread hfs0; obtain rfl := harg32.eq_unread hfs1; obtain rfl := harg33.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; · ipureintro; exact harg24.read_unread _
    iexact H21
  isplitl [H22]
  · iexists _; isplitr; · ipureintro; exact harg25.read_unread _
    iexact H22
  isplitl [H23]
  · iexists _; isplitr; · ipureintro; exact harg26.read_unread _
    iexact H23
  isplitl [H24]
  · iexists _; isplitr; · ipureintro; exact harg27.read_unread _
    iexact H24
  isplitl [H25]; · iexists _; isplitr; · ipureintro; exact hf25
                   iexact H25
  isplitl [H26]; · iexists _; isplitr; · ipureintro; exact hf26
                   iexact H26
  isplitl [H27]; · iexists _; isplitr; · ipureintro; exact hf27
                   iexact H27
  isplitl [HS0]
  · iexists _; isplitr
    swap; · iexact HS0
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [HS1]
  · iexists _; isplitr
    swap; · iexact HS1
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  · iexists _; isplitr
    swap; · iexact HS2
    ipureintro
    (try sl_unfold_run_names); rw [last_store (S := S64x128) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl

end Cert.Kernel.Hand

end
-- ==== Proof.BBodyL.lean ====
/-
  The kernel body at a grid point where the sending tile is the LAST of its row: the tile is added to the three sums, and the receiving tile's three result blocks are written from the finished sums. On whole staging buffers holding the point's 25 input
  blocks the body runs without fault and hands every input buffer back as it was, the three scratch buffers at the sums
  after the point (one `step` of KDefs), and the three result buffers at the blocks \`finH\`, \`finP\`, \`finV\` of the finished sums.
-/
import proofs.«145759_j13950053777588_1_alg».proof.Proof.BBodyPre
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_L (c : Dev nD) (i : grid0.Coords) (arg3 : Memref sig .tc .vmem S1x64x128 .f32) (harg3 : arg3.IsWhole) (arg4 : Memref sig .tc .vmem S1x64x128 .f32) (harg4 : arg4.IsWhole) (arg5 : Memref sig .tc .vmem S1x64x3 .f32) (harg5 : arg5.IsWhole) (arg6 : Memref sig .tc .vmem S1x64x3 .f32) (harg6 : arg6.IsWhole) (arg7 : Memref sig .tc .vmem S1x64x3 .f32) (harg7 : arg7.IsWhole) (arg8 : Memref sig .tc .vmem S1x64x3 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S128x1 .f32) (harg16 : arg16.IsWhole) (arg17 : Memref sig .tc .vmem S1 .f32) (harg17 : arg17.IsWhole) (arg18 : Memref sig .tc .vmem S128x128 .f32) (harg18 : arg18.IsWhole) (arg19 : Memref sig .tc .vmem S128 .f32) (harg19 : arg19.IsWhole) (arg20 : Memref sig .tc .vmem S128x1 .f32) (harg20 : arg20.IsWhole) (arg21 : Memref sig .tc .vmem S128x128 .f32) (harg21 : arg21.IsWhole) (arg22 : Memref sig .tc .vmem S128 .f32) (harg22 : arg22.IsWhole) (arg23 : Memref sig .tc .vmem S128x1 .f32) (harg23 : arg23.IsWhole) (arg24 : Memref sig .tc .vmem S256x128 .f32) (harg24 : arg24.IsWhole) (arg25 : Memref sig .tc .vmem S128 .f32) (harg25 : arg25.IsWhole) (arg26 : Memref sig .tc .vmem S128x128 .f32) (harg26 : arg26.IsWhole) (arg27 : Memref sig .tc .vmem S128 .f32) (harg27 : arg27.IsWhole) (arg28 : Memref sig .tc .vmem S1x64x128 .f32) (harg28 : arg28.IsWhole) (arg29 : Memref sig .tc .vmem S1x64x3 .f32) (harg29 : arg29.IsWhole) (arg30 : Memref sig .tc .vmem S1x64x3 .f32) (harg30 : arg30.IsWhole) (arg31 : Memref sig .tc .vmem S64x3 .f32) (harg31 : arg31.IsWhole) (arg32 : Memref sig .tc .vmem S64x3 .f32) (harg32 : arg32.IsWhole) (arg33 : Memref sig .tc .vmem S64x128 .f32) (harg33 : arg33.IsWhole)
    (hc0 : ¬cond0 i) (hc1 : cond1 i) (B : Blk F) (a : Acc F) (E : Set ℕ) (K : PUnit → sProp 𝕄) :
    iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ (∃ d, owns (c : Thread nD τ) arg28 fullShare d) ∗ (∃ d, owns (c : Thread nD τ) arg29 fullShare d) ∗ (∃ d, owns (c : Thread nD τ) arg30 fullShare d)
        ∗ owns (c : Thread nD τ) arg31 fullShare a.1 ∗ owns (c : Thread nD τ) arg32 fullShare a.2.1 ∗ owns (c : Thread nD τ) arg33 fullShare a.2.2
        ∗ (iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ owns (c : Thread nD τ) arg28 fullShare (finH B (step B a).2.2) ∗ owns (c : Thread nD τ) arg29 fullShare (finP B (step B a).1) ∗ owns (c : Thread nD τ) arg30 fullShare (finV B (step B a).2.1)
            ∗ owns (c : Thread nD τ) arg31 fullShare (step B a).1 ∗ owns (c : Thread nD τ) arg32 fullShare (step B a).2.1 ∗ owns (c : Thread nD τ) arg33 fullShare (step B a).2.2) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
  obtain rfl := harg31.eq_unread hfs0; obtain rfl := harg32.eq_unread hfs1; obtain rfl := harg33.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; · ipureintro; exact harg24.read_unread _
    iexact H21
  isplitl [H22]
  · iexists _; isplitr; · ipureintro; exact harg25.read_unread _
    iexact H22
  isplitl [H23]
  · iexists _; isplitr; · ipureintro; exact harg26.read_unread _
    iexact H23
  isplitl [H24]
  · iexists _; isplitr; · ipureintro; exact harg27.read_unread _
    iexact H24
  isplitl [H25]
  · iexists _; isplitr
    swap; · iexact H25
    ipureintro
    (try sl_unfold_run_names); rw [last_store (S := S1x64x128) _ _ hz3]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [H26]
  · iexists _; isplitr
    swap; · iexact H26
    ipureintro
    (try sl_unfold_run_names); rw [last_store (S := S1x64x3) _ _ hz3]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [H27]
  · iexists _; isplitr
    swap; · iexact H27
    ipureintro
    (try sl_unfold_run_names); rw [last_store (S := S1x64x3) _ _ hz3]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [HS0]
  · iexists _; isplitr
    swap; · iexact HS0
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [HS1]
  · iexists _; isplitr
    swap; · iexact HS1
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  · iexists _; isplitr
    swap; · iexact HS2
    ipureintro
    (try sl_unfold_run_names); rw [last_store (S := S64x128) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl

end Cert.Kernel.Hand

end
-- ==== Proof.BBody.lean ====
/-
  The body obligation of the tiled kernel, at any float instance, from three runs of the kernel function — at a first,
  a middle and a last sending tile of a row. At every point each input window's buffer holds its block, fetched there or
  not; the three sums in scratch are at what the point before left (at anything before a first sending tile, which
  resets them); the result windows are idle except at a last sending tile, which writes them from the finished sums.
-/
import proofs.«145759_j13950053777588_1_alg».proof.Proof.BBody0
import proofs.«145759_j13950053777588_1_alg».proof.Proof.BBodyF
import proofs.«145759_j13950053777588_1_alg».proof.Proof.BBodyM
import proofs.«145759_j13950053777588_1_alg».proof.Proof.BBodyL

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
/-- A first sending tile of a row: the sums restart from zero, whatever the scratch held; the result windows pass through. -/
theorem sound_F (c : Dev nD) (t : Fin cfg0.N) (h0 : t.val % 8 = 0) :
    bodyPre V c t ⊢ wp frame (wpE (defs₀ (F := F)) Variants.none c none) Set.univ (bodyAt0 t) (fun _ => bodyPost V c t) := by
  have hc0 : cond0 (grid0.coords t) := (hcond0 t).mpr h0
  have hc1 : ¬ cond1 (grid0.coords t) := fun h => by have := (hcond1 t).mp h; omega
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dat0 V c).owesAt () t.succ = (dat0 V c).owesAt () t.castSucc from rfl]
  rw [Phi_succ, PhiS_succ, accs_first V c t h0]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24]
  rw [Dat.leavesExact_idle (dat0 V c) 25 t (idleOut 25 (by decide) t hc1) (noFlushOut 25 (by decide) t hc1),
    Dat.leavesExact_idle (dat0 V c) 26 t (idleOut 26 (by decide) t hc1) (noFlushOut 26 (by decide) t hc1),
    Dat.leavesExact_idle (dat0 V c) 27 t (idleOut 27 (by decide) t hc1) (noFlushOut 27 (by decide) t hc1)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  ihave HΦ := (Phi_forget V c t) $$ HΦ
  icases HΦ with ⟨⟨HS0, HS1, HS2⟩, Hg⟩
  iapply (run_F c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 (blk V c t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, H25, H26, H27, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  iexists _; iexact H27

set_option maxHeartbeats 4800000 in
/-- A middle sending tile: one more step on the sums the point before left; the result windows pass through. -/
theorem sound_M (c : Dev nD) (t : Fin cfg0.N) (h0 : ¬ t.val % 8 = 0) (h1 : ¬ t.val % 8 = 7) :
    bodyPre V c t ⊢ wp frame (wpE (defs₀ (F := F)) Variants.none c none) Set.univ (bodyAt0 t) (fun _ => bodyPost V c t) := by
  have hc0 : ¬ cond0 (grid0.coords t) := fun h => h0 ((hcond0 t).mp h)
  have hc1 : ¬ cond1 (grid0.coords t) := fun h => h1 ((hcond1 t).mp h)
  have hz : t.val ≠ 0 := fun e => h0 (by rw [e])
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dat0 V c).owesAt () t.succ = (dat0 V c).owesAt () t.castSucc from rfl]
  rw [Phi_succ, PhiS_succ, accs_next V c t h0]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24]
  rw [Dat.leavesExact_idle (dat0 V c) 25 t (idleOut 25 (by decide) t hc1) (noFlushOut 25 (by decide) t hc1),
    Dat.leavesExact_idle (dat0 V c) 26 t (idleOut 26 (by decide) t hc1) (noFlushOut 26 (by decide) t hc1),
    Dat.leavesExact_idle (dat0 V c) 27 t (idleOut 27 (by decide) t hc1) (noFlushOut 27 (by decide) t hc1)]
  rw [Phi_castSucc, PhiS_pos V c _ _ hz]
  iintro ⟨⟨HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run_M c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 (blk V c t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, H25, H26, H27, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  iexists _; iexact H27

set_option maxHeartbeats 4800000 in
/-- A last sending tile: one more step, and the three result blocks written from the finished sums. -/
theorem sound_L (c : Dev nD) (t : Fin cfg0.N) (h1 : t.val % 8 = 7) :
    bodyPre V c t ⊢ wp frame (wpE (defs₀ (F := F)) Variants.none c none) Set.univ (bodyAt0 t) (fun _ => bodyPost V c t) := by
  have h0 : ¬ t.val % 8 = 0 := by omega
  have hc0 : ¬ cond0 (grid0.coords t) := fun h => h0 ((hcond0 t).mp h)
  have hc1 : cond1 (grid0.coords t) := (hcond1 t).mpr h1
  have hz : t.val ≠ 0 := fun e => h0 (by rw [e])
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dat0 V c).owesAt () t.succ = (dat0 V c).owesAt () t.castSucc from rfl]
  rw [Phi_succ, PhiS_succ, accs_next V c t h0]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24]
  rw [show (dat0 V c).leavesExact 25 t = owns (c : Thread nD τ) (ms25 t) fullShare ((dat0 V c).after 25 t) from by
      unfold Dat.leavesExact; rw [liveOut 25 (by decide) t hc1], after_25,
    show (dat0 V c).leavesExact 26 t = owns (c : Thread nD τ) (ms26 t) fullShare ((dat0 V c).after 26 t) from by
      unfold Dat.leavesExact; rw [liveOut 26 (by decide) t hc1], after_26,
    show (dat0 V c).leavesExact 27 t = owns (c : Thread nD τ) (ms27 t) fullShare ((dat0 V c).after 27 t) from by
      unfold Dat.leavesExact; rw [liveOut 27 (by decide) t hc1], after_27, accs_next V c t h0]
  rw [Phi_castSucc, PhiS_pos V c _ _ hz]
  iintro ⟨⟨HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run_L c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 (blk V c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, H25, H26, H27, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body at any point, by the place of its sending tile in the row. -/
theorem sound_body (c : Dev nD) (t : Fin cfg0.N) :
    bodyPre V c t ⊢ wp frame (wpE (defs₀ (F := F)) Variants.none c none) Set.univ (bodyAt0 t) (fun _ => bodyPost V c t) := by
  by_cases h0 : t.val % 8 = 0
  · exact sound_F V c t h0
  · by_cases h1 : t.val % 8 = 7
    · exact sound_L V c t h1
    · exact sound_M V c t h0 h1

/-- The library's body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body V c t

end Cert.Kernel.Hand

end
-- ==== Proof.KDefs.lean ====
/-
  The tiled kernel's data, at any float instance F. A grid point t = (b, it, jt) sees 25 input blocks: rows
  64·it … 64·it+63 of h, pos, vel (the receiving tile), rows 64·jt … 64·jt+63 of the same arrays (the sending tile), and
  the weights whole. One point adds to three running sums held in scratch — the gated position and velocity
  differences and the messages of the sending tile, per receiving row — which are reset at jt = 0; at jt = 7 the point
  also writes the receiving tile's three result blocks from the finished sums. Here: the blocks, one point's effect on
  the sums (`step`), the sums after every point by recursion on the point (`accs`), the result blocks (`finH`,
  `finP`, `finV`), the invariant carried between points (the three scratch buffers at `accs`), and the pipeline's
  proof data. The receiving and the sending window of one array each hold half of it.
-/
import proofs.«145759_j13950053777588_1_alg».proof.Proof.Gen.KernelIdeal.Launch
import proofs.«145759_j13950053777588_1_alg».proof.Proof.Gen.KernelIdeal.Skeleton
import proofs.«145759_j13950053777588_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point's arithmetic, over the blocks it loads -/

/-- The 25 input blocks of one grid point: b0 / b1 the receiving / sending rows of h, b2 / b3 of pos, b4 / b5 of vel,
    b6 … b24 the weights (We1's two square parts and its last two rows, be1, We2, be2, Wa, ba, Wp1, bp1, Wp2, Wv1,
    bv1, Wv2, Wn1, bn1, Wn2, bn2). -/
structure Blk (F : FTy → Type) [FloatOps F] where
  b0 : Vec F S1x64x128 .f32
  b1 : Vec F S1x64x128 .f32
  b2 : Vec F S1x64x3 .f32
  b3 : Vec F S1x64x3 .f32
  b4 : Vec F S1x64x3 .f32
  b5 : Vec F S1x64x3 .f32
  b6 : Vec F S128x128 .f32
  b7 : Vec F S128x128 .f32
  b8 : Vec F S128 .f32
  b9 : Vec F S128 .f32
  b10 : Vec F S128 .f32
  b11 : Vec F S128x128 .f32
  b12 : Vec F S128 .f32
  b13 : Vec F S128x1 .f32
  b14 : Vec F S1 .f32
  b15 : Vec F S128x128 .f32
  b16 : Vec F S128 .f32
  b17 : Vec F S128x1 .f32
  b18 : Vec F S128x128 .f32
  b19 : Vec F S128 .f32
  b20 : Vec F S128x1 .f32
  b21 : Vec F S256x128 .f32
  b22 : Vec F S128 .f32
  b23 : Vec F S128x128 .f32
  b24 : Vec F S128 .f32

/-- The three running sums: gated position differences, gated velocity differences, messages. -/
abbrev Acc (F : FTy → Type) [FloatOps F] : Type := Vec F S64x3 .f32 × Vec F S64x3 .f32 × Vec F S64x128 .f32

/-- The second edge layer's output for the 64 × 64 edges of the tile, one edge per row. -/
def x70 (B : Blk F) : FVec F S4096x128 .f32 :=
  k0_pay20 (k0_pay11 B.b0) (k0_pay12 B.b1) (k0_pay17 B.b2 B.b3) (k0_pay18 B.b4 B.b5) (k0_pay19 B.b6)
    (constant S64x128 .f32 0x00000000#32) B.b7 B.b8 B.b9 B.b10 B.b11 B.b12
/-- The attention logit of each edge of the tile. -/
def x76 (B : Blk F) : FVec F S4096x1 .f32 :=
  k0_pay21 (k0_pay11 B.b0) (k0_pay12 B.b1) (k0_pay17 B.b2 B.b3) (k0_pay18 B.b4 B.b5) (k0_pay19 B.b6)
    (constant S64x128 .f32 0x00000000#32) B.b7 B.b8 B.b9 B.b10 B.b11 B.b12 B.b13 B.b14
/-- The sums after the point, from the sums before it. -/
def stepP (B : Blk F) (a : Vec F S64x3 .f32) : Vec F S64x3 .f32 :=
  k0_pay23 (k0_pay15 B.b2 B.b3) (x70 B) (x76 B) B.b15 B.b16 B.b17 a
def stepV (B : Blk F) (a : Vec F S64x3 .f32) : Vec F S64x3 .f32 :=
  k0_pay1 a (k0_pay24 (k0_pay16 B.b4 B.b5) (x70 B) (x76 B) B.b18 B.b19 B.b20)
def stepM (B : Blk F) (a : Vec F S64x128 .f32) : Vec F S64x128 .f32 :=
  k0_pay2 (k0_pay22 (x70 B) (x76 B)) a
def step (B : Blk F) (a : Acc F) : Acc F := (stepP B a.1, stepV B a.2.1, stepM B a.2.2)
/-- The sums a first sending tile starts from. -/
def zAcc : Acc F := (k0_pay8, k0_pay9, k0_pay10)
/-- The result blocks a last sending tile writes, from the finished sums. -/
def finH (B : Blk F) (aM : Vec F S64x128 .f32) : Vec F S1x64x128 .f32 := k0_pay7 (k0_pay11 B.b0) aM B.b21 B.b22 B.b23 B.b24
def finP (B : Blk F) (aP : Vec F S64x3 .f32) : Vec F S1x64x3 .f32 := k0_pay3 (k0_pay5 (k0_pay13 B.b2) aP)
def finV (B : Blk F) (aV : Vec F S64x3 .f32) : Vec F S1x64x3 .f32 := k0_pay4 (k0_pay6 (k0_pay14 B.b4) aV)

/-! ## The blocks and the sums at every point, from the contents the region is entered with -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input blocks of point `t`. -/
def blk (c : Dev nD) (t : Fin cfg0.N) : Blk F where
    b0 := iblk V c 0 t
    b1 := iblk V c 1 t
    b2 := iblk V c 2 t
    b3 := iblk V c 3 t
    b4 := iblk V c 4 t
    b5 := iblk V c 5 t
    b6 := iblk V c 6 t
    b7 := iblk V c 7 t
    b8 := iblk V c 8 t
    b9 := iblk V c 9 t
    b10 := iblk V c 10 t
    b11 := iblk V c 11 t
    b12 := iblk V c 12 t
    b13 := iblk V c 13 t
    b14 := iblk V c 14 t
    b15 := iblk V c 15 t
    b16 := iblk V c 16 t
    b17 := iblk V c 17 t
    b18 := iblk V c 18 t
    b19 := iblk V c 19 t
    b20 := iblk V c 20 t
    b21 := iblk V c 21 t
    b22 := iblk V c 22 t
    b23 := iblk V c 23 t
    b24 := iblk V c 24 t

/-- The three sums after point `n`: one step from zero when `n` starts a row of sending tiles (n ≡ 0 mod 8), else one step
    from the sums after point `n - 1`. -/
def accs (c : Dev nD) : (n : ℕ) → n < cfg0.N → Acc F
  | 0, hn => step (blk V c ⟨0, hn⟩) zAcc
  | n + 1, hn => step (blk V c ⟨n + 1, hn⟩) (if (n + 1) % 8 = 0 then zAcc else accs c n (Nat.lt_of_succ_lt hn))

theorem accs_first (c : Dev nD) (t : Fin cfg0.N) (h0 : t.val % 8 = 0) :
    accs V c t.val t.isLt = step (blk V c t) zAcc := by
  obtain ⟨n, hn⟩ := t
  cases n with
  | zero => rfl
  | succ n => show step _ (if (n + 1) % 8 = 0 then _ else _) = _; rw [if_pos h0]

theorem accs_next (c : Dev nD) (t : Fin cfg0.N) (h0 : ¬ t.val % 8 = 0) :
    accs V c t.val t.isLt = step (blk V c t) (accs V c (t.val - 1) (Nat.lt_of_le_of_lt (Nat.sub_le _ _) t.isLt)) := by
  obtain ⟨n, hn⟩ := t
  cases n with
  | zero => exact absurd (Nat.zero_mod _) h0
  | succ n => show step _ (if (n + 1) % 8 = 0 then _ else _) = _; rw [if_neg h0]; rfl

/-! ## The invariant between points and the proof data -/

/-- The scratch operands: whole scoped buffers of the kernel's own. -/
abbrev scM0 : Memref sig .tc .vmem S64x3 .f32 := Memref.whole cc0_scratch0
abbrev scM1 : Memref sig .tc .vmem S64x3 .f32 := Memref.whole cc0_scratch1
abbrev scM2 : Memref sig .tc .vmem S64x128 .f32 := Memref.whole cc0_scratch2

/-- Before the first point: every scratch at anything. After point `n`: the three scratch buffers at the sums after it.
    The generator register rides along at some state. -/
def PhiS (c : Dev nD) : (n : ℕ) → n ≤ cfg0.N → sProp 𝕄
  | 0, _ => Pipeline.ΦA spec0 c
  | n + 1, hn => iprop(owns (c : Thread nD τ) scM0 fullShare (accs V c n hn).1
      ∗ owns (c : Thread nD τ) scM1 fullShare (accs V c n hn).2.1
      ∗ owns (c : Thread nD τ) scM2 fullShare (accs V c n hn).2.2
      ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0 fullShare (accs V c n hn).1
      ∗ owns (c : Thread nD τ) scM1 fullShare (accs V c n hn).2.1
      ∗ owns (c : Thread nD τ) scM2 fullShare (accs V c n hn).2.2
      ∗ (∃ r, prngReg c r)) := rfl

theorem PhiS_pos (c : Dev nD) (n : ℕ) (h : n ≤ cfg0.N) (hz : n ≠ 0) :
    PhiS V c n h = iprop(owns (c : Thread nD τ) scM0 fullShare (accs V c (n - 1) (by omega)).1
      ∗ owns (c : Thread nD τ) scM1 fullShare (accs V c (n - 1) (by omega)).2.1
      ∗ owns (c : Thread nD τ) scM2 fullShare (accs V c (n - 1) (by omega)).2.2
      ∗ (∃ r, prngReg c r)) := by
  cases n with
  | zero => exact absurd rfl hz
  | succ n => rfl

/-- The pipeline's proof data on core `c`: the arrays as the region finds them; after the body each input's buffer at
    its block, each result's at the block written from the sums after the point (read only where the point is a last
    sending tile); the invariant `PhiS`; nothing owed; the two windows of h, of pos and of vel half of the array each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => iblk V c 20 t
    | ⟨21, _⟩ => iblk V c 21 t
    | ⟨22, _⟩ => iblk V c 22 t
    | ⟨23, _⟩ => iblk V c 23 t
    | ⟨24, _⟩ => iblk V c 24 t
    | ⟨25, _⟩ => finH (blk V c t) (accs V c t.val t.isLt).2.2
    | ⟨26, _⟩ => finP (blk V c t) (accs V c t.val t.isLt).1
    | ⟨27, _⟩ => finV (blk V c t) (accs V c t.val t.isLt).2.1
    | ⟨_ + 28, h⟩ => absurd h (Nat.not_lt.2 (Nat.le_add_left _ _))
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨21, _⟩ => fullShare
    | ⟨22, _⟩ => fullShare
    | ⟨23, _⟩ => fullShare
    | ⟨24, _⟩ => fullShare
    | ⟨25, _⟩ => fullShare
    | ⟨26, _⟩ => fullShare
    | ⟨27, _⟩ => fullShare
    | ⟨_ + 28, h⟩ => absurd h (Nat.not_lt.2 (Nat.le_add_left _ _))
  owed _ := 0

theorem A_eq (c : Dev nD) (w : Fin cfg0.W) : (dat0 V c).A w = V c (Pipeline.arrRef spec0 w) := by
  dsimp only [dat0]

theorem Phi_castSucc (c : Dev nD) (t : Fin cfg0.N) :
    (dat0 V c).Φ t.castSucc = PhiS V c t.val (Nat.le_of_lt t.isLt) := by
  dsimp only [dat0]; simp only [Fin.coe_castSucc]

theorem Phi_succ (c : Dev nD) (t : Fin cfg0.N) :
    (dat0 V c).Φ t.succ = PhiS V c (t.val + 1) t.isLt := rfl

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = iblk V c 5 t := by dsimp only [dat0]
theorem after_6 (c : Dev nD) (t : Fin cfg0.N) : (dat0 V c).after 6 t = iblk V c 6 t := by dsimp only [dat0]
theorem after_7 (c : Dev nD) (t : Fin cfg0.N) : (dat0 V c).after 7 t = iblk V c 7 t := by dsimp only [dat0]
theorem after_8 (c : Dev nD) (t : Fin cfg0.N) : (dat0 V c).after 8 t = iblk V c 8 t := by dsimp only [dat0]
theorem after_9 (c : Dev nD) (t : Fin cfg0.N) : (dat0 V c).after 9 t = iblk V c 9 t := by dsimp only [dat0]
theorem after_10 (c : Dev nD) (t : Fin cfg0.N) : (dat0 V c).after 10 t = iblk V c 10 t := by dsimp only [dat0]
theorem after_11 (c : Dev nD) (t : Fin cfg0.N) : (dat0 V c).after 11 t = iblk V c 11 t := by dsimp only [dat0]
theorem after_12 (c : Dev nD) (t : Fin cfg0.N) : (dat0 V c).after 12 t = iblk V c 12 t := by dsimp only [dat0]
theorem after_13 (c : Dev nD) (t : Fin cfg0.N) : (dat0 V c).after 13 t = iblk V c 13 t := by dsimp only [dat0]
theorem after_14 (c : Dev nD) (t : Fin cfg0.N) : (dat0 V c).after 14 t = iblk V c 14 t := by dsimp only [dat0]
theorem after_15 (c : Dev nD) (t : Fin cfg0.N) : (dat0 V c).after 15 t = iblk V c 15 t := by dsimp only [dat0]
theorem after_16 (c : Dev nD) (t : Fin cfg0.N) : (dat0 V c).after 16 t = iblk V c 16 t := by dsimp only [dat0]
theorem after_17 (c : Dev nD) (t : Fin cfg0.N) : (dat0 V c).after 17 t = iblk V c 17 t := by dsimp only [dat0]
theorem after_18 (c : Dev nD) (t : Fin cfg0.N) : (dat0 V c).after 18 t = iblk V c 18 t := by dsimp only [dat0]
theorem after_19 (c : Dev nD) (t : Fin cfg0.N) : (dat0 V c).after 19 t = iblk V c 19 t := by dsimp only [dat0]
theorem after_20 (c : Dev nD) (t : Fin cfg0.N) : (dat0 V c).after 20 t = iblk V c 20 t := by dsimp only [dat0]
theorem after_21 (c : Dev nD) (t : Fin cfg0.N) : (dat0 V c).after 21 t = iblk V c 21 t := by dsimp only [dat0]
theorem after_22 (c : Dev nD) (t : Fin cfg0.N) : (dat0 V c).after 22 t = iblk V c 22 t := by dsimp only [dat0]
theorem after_23 (c : Dev nD) (t : Fin cfg0.N) : (dat0 V c).after 23 t = iblk V c 23 t := by dsimp only [dat0]
theorem after_24 (c : Dev nD) (t : Fin cfg0.N) : (dat0 V c).after 24 t = iblk V c 24 t := by dsimp only [dat0]
theorem after_25 (c : Dev nD) (t : Fin cfg0.N) : (dat0 V c).after 25 t = finH (blk V c t) (accs V c t.val t.isLt).2.2 := by dsimp only [dat0]
theorem after_26 (c : Dev nD) (t : Fin cfg0.N) : (dat0 V c).after 26 t = finP (blk V c t) (accs V c t.val t.isLt).1 := by dsimp only [dat0]
theorem after_27 (c : Dev nD) (t : Fin cfg0.N) : (dat0 V c).after 27 t = finV (blk V c t) (accs V c t.val t.isLt).2.1 := by dsimp only [dat0]

/-! ## The contents the region is entered with -/

variable (m : (ℓ : Loc nD τ sig) → Buf (Elt F) ℓ)

/-- Core `c`'s buffers at launch, -/
abbrev W0 : Dev nD → Valuation τ sig (Elt F) := fun c b => m (c, b)
/-- after the six host operations that cut We1 into its two square parts and its last two rows (the region's entry), -/
abbrev W1 : Dev nD → Valuation τ sig (Elt F) := fun c => StableHlo.after hostOps0 (W0 m c)
/-- and the same read at the TensorCore's references: what the proof data take. -/
abbrev V1 : (c : Dev nD) → (b : Ref sig .tc) → Buf (Elt F) ((c : Thread nD τ).loc b) := fun c b => W1 m c b

end Cert.KernelIdeal.Hand

end
-- ==== Proof.KRun1.lean ====
/-
  The launch's separation-logic plumbing, the arrays' part. The region's 28 windows read 25 distinct buffers: the first
  three arguments are each read by two windows (a receiving and a sending one), which hold half of the buffer each. Here:
  the pipeline's `arrays` written out window by window, the entry split (the unscoped buffers at the entry contents give
  every window its array, the three shared buffers cut in two halves) and the exit join (the halves put back, the three
  result buffers at what the write-backs left).
-/
import proofs.«145759_j13950053777588_1_alg».proof.Proof.KDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' arrays as points-tos of whole buffers -/

/-- A window's array is a whole buffer: the pipeline's points-to over its view's elements is the buffer's own. -/
theorem arr_pt (c : Dev nD) (w : Fin cfg0.W) (q : PosShare TreeShare)
    (f : Buf (Elt F) ((cfg0.win w).arr.view.loc (c : Thread nD τ))) :
    ((((cfg0.win w).arr.view.loc (c : Thread nD τ)) ↦[(cfg0.win w).arr.view.set]{q} f : sProp 𝕄))
      = ((((c : Thread nD τ).loc (Pipeline.arrRef spec0 w)) ↦{q} f : sProp 𝕄)) := by
  rw [(arr_whole0 w).set_eq_univ]

variable (V : (c : Dev nD) → (b : Ref sig .tc) → Buf (Elt F) ((c : Thread nD τ).loc b))

/-- The windowed arrays one by one: h, pos and vel twice, a half each (the receiving and the sending window), the
    weights and the three results whole. -/
theorem arrays_chain (c : Dev nD) (G : (w : Fin cfg0.W) → Buf (Elt F) ((cfg0.win w).arr.view.loc (c : Thread nD τ))) :
    ((dat0 V c).arrays G : sProp 𝕄) = iprop(
      (((c : Thread nD τ).loc main_arg0) ↦{fullShare.left} G 0)
      ∗ (((c : Thread nD τ).loc main_arg0) ↦{fullShare.right} G 1)
      ∗ (((c : Thread nD τ).loc main_arg1) ↦{fullShare.left} G 2)
      ∗ (((c : Thread nD τ).loc main_arg1) ↦{fullShare.right} G 3)
      ∗ (((c : Thread nD τ).loc main_arg2) ↦{fullShare.left} G 4)
      ∗ (((c : Thread nD τ).loc main_arg2) ↦{fullShare.right} G 5)
      ∗ (((c : Thread nD τ).loc main_v0) ↦{fullShare} G 6)
      ∗ (((c : Thread nD τ).loc main_v1) ↦{fullShare} G 7)
      ∗ (((c : Thread nD τ).loc main_v3) ↦{fullShare} G 8)
      ∗ (((c : Thread nD τ).loc main_v5) ↦{fullShare} G 9)
      ∗ (((c : Thread nD τ).loc main_arg4) ↦{fullShare} G 10)
      ∗ (((c : Thread nD τ).loc main_arg5) ↦{fullShare} G 11)
      ∗ (((c : Thread nD τ).loc main_arg6) ↦{fullShare} G 12)
      ∗ (((c : Thread nD τ).loc main_arg7) ↦{fullShare} G 13)
      ∗ (((c : Thread nD τ).loc main_arg8) ↦{fullShare} G 14)
      ∗ (((c : Thread nD τ).loc main_arg9) ↦{fullShare} G 15)
      ∗ (((c : Thread nD τ).loc main_arg10) ↦{fullShare} G 16)
      ∗ (((c : Thread nD τ).loc main_arg11) ↦{fullShare} G 17)
      ∗ (((c : Thread nD τ).loc main_arg12) ↦{fullShare} G 18)
      ∗ (((c : Thread nD τ).loc main_arg13) ↦{fullShare} G 19)
      ∗ (((c : Thread nD τ).loc main_arg14) ↦{fullShare} G 20)
      ∗ (((c : Thread nD τ).loc main_arg15) ↦{fullShare} G 21)
      ∗ (((c : Thread nD τ).loc main_arg16) ↦{fullShare} G 22)
      ∗ (((c : Thread nD τ).loc main_arg17) ↦{fullShare} G 23)
      ∗ (((c : Thread nD τ).loc main_arg18) ↦{fullShare} G 24)
      ∗ (((c : Thread nD τ).loc main_v6_0) ↦{fullShare} G 25)
      ∗ (((c : Thread nD τ).loc main_v6_1) ↦{fullShare} G 26)
      ∗ (((c : Thread nD τ).loc main_v6_2) ↦{fullShare} G 27)) := by
  unfold Dat.arrays
  refine (bigSep_congr fun w _ => arr_pt c w ((dat0 V c).share w) (G w)).trans ?_
  rw [bigSep_W0]
  rfl

/-- The same at contents read off a valuation of the references. -/
theorem arrays_chain' (c : Dev nD) (G : (b : Ref sig .tc) → Buf (Elt F) ((c : Thread nD τ).loc b)) :
    ((dat0 V c).arrays (fun w => G (Pipeline.arrRef spec0 w)) : sProp 𝕄) = iprop(
      (((c : Thread nD τ).loc main_arg0) ↦{fullShare.left} G main_arg0)
      ∗ (((c : Thread nD τ).loc main_arg0) ↦{fullShare.right} G main_arg0)
      ∗ (((c : Thread nD τ).loc main_arg1) ↦{fullShare.left} G main_arg1)
      ∗ (((c : Thread nD τ).loc main_arg1) ↦{fullShare.right} G main_arg1)
      ∗ (((c : Thread nD τ).loc main_arg2) ↦{fullShare.left} G main_arg2)
      ∗ (((c : Thread nD τ).loc main_arg2) ↦{fullShare.right} G main_arg2)
      ∗ (((c : Thread nD τ).loc main_v0) ↦{fullShare} G main_v0)
      ∗ (((c : Thread nD τ).loc main_v1) ↦{fullShare} G main_v1)
      ∗ (((c : Thread nD τ).loc main_v3) ↦{fullShare} G main_v3)
      ∗ (((c : Thread nD τ).loc main_v5) ↦{fullShare} G main_v5)
      ∗ (((c : Thread nD τ).loc main_arg4) ↦{fullShare} G main_arg4)
      ∗ (((c : Thread nD τ).loc main_arg5) ↦{fullShare} G main_arg5)
      ∗ (((c : Thread nD τ).loc main_arg6) ↦{fullShare} G main_arg6)
      ∗ (((c : Thread nD τ).loc main_arg7) ↦{fullShare} G main_arg7)
      ∗ (((c : Thread nD τ).loc main_arg8) ↦{fullShare} G main_arg8)
      ∗ (((c : Thread nD τ).loc main_arg9) ↦{fullShare} G main_arg9)
      ∗ (((c : Thread nD τ).loc main_arg10) ↦{fullShare} G main_arg10)
      ∗ (((c : Thread nD τ).loc main_arg11) ↦{fullShare} G main_arg11)
      ∗ (((c : Thread nD τ).loc main_arg12) ↦{fullShare} G main_arg12)
      ∗ (((c : Thread nD τ).loc main_arg13) ↦{fullShare} G main_arg13)
      ∗ (((c : Thread nD τ).loc main_arg14) ↦{fullShare} G main_arg14)
      ∗ (((c : Thread nD τ).loc main_arg15) ↦{fullShare} G main_arg15)
      ∗ (((c : Thread nD τ).loc main_arg16) ↦{fullShare} G main_arg16)
      ∗ (((c : Thread nD τ).loc main_arg17) ↦{fullShare} G main_arg17)
      ∗ (((c : Thread nD τ).loc main_arg18) ↦{fullShare} G main_arg18)
      ∗ (((c : Thread nD τ).loc main_v6_0) ↦{fullShare} G main_v6_0)
      ∗ (((c : Thread nD τ).loc main_v6_1) ↦{fullShare} G main_v6_1)
      ∗ (((c : Thread nD τ).loc main_v6_2) ↦{fullShare} G main_v6_2)) :=
  (arrays_chain V c _).trans rfl

/-! ## Entry: the arrays out of the unscoped buffers -/

/-- The distinct buffers behind the 28 windows, one by one. -/
theorem arrBufs_chain (c : Dev nD) (G : (b : Ref sig .tc) → Buf (Elt F) ((c : Thread nD τ).loc b)) :
    (Pipeline.arrBufs (Ix := Unit) (Name := ℕ) (U := UR sig nD τ) (Lvl := ℕ) spec0 c G : sProp 𝕄) = iprop(
      (((c : Thread nD τ).loc main_arg0) ↦{fullShare} G main_arg0)
      ∗ (((c : Thread nD τ).loc main_arg1) ↦{fullShare} G main_arg1)
      ∗ (((c : Thread nD τ).loc main_arg2) ↦{fullShare} G main_arg2)
      ∗ (((c : Thread nD τ).loc main_v0) ↦{fullShare} G main_v0)
      ∗ (((c : Thread nD τ).loc main_v1) ↦{fullShare} G main_v1)
      ∗ (((c : Thread nD τ).loc main_v3) ↦{fullShare} G main_v3)
      ∗ (((c : Thread nD τ).loc main_v5) ↦{fullShare} G main_v5)
      ∗ (((c : Thread nD τ).loc main_arg4) ↦{fullShare} G main_arg4)
      ∗ (((c : Thread nD τ).loc main_arg5) ↦{fullShare} G main_arg5)
      ∗ (((c : Thread nD τ).loc main_arg6) ↦{fullShare} G main_arg6)
      ∗ (((c : Thread nD τ).loc main_arg7) ↦{fullShare} G main_arg7)
      ∗ (((c : Thread nD τ).loc main_arg8) ↦{fullShare} G main_arg8)
      ∗ (((c : Thread nD τ).loc main_arg9) ↦{fullShare} G main_arg9)
      ∗ (((c : Thread nD τ).loc main_arg10) ↦{fullShare} G main_arg10)
      ∗ (((c : Thread nD τ).loc main_arg11) ↦{fullShare} G main_arg11)
      ∗ (((c : Thread nD τ).loc main_arg12) ↦{fullShare} G main_arg12)
      ∗ (((c : Thread nD τ).loc main_arg13) ↦{fullShare} G main_arg13)
      ∗ (((c : Thread nD τ).loc main_arg14) ↦{fullShare} G main_arg14)
      ∗ (((c : Thread nD τ).loc main_arg15) ↦{fullShare} G main_arg15)
      ∗ (((c : Thread nD τ).loc main_arg16) ↦{fullShare} G main_arg16)
      ∗ (((c : Thread nD τ).loc main_arg17) ↦{fullShare} G main_arg17)
      ∗ (((c : Thread nD τ).loc main_arg18) ↦{fullShare} G main_arg18)
      ∗ (((c : Thread nD τ).loc main_v6_0) ↦{fullShare} G main_v6_0)
      ∗ (((c : Thread nD τ).loc main_v6_1) ↦{fullShare} G main_v6_1)
      ∗ (((c : Thread nD τ).loc main_v6_2) ↦{fullShare} G main_v6_2)) := by
  unfold Pipeline.arrBufs
  rw [bigSep_eq_bigSepL_of_eq [main_arg0, main_arg1, main_arg2, main_v0, main_v1, main_v3, main_v5, main_arg4, main_arg5, main_arg6, main_arg7, main_arg8, main_arg9, main_arg10, main_arg11, main_arg12, main_arg13, main_arg14, main_arg15, main_arg16, main_arg17, main_arg18, main_v6_0, main_v6_1, main_v6_2] (by decide) (by decide)]
  rfl

/-- ENTRY: a core's unscoped buffers at `V c` are the windows' arrays at their entry contents — each of the three shared
    buffers cut into the two halves its two windows take — and the buffers no window reads. -/
theorem entry_arrays (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  have e : ((dat0 V c).arrays ((dat0 V c).arrAt · 0) : sProp 𝕄) = (dat0 V c).arrays (fun w => V c (Pipeline.arrRef spec0 w)) := rfl
  rw [Pipeline.unscopedBufs_split₀ cfgs 0 winFacts₀0.arr_unscoped c (V c), e, arrays_chain' V c (V c), arrBufs_chain c (V c)]
  iintro ⟨⟨H0, H1, H2, H3, H4, H5, H6, H7, H8, H9, H10, H11, H12, H13, H14, H15, H16, H17, H18, H19, H20, H21, H22, H23, H24⟩, Hrest⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  ihave H2 := (pointsTo_share (PosShare.mem_left_op_right fullShare)).1 $$ H2
  icases H2 with ⟨H2l, H2r⟩
  isplitr [Hrest]
  · isplitl [H0l]; · iexact H0l
    isplitl [H0r]; · iexact H0r
    isplitl [H1l]; · iexact H1l
    isplitl [H1r]; · iexact H1r
    isplitl [H2l]; · iexact H2l
    isplitl [H2r]; · iexact H2r
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · iexact Hrest

/-! ## Exit: the arrays back into the unscoped buffers -/

/-- The contents the region leaves: the three result buffers at what the write-backs of all the points left, every
    other buffer as entered. -/
def V2 (c : Dev nD) : (b : Ref sig .tc) → Buf (Elt F) ((c : Thread nD τ).loc b) :=
  Function.update (Function.update (Function.update (V c) main_v6_0 ((dat0 V c).arrAt 25 cfg0.N))
    main_v6_1 ((dat0 V c).arrAt 26 cfg0.N)) main_v6_2 ((dat0 V c).arrAt 27 cfg0.N)

theorem V2_v6_0 (c : Dev nD) : V2 V c main_v6_0 = (dat0 V c).arrAt 25 cfg0.N := by
  unfold V2; rw [Function.update_of_ne (by decide), Function.update_of_ne (by decide), Function.update_self]
theorem V2_v6_1 (c : Dev nD) : V2 V c main_v6_1 = (dat0 V c).arrAt 26 cfg0.N := by
  unfold V2; rw [Function.update_of_ne (by decide), Function.update_self]
theorem V2_v6_2 (c : Dev nD) : V2 V c main_v6_2 = (dat0 V c).arrAt 27 cfg0.N := by
  unfold V2; rw [Function.update_self]
/-- A buffer that is none of the three results is left as entered. -/
theorem V2_of_ne (c : Dev nD) (b : Ref sig .tc) (h0 : b ≠ main_v6_0) (h1 : b ≠ main_v6_1) (h2 : b ≠ main_v6_2) :
    V2 V c b = V c b := by
  unfold V2; rw [Function.update_of_ne h2, Function.update_of_ne h1, Function.update_of_ne h0]

/-- Every window's array ends at `V2`: an input window's array is never written, a result window's is its own buffer. -/
theorem arrAt_N (c : Dev nD) (w : Fin cfg0.W) : (dat0 V c).arrAt w cfg0.N = V2 V c (Pipeline.arrRef spec0 w) := by
  by_cases hin : (cfg0.win w).isOut = false
  · have hne : Pipeline.arrRef spec0 w ≠ main_v6_0 ∧ Pipeline.arrRef spec0 w ≠ main_v6_1 ∧ Pipeline.arrRef spec0 w ≠ main_v6_2 :=
      (show ∀ w : Fin 28, (cfg0.win w).isOut = false →
        Pipeline.arrRef spec0 w ≠ main_v6_0 ∧ Pipeline.arrRef spec0 w ≠ main_v6_1 ∧ Pipeline.arrRef spec0 w ≠ main_v6_2 from by decide) w hin
    rw [V2_of_ne V c _ hne.1 hne.2.1 hne.2.2]
    exact ((dat0 V c).arrAt_in w hin _).trans (A_eq V c w)
  · have hw : w = 25 ∨ w = 26 ∨ w = 27 :=
      (show ∀ w : Fin 28, ¬ (cfg0.win w).isOut = false → w = 25 ∨ w = 26 ∨ w = 27 from by decide) w hin
    rcases hw with rfl | rfl | rfl
    · exact (V2_v6_0 V c).symm
    · exact (V2_v6_1 V c).symm
    · exact (V2_v6_2 V c).symm

/-- The buffers no window reads are as entered. -/
theorem unscopedRest_V2 (c : Dev nD) :
    (Pipeline.unscopedRest (Ix := Unit) (Name := ℕ) (U := UR sig nD τ) (Lvl := ℕ) spec0 c (V2 V c) : sProp 𝕄) = Pipeline.unscopedRest (Ix := Unit) (Name := ℕ) (U := UR sig nD τ) (Lvl := ℕ) spec0 c (V c) := by
  rw [unscopedRest0_eq, unscopedRest0_eq, V2_of_ne V c main_arg3 (by decide) (by decide) (by decide),
    V2_of_ne V c main_v2 (by decide) (by decide) (by decide), V2_of_ne V c main_v4 (by decide) (by decide) (by decide)]

/-- EXIT: the windows' arrays at their final contents — the two halves of each shared buffer put back together — and
    the buffers no window reads are the core's unscoped buffers at `V2`. -/
theorem exit_arrays (c : Dev nD) :
    iprop((dat0 V c).arrays ((dat0 V c).arrAt · cfg0.N) ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V2 V c) : sProp 𝕄) := by
  have e : ((dat0 V c).arrays ((dat0 V c).arrAt · cfg0.N) : sProp 𝕄) = (dat0 V c).arrays (fun w => V2 V c (Pipeline.arrRef spec0 w)) :=
    congrArg _ (funext fun w => arrAt_N V c w)
  rw [Pipeline.unscopedBufs_split₀ cfgs 0 winFacts₀0.arr_unscoped c (V2 V c), e, arrays_chain' V c (V2 V c), arrBufs_chain c (V2 V c),
    unscopedRest_V2]
  iintro ⟨⟨H0l, H0r, H1l, H1r, H2l, H2r, H3, H4, H5, H6, H7, H8, H9, H10, H11, H12, H13, H14, H15, H16, H17, H18, H19, H20, H21, H22, H23, H24⟩, Hrest⟩
  ihave H0 := (pointsTo_share (PosShare.mem_left_op_right fullShare)).2 $$ [H0l H0r]
  · isplitl [H0l]; · iexact H0l
    iexact H0r
  ihave H1 := (pointsTo_share (PosShare.mem_left_op_right fullShare)).2 $$ [H1l H1r]
  · isplitl [H1l]; · iexact H1l
    iexact H1r
  ihave H2 := (pointsTo_share (PosShare.mem_left_op_right fullShare)).2 $$ [H2l H2r]
  · isplitl [H2l]; · iexact H2l
    iexact H2r
  isplitr [Hrest]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · iexact Hrest

end Cert.KernelIdeal.Hand

end
-- ==== Proof.KEntry.lean ====
/-
  The buffers the region is entered with that no host operation has written: the nineteen argument arrays hold their
  launch contents.
-/
import proofs.«145759_j13950053777588_1_alg».proof.Proof.KDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer that none of the six host operations writes (they write the two square parts of We1, its two last rows and
    their two reshapes) holds at the region's entry what it held at launch. -/
theorem W1_of_ne (c : Dev nD) (b : Ref sig .tc) (h0 : b ≠ main_v0) (h1 : b ≠ main_v1) (h2 : b ≠ main_v2)
    (h3 : b ≠ main_v3) (h4 : b ≠ main_v4) (h5 : b ≠ main_v5) :
    W1 m c (Proc.devRef .tc b) = m ((c : Thread nD τ).loc b) :=
  (StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))).trans rfl

/-! No host operation writes an argument array: each is entered with as launched. -/
theorem V1_main_arg0 (c : Dev nD) : V1 m c main_arg0 = m ((c : Thread nD τ).loc main_arg0) :=
  W1_of_ne m c main_arg0 (by decide) (by decide) (by decide) (by decide) (by decide) (by decide)
theorem V1_main_arg1 (c : Dev nD) : V1 m c main_arg1 = m ((c : Thread nD τ).loc main_arg1) :=
  W1_of_ne m c main_arg1 (by decide) (by decide) (by decide) (by decide) (by decide) (by decide)
theorem V1_main_arg2 (c : Dev nD) : V1 m c main_arg2 = m ((c : Thread nD τ).loc main_arg2) :=
  W1_of_ne m c main_arg2 (by decide) (by decide) (by decide) (by decide) (by decide) (by decide)
theorem V1_main_arg3 (c : Dev nD) : V1 m c main_arg3 = m ((c : Thread nD τ).loc main_arg3) :=
  W1_of_ne m c main_arg3 (by decide) (by decide) (by decide) (by decide) (by decide) (by decide)
theorem V1_main_arg4 (c : Dev nD) : V1 m c main_arg4 = m ((c : Thread nD τ).loc main_arg4) :=
  W1_of_ne m c main_arg4 (by decide) (by decide) (by decide) (by decide) (by decide) (by decide)
theorem V1_main_arg5 (c : Dev nD) : V1 m c main_arg5 = m ((c : Thread nD τ).loc main_arg5) :=
  W1_of_ne m c main_arg5 (by decide) (by decide) (by decide) (by decide) (by decide) (by decide)
theorem V1_main_arg6 (c : Dev nD) : V1 m c main_arg6 = m ((c : Thread nD τ).loc main_arg6) :=
  W1_of_ne m c main_arg6 (by decide) (by decide) (by decide) (by decide) (by decide) (by decide)
theorem V1_main_arg7 (c : Dev nD) : V1 m c main_arg7 = m ((c : Thread nD τ).loc main_arg7) :=
  W1_of_ne m c main_arg7 (by decide) (by decide) (by decide) (by decide) (by decide) (by decide)
theorem V1_main_arg8 (c : Dev nD) : V1 m c main_arg8 = m ((c : Thread nD τ).loc main_arg8) :=
  W1_of_ne m c main_arg8 (by decide) (by decide) (by decide) (by decide) (by decide) (by decide)
theorem V1_main_arg9 (c : Dev nD) : V1 m c main_arg9 = m ((c : Thread nD τ).loc main_arg9) :=
  W1_of_ne m c main_arg9 (by decide) (by decide) (by decide) (by decide) (by decide) (by decide)
theorem V1_main_arg10 (c : Dev nD) : V1 m c main_arg10 = m ((c : Thread nD τ).loc main_arg10) :=
  W1_of_ne m c main_arg10 (by decide) (by decide) (by decide) (by decide) (by decide) (by decide)
theorem V1_main_arg11 (c : Dev nD) : V1 m c main_arg11 = m ((c : Thread nD τ).loc main_arg11) :=
  W1_of_ne m c main_arg11 (by decide) (by decide) (by decide) (by decide) (by decide) (by decide)
theorem V1_main_arg12 (c : Dev nD) : V1 m c main_arg12 = m ((c : Thread nD τ).loc main_arg12) :=
  W1_of_ne m c main_arg12 (by decide) (by decide) (by decide) (by decide) (by decide) (by decide)
theorem V1_main_arg13 (c : Dev nD) : V1 m c main_arg13 = m ((c : Thread nD τ).loc main_arg13) :=
  W1_of_ne m c main_arg13 (by decide) (by decide) (by decide) (by decide) (by decide) (by decide)
theorem V1_main_arg14 (c : Dev nD) : V1 m c main_arg14 = m ((c : Thread nD τ).loc main_arg14) :=
  W1_of_ne m c main_arg14 (by decide) (by decide) (by decide) (by decide) (by decide) (by decide)
theorem V1_main_arg15 (c : Dev nD) : V1 m c main_arg15 = m ((c : Thread nD τ).loc main_arg15) :=
  W1_of_ne m c main_arg15 (by decide) (by decide) (by decide) (by decide) (by decide) (by decide)
theorem V1_main_arg16 (c : Dev nD) : V1 m c main_arg16 = m ((c : Thread nD τ).loc main_arg16) :=
  W1_of_ne m c main_arg16 (by decide) (by decide) (by decide) (by decide) (by decide) (by decide)
theorem V1_main_arg17 (c : Dev nD) : V1 m c main_arg17 = m ((c : Thread nD τ).loc main_arg17) :=
  W1_of_ne m c main_arg17 (by decide) (by decide) (by decide) (by decide) (by decide) (by decide)
theorem V1_main_arg18 (c : Dev nD) : V1 m c main_arg18 = m ((c : Thread nD τ).loc main_arg18) :=
  W1_of_ne m c main_arg18 (by decide) (by decide) (by decide) (by decide) (by decide) (by decide)

end Cert.KernelIdeal.Hand

end
-- ==== Proof.KRun.lean ====
/-
  The launch of the kernel program, at any float instance: @main is one stretch of six host operations and one
  pipelined region. The region as a segment over the thread state "every unscoped buffer at the boundary's contents, the
  generator register at some state, nothing owed" — its arrays split out of the unscoped buffers at entry and put back
  at exit (the three shared buffers as two halves), the three scratch buffers and the generator register into the
  invariant and out —, and the run: every weakly fair execution of @main terminates, the three result buffers end at
  what the write-backs of all the points left and every argument as launched. The body obligation is a hypothesis.
-/
import proofs.«145759_j13950053777588_1_alg».proof.Proof.KRun1
import proofs.«145759_j13950053777588_1_alg».proof.Proof.KEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data family and the thread state -/

/-- No pipeline has a prefetched table. -/
abbrev adm : (p : Fin 1) → (pcfgs (F := F) p).Adm := fun p => (cfgs p).toPCfg_adm

section Run

variable (m : (ℓ : Loc nD τ sig) → Buf (Elt F) ℓ)

/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m) c
  | ⟨_ + 1, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the core's generator register at some state and its `owes`, at nothing. -/
abbrev R (c : Dev nD) : sProp 𝕄 := iprop((∃ r, prngReg c r) ∗ ∃ W, owes (c : Thread nD τ) (0 : CellTallies nD τ sig Unit) W)

/-- The host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor

/-- An unscoped reference is among those the last thread state holds. -/
theorem mem_us (b : Ref sig .tc) (h : ¬ b.isScoped) : b ∈ Finset.univ.filter fun b : Ref sig .tc => ¬ b.isScoped :=
  Finset.mem_filter.mpr ⟨Finset.mem_univ b, h⟩

/-- The last thread state without the `owes`: every unscoped buffer at the exit contents, the generator register at some
    state. -/
abbrev Tₙ (c : Dev nD) : sProp 𝕄 :=
  iprop(unscopedBufs (Ix := Unit) (Name := ℕ) (U := UR sig nD τ) (Lvl := ℕ) c (V2 (V1 m) c) ∗ ∃ r, prngReg c r)

/-- The invariant after the last point: the three scratch buffers at the sums after it, the generator register. -/
theorem Phi_last (V : (c : Dev nD) → (b : Ref sig .tc) → Buf (Elt F) ((c : Thread nD τ).loc b)) (c : Dev nD) :
    (dat0 V c).Φ (Fin.last cfg0.N) = PhiS V c cfg0.N le_rfl := rfl

/-! ## The region as a segment -/

set_option backward.isDefEq.respectTransparency.types false in
/-- THE REGION over the thread state: entered from every unscoped buffer at `W1`, left at `V2`. -/
def reg0 (hbody : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hbody (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs (Ix := Unit) (Name := ℕ) (U := UR sig nD τ) (Lvl := ℕ) c (V1 m c) : sProp 𝕄)
        ⊢ iprop((pdats m 0 c).arrays ((pdats m 0 c).arrAt · 0) ∗ Pipeline.unscopedRest (Ix := Unit) (Name := ℕ) (U := UR sig nD τ) (Lvl := ℕ) spec0 c (V1 m c)) :=
      entry_arrays (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = PhiS (V1 m) c cfg0.N le_rfl from Phi_last (V1 m) c,
      PhiS_pos (V1 m) c cfg0.N le_rfl (by decide), scopedRest0_eq c]
    simp only [owns_whole]
    iintro ⟨H0, H1, H2, Hr⟩
    isplitl [Hr]; · iexact Hr
    isplitr; · iempintro
    isplitl [H0]; · iexists _; iexact H0
    isplitl [H1]; · iexists _; iexact H1
    iexists _; iexact H2
  hexit c := by
    have hjoin : iprop((pdats m 0 c).arrays ((pdats m 0 c).arrAt · cfg0.N) ∗ Pipeline.unscopedRest (Ix := Unit) (Name := ℕ) (U := UR sig nD τ) (Lvl := ℕ) spec0 c (V1 m c))
        ⊢ (unscopedBufs (Ix := Unit) (Name := ℕ) (U := UR sig nD τ) (Lvl := ℕ) c (V2 (V1 m) c) : sProp 𝕄) := exit_arrays (V1 m) c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs (hbody : ∀ (V : (c : Dev nD) → (b : Ref sig .tc) → Buf (Elt F) ((c : Thread nD τ).loc b)) (c : Dev nD), BodyObligation (dat0 (F := F) V c) (defs₀ (F := F)) Variants.none () Set.univ) : List (Pipeline.Seg (pcfgs (F := F)) adm (pdats m) () defs₀ 𝒱₀ L lv) :=
  [ .host (hseg hostOps0 hostOps0_sub hostOps0_fresh (W0 m)),
    .region (reg0 m hbody) ]

end Run

set_option backward.isDefEq.respectTransparency.types false in
/-- THE RUN: at the compiled mesh, from any memory with zero counters, every weakly fair execution of @main on the
    TensorCores terminates, nothing faulting, and every final state has the three result buffers at what the write-backs
    of all the points left and the nineteen arguments as launched. -/
theorem run_main (hbody : ∀ (V : (c : Dev nD) → (b : Ref sig .tc) → Buf (Elt F) ((c : Thread nD τ).loc b)) (c : Dev nD), BodyObligation (dat0 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v6_0) = (dat0 (V1 m) c).arrAt 25 cfg0.N
      ∧ r.2.mem ((c.tc : Thread nD τ).loc main_v6_1) = (dat0 (V1 m) c).arrAt 26 cfg0.N
      ∧ r.2.mem ((c.tc : Thread nD τ).loc main_v6_2) = (dat0 (V1 m) c).arrAt 27 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m) () cellOf_inj emb₁ defs₀ 𝒱₀ L lv m ρ main (segs m hbody)
    (fun c Q => by rw [main_segs adm (pdats m) () 𝒱₀ L lv (hseg hostOps0 hostOps0_sub hostOps0_fresh (W0 m)) (reg0 m hbody) rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c : Thread nD τ).loc b) = V2 (V1 m) c b)
    (hfin := fun c s' => by
      iintro ⟨⟨Hh, -⟩, HSI⟩
      unfold unscopedBufs
      imodintro
      iapply (pointsTo_read_all (Finset.univ.filter fun b : Ref sig .tc => ¬ b.isScoped) (fun b => (c : Thread nD τ).loc b) (V2 (V1 m) c) s')
      isplitl [Hh] <;> iassumption)
    (hQ := fun s h c =>
      ⟨(h c main_v6_0 (mem_us _ (by decide))).trans (V2_v6_0 (V1 m) c),
       (h c main_v6_1 (mem_us _ (by decide))).trans (V2_v6_1 (V1 m) c),
       (h c main_v6_2 (mem_us _ (by decide))).trans (V2_v6_2 (V1 m) c),
       (h c main_arg0 (mem_us _ (by decide))).trans ((V2_of_ne (V1 m) c main_arg0 (by decide) (by decide) (by decide)).trans (V1_main_arg0 m c)),
       (h c main_arg1 (mem_us _ (by decide))).trans ((V2_of_ne (V1 m) c main_arg1 (by decide) (by decide) (by decide)).trans (V1_main_arg1 m c)),
       (h c main_arg2 (mem_us _ (by decide))).trans ((V2_of_ne (V1 m) c main_arg2 (by decide) (by decide) (by decide)).trans (V1_main_arg2 m c)),
       (h c main_arg3 (mem_us _ (by decide))).trans ((V2_of_ne (V1 m) c main_arg3 (by decide) (by decide) (by decide)).trans (V1_main_arg3 m c)),
       (h c main_arg4 (mem_us _ (by decide))).trans ((V2_of_ne (V1 m) c main_arg4 (by decide) (by decide) (by decide)).trans (V1_main_arg4 m c)),
       (h c main_arg5 (mem_us _ (by decide))).trans ((V2_of_ne (V1 m) c main_arg5 (by decide) (by decide) (by decide)).trans (V1_main_arg5 m c)),
       (h c main_arg6 (mem_us _ (by decide))).trans ((V2_of_ne (V1 m) c main_arg6 (by decide) (by decide) (by decide)).trans (V1_main_arg6 m c)),
       (h c main_arg7 (mem_us _ (by decide))).trans ((V2_of_ne (V1 m) c main_arg7 (by decide) (by decide) (by decide)).trans (V1_main_arg7 m c)),
       (h c main_arg8 (mem_us _ (by decide))).trans ((V2_of_ne (V1 m) c main_arg8 (by decide) (by decide) (by decide)).trans (V1_main_arg8 m c)),
       (h c main_arg9 (mem_us _ (by decide))).trans ((V2_of_ne (V1 m) c main_arg9 (by decide) (by decide) (by decide)).trans (V1_main_arg9 m c)),
       (h c main_arg10 (mem_us _ (by decide))).trans ((V2_of_ne (V1 m) c main_arg10 (by decide) (by decide) (by decide)).trans (V1_main_arg10 m c)),
       (h c main_arg11 (mem_us _ (by decide))).trans ((V2_of_ne (V1 m) c main_arg11 (by decide) (by decide) (by decide)).trans (V1_main_arg11 m c)),
       (h c main_arg12 (mem_us _ (by decide))).trans ((V2_of_ne (V1 m) c main_arg12 (by decide) (by decide) (by decide)).trans (V1_main_arg12 m c)),
       (h c main_arg13 (mem_us _ (by decide))).trans ((V2_of_ne (V1 m) c main_arg13 (by decide) (by decide) (by decide)).trans (V1_main_arg13 m c)),
       (h c main_arg14 (mem_us _ (by decide))).trans ((V2_of_ne (V1 m) c main_arg14 (by decide) (by decide) (by decide)).trans (V1_main_arg14 m c)),
       (h c main_arg15 (mem_us _ (by decide))).trans ((V2_of_ne (V1 m) c main_arg15 (by decide) (by decide) (by decide)).trans (V1_main_arg15 m c)),
       (h c main_arg16 (mem_us _ (by decide))).trans ((V2_of_ne (V1 m) c main_arg16 (by decide) (by decide) (by decide)).trans (V1_main_arg16 m c)),
       (h c main_arg17 (mem_us _ (by decide))).trans ((V2_of_ne (V1 m) c main_arg17 (by decide) (by decide) (by decide)).trans (V1_main_arg17 m c)),
       (h c main_arg18 (mem_us _ (by decide))).trans ((V2_of_ne (V1 m) c main_arg18 (by decide) (by decide) (by decide)).trans (V1_main_arg18 m c))⟩)

end Cert.KernelIdeal.Hand

end
-- ==== Proof.KBodyPre.lean ====
/-
  Small facts the kernel body's runs share: the two branch conditions of the body (the sending tile is the first /
  the last of its row) in closed form over the 128 grid points, where the three result windows are idle and where they
  are written back, and that a buffer whose last store overwrote it whole holds that store's value.
-/
import proofs.«145759_j13950053777588_1_alg».proof.Proof.KDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the sending tile is the first of its row. -/
abbrev cond0 (i : grid0.Coords) : Prop := (Scalar.cmpi .ne (Scalar.extui (Scalar.cmpi .eq (BitVec.ofNat 32 (i 2).val) 0#32)) 0#32) = 1#1
/-- The body's second branch: the sending tile is the last of its row. -/
abbrev cond1 (i : grid0.Coords) : Prop := k0_cond2 i = 1#1

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- A buffer whose LAST store overwrote it whole holds that store's value, whatever it held and whatever was stored before. -/
theorem last_store {S : Shape} {e : EltTy} (v : View sig .tc .vmem S e) (f : v.ty.Contents (Elt F)) {off : Fin S.rank → ℕ}
    (hz : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero hz inb y⟩), View.canon_cons_unit_zero hz]

/-! ## The branch conditions and the windows' idleness, decided over the grid -/

theorem hcond0 : ∀ t : Fin cfg0.N, cond0 (grid0.coords t) ↔ t.val % 8 = 0 :=
  (by decide +kernel : ∀ t : Fin grid0.N, cond0 (grid0.coords t) ↔ t.val % 8 = 0)
theorem hcond1 : ∀ t : Fin cfg0.N, cond1 (grid0.coords t) ↔ t.val % 8 = 7 :=
  (by decide +kernel : ∀ t : Fin grid0.N, cond1 (grid0.coords t) ↔ t.val % 8 = 7)

/-- The inputs are never idle; a result window is idle exactly where the sending tile is not the last, and is not
    written back there. -/
theorem liveIn : ∀ (w : Fin cfg0.W), w.val < 25 → ∀ t : Fin cfg0.N, cfg0.idle w (grid0.coords t) = false := by decide +kernel
theorem idleOut : ∀ (w : Fin cfg0.W), 25 ≤ w.val → ∀ t : Fin cfg0.N, ¬cond1 (grid0.coords t) → cfg0.idle w (grid0.coords t) = true := by decide +kernel
theorem noFlushOut : ∀ (w : Fin cfg0.W), 25 ≤ w.val → ∀ t : Fin cfg0.N, ¬cond1 (grid0.coords t) → (cfg0.win w).flush t = false := by decide +kernel
theorem liveOut : ∀ (w : Fin cfg0.W), 25 ≤ w.val → ∀ t : Fin cfg0.N, cond1 (grid0.coords t) → cfg0.idle w (grid0.coords t) = false := by decide +kernel

end Cert.KernelIdeal.Hand

end
-- ==== Proof.KBody0.lean ====
/-
  The body obligation of the tiled kernel, at any float instance, from three runs of the kernel function — at a first,
  a middle and a last sending tile of a row. At every point each input window's buffer holds its block, fetched there or
  not; the three sums in scratch are at what the point before left (at anything before a first sending tile, which
  resets them); the result windows are idle except at a last sending tile, which writes them from the finished sums.
-/
import proofs.«145759_j13950053777588_1_alg».proof.Proof.KBodyPre

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows -/

/-- Input window 0's buffer holds its block at every point, fetched there or not. -/
theorem before_0 (c : Dev nD) (t : Fin cfg0.N) (d) : (dat0 V c).before 0 t d = (blk V c t).b0 :=
  ((dat0 V c).before_in_eq_fetched 0 rfl (fun _ => rfl) (fun _ _ _ => rfl) (fun t => by rw [after_0]; rfl) t d).trans rfl
/-- Input window 1's buffer holds its block at every point, fetched there or not. -/
theorem before_1 (c : Dev nD) (t : Fin cfg0.N) (d) : (dat0 V c).before 1 t d = (blk V c t).b1 :=
  ((dat0 V c).before_in_eq_fetched 1 rfl (fun _ => rfl) (fun _ _ _ => rfl) (fun t => by rw [after_1]; rfl) t d).trans rfl
/-- Input window 2's buffer holds its block at every point, fetched there or not. -/
theorem before_2 (c : Dev nD) (t : Fin cfg0.N) (d) : (dat0 V c).before 2 t d = (blk V c t).b2 :=
  ((dat0 V c).before_in_eq_fetched 2 rfl (fun _ => rfl) (fun _ _ _ => rfl) (fun t => by rw [after_2]; rfl) t d).trans rfl
/-- Input window 3's buffer holds its block at every point, fetched there or not. -/
theorem before_3 (c : Dev nD) (t : Fin cfg0.N) (d) : (dat0 V c).before 3 t d = (blk V c t).b3 :=
  ((dat0 V c).before_in_eq_fetched 3 rfl (fun _ => rfl) (fun _ _ _ => rfl) (fun t => by rw [after_3]; rfl) t d).trans rfl
/-- Input window 4's buffer holds its block at every point, fetched there or not. -/
theorem before_4 (c : Dev nD) (t : Fin cfg0.N) (d) : (dat0 V c).before 4 t d = (blk V c t).b4 :=
  ((dat0 V c).before_in_eq_fetched 4 rfl (fun _ => rfl) (fun _ _ _ => rfl) (fun t => by rw [after_4]; rfl) t d).trans rfl
/-- Input window 5's buffer holds its block at every point, fetched there or not. -/
theorem before_5 (c : Dev nD) (t : Fin cfg0.N) (d) : (dat0 V c).before 5 t d = (blk V c t).b5 :=
  ((dat0 V c).before_in_eq_fetched 5 rfl (fun _ => rfl) (fun _ _ _ => rfl) (fun t => by rw [after_5]; rfl) t d).trans rfl
/-- Input window 6's buffer holds its block at every point, fetched there or not. -/
theorem before_6 (c : Dev nD) (t : Fin cfg0.N) (d) : (dat0 V c).before 6 t d = (blk V c t).b6 :=
  ((dat0 V c).before_in_eq_fetched 6 rfl (fun _ => rfl) (fun _ _ _ => rfl) (fun t => by rw [after_6]; rfl) t d).trans rfl
/-- Input window 7's buffer holds its block at every point, fetched there or not. -/
theorem before_7 (c : Dev nD) (t : Fin cfg0.N) (d) : (dat0 V c).before 7 t d = (blk V c t).b7 :=
  ((dat0 V c).before_in_eq_fetched 7 rfl (fun _ => rfl) (fun _ _ _ => rfl) (fun t => by rw [after_7]; rfl) t d).trans rfl
/-- Input window 8's buffer holds its block at every point, fetched there or not. -/
theorem before_8 (c : Dev nD) (t : Fin cfg0.N) (d) : (dat0 V c).before 8 t d = (blk V c t).b8 :=
  ((dat0 V c).before_in_eq_fetched 8 rfl (fun _ => rfl) (fun _ _ _ => rfl) (fun t => by rw [after_8]; rfl) t d).trans rfl
/-- Input window 9's buffer holds its block at every point, fetched there or not. -/
theorem before_9 (c : Dev nD) (t : Fin cfg0.N) (d) : (dat0 V c).before 9 t d = (blk V c t).b9 :=
  ((dat0 V c).before_in_eq_fetched 9 rfl (fun _ => rfl) (fun _ _ _ => rfl) (fun t => by rw [after_9]; rfl) t d).trans rfl
/-- Input window 10's buffer holds its block at every point, fetched there or not. -/
theorem before_10 (c : Dev nD) (t : Fin cfg0.N) (d) : (dat0 V c).before 10 t d = (blk V c t).b10 :=
  ((dat0 V c).before_in_eq_fetched 10 rfl (fun _ => rfl) (fun _ _ _ => rfl) (fun t => by rw [after_10]; rfl) t d).trans rfl
/-- Input window 11's buffer holds its block at every point, fetched there or not. -/
theorem before_11 (c : Dev nD) (t : Fin cfg0.N) (d) : (dat0 V c).before 11 t d = (blk V c t).b11 :=
  ((dat0 V c).before_in_eq_fetched 11 rfl (fun _ => rfl) (fun _ _ _ => rfl) (fun t => by rw [after_11]; rfl) t d).trans rfl
/-- Input window 12's buffer holds its block at every point, fetched there or not. -/
theorem before_12 (c : Dev nD) (t : Fin cfg0.N) (d) : (dat0 V c).before 12 t d = (blk V c t).b12 :=
  ((dat0 V c).before_in_eq_fetched 12 rfl (fun _ => rfl) (fun _ _ _ => rfl) (fun t => by rw [after_12]; rfl) t d).trans rfl
/-- Input window 13's buffer holds its block at every point, fetched there or not. -/
theorem before_13 (c : Dev nD) (t : Fin cfg0.N) (d) : (dat0 V c).before 13 t d = (blk V c t).b13 :=
  ((dat0 V c).before_in_eq_fetched 13 rfl (fun _ => rfl) (fun _ _ _ => rfl) (fun t => by rw [after_13]; rfl) t d).trans rfl
/-- Input window 14's buffer holds its block at every point, fetched there or not. -/
theorem before_14 (c : Dev nD) (t : Fin cfg0.N) (d) : (dat0 V c).before 14 t d = (blk V c t).b14 :=
  ((dat0 V c).before_in_eq_fetched 14 rfl (fun _ => rfl) (fun _ _ _ => rfl) (fun t => by rw [after_14]; rfl) t d).trans rfl
/-- Input window 15's buffer holds its block at every point, fetched there or not. -/
theorem before_15 (c : Dev nD) (t : Fin cfg0.N) (d) : (dat0 V c).before 15 t d = (blk V c t).b15 :=
  ((dat0 V c).before_in_eq_fetched 15 rfl (fun _ => rfl) (fun _ _ _ => rfl) (fun t => by rw [after_15]; rfl) t d).trans rfl
/-- Input window 16's buffer holds its block at every point, fetched there or not. -/
theorem before_16 (c : Dev nD) (t : Fin cfg0.N) (d) : (dat0 V c).before 16 t d = (blk V c t).b16 :=
  ((dat0 V c).before_in_eq_fetched 16 rfl (fun _ => rfl) (fun _ _ _ => rfl) (fun t => by rw [after_16]; rfl) t d).trans rfl
/-- Input window 17's buffer holds its block at every point, fetched there or not. -/
theorem before_17 (c : Dev nD) (t : Fin cfg0.N) (d) : (dat0 V c).before 17 t d = (blk V c t).b17 :=
  ((dat0 V c).before_in_eq_fetched 17 rfl (fun _ => rfl) (fun _ _ _ => rfl) (fun t => by rw [after_17]; rfl) t d).trans rfl
/-- Input window 18's buffer holds its block at every point, fetched there or not. -/
theorem before_18 (c : Dev nD) (t : Fin cfg0.N) (d) : (dat0 V c).before 18 t d = (blk V c t).b18 :=
  ((dat0 V c).before_in_eq_fetched 18 rfl (fun _ => rfl) (fun _ _ _ => rfl) (fun t => by rw [after_18]; rfl) t d).trans rfl
/-- Input window 19's buffer holds its block at every point, fetched there or not. -/
theorem before_19 (c : Dev nD) (t : Fin cfg0.N) (d) : (dat0 V c).before 19 t d = (blk V c t).b19 :=
  ((dat0 V c).before_in_eq_fetched 19 rfl (fun _ => rfl) (fun _ _ _ => rfl) (fun t => by rw [after_19]; rfl) t d).trans rfl
/-- Input window 20's buffer holds its block at every point, fetched there or not. -/
theorem before_20 (c : Dev nD) (t : Fin cfg0.N) (d) : (dat0 V c).before 20 t d = (blk V c t).b20 :=
  ((dat0 V c).before_in_eq_fetched 20 rfl (fun _ => rfl) (fun _ _ _ => rfl) (fun t => by rw [after_20]; rfl) t d).trans rfl
/-- Input window 21's buffer holds its block at every point, fetched there or not. -/
theorem before_21 (c : Dev nD) (t : Fin cfg0.N) (d) : (dat0 V c).before 21 t d = (blk V c t).b21 :=
  ((dat0 V c).before_in_eq_fetched 21 rfl (fun _ => rfl) (fun _ _ _ => rfl) (fun t => by rw [after_21]; rfl) t d).trans rfl
/-- Input window 22's buffer holds its block at every point, fetched there or not. -/
theorem before_22 (c : Dev nD) (t : Fin cfg0.N) (d) : (dat0 V c).before 22 t d = (blk V c t).b22 :=
  ((dat0 V c).before_in_eq_fetched 22 rfl (fun _ => rfl) (fun _ _ _ => rfl) (fun t => by rw [after_22]; rfl) t d).trans rfl
/-- Input window 23's buffer holds its block at every point, fetched there or not. -/
theorem before_23 (c : Dev nD) (t : Fin cfg0.N) (d) : (dat0 V c).before 23 t d = (blk V c t).b23 :=
  ((dat0 V c).before_in_eq_fetched 23 rfl (fun _ => rfl) (fun _ _ _ => rfl) (fun t => by rw [after_23]; rfl) t d).trans rfl
/-- Input window 24's buffer holds its block at every point, fetched there or not. -/
theorem before_24 (c : Dev nD) (t : Fin cfg0.N) (d) : (dat0 V c).before 24 t d = (blk V c t).b24 :=
  ((dat0 V c).before_in_eq_fetched 24 rfl (fun _ => rfl) (fun _ _ _ => rfl) (fun t => by rw [after_24]; rfl) t d).trans rfl

/-! ## The staging memrefs and the invariant -/

abbrev ms0 (t : Fin cfg0.N) : Memref sig .tc .vmem S1x64x128 .f32 := win0_0.stage (cfg0.slots t 0)
abbrev ms1 (t : Fin cfg0.N) : Memref sig .tc .vmem S1x64x128 .f32 := win0_1.stage (cfg0.slots t 1)
abbrev ms2 (t : Fin cfg0.N) : Memref sig .tc .vmem S1x64x3 .f32 := win0_2.stage (cfg0.slots t 2)
abbrev ms3 (t : Fin cfg0.N) : Memref sig .tc .vmem S1x64x3 .f32 := win0_3.stage (cfg0.slots t 3)
abbrev ms4 (t : Fin cfg0.N) : Memref sig .tc .vmem S1x64x3 .f32 := win0_4.stage (cfg0.slots t 4)
abbrev ms5 (t : Fin cfg0.N) : Memref sig .tc .vmem S1x64x3 .f32 := win0_5.stage (cfg0.slots t 5)
abbrev ms6 (t : Fin cfg0.N) : Memref sig .tc .vmem S128x128 .f32 := win0_6.stage (cfg0.slots t 6)
abbrev ms7 (t : Fin cfg0.N) : Memref sig .tc .vmem S128x128 .f32 := win0_7.stage (cfg0.slots t 7)
abbrev ms8 (t : Fin cfg0.N) : Memref sig .tc .vmem S128 .f32 := win0_8.stage (cfg0.slots t 8)
abbrev ms9 (t : Fin cfg0.N) : Memref sig .tc .vmem S128 .f32 := win0_9.stage (cfg0.slots t 9)
abbrev ms10 (t : Fin cfg0.N) : Memref sig .tc .vmem S128 .f32 := win0_10.stage (cfg0.slots t 10)
abbrev ms11 (t : Fin cfg0.N) : Memref sig .tc .vmem S128x128 .f32 := win0_11.stage (cfg0.slots t 11)
abbrev ms12 (t : Fin cfg0.N) : Memref sig .tc .vmem S128 .f32 := win0_12.stage (cfg0.slots t 12)
abbrev ms13 (t : Fin cfg0.N) : Memref sig .tc .vmem S128x1 .f32 := win0_13.stage (cfg0.slots t 13)
abbrev ms14 (t : Fin cfg0.N) : Memref sig .tc .vmem S1 .f32 := win0_14.stage (cfg0.slots t 14)
abbrev ms15 (t : Fin cfg0.N) : Memref sig .tc .vmem S128x128 .f32 := win0_15.stage (cfg0.slots t 15)
abbrev ms16 (t : Fin cfg0.N) : Memref sig .tc .vmem S128 .f32 := win0_16.stage (cfg0.slots t 16)
abbrev ms17 (t : Fin cfg0.N) : Memref sig .tc .vmem S128x1 .f32 := win0_17.stage (cfg0.slots t 17)
abbrev ms18 (t : Fin cfg0.N) : Memref sig .tc .vmem S128x128 .f32 := win0_18.stage (cfg0.slots t 18)
abbrev ms19 (t : Fin cfg0.N) : Memref sig .tc .vmem S128 .f32 := win0_19.stage (cfg0.slots t 19)
abbrev ms20 (t : Fin cfg0.N) : Memref sig .tc .vmem S128x1 .f32 := win0_20.stage (cfg0.slots t 20)
abbrev ms21 (t : Fin cfg0.N) : Memref sig .tc .vmem S256x128 .f32 := win0_21.stage (cfg0.slots t 21)
abbrev ms22 (t : Fin cfg0.N) : Memref sig .tc .vmem S128 .f32 := win0_22.stage (cfg0.slots t 22)
abbrev ms23 (t : Fin cfg0.N) : Memref sig .tc .vmem S128x128 .f32 := win0_23.stage (cfg0.slots t 23)
abbrev ms24 (t : Fin cfg0.N) : Memref sig .tc .vmem S128 .f32 := win0_24.stage (cfg0.slots t 24)
abbrev ms25 (t : Fin cfg0.N) : Memref sig .tc .vmem S1x64x128 .f32 := win0_25.stage (cfg0.slots t 25)
abbrev ms26 (t : Fin cfg0.N) : Memref sig .tc .vmem S1x64x3 .f32 := win0_26.stage (cfg0.slots t 26)
abbrev ms27 (t : Fin cfg0.N) : Memref sig .tc .vmem S1x64x3 .f32 := win0_27.stage (cfg0.slots t 27)

/-- The invariant before the first point: the three scratch buffers at anything, the generator register. -/
theorem PhiA_eq (c : Dev nD) :
    (Pipeline.ΦA spec0 c : sProp 𝕄)
      = iprop(((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- Before any point the scratch buffers are held at some contents. -/
theorem Phi_forget (c : Dev nD) (t : Fin cfg0.N) :
    (dat0 V c).Φ t.castSucc ⊢ iprop(((∃ d, owns (c : Thread nD τ) scM0 fullShare d) ∗ (∃ d, owns (c : Thread nD τ) scM1 fullShare d)
          ∗ (∃ d, owns (c : Thread nD τ) scM2 fullShare d)) ∗ (∃ r, prngReg c r)) := by
  rw [Phi_castSucc]
  by_cases hz : t.val = 0
  · rw [PhiS_zero V c _ _ hz, PhiA_eq]
  · rw [PhiS_pos V c _ _ hz]
    iintro ⟨H0, H1, H2, Hg⟩
    isplitr [Hg]
    · isplitl [H0]; · iexists _; iexact H0
      isplitl [H1]; · iexists _; iexact H1
      iexists _; iexact H2
    · iexact Hg

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d))
    ∗ (∃ d, owns (c : Thread nD τ) (ms7 t) fullShare ((dat0 V c).before 7 t d))
    ∗ (∃ d, owns (c : Thread nD τ) (ms8 t) fullShare ((dat0 V c).before 8 t d))
    ∗ (∃ d, owns (c : Thread nD τ) (ms9 t) fullShare ((dat0 V c).before 9 t d))
    ∗ (∃ d, owns (c : Thread nD τ) (ms10 t) fullShare ((dat0 V c).before 10 t d))
    ∗ (∃ d, owns (c : Thread nD τ) (ms11 t) fullShare ((dat0 V c).before 11 t d))
    ∗ (∃ d, owns (c : Thread nD τ) (ms12 t) fullShare ((dat0 V c).before 12 t d))
    ∗ (∃ d, owns (c : Thread nD τ) (ms13 t) fullShare ((dat0 V c).before 13 t d))
    ∗ (∃ d, owns (c : Thread nD τ) (ms14 t) fullShare ((dat0 V c).before 14 t d))
    ∗ (∃ d, owns (c : Thread nD τ) (ms15 t) fullShare ((dat0 V c).before 15 t d))
    ∗ (∃ d, owns (c : Thread nD τ) (ms16 t) fullShare ((dat0 V c).before 16 t d))
    ∗ (∃ d, owns (c : Thread nD τ) (ms17 t) fullShare ((dat0 V c).before 17 t d))
    ∗ (∃ d, owns (c : Thread nD τ) (ms18 t) fullShare ((dat0 V c).before 18 t d))
    ∗ (∃ d, owns (c : Thread nD τ) (ms19 t) fullShare ((dat0 V c).before 19 t d))
    ∗ (∃ d, owns (c : Thread nD τ) (ms20 t) fullShare ((dat0 V c).before 20 t d))
    ∗ (∃ d, owns (c : Thread nD τ) (ms21 t) fullShare ((dat0 V c).before 21 t d))
    ∗ (∃ d, owns (c : Thread nD τ) (ms22 t) fullShare ((dat0 V c).before 22 t d))
    ∗ (∃ d, owns (c : Thread nD τ) (ms23 t) fullShare ((dat0 V c).before 23 t d))
    ∗ (∃ d, owns (c : Thread nD τ) (ms24 t) fullShare ((dat0 V c).before 24 t d))
    ∗ (∃ d, owns (c : Thread nD τ) (ms25 t) fullShare ((dat0 V c).before 25 t d))
    ∗ (∃ d, owns (c : Thread nD τ) (ms26 t) fullShare ((dat0 V c).before 26 t d))
    ∗ (∃ d, owns (c : Thread nD τ) (ms27 t) fullShare ((dat0 V c).before 27 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t
    ∗ (dat0 V c).leavesExact 17 t
    ∗ (dat0 V c).leavesExact 18 t
    ∗ (dat0 V c).leavesExact 19 t
    ∗ (dat0 V c).leavesExact 20 t
    ∗ (dat0 V c).leavesExact 21 t
    ∗ (dat0 V c).leavesExact 22 t
    ∗ (dat0 V c).leavesExact 23 t
    ∗ (dat0 V c).leavesExact 24 t
    ∗ (dat0 V c).leavesExact 25 t
    ∗ (dat0 V c).leavesExact 26 t
    ∗ (dat0 V c).leavesExact 27 t)

theorem leaves_0 (c : Dev nD) (t : Fin cfg0.N) :
    (dat0 V c).leavesExact 0 t = owns (c : Thread nD τ) (ms0 t) fullShare (blk V c t).b0 :=
  (show _ = owns (c : Thread nD τ) (ms0 t) fullShare ((dat0 V c).after 0 t) from rfl).trans (by rw [after_0]; rfl)
theorem leaves_1 (c : Dev nD) (t : Fin cfg0.N) :
    (dat0 V c).leavesExact 1 t = owns (c : Thread nD τ) (ms1 t) fullShare (blk V c t).b1 :=
  (show _ = owns (c : Thread nD τ) (ms1 t) fullShare ((dat0 V c).after 1 t) from rfl).trans (by rw [after_1]; rfl)
theorem leaves_2 (c : Dev nD) (t : Fin cfg0.N) :
    (dat0 V c).leavesExact 2 t = owns (c : Thread nD τ) (ms2 t) fullShare (blk V c t).b2 :=
  (show _ = owns (c : Thread nD τ) (ms2 t) fullShare ((dat0 V c).after 2 t) from rfl).trans (by rw [after_2]; rfl)
theorem leaves_3 (c : Dev nD) (t : Fin cfg0.N) :
    (dat0 V c).leavesExact 3 t = owns (c : Thread nD τ) (ms3 t) fullShare (blk V c t).b3 :=
  (show _ = owns (c : Thread nD τ) (ms3 t) fullShare ((dat0 V c).after 3 t) from rfl).trans (by rw [after_3]; rfl)
theorem leaves_4 (c : Dev nD) (t : Fin cfg0.N) :
    (dat0 V c).leavesExact 4 t = owns (c : Thread nD τ) (ms4 t) fullShare (blk V c t).b4 :=
  (show _ = owns (c : Thread nD τ) (ms4 t) fullShare ((dat0 V c).after 4 t) from rfl).trans (by rw [after_4]; rfl)
theorem leaves_5 (c : Dev nD) (t : Fin cfg0.N) :
    (dat0 V c).leavesExact 5 t = owns (c : Thread nD τ) (ms5 t) fullShare (blk V c t).b5 :=
  (show _ = owns (c : Thread nD τ) (ms5 t) fullShare ((dat0 V c).after 5 t) from rfl).trans (by rw [after_5]; rfl)
theorem leaves_6 (c : Dev nD) (t : Fin cfg0.N) :
    (dat0 V c).leavesExact 6 t = owns (c : Thread nD τ) (ms6 t) fullShare (blk V c t).b6 :=
  (show _ = owns (c : Thread nD τ) (ms6 t) fullShare ((dat0 V c).after 6 t) from rfl).trans (by rw [after_6]; rfl)
theorem leaves_7 (c : Dev nD) (t : Fin cfg0.N) :
    (dat0 V c).leavesExact 7 t = owns (c : Thread nD τ) (ms7 t) fullShare (blk V c t).b7 :=
  (show _ = owns (c : Thread nD τ) (ms7 t) fullShare ((dat0 V c).after 7 t) from rfl).trans (by rw [after_7]; rfl)
theorem leaves_8 (c : Dev nD) (t : Fin cfg0.N) :
    (dat0 V c).leavesExact 8 t = owns (c : Thread nD τ) (ms8 t) fullShare (blk V c t).b8 :=
  (show _ = owns (c : Thread nD τ) (ms8 t) fullShare ((dat0 V c).after 8 t) from rfl).trans (by rw [after_8]; rfl)
theorem leaves_9 (c : Dev nD) (t : Fin cfg0.N) :
    (dat0 V c).leavesExact 9 t = owns (c : Thread nD τ) (ms9 t) fullShare (blk V c t).b9 :=
  (show _ = owns (c : Thread nD τ) (ms9 t) fullShare ((dat0 V c).after 9 t) from rfl).trans (by rw [after_9]; rfl)
theorem leaves_10 (c : Dev nD) (t : Fin cfg0.N) :
    (dat0 V c).leavesExact 10 t = owns (c : Thread nD τ) (ms10 t) fullShare (blk V c t).b10 :=
  (show _ = owns (c : Thread nD τ) (ms10 t) fullShare ((dat0 V c).after 10 t) from rfl).trans (by rw [after_10]; rfl)
theorem leaves_11 (c : Dev nD) (t : Fin cfg0.N) :
    (dat0 V c).leavesExact 11 t = owns (c : Thread nD τ) (ms11 t) fullShare (blk V c t).b11 :=
  (show _ = owns (c : Thread nD τ) (ms11 t) fullShare ((dat0 V c).after 11 t) from rfl).trans (by rw [after_11]; rfl)
theorem leaves_12 (c : Dev nD) (t : Fin cfg0.N) :
    (dat0 V c).leavesExact 12 t = owns (c : Thread nD τ) (ms12 t) fullShare (blk V c t).b12 :=
  (show _ = owns (c : Thread nD τ) (ms12 t) fullShare ((dat0 V c).after 12 t) from rfl).trans (by rw [after_12]; rfl)
theorem leaves_13 (c : Dev nD) (t : Fin cfg0.N) :
    (dat0 V c).leavesExact 13 t = owns (c : Thread nD τ) (ms13 t) fullShare (blk V c t).b13 :=
  (show _ = owns (c : Thread nD τ) (ms13 t) fullShare ((dat0 V c).after 13 t) from rfl).trans (by rw [after_13]; rfl)
theorem leaves_14 (c : Dev nD) (t : Fin cfg0.N) :
    (dat0 V c).leavesExact 14 t = owns (c : Thread nD τ) (ms14 t) fullShare (blk V c t).b14 :=
  (show _ = owns (c : Thread nD τ) (ms14 t) fullShare ((dat0 V c).after 14 t) from rfl).trans (by rw [after_14]; rfl)
theorem leaves_15 (c : Dev nD) (t : Fin cfg0.N) :
    (dat0 V c).leavesExact 15 t = owns (c : Thread nD τ) (ms15 t) fullShare (blk V c t).b15 :=
  (show _ = owns (c : Thread nD τ) (ms15 t) fullShare ((dat0 V c).after 15 t) from rfl).trans (by rw [after_15]; rfl)
theorem leaves_16 (c : Dev nD) (t : Fin cfg0.N) :
    (dat0 V c).leavesExact 16 t = owns (c : Thread nD τ) (ms16 t) fullShare (blk V c t).b16 :=
  (show _ = owns (c : Thread nD τ) (ms16 t) fullShare ((dat0 V c).after 16 t) from rfl).trans (by rw [after_16]; rfl)
theorem leaves_17 (c : Dev nD) (t : Fin cfg0.N) :
    (dat0 V c).leavesExact 17 t = owns (c : Thread nD τ) (ms17 t) fullShare (blk V c t).b17 :=
  (show _ = owns (c : Thread nD τ) (ms17 t) fullShare ((dat0 V c).after 17 t) from rfl).trans (by rw [after_17]; rfl)
theorem leaves_18 (c : Dev nD) (t : Fin cfg0.N) :
    (dat0 V c).leavesExact 18 t = owns (c : Thread nD τ) (ms18 t) fullShare (blk V c t).b18 :=
  (show _ = owns (c : Thread nD τ) (ms18 t) fullShare ((dat0 V c).after 18 t) from rfl).trans (by rw [after_18]; rfl)
theorem leaves_19 (c : Dev nD) (t : Fin cfg0.N) :
    (dat0 V c).leavesExact 19 t = owns (c : Thread nD τ) (ms19 t) fullShare (blk V c t).b19 :=
  (show _ = owns (c : Thread nD τ) (ms19 t) fullShare ((dat0 V c).after 19 t) from rfl).trans (by rw [after_19]; rfl)
theorem leaves_20 (c : Dev nD) (t : Fin cfg0.N) :
    (dat0 V c).leavesExact 20 t = owns (c : Thread nD τ) (ms20 t) fullShare (blk V c t).b20 :=
  (show _ = owns (c : Thread nD τ) (ms20 t) fullShare ((dat0 V c).after 20 t) from rfl).trans (by rw [after_20]; rfl)
theorem leaves_21 (c : Dev nD) (t : Fin cfg0.N) :
    (dat0 V c).leavesExact 21 t = owns (c : Thread nD τ) (ms21 t) fullShare (blk V c t).b21 :=
  (show _ = owns (c : Thread nD τ) (ms21 t) fullShare ((dat0 V c).after 21 t) from rfl).trans (by rw [after_21]; rfl)
theorem leaves_22 (c : Dev nD) (t : Fin cfg0.N) :
    (dat0 V c).leavesExact 22 t = owns (c : Thread nD τ) (ms22 t) fullShare (blk V c t).b22 :=
  (show _ = owns (c : Thread nD τ) (ms22 t) fullShare ((dat0 V c).after 22 t) from rfl).trans (by rw [after_22]; rfl)
theorem leaves_23 (c : Dev nD) (t : Fin cfg0.N) :
    (dat0 V c).leavesExact 23 t = owns (c : Thread nD τ) (ms23 t) fullShare (blk V c t).b23 :=
  (show _ = owns (c : Thread nD τ) (ms23 t) fullShare ((dat0 V c).after 23 t) from rfl).trans (by rw [after_23]; rfl)
theorem leaves_24 (c : Dev nD) (t : Fin cfg0.N) :
    (dat0 V c).leavesExact 24 t = owns (c : Thread nD τ) (ms24 t) fullShare (blk V c t).b24 :=
  (show _ = owns (c : Thread nD τ) (ms24 t) fullShare ((dat0 V c).after 24 t) from rfl).trans (by rw [after_24]; rfl)

end Cert.KernelIdeal.Hand

end
-- ==== Proof.KBodyF.lean ====
/-
  The kernel body at a grid point where the sending tile is the FIRST of its row: the three sums are reset to zero, then the tile is added; the result windows are not touched. On whole staging buffers holding the point's 25 input
  blocks the body runs without fault and hands every input buffer back as it was, the three scratch buffers at the sums
  after the point (one `step` of KDefs).
-/
import proofs.«145759_j13950053777588_1_alg».proof.Proof.KBodyPre
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_F (c : Dev nD) (i : grid0.Coords) (arg3 : Memref sig .tc .vmem S1x64x128 .f32) (harg3 : arg3.IsWhole) (arg4 : Memref sig .tc .vmem S1x64x128 .f32) (harg4 : arg4.IsWhole) (arg5 : Memref sig .tc .vmem S1x64x3 .f32) (harg5 : arg5.IsWhole) (arg6 : Memref sig .tc .vmem S1x64x3 .f32) (harg6 : arg6.IsWhole) (arg7 : Memref sig .tc .vmem S1x64x3 .f32) (harg7 : arg7.IsWhole) (arg8 : Memref sig .tc .vmem S1x64x3 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S128x1 .f32) (harg16 : arg16.IsWhole) (arg17 : Memref sig .tc .vmem S1 .f32) (harg17 : arg17.IsWhole) (arg18 : Memref sig .tc .vmem S128x128 .f32) (harg18 : arg18.IsWhole) (arg19 : Memref sig .tc .vmem S128 .f32) (harg19 : arg19.IsWhole) (arg20 : Memref sig .tc .vmem S128x1 .f32) (harg20 : arg20.IsWhole) (arg21 : Memref sig .tc .vmem S128x128 .f32) (harg21 : arg21.IsWhole) (arg22 : Memref sig .tc .vmem S128 .f32) (harg22 : arg22.IsWhole) (arg23 : Memref sig .tc .vmem S128x1 .f32) (harg23 : arg23.IsWhole) (arg24 : Memref sig .tc .vmem S256x128 .f32) (harg24 : arg24.IsWhole) (arg25 : Memref sig .tc .vmem S128 .f32) (harg25 : arg25.IsWhole) (arg26 : Memref sig .tc .vmem S128x128 .f32) (harg26 : arg26.IsWhole) (arg27 : Memref sig .tc .vmem S128 .f32) (harg27 : arg27.IsWhole) (arg28 : Memref sig .tc .vmem S1x64x128 .f32) (harg28 : arg28.IsWhole) (arg29 : Memref sig .tc .vmem S1x64x3 .f32) (harg29 : arg29.IsWhole) (arg30 : Memref sig .tc .vmem S1x64x3 .f32) (harg30 : arg30.IsWhole) (arg31 : Memref sig .tc .vmem S64x3 .f32) (harg31 : arg31.IsWhole) (arg32 : Memref sig .tc .vmem S64x3 .f32) (harg32 : arg32.IsWhole) (arg33 : Memref sig .tc .vmem S64x128 .f32) (harg33 : arg33.IsWhole)
    (hc0 : cond0 i) (hc1 : ¬cond1 i) (B : Blk F) (X28 : Vec F S1x64x128 .f32) (X29 X30 : Vec F S1x64x3 .f32) (E : Set ℕ) (K : PUnit → sProp 𝕄) :
    iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ owns (c : Thread nD τ) arg28 fullShare X28 ∗ owns (c : Thread nD τ) arg29 fullShare X29 ∗ owns (c : Thread nD τ) arg30 fullShare X30
        ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ owns (c : Thread nD τ) arg28 fullShare X28 ∗ owns (c : Thread nD τ) arg29 fullShare X29 ∗ owns (c : Thread nD τ) arg30 fullShare X30
            ∗ owns (c : Thread nD τ) arg31 fullShare (step B zAcc).1 ∗ owns (c : Thread nD τ) arg32 fullShare (step B zAcc).2.1 ∗ owns (c : Thread nD τ) arg33 fullShare (step B zAcc).2.2) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; · ipureintro; exact harg24.read_unread _
    iexact H21
  isplitl [H22]
  · iexists _; isplitr; · ipureintro; exact harg25.read_unread _
    iexact H22
  isplitl [H23]
  · iexists _; isplitr; · ipureintro; exact harg26.read_unread _
    iexact H23
  isplitl [H24]
  · iexists _; isplitr; · ipureintro; exact harg27.read_unread _
    iexact H24
  isplitl [H25]; · iexists _; isplitr; · ipureintro; exact hf25
                   iexact H25
  isplitl [H26]; · iexists _; isplitr; · ipureintro; exact hf26
                   iexact H26
  isplitl [H27]; · iexists _; isplitr; · ipureintro; exact hf27
                   iexact H27
  isplitl [HS0]
  · iexists _; isplitr
    swap; · iexact HS0
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [HS1]
  · iexists _; isplitr
    swap; · iexact HS1
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  · iexists _; isplitr
    swap; · iexact HS2
    ipureintro
    (try sl_unfold_run_names); rw [last_store (S := S64x128) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl

end Cert.KernelIdeal.Hand

end
-- ==== Proof.KBodyM.lean ====
/-
  The kernel body at a grid point where the sending tile is neither the first nor the last of its row: the tile is added to the three sums; the result windows are not touched. On whole staging buffers holding the point's 25 input
  blocks the body runs without fault and hands every input buffer back as it was, the three scratch buffers at the sums
  after the point (one `step` of KDefs).
-/
import proofs.«145759_j13950053777588_1_alg».proof.Proof.KBodyPre
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_M (c : Dev nD) (i : grid0.Coords) (arg3 : Memref sig .tc .vmem S1x64x128 .f32) (harg3 : arg3.IsWhole) (arg4 : Memref sig .tc .vmem S1x64x128 .f32) (harg4 : arg4.IsWhole) (arg5 : Memref sig .tc .vmem S1x64x3 .f32) (harg5 : arg5.IsWhole) (arg6 : Memref sig .tc .vmem S1x64x3 .f32) (harg6 : arg6.IsWhole) (arg7 : Memref sig .tc .vmem S1x64x3 .f32) (harg7 : arg7.IsWhole) (arg8 : Memref sig .tc .vmem S1x64x3 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S128x1 .f32) (harg16 : arg16.IsWhole) (arg17 : Memref sig .tc .vmem S1 .f32) (harg17 : arg17.IsWhole) (arg18 : Memref sig .tc .vmem S128x128 .f32) (harg18 : arg18.IsWhole) (arg19 : Memref sig .tc .vmem S128 .f32) (harg19 : arg19.IsWhole) (arg20 : Memref sig .tc .vmem S128x1 .f32) (harg20 : arg20.IsWhole) (arg21 : Memref sig .tc .vmem S128x128 .f32) (harg21 : arg21.IsWhole) (arg22 : Memref sig .tc .vmem S128 .f32) (harg22 : arg22.IsWhole) (arg23 : Memref sig .tc .vmem S128x1 .f32) (harg23 : arg23.IsWhole) (arg24 : Memref sig .tc .vmem S256x128 .f32) (harg24 : arg24.IsWhole) (arg25 : Memref sig .tc .vmem S128 .f32) (harg25 : arg25.IsWhole) (arg26 : Memref sig .tc .vmem S128x128 .f32) (harg26 : arg26.IsWhole) (arg27 : Memref sig .tc .vmem S128 .f32) (harg27 : arg27.IsWhole) (arg28 : Memref sig .tc .vmem S1x64x128 .f32) (harg28 : arg28.IsWhole) (arg29 : Memref sig .tc .vmem S1x64x3 .f32) (harg29 : arg29.IsWhole) (arg30 : Memref sig .tc .vmem S1x64x3 .f32) (harg30 : arg30.IsWhole) (arg31 : Memref sig .tc .vmem S64x3 .f32) (harg31 : arg31.IsWhole) (arg32 : Memref sig .tc .vmem S64x3 .f32) (harg32 : arg32.IsWhole) (arg33 : Memref sig .tc .vmem S64x128 .f32) (harg33 : arg33.IsWhole)
    (hc0 : ¬cond0 i) (hc1 : ¬cond1 i) (B : Blk F) (a : Acc F) (X28 : Vec F S1x64x128 .f32) (X29 X30 : Vec F S1x64x3 .f32) (E : Set ℕ) (K : PUnit → sProp 𝕄) :
    iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ owns (c : Thread nD τ) arg28 fullShare X28 ∗ owns (c : Thread nD τ) arg29 fullShare X29 ∗ owns (c : Thread nD τ) arg30 fullShare X30
        ∗ owns (c : Thread nD τ) arg31 fullShare a.1 ∗ owns (c : Thread nD τ) arg32 fullShare a.2.1 ∗ owns (c : Thread nD τ) arg33 fullShare a.2.2
        ∗ (iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ owns (c : Thread nD τ) arg28 fullShare X28 ∗ owns (c : Thread nD τ) arg29 fullShare X29 ∗ owns (c : Thread nD τ) arg30 fullShare X30
            ∗ owns (c : Thread nD τ) arg31 fullShare (step B a).1 ∗ owns (c : Thread nD τ) arg32 fullShare (step B a).2.1 ∗ owns (c : Thread nD τ) arg33 fullShare (step B a).2.2) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
  obtain rfl := harg31.eq_unread hfs0; obtain rfl := harg32.eq_unread hfs1; obtain rfl := harg33.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; · ipureintro; exact harg24.read_unread _
    iexact H21
  isplitl [H22]
  · iexists _; isplitr; · ipureintro; exact harg25.read_unread _
    iexact H22
  isplitl [H23]
  · iexists _; isplitr; · ipureintro; exact harg26.read_unread _
    iexact H23
  isplitl [H24]
  · iexists _; isplitr; · ipureintro; exact harg27.read_unread _
    iexact H24
  isplitl [H25]; · iexists _; isplitr; · ipureintro; exact hf25
                   iexact H25
  isplitl [H26]; · iexists _; isplitr; · ipureintro; exact hf26
                   iexact H26
  isplitl [H27]; · iexists _; isplitr; · ipureintro; exact hf27
                   iexact H27
  isplitl [HS0]
  · iexists _; isplitr
    swap; · iexact HS0
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [HS1]
  · iexists _; isplitr
    swap; · iexact HS1
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  · iexists _; isplitr
    swap; · iexact HS2
    ipureintro
    (try sl_unfold_run_names); rw [last_store (S := S64x128) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl

end Cert.KernelIdeal.Hand

end
-- ==== Proof.KBodyL.lean ====
/-
  The kernel body at a grid point where the sending tile is the LAST of its row: the tile is added to the three sums, and the receiving tile's three result blocks are written from the finished sums. On whole staging buffers holding the point's 25 input
  blocks the body runs without fault and hands every input buffer back as it was, the three scratch buffers at the sums
  after the point (one `step` of KDefs), and the three result buffers at the blocks \`finH\`, \`finP\`, \`finV\` of the finished sums.
-/
import proofs.«145759_j13950053777588_1_alg».proof.Proof.KBodyPre
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_L (c : Dev nD) (i : grid0.Coords) (arg3 : Memref sig .tc .vmem S1x64x128 .f32) (harg3 : arg3.IsWhole) (arg4 : Memref sig .tc .vmem S1x64x128 .f32) (harg4 : arg4.IsWhole) (arg5 : Memref sig .tc .vmem S1x64x3 .f32) (harg5 : arg5.IsWhole) (arg6 : Memref sig .tc .vmem S1x64x3 .f32) (harg6 : arg6.IsWhole) (arg7 : Memref sig .tc .vmem S1x64x3 .f32) (harg7 : arg7.IsWhole) (arg8 : Memref sig .tc .vmem S1x64x3 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S128x1 .f32) (harg16 : arg16.IsWhole) (arg17 : Memref sig .tc .vmem S1 .f32) (harg17 : arg17.IsWhole) (arg18 : Memref sig .tc .vmem S128x128 .f32) (harg18 : arg18.IsWhole) (arg19 : Memref sig .tc .vmem S128 .f32) (harg19 : arg19.IsWhole) (arg20 : Memref sig .tc .vmem S128x1 .f32) (harg20 : arg20.IsWhole) (arg21 : Memref sig .tc .vmem S128x128 .f32) (harg21 : arg21.IsWhole) (arg22 : Memref sig .tc .vmem S128 .f32) (harg22 : arg22.IsWhole) (arg23 : Memref sig .tc .vmem S128x1 .f32) (harg23 : arg23.IsWhole) (arg24 : Memref sig .tc .vmem S256x128 .f32) (harg24 : arg24.IsWhole) (arg25 : Memref sig .tc .vmem S128 .f32) (harg25 : arg25.IsWhole) (arg26 : Memref sig .tc .vmem S128x128 .f32) (harg26 : arg26.IsWhole) (arg27 : Memref sig .tc .vmem S128 .f32) (harg27 : arg27.IsWhole) (arg28 : Memref sig .tc .vmem S1x64x128 .f32) (harg28 : arg28.IsWhole) (arg29 : Memref sig .tc .vmem S1x64x3 .f32) (harg29 : arg29.IsWhole) (arg30 : Memref sig .tc .vmem S1x64x3 .f32) (harg30 : arg30.IsWhole) (arg31 : Memref sig .tc .vmem S64x3 .f32) (harg31 : arg31.IsWhole) (arg32 : Memref sig .tc .vmem S64x3 .f32) (harg32 : arg32.IsWhole) (arg33 : Memref sig .tc .vmem S64x128 .f32) (harg33 : arg33.IsWhole)
    (hc0 : ¬cond0 i) (hc1 : cond1 i) (B : Blk F) (a : Acc F) (E : Set ℕ) (K : PUnit → sProp 𝕄) :
    iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ (∃ d, owns (c : Thread nD τ) arg28 fullShare d) ∗ (∃ d, owns (c : Thread nD τ) arg29 fullShare d) ∗ (∃ d, owns (c : Thread nD τ) arg30 fullShare d)
        ∗ owns (c : Thread nD τ) arg31 fullShare a.1 ∗ owns (c : Thread nD τ) arg32 fullShare a.2.1 ∗ owns (c : Thread nD τ) arg33 fullShare a.2.2
        ∗ (iprop(owns (c : Thread nD τ) arg3 fullShare B.b0 ∗ owns (c : Thread nD τ) arg4 fullShare B.b1 ∗ owns (c : Thread nD τ) arg5 fullShare B.b2 ∗ owns (c : Thread nD τ) arg6 fullShare B.b3 ∗ owns (c : Thread nD τ) arg7 fullShare B.b4 ∗ owns (c : Thread nD τ) arg8 fullShare B.b5 ∗ owns (c : Thread nD τ) arg9 fullShare B.b6 ∗ owns (c : Thread nD τ) arg10 fullShare B.b7 ∗ owns (c : Thread nD τ) arg11 fullShare B.b8 ∗ owns (c : Thread nD τ) arg12 fullShare B.b9 ∗ owns (c : Thread nD τ) arg13 fullShare B.b10 ∗ owns (c : Thread nD τ) arg14 fullShare B.b11 ∗ owns (c : Thread nD τ) arg15 fullShare B.b12 ∗ owns (c : Thread nD τ) arg16 fullShare B.b13 ∗ owns (c : Thread nD τ) arg17 fullShare B.b14 ∗ owns (c : Thread nD τ) arg18 fullShare B.b15 ∗ owns (c : Thread nD τ) arg19 fullShare B.b16 ∗ owns (c : Thread nD τ) arg20 fullShare B.b17 ∗ owns (c : Thread nD τ) arg21 fullShare B.b18 ∗ owns (c : Thread nD τ) arg22 fullShare B.b19 ∗ owns (c : Thread nD τ) arg23 fullShare B.b20 ∗ owns (c : Thread nD τ) arg24 fullShare B.b21 ∗ owns (c : Thread nD τ) arg25 fullShare B.b22 ∗ owns (c : Thread nD τ) arg26 fullShare B.b23 ∗ owns (c : Thread nD τ) arg27 fullShare B.b24 ∗ owns (c : Thread nD τ) arg28 fullShare (finH B (step B a).2.2) ∗ owns (c : Thread nD τ) arg29 fullShare (finP B (step B a).1) ∗ owns (c : Thread nD τ) arg30 fullShare (finV B (step B a).2.1)
            ∗ owns (c : Thread nD τ) arg31 fullShare (step B a).1 ∗ owns (c : Thread nD τ) arg32 fullShare (step B a).2.1 ∗ owns (c : Thread nD τ) arg33 fullShare (step B a).2.2) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
  obtain rfl := harg31.eq_unread hfs0; obtain rfl := harg32.eq_unread hfs1; obtain rfl := harg33.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; · ipureintro; exact harg24.read_unread _
    iexact H21
  isplitl [H22]
  · iexists _; isplitr; · ipureintro; exact harg25.read_unread _
    iexact H22
  isplitl [H23]
  · iexists _; isplitr; · ipureintro; exact harg26.read_unread _
    iexact H23
  isplitl [H24]
  · iexists _; isplitr; · ipureintro; exact harg27.read_unread _
    iexact H24
  isplitl [H25]
  · iexists _; isplitr
    swap; · iexact H25
    ipureintro
    (try sl_unfold_run_names); rw [last_store (S := S1x64x128) _ _ hz3]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [H26]
  · iexists _; isplitr
    swap; · iexact H26
    ipureintro
    (try sl_unfold_run_names); rw [last_store (S := S1x64x3) _ _ hz3]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [H27]
  · iexists _; isplitr
    swap; · iexact H27
    ipureintro
    (try sl_unfold_run_names); rw [last_store (S := S1x64x3) _ _ hz3]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [HS0]
  · iexists _; isplitr
    swap; · iexact HS0
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  isplitl [HS1]
  · iexists _; isplitr
    swap; · iexact HS1
    ipureintro
    (try sl_unfold_run_names); rw [last_store (S := S64x3) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl
  · iexists _; isplitr
    swap; · iexact HS2
    ipureintro
    (try sl_unfold_run_names); rw [last_store (S := S64x128) _ _ hz2]; (try sl_unfold_run_names)
    simp only [View.readAt_eq_ld, Memref.IsWhole.read_unread, View.ld_unit_zero (S := S1x64x128) hz3, View.ld_unit_zero (S := S1x64x3) hz3, View.ld_unit_zero (S := S128x128) hz2, View.ld_unit_zero (S := S128x1) hz2, View.ld_unit_zero (S := S256x128) hz2, View.ld_unit_zero (S := S64x3) hz2, View.ld_unit_zero (S := S64x128) hz2, View.ld_unit_zero (S := S128) hz1, View.ld_unit_zero (S := S1) hz1, View.readCov_unit_zero (S := S64x3) _ hz2, View.readCov_unit_zero (S := S64x128) _ hz2]
    rfl

end Cert.KernelIdeal.Hand

end
-- ==== Proof.KBody.lean ====
/-
  The body obligation of the tiled kernel, at any float instance, from three runs of the kernel function — at a first,
  a middle and a last sending tile of a row. At every point each input window's buffer holds its block, fetched there or
  not; the three sums in scratch are at what the point before left (at anything before a first sending tile, which
  resets them); the result windows are idle except at a last sending tile, which writes them from the finished sums.
-/
import proofs.«145759_j13950053777588_1_alg».proof.Proof.KBody0
import proofs.«145759_j13950053777588_1_alg».proof.Proof.KBodyF
import proofs.«145759_j13950053777588_1_alg».proof.Proof.KBodyM
import proofs.«145759_j13950053777588_1_alg».proof.Proof.KBodyL

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
/-- A first sending tile of a row: the sums restart from zero, whatever the scratch held; the result windows pass through. -/
theorem sound_F (c : Dev nD) (t : Fin cfg0.N) (h0 : t.val % 8 = 0) :
    bodyPre V c t ⊢ wp frame (wpE (defs₀ (F := F)) Variants.none c none) Set.univ (bodyAt0 t) (fun _ => bodyPost V c t) := by
  have hc0 : cond0 (grid0.coords t) := (hcond0 t).mpr h0
  have hc1 : ¬ cond1 (grid0.coords t) := fun h => by have := (hcond1 t).mp h; omega
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dat0 V c).owesAt () t.succ = (dat0 V c).owesAt () t.castSucc from rfl]
  rw [Phi_succ, PhiS_succ, accs_first V c t h0]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24]
  rw [Dat.leavesExact_idle (dat0 V c) 25 t (idleOut 25 (by decide) t hc1) (noFlushOut 25 (by decide) t hc1),
    Dat.leavesExact_idle (dat0 V c) 26 t (idleOut 26 (by decide) t hc1) (noFlushOut 26 (by decide) t hc1),
    Dat.leavesExact_idle (dat0 V c) 27 t (idleOut 27 (by decide) t hc1) (noFlushOut 27 (by decide) t hc1)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  ihave HΦ := (Phi_forget V c t) $$ HΦ
  icases HΦ with ⟨⟨HS0, HS1, HS2⟩, Hg⟩
  iapply (run_F c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 (blk V c t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, H25, H26, H27, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  iexists _; iexact H27

set_option maxHeartbeats 4800000 in
/-- A middle sending tile: one more step on the sums the point before left; the result windows pass through. -/
theorem sound_M (c : Dev nD) (t : Fin cfg0.N) (h0 : ¬ t.val % 8 = 0) (h1 : ¬ t.val % 8 = 7) :
    bodyPre V c t ⊢ wp frame (wpE (defs₀ (F := F)) Variants.none c none) Set.univ (bodyAt0 t) (fun _ => bodyPost V c t) := by
  have hc0 : ¬ cond0 (grid0.coords t) := fun h => h0 ((hcond0 t).mp h)
  have hc1 : ¬ cond1 (grid0.coords t) := fun h => h1 ((hcond1 t).mp h)
  have hz : t.val ≠ 0 := fun e => h0 (by rw [e])
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dat0 V c).owesAt () t.succ = (dat0 V c).owesAt () t.castSucc from rfl]
  rw [Phi_succ, PhiS_succ, accs_next V c t h0]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24]
  rw [Dat.leavesExact_idle (dat0 V c) 25 t (idleOut 25 (by decide) t hc1) (noFlushOut 25 (by decide) t hc1),
    Dat.leavesExact_idle (dat0 V c) 26 t (idleOut 26 (by decide) t hc1) (noFlushOut 26 (by decide) t hc1),
    Dat.leavesExact_idle (dat0 V c) 27 t (idleOut 27 (by decide) t hc1) (noFlushOut 27 (by decide) t hc1)]
  rw [Phi_castSucc, PhiS_pos V c _ _ hz]
  iintro ⟨⟨HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run_M c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 (blk V c t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, H25, H26, H27, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  iexists _; iexact H27

set_option maxHeartbeats 4800000 in
/-- A last sending tile: one more step, and the three result blocks written from the finished sums. -/
theorem sound_L (c : Dev nD) (t : Fin cfg0.N) (h1 : t.val % 8 = 7) :
    bodyPre V c t ⊢ wp frame (wpE (defs₀ (F := F)) Variants.none c none) Set.univ (bodyAt0 t) (fun _ => bodyPost V c t) := by
  have h0 : ¬ t.val % 8 = 0 := by omega
  have hc0 : ¬ cond0 (grid0.coords t) := fun h => h0 ((hcond0 t).mp h)
  have hc1 : cond1 (grid0.coords t) := (hcond1 t).mpr h1
  have hz : t.val ≠ 0 := fun e => h0 (by rw [e])
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dat0 V c).owesAt () t.succ = (dat0 V c).owesAt () t.castSucc from rfl]
  rw [Phi_succ, PhiS_succ, accs_next V c t h0]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24]
  rw [show (dat0 V c).leavesExact 25 t = owns (c : Thread nD τ) (ms25 t) fullShare ((dat0 V c).after 25 t) from by
      unfold Dat.leavesExact; rw [liveOut 25 (by decide) t hc1], after_25,
    show (dat0 V c).leavesExact 26 t = owns (c : Thread nD τ) (ms26 t) fullShare ((dat0 V c).after 26 t) from by
      unfold Dat.leavesExact; rw [liveOut 26 (by decide) t hc1], after_26,
    show (dat0 V c).leavesExact 27 t = owns (c : Thread nD τ) (ms27 t) fullShare ((dat0 V c).after 27 t) from by
      unfold Dat.leavesExact; rw [liveOut 27 (by decide) t hc1], after_27, accs_next V c t h0]
  rw [Phi_castSucc, PhiS_pos V c _ _ hz]
  iintro ⟨⟨HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run_L c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 (blk V c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, H25, H26, H27, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body at any point, by the place of its sending tile in the row. -/
theorem sound_body (c : Dev nD) (t : Fin cfg0.N) :
    bodyPre V c t ⊢ wp frame (wpE (defs₀ (F := F)) Variants.none c none) Set.univ (bodyAt0 t) (fun _ => bodyPost V c t) := by
  by_cases h0 : t.val % 8 = 0
  · exact sound_F V c t h0
  · by_cases h1 : t.val % 8 = 7
    · exact sound_L V c t h1
    · exact sound_M V c t h0 h1

/-- The library's body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body V c t

end Cert.KernelIdeal.Hand

end
-- ==== Proof.Spec.lean ====
/-
  One layer of a dense, velocity-aware equivariant message-passing network over the extended reals,
  written index by index as a function of its nineteen argument arrays. No program is mentioned here: this is
  the function both the tiled kernel and the plain reference are shown to compute.

  For a batch entry b, a receiving node i and a sending node j:
    d_pos(b,i,j,k) = pos(b,i,k) - pos(b,j,k), likewise d_vel; their squared lengths s_pos, s_vel (sums over k < 3);
    pre(b,i,j,c)   = h(b,i,:)·We1[0:128, c] + h(b,j,:)·We1[128:256, c] + s_pos·We1[256, c] + s_vel·We1[257, c] + be1(c)
    m1 = silu pre,  m2 = silu (m1·We2 + be2),  att = logistic (m2·Wa + ba),  msg = m2 · att
    gate_p = tanh (silu (msg·Wp1 + bp1) · Wp2), gate_v likewise with Wv1, bv1, Wv2
    pos'(b,i,k) = clamp (pos(b,i,k) + (Σ_j d_pos(b,i,j,k) · gate_p(b,i,j)) / 511) to [-100, 100], vel' likewise
    agg(b,i,c)  = Σ_j msg(b,i,j,c)
    h'(b,i,c)   = h(b,i,c) + (silu ([h(b,i,:), agg(b,i,:)]·Wn1 + bn1) · Wn2 + bn2)(c)
  where silu x = x · logistic x. The float literals stay as their words (the same words on both sides).
-/
import Idealize.ShloMosaic.PureOps.Ideal
import Idealize.ShloMosaic.Lib.ValueIdx

noncomputable section

namespace Cert.Egnn

open Idealize.ShloMosaic Idealize.ShloMosaic.ValueIdx

abbrev A3 (a b c : Nat) : Type := (⟨3, ![a, b, c]⟩ : Shape).Idx → EReal
abbrev A2 (a b : Nat) : Type := (⟨2, ![a, b]⟩ : Shape).Idx → EReal
abbrev A1 (a : Nat) : Type := (⟨1, ![a]⟩ : Shape).Idx → EReal

/-- The layer's inputs and weights. -/
structure Args where
  h : A3 2 512 128
  pos : A3 2 512 3
  vel : A3 2 512 3
  We1 : A2 258 128
  be1 : A1 128
  We2 : A2 128 128
  be2 : A1 128
  Wa : A2 128 1
  ba : A1 1
  Wp1 : A2 128 128
  bp1 : A1 128
  Wp2 : A2 128 1
  Wv1 : A2 128 128
  bv1 : A1 128
  Wv2 : A2 128 1
  Wn1 : A2 256 128
  bn1 : A1 128
  Wn2 : A2 128 128
  bn2 : A1 128

/-- The clamp bounds and the divisor N - 1 = 511, as the words both programs spell. -/
def cLo : EReal := Ideal.ofBits .f32 0xC2C80000#32
def cHi : EReal := Ideal.ofBits .f32 0x42C80000#32
def c511 : EReal := Ideal.ofBits .f32 0x43FF8000#32

/-- x · logistic x. -/
def silu (x : EReal) : EReal := x * Ideal.logistic x

/-- Coordinate k of node i's vector minus node j's. -/
def dif (x : A3 2 512 3) (b : Fin 2) (i j : Fin 512) (k : Fin 3) : EReal := x (ix3 b i k) - x (ix3 b j k)

/-- The squared length of that difference. -/
def dsq (x : A3 2 512 3) (b : Fin 2) (i j : Fin 512) : EReal := ∑ k : Fin 3, dif x b i j k * dif x b i j k

variable (a : Args)

/-- The first edge layer before its activation: the two node features through the two halves of We1, the two squared
    distances through its last two rows, and the bias. -/
def pre (b : Fin 2) (i j : Fin 512) (c : Fin 128) : EReal :=
  ((((∑ k : Fin 128, a.h (ix3 b i k) * a.We1 (ix2 (⟨k.val, by omega⟩ : Fin 258) c))
      + (∑ k : Fin 128, a.h (ix3 b j k) * a.We1 (ix2 (⟨128 + k.val, by omega⟩ : Fin 258) c)))
      + dsq a.pos b i j * a.We1 (ix2 (⟨256, by omega⟩ : Fin 258) c))
      + dsq a.vel b i j * a.We1 (ix2 (⟨257, by omega⟩ : Fin 258) c))
    + a.be1 (ix1 c)

def m1 (b : Fin 2) (i j : Fin 512) (c : Fin 128) : EReal := silu (pre a b i j c)

def m2 (b : Fin 2) (i j : Fin 512) (c : Fin 128) : EReal :=
  silu ((∑ k : Fin 128, m1 a b i j k * a.We2 (ix2 k c)) + a.be2 (ix1 c))

/-- The attention weight of the edge. -/
def att (b : Fin 2) (i j : Fin 512) : EReal :=
  Ideal.logistic ((∑ k : Fin 128, m2 a b i j k * a.Wa (ix2 k (0 : Fin 1))) + a.ba (ix1 (0 : Fin 1)))

/-- The edge's message. -/
def msg (b : Fin 2) (i j : Fin 512) (c : Fin 128) : EReal := m2 a b i j c * att a b i j

/-- A scalar gate of the edge: a two-layer head on the message, through tanh. -/
def gate (W1 : A2 128 128) (b1 : A1 128) (W2 : A2 128 1) (b : Fin 2) (i j : Fin 512) : EReal :=
  Ideal.tanh (∑ k : Fin 128, silu ((∑ l : Fin 128, msg a b i j l * W1 (ix2 l k)) + b1 (ix1 k)) * W2 (ix2 k (0 : Fin 1)))

def gateP (b : Fin 2) (i j : Fin 512) : EReal := gate a a.Wp1 a.bp1 a.Wp2 b i j
def gateV (b : Fin 2) (i j : Fin 512) : EReal := gate a a.Wv1 a.bv1 a.Wv2 b i j

/-- The gated sum of differences over all senders. -/
def drift (x : A3 2 512 3) (w : Fin 2 → Fin 512 → Fin 512 → EReal) (b : Fin 2) (i : Fin 512) (k : Fin 3) : EReal :=
  ∑ j : Fin 512, dif x b i j k * w b i j

/-- A coordinate moved by the mean drift and clamped. -/
def moved (x : A3 2 512 3) (w : Fin 2 → Fin 512 → Fin 512 → EReal) (b : Fin 2) (i : Fin 512) (k : Fin 3) : EReal :=
  min cHi (max cLo (x (ix3 b i k) + Ideal.div (drift x w b i k) c511))

/-- The messages summed over all senders. -/
def agg (b : Fin 2) (i : Fin 512) (c : Fin 128) : EReal := ∑ j : Fin 512, msg a b i j c

/-- The node update's input: the node's features, then its aggregated messages. -/
def nodeIn (b : Fin 2) (i : Fin 512) (c : Fin 256) : EReal :=
  if hc : c.val < 128 then a.h (ix3 b i (⟨c.val, hc⟩ : Fin 128)) else agg a b i (⟨c.val - 128, by omega⟩ : Fin 128)

def hid (b : Fin 2) (i : Fin 512) (k : Fin 128) : EReal :=
  silu ((∑ c : Fin 256, nodeIn a b i c * a.Wn1 (ix2 c k)) + a.bn1 (ix1 k))

def hNew (b : Fin 2) (i : Fin 512) (c : Fin 128) : EReal :=
  a.h (ix3 b i c) + ((∑ k : Fin 128, hid a b i k * a.Wn2 (ix2 k c)) + a.bn2 (ix1 c))

/-- The three results as arrays. -/
def hOut : A3 2 512 128 := fun y => hNew a (y 0) (y 1) (y 2)
def posOut : A3 2 512 3 := fun y => moved a.pos (gateP a) (y 0) (y 1) (y 2)
def velOut : A3 2 512 3 := fun y => moved a.vel (gateV a) (y 0) (y 1) (y 2)

end Cert.Egnn

end
-- ==== Proof.KIface.lean ====
/-
  How a grid point's blocks sit in the layer's arguments. Point (b, it, jt) loads rows 64·it + r of h, pos and vel as
  its receiving tile, rows 64·jt + r as its sending tile, and every weight whole (We1 as its rows 0…127, 128…255,
  256 and 257). The 64 × 64 edges of a tile are numbered 64·ii + jj.
-/
import proofs.«145759_j13950053777588_1_alg».proof.Proof.KDefs
import proofs.«145759_j13950053777588_1_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

/-- Row r of tile t. -/
def row (t : Fin 8) (r : Fin 64) : Fin 512 := ⟨64 * t.val + r.val, by omega⟩
/-- The edge from sending row jj to receiving row ii of a tile. -/
def edge (ii jj : Fin 64) : Fin 4096 := ⟨64 * ii.val + jj.val, by omega⟩

/-- The program's nineteen arguments on core c, as the layer's inputs. -/
def argsOf (m : (ℓ : Loc nD τ sig) → Buf (Elt Ideal) ℓ) (c : Dev nD) : Cert.Egnn.Args where
  h := m ((c.tc : Thread nD τ).loc main_arg0)
  pos := m ((c.tc : Thread nD τ).loc main_arg1)
  vel := m ((c.tc : Thread nD τ).loc main_arg2)
  We1 := m ((c.tc : Thread nD τ).loc main_arg3)
  be1 := m ((c.tc : Thread nD τ).loc main_arg4)
  We2 := m ((c.tc : Thread nD τ).loc main_arg5)
  be2 := m ((c.tc : Thread nD τ).loc main_arg6)
  Wa := m ((c.tc : Thread nD τ).loc main_arg7)
  ba := m ((c.tc : Thread nD τ).loc main_arg8)
  Wp1 := m ((c.tc : Thread nD τ).loc main_arg9)
  bp1 := m ((c.tc : Thread nD τ).loc main_arg10)
  Wp2 := m ((c.tc : Thread nD τ).loc main_arg11)
  Wv1 := m ((c.tc : Thread nD τ).loc main_arg12)
  bv1 := m ((c.tc : Thread nD τ).loc main_arg13)
  Wv2 := m ((c.tc : Thread nD τ).loc main_arg14)
  Wn1 := m ((c.tc : Thread nD τ).loc main_arg15)
  bn1 := m ((c.tc : Thread nD τ).loc main_arg16)
  Wn2 := m ((c.tc : Thread nD τ).loc main_arg17)
  bn2 := m ((c.tc : Thread nD τ).loc main_arg18)

/-- The blocks B are those of point (b, it, jt) over the arguments a. -/
structure BlkOf (a : Cert.Egnn.Args) (b : Fin 2) (it jt : Fin 8) (B : Blk Ideal) : Prop where
  h0 : ∀ (r : Fin 64) (c : Fin 128), B.b0 (ix3 (0 : Fin 1) r c) = a.h (ix3 b (row it r) c)
  h1 : ∀ (r : Fin 64) (c : Fin 128), B.b1 (ix3 (0 : Fin 1) r c) = a.h (ix3 b (row jt r) c)
  h2 : ∀ (r : Fin 64) (k : Fin 3), B.b2 (ix3 (0 : Fin 1) r k) = a.pos (ix3 b (row it r) k)
  h3 : ∀ (r : Fin 64) (k : Fin 3), B.b3 (ix3 (0 : Fin 1) r k) = a.pos (ix3 b (row jt r) k)
  h4 : ∀ (r : Fin 64) (k : Fin 3), B.b4 (ix3 (0 : Fin 1) r k) = a.vel (ix3 b (row it r) k)
  h5 : ∀ (r : Fin 64) (k : Fin 3), B.b5 (ix3 (0 : Fin 1) r k) = a.vel (ix3 b (row jt r) k)
  h6 : ∀ (k c : Fin 128), B.b6 (ix2 k c) = a.We1 (ix2 (⟨k.val, by omega⟩ : Fin 258) c)
  h7 : ∀ (k c : Fin 128), B.b7 (ix2 k c) = a.We1 (ix2 (⟨128 + k.val, by omega⟩ : Fin 258) c)
  h8 : ∀ (c : Fin 128), B.b8 (ix1 c) = a.We1 (ix2 (⟨256, by omega⟩ : Fin 258) c)
  h9 : ∀ (c : Fin 128), B.b9 (ix1 c) = a.We1 (ix2 (⟨257, by omega⟩ : Fin 258) c)
  h10 : ∀ (c : Fin 128), B.b10 (ix1 c) = a.be1 (ix1 c)
  h11 : ∀ (k c : Fin 128), B.b11 (ix2 k c) = a.We2 (ix2 k c)
  h12 : ∀ (c : Fin 128), B.b12 (ix1 c) = a.be2 (ix1 c)
  h13 : ∀ (k : Fin 128) (o : Fin 1), B.b13 (ix2 k o) = a.Wa (ix2 k o)
  h14 : ∀ (o : Fin 1), B.b14 (ix1 o) = a.ba (ix1 o)
  h15 : ∀ (k c : Fin 128), B.b15 (ix2 k c) = a.Wp1 (ix2 k c)
  h16 : ∀ (c : Fin 128), B.b16 (ix1 c) = a.bp1 (ix1 c)
  h17 : ∀ (k : Fin 128) (o : Fin 1), B.b17 (ix2 k o) = a.Wp2 (ix2 k o)
  h18 : ∀ (k c : Fin 128), B.b18 (ix2 k c) = a.Wv1 (ix2 k c)
  h19 : ∀ (c : Fin 128), B.b19 (ix1 c) = a.bv1 (ix1 c)
  h20 : ∀ (k : Fin 128) (o : Fin 1), B.b20 (ix2 k o) = a.Wv2 (ix2 k o)
  h21 : ∀ (k : Fin 256) (c : Fin 128), B.b21 (ix2 k c) = a.Wn1 (ix2 k c)
  h22 : ∀ (c : Fin 128), B.b22 (ix1 c) = a.bn1 (ix1 c)
  h23 : ∀ (k c : Fin 128), B.b23 (ix2 k c) = a.Wn2 (ix2 k c)
  h24 : ∀ (c : Fin 128), B.b24 (ix1 c) = a.bn2 (ix1 c)

end Cert.KernelIdeal.Hand

end
-- ==== Proof.KAccPt.lean ====
/-
  The grid's 128 points in the order they run: point t is batch entry t / 64, receiving tile (t / 8) mod 8, sending
  tile t mod 8 (the last grid coordinate moves fastest). A run of eight consecutive points, numbered q = t / 8, shares the
  batch entry q / 8 and the receiving tile q mod 8.
-/
import proofs.«145759_j13950053777588_1_alg».proof.Proof.KIface

noncomputable section

namespace Cert.KernelIdeal.Hand

open Cert.KernelIdeal Cert.KernelIdeal.Gen
open Idealize.ShloMosaic

theorem hN : cfg0.N = 128 := N_0

/-- The batch entry and the receiving tile of run q. -/
def bQ (q : ℕ) : Fin 2 := ⟨q / 8 % 2, Nat.mod_lt _ (by decide)⟩
def itQ (q : ℕ) : Fin 8 := ⟨q % 8, Nat.mod_lt _ (by decide)⟩

/-- The batch entry, the receiving tile and the sending tile of point t. -/
def bOf (t : Fin cfg0.N) : Fin 2 := bQ (t.val / 8)
def itOf (t : Fin cfg0.N) : Fin 8 := itQ (t.val / 8)
def jtOf (t : Fin cfg0.N) : Fin 8 := ⟨t.val % 8, Nat.mod_lt _ (by decide)⟩

theorem bOf_val (t : Fin cfg0.N) : (bOf t).val = t.val / 8 / 8 % 2 := rfl
theorem itOf_val (t : Fin cfg0.N) : (itOf t).val = t.val / 8 % 8 := rfl
theorem jtOf_val (t : Fin cfg0.N) : (jtOf t).val = t.val % 8 := rfl

/-- The point of batch entry b and receiving tile it whose sending tile is the last. -/
def lastPt (b : Fin 2) (it : Fin 8) : Fin cfg0.N := ⟨64 * b.val + 8 * it.val + 7, by have := hN; omega⟩

theorem lastPt_mod (b : Fin 2) (it : Fin 8) : (lastPt b it).val % 8 = 7 := by show (64 * b.val + 8 * it.val + 7) % 8 = 7; omega
theorem bOf_lastPt (b : Fin 2) (it : Fin 8) : bOf (lastPt b it) = b := Fin.ext (by show (64 * b.val + 8 * it.val + 7) / 8 / 8 % 2 = b.val; omega)
theorem itOf_lastPt (b : Fin 2) (it : Fin 8) : itOf (lastPt b it) = it := Fin.ext (by show (64 * b.val + 8 * it.val + 7) / 8 % 8 = it.val; omega)

end Cert.KernelIdeal.Hand

end
-- ==== Proof.KAccSum.lean ====
/-
  Regrouping a sum over 512 senders into 8 tiles of 64, and a sum over the first tiles written over a range of naturals.
  Only commutativity and associativity of addition are used.
-/
import Mathlib.Algebra.BigOperators.Fin
import Mathlib.Logic.Equiv.Fin.Basic
import Mathlib.Algebra.BigOperators.Group.Finset.Sigma

namespace Cert.KernelIdeal.Hand

/-- Sender j = 64·jt + jj: the sum over all 512 senders is the sum over the 8 tiles of the sums over each tile's 64 rows. -/
theorem sum_tiles {M : Type*} [AddCommMonoid M] (f : Fin 512 → M) :
    ∑ j : Fin 512, f j = ∑ jt : Fin 8, ∑ jj : Fin 64, f ⟨64 * jt.val + jj.val, by omega⟩ := by
  have e : ∑ j : Fin 512, f j = ∑ p : Fin 8 × Fin 64, f ((finProdFinEquiv : Fin 8 × Fin 64 ≃ Fin 512) p) :=
    (Equiv.sum_comp (finProdFinEquiv : Fin 8 × Fin 64 ≃ Fin 512) f).symm
  rw [e, Fintype.sum_prod_type]
  refine Finset.sum_congr rfl fun jt _ => Finset.sum_congr rfl fun jj _ => congrArg f (Fin.ext ?_)
  show jj.val + 64 * jt.val = 64 * jt.val + jj.val
  omega

/-- A tile-indexed family extended by zero to every natural. -/
def tileFn {M : Type*} [Zero M] (g : Fin 8 → M) (x : ℕ) : M := if h : x < 8 then g ⟨x, h⟩ else 0

theorem tileFn_of_lt {M : Type*} [Zero M] (g : Fin 8 → M) (x : ℕ) (h : x < 8) : tileFn g x = g ⟨x, h⟩ := dif_pos h

/-- The sum over all eight tiles, written over the range. -/
theorem sum_range_tileFn {M : Type*} [AddCommMonoid M] (g : Fin 8 → M) :
    ∑ x ∈ Finset.range 8, tileFn g x = ∑ jt : Fin 8, g jt := by
  rw [Finset.sum_range]
  exact Finset.sum_congr rfl fun i _ => tileFn_of_lt g i.val i.isLt

/-- A quantity carried along the points that restarts at the first point of every run of eight (from the run's first
    addend) and adds the point's addend to what the point before left elsewhere is, at point n, the sum of its run's
    addends up to n. T q x is the addend of the x-th point of run q. -/
theorem acc_range {ι M : Type*} [AddCommMonoid M] {N : ℕ} (f : (n : ℕ) → n < N → ι → M) (T : ℕ → ℕ → ι → M)
    (h0 : ∀ (n : ℕ) (h : n < N), n % 8 = 0 → ∀ i, f n h i = T (n / 8) 0 i)
    (hs : ∀ (n : ℕ) (h : n + 1 < N), ¬ (n + 1) % 8 = 0 →
      ∀ i, f (n + 1) h i = f n (Nat.lt_of_succ_lt h) i + T ((n + 1) / 8) ((n + 1) % 8) i) :
    ∀ (n : ℕ) (h : n < N) (i : ι), f n h i = ∑ x ∈ Finset.range (n % 8 + 1), T (n / 8) x i := by
  intro n
  induction n with
  | zero =>
    intro h i
    rw [h0 0 h rfl i]
    show _ = ∑ x ∈ Finset.range 1, T (0 / 8) x i
    rw [Finset.sum_range_one]
  | succ n ih =>
    intro h i
    by_cases hm : (n + 1) % 8 = 0
    · rw [h0 (n + 1) h hm i, hm]
      show _ = ∑ x ∈ Finset.range 1, T ((n + 1) / 8) x i
      rw [Finset.sum_range_one]
    · have hq : (n + 1) / 8 = n / 8 := by omega
      have hr : (n + 1) % 8 = n % 8 + 1 := by omega
      rw [hs n h hm i, ih (Nat.lt_of_succ_lt h) i, hq, hr, Finset.sum_range_succ _ (n % 8 + 1)]

end Cert.KernelIdeal.Hand
-- ==== Proof.KAccHyp.lean ====
/-
  What one grid point's arithmetic is, as the sums over the sending tile and the result blocks of the layer: the
  statements the sums along the grid and the result arrays are derived from. Each field is closed universally over the
  point's blocks.
-/
import proofs.«145759_j13950053777588_1_alg».proof.Proof.KIface

noncomputable section

namespace Cert.KernelIdeal.Hand

open Cert.KernelIdeal Cert.KernelIdeal.Gen
open Idealize.ShloMosaic Idealize.ShloMosaic.ValueIdx

/-- One point adds, to each of the three running sums, its sending tile's part; the sums start from zero; a last point's
    result blocks are the layer's results on the receiving tile's rows once the sums are the sums over all senders. -/
structure StepFacts (a : Cert.Egnn.Args) : Prop where
  stepP : ∀ (b : Fin 2) (it jt : Fin 8) (B : Blk Ideal), BlkOf a b it jt B →
    ∀ (acc : Vec Ideal S64x3 .f32) (ii : Fin 64) (k : Fin 3),
      Hand.stepP B acc (ix2 ii k) = acc (ix2 ii k)
        + ∑ jj : Fin 64, Cert.Egnn.dif a.pos b (row it ii) (row jt jj) k * Cert.Egnn.gateP a b (row it ii) (row jt jj)
  stepV : ∀ (b : Fin 2) (it jt : Fin 8) (B : Blk Ideal), BlkOf a b it jt B →
    ∀ (acc : Vec Ideal S64x3 .f32) (ii : Fin 64) (k : Fin 3),
      Hand.stepV B acc (ix2 ii k) = acc (ix2 ii k)
        + ∑ jj : Fin 64, Cert.Egnn.dif a.vel b (row it ii) (row jt jj) k * Cert.Egnn.gateV a b (row it ii) (row jt jj)
  stepM : ∀ (b : Fin 2) (it jt : Fin 8) (B : Blk Ideal), BlkOf a b it jt B →
    ∀ (acc : Vec Ideal S64x128 .f32) (ii : Fin 64) (c : Fin 128),
      Hand.stepM B acc (ix2 ii c) = acc (ix2 ii c) + ∑ jj : Fin 64, Cert.Egnn.msg a b (row it ii) (row jt jj) c
  z1 : ∀ (ii : Fin 64) (k : Fin 3), (zAcc (F := Ideal)).1 (ix2 ii k) = 0
  z2 : ∀ (ii : Fin 64) (k : Fin 3), (zAcc (F := Ideal)).2.1 (ix2 ii k) = 0
  z3 : ∀ (ii : Fin 64) (c : Fin 128), (zAcc (F := Ideal)).2.2 (ix2 ii c) = 0
  finH : ∀ (b : Fin 2) (it jt : Fin 8) (B : Blk Ideal), BlkOf a b it jt B →
    ∀ (aM : Vec Ideal S64x128 .f32), (∀ (ii : Fin 64) (c : Fin 128), aM (ix2 ii c) = Cert.Egnn.agg a b (row it ii) c) →
      ∀ (ii : Fin 64) (c : Fin 128), Hand.finH B aM (ix3 (0 : Fin 1) ii c) = Cert.Egnn.hNew a b (row it ii) c
  finP : ∀ (b : Fin 2) (it jt : Fin 8) (B : Blk Ideal), BlkOf a b it jt B →
    ∀ (aP : Vec Ideal S64x3 .f32),
      (∀ (ii : Fin 64) (k : Fin 3), aP (ix2 ii k) = Cert.Egnn.drift a.pos (Cert.Egnn.gateP a) b (row it ii) k) →
      ∀ (ii : Fin 64) (k : Fin 3),
        Hand.finP B aP (ix3 (0 : Fin 1) ii k) = Cert.Egnn.moved a.pos (Cert.Egnn.gateP a) b (row it ii) k
  finV : ∀ (b : Fin 2) (it jt : Fin 8) (B : Blk Ideal), BlkOf a b it jt B →
    ∀ (aV : Vec Ideal S64x3 .f32),
      (∀ (ii : Fin 64) (k : Fin 3), aV (ix2 ii k) = Cert.Egnn.drift a.vel (Cert.Egnn.gateV a) b (row it ii) k) →
      ∀ (ii : Fin 64) (k : Fin 3),
        Hand.finV B aV (ix3 (0 : Fin 1) ii k) = Cert.Egnn.moved a.vel (Cert.Egnn.gateV a) b (row it ii) k

end Cert.KernelIdeal.Hand

end
-- ==== Proof.KAccInd.lean ====
/-
  The three running sums along the grid. At point n, of run q = n / 8, each sum is the sum of the parts of the run's
  sending tiles 0 … n mod 8; at a run's last point it is the sum over all eight tiles, that is over all 512 senders.
-/
import proofs.«145759_j13950053777588_1_alg».proof.Proof.KAccPt
import proofs.«145759_j13950053777588_1_alg».proof.Proof.KAccSum
import proofs.«145759_j13950053777588_1_alg».proof.Proof.KAccHyp

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (a : Cert.Egnn.Args)

/-- The part of sending tile x of run q in a gated sum of differences, at receiving row i.1 and coordinate i.2. -/
def tW (x : Cert.Egnn.A3 2 512 3) (w : Fin 2 → Fin 512 → Fin 512 → EReal) (q xx : ℕ) (i : Fin 64 × Fin 3) : EReal :=
  tileFn (fun jt : Fin 8 => ∑ jj : Fin 64,
    Cert.Egnn.dif x (bQ q) (row (itQ q) i.1) (row jt jj) i.2 * w (bQ q) (row (itQ q) i.1) (row jt jj)) xx

/-- The part of sending tile x of run q in the summed messages, at receiving row i.1 and channel i.2. -/
def tM (q xx : ℕ) (i : Fin 64 × Fin 128) : EReal :=
  tileFn (fun jt : Fin 8 => ∑ jj : Fin 64, Cert.Egnn.msg a (bQ q) (row (itQ q) i.1) (row jt jj) i.2) xx

variable (V : (c : Dev nD) → (b : Ref sig .tc) → Buf (Elt Ideal) ((c : Thread nD τ).loc b)) (c : Dev nD)
variable (hblk : ∀ t : Fin cfg0.N, BlkOf a (bOf t) (itOf t) (jtOf t) (blk V c t)) (hS : StepFacts a)

include hblk hS

theorem accs_P (n : ℕ) (h : n < cfg0.N) (ii : Fin 64) (k : Fin 3) :
    (accs V c n h).1 (ix2 ii k)
      = ∑ x ∈ Finset.range (n % 8 + 1), tW a.pos (Cert.Egnn.gateP a) (n / 8) x (ii, k) := by
  refine acc_range (fun n h (i : Fin 64 × Fin 3) => (accs V c n h).1 (ix2 i.1 i.2)) (tW a.pos (Cert.Egnn.gateP a))
    ?_ ?_ n h (ii, k)
  · intro n h hm i
    have e : accs V c n h = step (blk V c ⟨n, h⟩) zAcc := accs_first V c ⟨n, h⟩ hm
    show (accs V c n h).1 (ix2 i.1 i.2) = _
    rw [e]
    show stepP (blk V c ⟨n, h⟩) (zAcc (F := Ideal)).1 (ix2 i.1 i.2) = _
    rw [hS.stepP _ _ _ _ (hblk ⟨n, h⟩), hS.z1, zero_add]
    unfold tW
    rw [tileFn_of_lt _ 0 (by decide)]
    have ej : jtOf ⟨n, h⟩ = ⟨0, by decide⟩ := Fin.ext hm
    rw [ej]
    rfl
  · intro n h hm i
    have e : accs V c (n + 1) h = step (blk V c ⟨n + 1, h⟩) (accs V c n (Nat.lt_of_succ_lt h)) :=
      accs_next V c ⟨n + 1, h⟩ hm
    show (accs V c (n + 1) h).1 (ix2 i.1 i.2) = (accs V c n (Nat.lt_of_succ_lt h)).1 (ix2 i.1 i.2) + _
    rw [e]
    show stepP (blk V c ⟨n + 1, h⟩) (accs V c n (Nat.lt_of_succ_lt h)).1 (ix2 i.1 i.2) = _
    rw [hS.stepP _ _ _ _ (hblk ⟨n + 1, h⟩)]
    refine congrArg _ ?_
    unfold tW
    rw [tileFn_of_lt _ ((n + 1) % 8) (Nat.mod_lt _ (by decide))]
    rfl

theorem accs_V (n : ℕ) (h : n < cfg0.N) (ii : Fin 64) (k : Fin 3) :
    (accs V c n h).2.1 (ix2 ii k)
      = ∑ x ∈ Finset.range (n % 8 + 1), tW a.vel (Cert.Egnn.gateV a) (n / 8) x (ii, k) := by
  refine acc_range (fun n h (i : Fin 64 × Fin 3) => (accs V c n h).2.1 (ix2 i.1 i.2)) (tW a.vel (Cert.Egnn.gateV a))
    ?_ ?_ n h (ii, k)
  · intro n h hm i
    have e : accs V c n h = step (blk V c ⟨n, h⟩) zAcc := accs_first V c ⟨n, h⟩ hm
    show (accs V c n h).2.1 (ix2 i.1 i.2) = _
    rw [e]
    show stepV (blk V c ⟨n, h⟩) (zAcc (F := Ideal)).2.1 (ix2 i.1 i.2) = _
    rw [hS.stepV _ _ _ _ (hblk ⟨n, h⟩), hS.z2, zero_add]
    unfold tW
    rw [tileFn_of_lt _ 0 (by decide)]
    have ej : jtOf ⟨n, h⟩ = ⟨0, by decide⟩ := Fin.ext hm
    rw [ej]
    rfl
  · intro n h hm i
    have e : accs V c (n + 1) h = step (blk V c ⟨n + 1, h⟩) (accs V c n (Nat.lt_of_succ_lt h)) :=
      accs_next V c ⟨n + 1, h⟩ hm
    show (accs V c (n + 1) h).2.1 (ix2 i.1 i.2) = (accs V c n (Nat.lt_of_succ_lt h)).2.1 (ix2 i.1 i.2) + _
    rw [e]
    show stepV (blk V c ⟨n + 1, h⟩) (accs V c n (Nat.lt_of_succ_lt h)).2.1 (ix2 i.1 i.2) = _
    rw [hS.stepV _ _ _ _ (hblk ⟨n + 1, h⟩)]
    refine congrArg _ ?_
    unfold tW
    rw [tileFn_of_lt _ ((n + 1) % 8) (Nat.mod_lt _ (by decide))]
    rfl

theorem accs_M (n : ℕ) (h : n < cfg0.N) (ii : Fin 64) (cc : Fin 128) :
    (accs V c n h).2.2 (ix2 ii cc) = ∑ x ∈ Finset.range (n % 8 + 1), tM a (n / 8) x (ii, cc) := by
  refine acc_range (fun n h (i : Fin 64 × Fin 128) => (accs V c n h).2.2 (ix2 i.1 i.2)) (tM a) ?_ ?_ n h (ii, cc)
  · intro n h hm i
    have e : accs V c n h = step (blk V c ⟨n, h⟩) zAcc := accs_first V c ⟨n, h⟩ hm
    show (accs V c n h).2.2 (ix2 i.1 i.2) = _
    rw [e]
    show stepM (blk V c ⟨n, h⟩) (zAcc (F := Ideal)).2.2 (ix2 i.1 i.2) = _
    rw [hS.stepM _ _ _ _ (hblk ⟨n, h⟩), hS.z3, zero_add]
    unfold tM
    rw [tileFn_of_lt _ 0 (by decide)]
    have ej : jtOf ⟨n, h⟩ = ⟨0, by decide⟩ := Fin.ext hm
    rw [ej]
    rfl
  · intro n h hm i
    have e : accs V c (n + 1) h = step (blk V c ⟨n + 1, h⟩) (accs V c n (Nat.lt_of_succ_lt h)) :=
      accs_next V c ⟨n + 1, h⟩ hm
    show (accs V c (n + 1) h).2.2 (ix2 i.1 i.2) = (accs V c n (Nat.lt_of_succ_lt h)).2.2 (ix2 i.1 i.2) + _
    rw [e]
    show stepM (blk V c ⟨n + 1, h⟩) (accs V c n (Nat.lt_of_succ_lt h)).2.2 (ix2 i.1 i.2) = _
    rw [hS.stepM _ _ _ _ (hblk ⟨n + 1, h⟩)]
    refine congrArg _ ?_
    unfold tM
    rw [tileFn_of_lt _ ((n + 1) % 8) (Nat.mod_lt _ (by decide))]
    rfl

/-! ## At a run's last point: the sums over all 512 senders -/

theorem accs_P_last (b : Fin 2) (it : Fin 8) (ii : Fin 64) (k : Fin 3) :
    (accs V c (lastPt b it).val (lastPt b it).isLt).1 (ix2 ii k)
      = Cert.Egnn.drift a.pos (Cert.Egnn.gateP a) b (row it ii) k := by
  rw [accs_P a V c hblk hS, lastPt_mod]
  show ∑ x ∈ Finset.range 8, tW a.pos (Cert.Egnn.gateP a) ((lastPt b it).val / 8) x (ii, k) = _
  unfold tW
  rw [sum_range_tileFn]
  have eb : bQ ((lastPt b it).val / 8) = b := bOf_lastPt b it
  have ei : itQ ((lastPt b it).val / 8) = it := itOf_lastPt b it
  rw [eb, ei]
  unfold Cert.Egnn.drift
  rw [sum_tiles]
  rfl

theorem accs_V_last (b : Fin 2) (it : Fin 8) (ii : Fin 64) (k : Fin 3) :
    (accs V c (lastPt b it).val (lastPt b it).isLt).2.1 (ix2 ii k)
      = Cert.Egnn.drift a.vel (Cert.Egnn.gateV a) b (row it ii) k := by
  rw [accs_V a V c hblk hS, lastPt_mod]
  show ∑ x ∈ Finset.range 8, tW a.vel (Cert.Egnn.gateV a) ((lastPt b it).val / 8) x (ii, k) = _
  unfold tW
  rw [sum_range_tileFn]
  have eb : bQ ((lastPt b it).val / 8) = b := bOf_lastPt b it
  have ei : itQ ((lastPt b it).val / 8) = it := itOf_lastPt b it
  rw [eb, ei]
  unfold Cert.Egnn.drift
  rw [sum_tiles]
  rfl

theorem accs_M_last (b : Fin 2) (it : Fin 8) (ii : Fin 64) (cc : Fin 128) :
    (accs V c (lastPt b it).val (lastPt b it).isLt).2.2 (ix2 ii cc) = Cert.Egnn.agg a b (row it ii) cc := by
  rw [accs_M a V c hblk hS, lastPt_mod]
  show ∑ x ∈ Finset.range 8, tM a ((lastPt b it).val / 8) x (ii, cc) = _
  unfold tM
  rw [sum_range_tileFn]
  have eb : bQ ((lastPt b it).val / 8) = b := bOf_lastPt b it
  have ei : itQ ((lastPt b it).val / 8) = it := itOf_lastPt b it
  rw [eb, ei]
  unfold Cert.Egnn.agg
  rw [sum_tiles]
  rfl

end Cert.KernelIdeal.Hand

end
-- ==== Proof.KAccArr1.lean ====
/-
  The three result arrays after the run. Windows 25, 26 and 27 are written back exactly at the points whose sending
  tile is the last (t mod 8 = 7); the block written there is the layer's result on the rows of the point's receiving
  tile, batch entry t / 64; the sixteen such blocks of each array cover it, so each array ends as the specification's
  function of the arguments.
-/
import proofs.«145759_j13950053777588_1_alg».proof.Proof.KAccInd
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The points that write back, and the block indices of the result windows -/

/-- A point whose sending tile is the last is the last point of its batch entry and receiving tile. -/
theorem arr_eq_lastPt (t : Fin cfg0.N) (h7 : t.val % 8 = 7) : t = lastPt (bOf t) (itOf t) :=
  Fin.ext (by
    show t.val = 64 * (t.val / 8 / 8 % 2) + 8 * (t.val / 8 % 8) + 7
    have := t.isLt; have := hN; omega)

theorem arr_lastPt_val (b : Fin 2) (it : Fin 8) : (lastPt b it).val = 64 * b.val + 8 * it.val + 7 := rfl

theorem arr_idx25 : ∀ t : Fin cfg0.N, win0_25.index t (0 : Fin 3) = t.val / 8 / 8 % 2 ∧ win0_25.index t (1 : Fin 3) = t.val / 8 % 8 ∧ win0_25.index t (2 : Fin 3) = 0 :=
  (by decide +kernel : ∀ t : Fin grid0.N, _)
theorem arr_idx26 : ∀ t : Fin cfg0.N, win0_26.index t (0 : Fin 3) = t.val / 8 / 8 % 2 ∧ win0_26.index t (1 : Fin 3) = t.val / 8 % 8 ∧ win0_26.index t (2 : Fin 3) = 0 :=
  (by decide +kernel : ∀ t : Fin grid0.N, _)
theorem arr_idx27 : ∀ t : Fin cfg0.N, win0_27.index t (0 : Fin 3) = t.val / 8 / 8 % 2 ∧ win0_27.index t (1 : Fin 3) = t.val / 8 % 8 ∧ win0_27.index t (2 : Fin 3) = 0 :=
  (by decide +kernel : ∀ t : Fin grid0.N, _)

/-- An index of the array is in point t's block iff each coordinate is in the block's range on its axis. -/
theorem arr_mem_blk25 (t : Fin cfg0.N) (i : S2x512x128.Idx) :
    i ∈ ((cfg0.win 25).blk t).view.set ↔ ∀ a : Fin 3, win0_25.index t a * S1x64x128.size a ≤ (i a).val
      ∧ (i a).val < win0_25.index t a * S1x64x128.size a + S1x64x128.size a := by
  show i ∈ ((View.whole main_v6_0).slice (win0_25.rect t)).set ↔ _
  rw [View.set_slice_whole, Rect.mem_set_unit]
  exact Iff.rfl

/-- An index of the position array is in point t's block iff each coordinate is in the block's range on its axis. -/
theorem arr_mem_blk26 (t : Fin cfg0.N) (i : S2x512x3.Idx) :
    i ∈ ((cfg0.win 26).blk t).view.set ↔ ∀ a : Fin 3, win0_26.index t a * S1x64x3.size a ≤ (i a).val
      ∧ (i a).val < win0_26.index t a * S1x64x3.size a + S1x64x3.size a := by
  show i ∈ ((View.whole main_v6_1).slice (win0_26.rect t)).set ↔ _
  rw [View.set_slice_whole, Rect.mem_set_unit]
  exact Iff.rfl

/-- An index of the velocity array is in point t's block iff each coordinate is in the block's range on its axis. -/
theorem arr_mem_blk27 (t : Fin cfg0.N) (i : S2x512x3.Idx) :
    i ∈ ((cfg0.win 27).blk t).view.set ↔ ∀ a : Fin 3, win0_27.index t a * S1x64x3.size a ≤ (i a).val
      ∧ (i a).val < win0_27.index t a * S1x64x3.size a + S1x64x3.size a := by
  show i ∈ ((View.whole main_v6_2).slice (win0_27.rect t)).set ↔ _
  rw [View.set_slice_whole, Rect.mem_set_unit]
  exact Iff.rfl

variable (a : Cert.Egnn.Args)
variable (V : (c : Dev nD) → (b : Ref sig .tc) → Buf (Elt Ideal) ((c : Thread nD τ).loc b)) (c : Dev nD)
variable (hblk : ∀ t : Fin cfg0.N, BlkOf a (bOf t) (itOf t) (jtOf t) (blk V c t)) (hS : StepFacts a)

include hblk hS

/-! ## The new node features -/

/-- The block of node features written at the last point of (b, it): the layer's new features on rows 64·it … of b. -/
theorem arr_finH_last (b : Fin 2) (it : Fin 8) (y : S1x64x128.Idx) :
    finH (blk V c (lastPt b it)) (accs V c (lastPt b it).val (lastPt b it).isLt).2.2 y
      = Cert.Egnn.hNew a b (row it (y 1)) (y 2) := by
  obtain ⟨u, ii, cc, rfl⟩ : ∃ (u : Fin 1) (ii : Fin 64) (cc : Fin 128), y = ix3 u ii cc := ⟨y 0, y 1, y 2, eq_ix3 y⟩
  obtain rfl : u = 0 := Subsingleton.elim _ _
  have hb := hblk (lastPt b it)
  rw [bOf_lastPt, itOf_lastPt] at hb
  exact hS.finH b it _ _ hb _ (fun ii cc => accs_M_last a V c hblk hS b it ii cc) ii cc

/-- What a writing point writes back to the array of node features is its block of the specification's result. -/
theorem arr_flushedH (t : Fin cfg0.N) (hf : (cfg0.win 25).flush t = true) :
    (dat0 V c).flushed 25 t = ((cfg0.win 25).blk t).view.read (Elt Ideal) (Cert.Egnn.hOut a) := by
  have h7 : t.val % 8 = 7 := (flush0_25 t).mp hf
  obtain ⟨b, it, rfl⟩ : ∃ (b : Fin 2) (it : Fin 8), t = lastPt b it := ⟨bOf t, itOf t, arr_eq_lastPt t h7⟩
  obtain ⟨e0, e1, e2⟩ := arr_idx25 (lastPt b it)
  have hv := arr_lastPt_val b it
  show (cfg0.win 25).cut (grid0.coords (lastPt b it)) ((dat0 V c).after 25 (lastPt b it)) = _
  rw [after_25]
  funext y
  show finH (blk V c (lastPt b it)) (accs V c (lastPt b it).val (lastPt b it).isLt).2.2 y
    = Cert.Egnn.hOut a (((cfg0.win 25).blk (lastPt b it)).view.emb y)
  have hy0 : (y 0).val < 1 := (y 0).isLt
  have hy1 : (y 1).val < 64 := (y 1).isLt
  have hy2 : (y 2).val < 128 := (y 2).isLt
  have hemb : ((cfg0.win 25).blk (lastPt b it)).view.emb y = ix3 b (row it (y 1)) (y 2) :=
    funext fun d => Fin.ext (by
      match d with
      | ⟨0, _⟩ => show win0_25.index (lastPt b it) (0 : Fin 3) * 1 + 1 * (y 0).val = b.val; rw [e0, hv]; omega
      | ⟨1, _⟩ => show win0_25.index (lastPt b it) (1 : Fin 3) * 64 + 1 * (y 1).val = 64 * it.val + (y 1).val; rw [e1, hv]; omega
      | ⟨2, _⟩ => show win0_25.index (lastPt b it) (2 : Fin 3) * 128 + 1 * (y 2).val = (y 2).val; rw [e2]; omega)
  rw [hemb]
  exact arr_finH_last a V c hblk hS b it y

/-- The array of node features after the run is the specification's new node features. -/
theorem arr_arrAt_h : (dat0 V c).arrAt 25 cfg0.N = Cert.Egnn.hOut a :=
  (dat0 V c).arrAt_eq_of_cover 25 (Cert.Egnn.hOut a) (arr_flushedH a V c hblk hS) fun i => by
    have hi0 : (i 0).val < 2 := (i 0).isLt
    have hi1 : (i 1).val < 512 := (i 1).isLt
    have hi2 : (i 2).val < 128 := (i 2).isLt
    obtain ⟨e0, e1, e2⟩ := arr_idx25 (lastPt ⟨(i 0).val, hi0⟩ ⟨(i 1).val / 64, by omega⟩)
    have hv := arr_lastPt_val ⟨(i 0).val, hi0⟩ ⟨(i 1).val / 64, by omega⟩
    refine ⟨lastPt ⟨(i 0).val, hi0⟩ ⟨(i 1).val / 64, by omega⟩, (flush0_25 _).mpr (lastPt_mod _ _), ?_⟩
    rw [arr_mem_blk25]
    intro d
    match d with
    | ⟨0, _⟩ =>
      show win0_25.index _ (0 : Fin 3) * 1 ≤ (i 0).val ∧ (i 0).val < win0_25.index _ (0 : Fin 3) * 1 + 1
      rw [e0, hv]; dsimp only; omega
    | ⟨1, _⟩ =>
      show win0_25.index _ (1 : Fin 3) * 64 ≤ (i 1).val ∧ (i 1).val < win0_25.index _ (1 : Fin 3) * 64 + 64
      rw [e1, hv]; dsimp only; omega
    | ⟨2, _⟩ =>
      show win0_25.index _ (2 : Fin 3) * 128 ≤ (i 2).val ∧ (i 2).val < win0_25.index _ (2 : Fin 3) * 128 + 128
      rw [e2]; omega

/-! ## The new positions -/

/-- The block of positions written at the last point of (b, it): the layer's new positions on rows 64·it … of b. -/
theorem arr_finP_last (b : Fin 2) (it : Fin 8) (y : S1x64x3.Idx) :
    finP (blk V c (lastPt b it)) (accs V c (lastPt b it).val (lastPt b it).isLt).1 y
      = Cert.Egnn.moved a.pos (Cert.Egnn.gateP a) b (row it (y 1)) (y 2) := by
  obtain ⟨u, ii, k, rfl⟩ : ∃ (u : Fin 1) (ii : Fin 64) (k : Fin 3), y = ix3 u ii k := ⟨y 0, y 1, y 2, eq_ix3 y⟩
  obtain rfl : u = 0 := Subsingleton.elim _ _
  have hb := hblk (lastPt b it)
  rw [bOf_lastPt, itOf_lastPt] at hb
  exact hS.finP b it _ _ hb _ (fun ii k => accs_P_last a V c hblk hS b it ii k) ii k

/-- What a writing point writes back to the position array is its block of the specification's result. -/
theorem arr_flushedP (t : Fin cfg0.N) (hf : (cfg0.win 26).flush t = true) :
    (dat0 V c).flushed 26 t = ((cfg0.win 26).blk t).view.read (Elt Ideal) (Cert.Egnn.posOut a) := by
  have h7 : t.val % 8 = 7 := (flush0_26 t).mp hf
  obtain ⟨b, it, rfl⟩ : ∃ (b : Fin 2) (it : Fin 8), t = lastPt b it := ⟨bOf t, itOf t, arr_eq_lastPt t h7⟩
  obtain ⟨e0, e1, e2⟩ := arr_idx26 (lastPt b it)
  have hv := arr_lastPt_val b it
  show (cfg0.win 26).cut (grid0.coords (lastPt b it)) ((dat0 V c).after 26 (lastPt b it)) = _
  rw [after_26]
  funext y
  show finP (blk V c (lastPt b it)) (accs V c (lastPt b it).val (lastPt b it).isLt).1 y
    = Cert.Egnn.posOut a (((cfg0.win 26).blk (lastPt b it)).view.emb y)
  have hy0 : (y 0).val < 1 := (y 0).isLt
  have hy1 : (y 1).val < 64 := (y 1).isLt
  have hy2 : (y 2).val < 3 := (y 2).isLt
  have hemb : ((cfg0.win 26).blk (lastPt b it)).view.emb y = ix3 b (row it (y 1)) (y 2) :=
    funext fun d => Fin.ext (by
      match d with
      | ⟨0, _⟩ => show win0_26.index (lastPt b it) (0 : Fin 3) * 1 + 1 * (y 0).val = b.val; rw [e0, hv]; omega
      | ⟨1, _⟩ => show win0_26.index (lastPt b it) (1 : Fin 3) * 64 + 1 * (y 1).val = 64 * it.val + (y 1).val; rw [e1, hv]; omega
      | ⟨2, _⟩ => show win0_26.index (lastPt b it) (2 : Fin 3) * 3 + 1 * (y 2).val = (y 2).val; rw [e2]; omega)
  rw [hemb]
  exact arr_finP_last a V c hblk hS b it y

/-- The position array after the run is the specification's new positions. -/
theorem arr_arrAt_pos : (dat0 V c).arrAt 26 cfg0.N = Cert.Egnn.posOut a :=
  (dat0 V c).arrAt_eq_of_cover 26 (Cert.Egnn.posOut a) (arr_flushedP a V c hblk hS) fun i => by
    have hi0 : (i 0).val < 2 := (i 0).isLt
    have hi1 : (i 1).val < 512 := (i 1).isLt
    have hi2 : (i 2).val < 3 := (i 2).isLt
    obtain ⟨e0, e1, e2⟩ := arr_idx26 (lastPt ⟨(i 0).val, hi0⟩ ⟨(i 1).val / 64, by omega⟩)
    have hv := arr_lastPt_val ⟨(i 0).val, hi0⟩ ⟨(i 1).val / 64, by omega⟩
    refine ⟨lastPt ⟨(i 0).val, hi0⟩ ⟨(i 1).val / 64, by omega⟩, (flush0_26 _).mpr (lastPt_mod _ _), ?_⟩
    rw [arr_mem_blk26]
    intro d
    match d with
    | ⟨0, _⟩ =>
      show win0_26.index _ (0 : Fin 3) * 1 ≤ (i 0).val ∧ (i 0).val < win0_26.index _ (0 : Fin 3) * 1 + 1
      rw [e0, hv]; dsimp only; omega
    | ⟨1, _⟩ =>
      show win0_26.index _ (1 : Fin 3) * 64 ≤ (i 1).val ∧ (i 1).val < win0_26.index _ (1 : Fin 3) * 64 + 64
      rw [e1, hv]; dsimp only; omega
    | ⟨2, _⟩ =>
      show win0_26.index _ (2 : Fin 3) * 3 ≤ (i 2).val ∧ (i 2).val < win0_26.index _ (2 : Fin 3) * 3 + 3
      rw [e2]; omega

/-! ## The new velocities -/

/-- The block of velocities written at the last point of (b, it): the layer's new velocities on rows 64·it … of b. -/
theorem arr_finV_last (b : Fin 2) (it : Fin 8) (y : S1x64x3.Idx) :
    finV (blk V c (lastPt b it)) (accs V c (lastPt b it).val (lastPt b it).isLt).2.1 y
      = Cert.Egnn.moved a.vel (Cert.Egnn.gateV a) b (row it (y 1)) (y 2) := by
  obtain ⟨u, ii, k, rfl⟩ : ∃ (u : Fin 1) (ii : Fin 64) (k : Fin 3), y = ix3 u ii k := ⟨y 0, y 1, y 2, eq_ix3 y⟩
  obtain rfl : u = 0 := Subsingleton.elim _ _
  have hb := hblk (lastPt b it)
  rw [bOf_lastPt, itOf_lastPt] at hb
  exact hS.finV b it _ _ hb _ (fun ii k => accs_V_last a V c hblk hS b it ii k) ii k

/-- What a writing point writes back to the velocity array is its block of the specification's result. -/
theorem arr_flushedV (t : Fin cfg0.N) (hf : (cfg0.win 27).flush t = true) :
    (dat0 V c).flushed 27 t = ((cfg0.win 27).blk t).view.read (Elt Ideal) (Cert.Egnn.velOut a) := by
  have h7 : t.val % 8 = 7 := (flush0_27 t).mp hf
  obtain ⟨b, it, rfl⟩ : ∃ (b : Fin 2) (it : Fin 8), t = lastPt b it := ⟨bOf t, itOf t, arr_eq_lastPt t h7⟩
  obtain ⟨e0, e1, e2⟩ := arr_idx27 (lastPt b it)
  have hv := arr_lastPt_val b it
  show (cfg0.win 27).cut (grid0.coords (lastPt b it)) ((dat0 V c).after 27 (lastPt b it)) = _
  rw [after_27]
  funext y
  show finV (blk V c (lastPt b it)) (accs V c (lastPt b it).val (lastPt b it).isLt).2.1 y
    = Cert.Egnn.velOut a (((cfg0.win 27).blk (lastPt b it)).view.emb y)
  have hy0 : (y 0).val < 1 := (y 0).isLt
  have hy1 : (y 1).val < 64 := (y 1).isLt
  have hy2 : (y 2).val < 3 := (y 2).isLt
  have hemb : ((cfg0.win 27).blk (lastPt b it)).view.emb y = ix3 b (row it (y 1)) (y 2) :=
    funext fun d => Fin.ext (by
      match d with
      | ⟨0, _⟩ => show win0_27.index (lastPt b it) (0 : Fin 3) * 1 + 1 * (y 0).val = b.val; rw [e0, hv]; omega
      | ⟨1, _⟩ => show win0_27.index (lastPt b it) (1 : Fin 3) * 64 + 1 * (y 1).val = 64 * it.val + (y 1).val; rw [e1, hv]; omega
      | ⟨2, _⟩ => show win0_27.index (lastPt b it) (2 : Fin 3) * 3 + 1 * (y 2).val = (y 2).val; rw [e2]; omega)
  rw [hemb]
  exact arr_finV_last a V c hblk hS b it y

/-- The velocity array after the run is the specification's new velocities. -/
theorem arr_arrAt_vel : (dat0 V c).arrAt 27 cfg0.N = Cert.Egnn.velOut a :=
  (dat0 V c).arrAt_eq_of_cover 27 (Cert.Egnn.velOut a) (arr_flushedV a V c hblk hS) fun i => by
    have hi0 : (i 0).val < 2 := (i 0).isLt
    have hi1 : (i 1).val < 512 := (i 1).isLt
    have hi2 : (i 2).val < 3 := (i 2).isLt
    obtain ⟨e0, e1, e2⟩ := arr_idx27 (lastPt ⟨(i 0).val, hi0⟩ ⟨(i 1).val / 64, by omega⟩)
    have hv := arr_lastPt_val ⟨(i 0).val, hi0⟩ ⟨(i 1).val / 64, by omega⟩
    refine ⟨lastPt ⟨(i 0).val, hi0⟩ ⟨(i 1).val / 64, by omega⟩, (flush0_27 _).mpr (lastPt_mod _ _), ?_⟩
    rw [arr_mem_blk27]
    intro d
    match d with
    | ⟨0, _⟩ =>
      show win0_27.index _ (0 : Fin 3) * 1 ≤ (i 0).val ∧ (i 0).val < win0_27.index _ (0 : Fin 3) * 1 + 1
      rw [e0, hv]; dsimp only; omega
    | ⟨1, _⟩ =>
      show win0_27.index _ (1 : Fin 3) * 64 ≤ (i 1).val ∧ (i 1).val < win0_27.index _ (1 : Fin 3) * 64 + 64
      rw [e1, hv]; dsimp only; omega
    | ⟨2, _⟩ =>
      show win0_27.index _ (2 : Fin 3) * 3 ≤ (i 2).val ∧ (i 2).val < win0_27.index _ (2 : Fin 3) * 3 + 3
      rw [e2]; omega

end Cert.KernelIdeal.Hand

end
-- ==== Proof.KAccBlk1.lean ====
/-
  The blocks of h, pos and vel a grid point loads, and the four pieces of We1, as entries of the layer's arguments.
  An element of a block sits in its array, on each axis, at the block index times the block size plus its own coordinate;
  the block indices are decided once over the grid. Point t loads rows 64·it … of batch entry b as its receiving tile
  and rows 64·jt … as its sending tile. We1's two square parts and its last two rows were cut out before the region.
-/
import proofs.«145759_j13950053777588_1_alg».proof.Proof.KAccPt
import proofs.«145759_j13950053777588_1_alg».proof.Proof.KEntry
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The block indices, decided over the grid -/

theorem idx0 : ∀ t : Fin cfg0.N, win0_0.index t (0 : Fin 3) = t.val / 8 / 8 % 2 ∧ win0_0.index t (1 : Fin 3) = t.val / 8 % 8 ∧ win0_0.index t (2 : Fin 3) = 0 :=
  (by decide +kernel : ∀ t : Fin grid0.N, _)
theorem idx1 : ∀ t : Fin cfg0.N, win0_1.index t (0 : Fin 3) = t.val / 8 / 8 % 2 ∧ win0_1.index t (1 : Fin 3) = t.val % 8 ∧ win0_1.index t (2 : Fin 3) = 0 :=
  (by decide +kernel : ∀ t : Fin grid0.N, _)
theorem idx2 : ∀ t : Fin cfg0.N, win0_2.index t (0 : Fin 3) = t.val / 8 / 8 % 2 ∧ win0_2.index t (1 : Fin 3) = t.val / 8 % 8 ∧ win0_2.index t (2 : Fin 3) = 0 :=
  (by decide +kernel : ∀ t : Fin grid0.N, _)
theorem idx3 : ∀ t : Fin cfg0.N, win0_3.index t (0 : Fin 3) = t.val / 8 / 8 % 2 ∧ win0_3.index t (1 : Fin 3) = t.val % 8 ∧ win0_3.index t (2 : Fin 3) = 0 :=
  (by decide +kernel : ∀ t : Fin grid0.N, _)
theorem idx4 : ∀ t : Fin cfg0.N, win0_4.index t (0 : Fin 3) = t.val / 8 / 8 % 2 ∧ win0_4.index t (1 : Fin 3) = t.val / 8 % 8 ∧ win0_4.index t (2 : Fin 3) = 0 :=
  (by decide +kernel : ∀ t : Fin grid0.N, _)
theorem idx5 : ∀ t : Fin cfg0.N, win0_5.index t (0 : Fin 3) = t.val / 8 / 8 % 2 ∧ win0_5.index t (1 : Fin 3) = t.val % 8 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 1) = 0 :=
  (by decide +kernel : ∀ t : Fin grid0.N, _)

/-! ## The receiving and the sending tile of h, pos and vel -/

theorem iblk0_apply (c : Dev nD) (t : Fin cfg0.N) (r : Fin 64) (cc : Fin 128) :
    (iblk (V1 m) c 0 t : Vec Ideal S1x64x128 .f32) (ix3 (0 : Fin 1) r cc)
      = (m ((c.tc : Thread nD τ).loc main_arg0) : S2x512x128.Idx → EReal) (ix3 (bOf t) (row (itOf t) r) cc) := by
  obtain ⟨e0, e1, e2⟩ := idx0 t
  unfold iblk; rw [View.read_apply]; show V1 m c main_arg0 _ = _; rw [V1_main_arg0]
  refine congrArg _ (funext fun a => Fin.ext ?_)
  match a with
  | ⟨0, _⟩ => show win0_0.index t (0 : Fin 3) * 1 + 1 * 0 = t.val / 8 / 8 % 2; rw [e0]; omega
  | ⟨1, _⟩ => show win0_0.index t (1 : Fin 3) * 64 + 1 * r.val = 64 * (t.val / 8 % 8) + r.val; rw [e1]; omega
  | ⟨2, _⟩ => show win0_0.index t (2 : Fin 3) * 128 + 1 * cc.val = cc.val; rw [e2]; omega

theorem iblk1_apply (c : Dev nD) (t : Fin cfg0.N) (r : Fin 64) (cc : Fin 128) :
    (iblk (V1 m) c 1 t : Vec Ideal S1x64x128 .f32) (ix3 (0 : Fin 1) r cc)
      = (m ((c.tc : Thread nD τ).loc main_arg0) : S2x512x128.Idx → EReal) (ix3 (bOf t) (row (jtOf t) r) cc) := by
  obtain ⟨e0, e1, e2⟩ := idx1 t
  unfold iblk; rw [View.read_apply]; show V1 m c main_arg0 _ = _; rw [V1_main_arg0]
  refine congrArg _ (funext fun a => Fin.ext ?_)
  match a with
  | ⟨0, _⟩ => show win0_1.index t (0 : Fin 3) * 1 + 1 * 0 = t.val / 8 / 8 % 2; rw [e0]; omega
  | ⟨1, _⟩ => show win0_1.index t (1 : Fin 3) * 64 + 1 * r.val = 64 * (t.val % 8) + r.val; rw [e1]; omega
  | ⟨2, _⟩ => show win0_1.index t (2 : Fin 3) * 128 + 1 * cc.val = cc.val; rw [e2]; omega

theorem iblk2_apply (c : Dev nD) (t : Fin cfg0.N) (r : Fin 64) (k : Fin 3) :
    (iblk (V1 m) c 2 t : Vec Ideal S1x64x3 .f32) (ix3 (0 : Fin 1) r k)
      = (m ((c.tc : Thread nD τ).loc main_arg1) : S2x512x3.Idx → EReal) (ix3 (bOf t) (row (itOf t) r) k) := by
  obtain ⟨e0, e1, e2⟩ := idx2 t
  unfold iblk; rw [View.read_apply]; show V1 m c main_arg1 _ = _; rw [V1_main_arg1]
  refine congrArg _ (funext fun a => Fin.ext ?_)
  match a with
  | ⟨0, _⟩ => show win0_2.index t (0 : Fin 3) * 1 + 1 * 0 = t.val / 8 / 8 % 2; rw [e0]; omega
  | ⟨1, _⟩ => show win0_2.index t (1 : Fin 3) * 64 + 1 * r.val = 64 * (t.val / 8 % 8) + r.val; rw [e1]; omega
  | ⟨2, _⟩ => show win0_2.index t (2 : Fin 3) * 3 + 1 * k.val = k.val; rw [e2]; omega

theorem iblk3_apply (c : Dev nD) (t : Fin cfg0.N) (r : Fin 64) (k : Fin 3) :
    (iblk (V1 m) c 3 t : Vec Ideal S1x64x3 .f32) (ix3 (0 : Fin 1) r k)
      = (m ((c.tc : Thread nD τ).loc main_arg1) : S2x512x3.Idx → EReal) (ix3 (bOf t) (row (jtOf t) r) k) := by
  obtain ⟨e0, e1, e2⟩ := idx3 t
  unfold iblk; rw [View.read_apply]; show V1 m c main_arg1 _ = _; rw [V1_main_arg1]
  refine congrArg _ (funext fun a => Fin.ext ?_)
  match a with
  | ⟨0, _⟩ => show win0_3.index t (0 : Fin 3) * 1 + 1 * 0 = t.val / 8 / 8 % 2; rw [e0]; omega
  | ⟨1, _⟩ => show win0_3.index t (1 : Fin 3) * 64 + 1 * r.val = 64 * (t.val % 8) + r.val; rw [e1]; omega
  | ⟨2, _⟩ => show win0_3.index t (2 : Fin 3) * 3 + 1 * k.val = k.val; rw [e2]; omega

theorem iblk4_apply (c : Dev nD) (t : Fin cfg0.N) (r : Fin 64) (k : Fin 3) :
    (iblk (V1 m) c 4 t : Vec Ideal S1x64x3 .f32) (ix3 (0 : Fin 1) r k)
      = (m ((c.tc : Thread nD τ).loc main_arg2) : S2x512x3.Idx → EReal) (ix3 (bOf t) (row (itOf t) r) k) := by
  obtain ⟨e0, e1, e2⟩ := idx4 t
  unfold iblk; rw [View.read_apply]; show V1 m c main_arg2 _ = _; rw [V1_main_arg2]
  refine congrArg _ (funext fun a => Fin.ext ?_)
  match a with
  | ⟨0, _⟩ => show win0_4.index t (0 : Fin 3) * 1 + 1 * 0 = t.val / 8 / 8 % 2; rw [e0]; omega
  | ⟨1, _⟩ => show win0_4.index t (1 : Fin 3) * 64 + 1 * r.val = 64 * (t.val / 8 % 8) + r.val; rw [e1]; omega
  | ⟨2, _⟩ => show win0_4.index t (2 : Fin 3) * 3 + 1 * k.val = k.val; rw [e2]; omega

theorem iblk5_apply (c : Dev nD) (t : Fin cfg0.N) (r : Fin 64) (k : Fin 3) :
    (iblk (V1 m) c 5 t : Vec Ideal S1x64x3 .f32) (ix3 (0 : Fin 1) r k)
      = (m ((c.tc : Thread nD τ).loc main_arg2) : S2x512x3.Idx → EReal) (ix3 (bOf t) (row (jtOf t) r) k) := by
  obtain ⟨e0, e1, e2⟩ := idx5 t
  unfold iblk; rw [View.read_apply]; show V1 m c main_arg2 _ = _; rw [V1_main_arg2]
  refine congrArg _ (funext fun a => Fin.ext ?_)
  match a with
  | ⟨0, _⟩ => show win0_5.index t (0 : Fin 3) * 1 + 1 * 0 = t.val / 8 / 8 % 2; rw [e0]; omega
  | ⟨1, _⟩ => show win0_5.index t (1 : Fin 3) * 64 + 1 * r.val = 64 * (t.val % 8) + r.val; rw [e1]; omega
  | ⟨2, _⟩ => show win0_5.index t (2 : Fin 3) * 3 + 1 * k.val = k.val; rw [e2]; omega

/-! ## The four pieces of We1, as the operations before the region cut them -/

theorem V1_main_v0 (c : Dev nD) : (V1 m c main_v0 : S128x128.Idx → EReal)
    = extractStridedSlice S128x128 ![0, 0] (m ((c.tc : Thread nD τ).loc main_arg3) : S258x128.Idx → EReal) slices_S258x128_S128x128_0_0 := by
  show StableHlo.after hostOps0 (fun b => m (c, b)) (Proc.devRef .tc main_v0) = _
  after_results

theorem V1_main_v1 (c : Dev nD) : (V1 m c main_v1 : S128x128.Idx → EReal)
    = extractStridedSlice S128x128 ![128, 0] (m ((c.tc : Thread nD τ).loc main_arg3) : S258x128.Idx → EReal) slices_S258x128_S128x128_128_0 := by
  show StableHlo.after hostOps0 (fun b => m (c, b)) (Proc.devRef .tc main_v1) = _
  after_results

theorem V1_main_v3 (c : Dev nD) : (V1 m c main_v3 : S128.Idx → EReal)
    = shapeCast S128 (extractStridedSlice S1x128 ![256, 0] (m ((c.tc : Thread nD τ).loc main_arg3) : S258x128.Idx → EReal) slices_S258x128_S1x128_256_0) shapeCasts_S1x128_S128 := by
  show StableHlo.after hostOps0 (fun b => m (c, b)) (Proc.devRef .tc main_v3) = _
  after_results
  rfl

theorem V1_main_v5 (c : Dev nD) : (V1 m c main_v5 : S128.Idx → EReal)
    = shapeCast S128 (extractStridedSlice S1x128 ![257, 0] (m ((c.tc : Thread nD τ).loc main_arg3) : S258x128.Idx → EReal) slices_S258x128_S1x128_257_0) shapeCasts_S1x128_S128 := by
  show StableHlo.after hostOps0 (fun b => m (c, b)) (Proc.devRef .tc main_v5) = _
  after_results
  rfl

theorem iblk6_apply (c : Dev nD) (t : Fin cfg0.N) (k cc : Fin 128) :
    (iblk (V1 m) c 6 t : Vec Ideal S128x128 .f32) (ix2 k cc)
      = (m ((c.tc : Thread nD τ).loc main_arg3) : S258x128.Idx → EReal) (ix2 (⟨k.val, by omega⟩ : Fin 258) cc) := by
  obtain ⟨e0, e1⟩ := idx6 t
  unfold iblk; rw [View.read_apply]; show V1 m c main_v0 _ = _; rw [V1_main_v0]
  refine (extractStridedSlice_apply _ _ _ _ (ix2 (⟨k.val, by omega⟩ : Fin 258) cc) ?_).trans rfl
  intro a
  match a with
  | ⟨0, _⟩ => show k.val = 0 + (win0_6.index t (0 : Fin 2) * 128 + 1 * k.val); rw [e0]; omega
  | ⟨1, _⟩ => show cc.val = 0 + (win0_6.index t (1 : Fin 2) * 128 + 1 * cc.val); rw [e1]; omega

theorem iblk7_apply (c : Dev nD) (t : Fin cfg0.N) (k cc : Fin 128) :
    (iblk (V1 m) c 7 t : Vec Ideal S128x128 .f32) (ix2 k cc)
      = (m ((c.tc : Thread nD τ).loc main_arg3) : S258x128.Idx → EReal) (ix2 (⟨128 + k.val, by omega⟩ : Fin 258) cc) := by
  obtain ⟨e0, e1⟩ := idx7 t
  unfold iblk; rw [View.read_apply]; show V1 m c main_v1 _ = _; rw [V1_main_v1]
  refine (extractStridedSlice_apply _ _ _ _ (ix2 (⟨128 + k.val, by omega⟩ : Fin 258) cc) ?_).trans rfl
  intro a
  match a with
  | ⟨0, _⟩ => show 128 + k.val = 128 + (win0_7.index t (0 : Fin 2) * 128 + 1 * k.val); rw [e0]; omega
  | ⟨1, _⟩ => show cc.val = 0 + (win0_7.index t (1 : Fin 2) * 128 + 1 * cc.val); rw [e1]; omega

theorem iblk8_apply (c : Dev nD) (t : Fin cfg0.N) (cc : Fin 128) :
    (iblk (V1 m) c 8 t : Vec Ideal S128 .f32) (ix1 cc)
      = (m ((c.tc : Thread nD τ).loc main_arg3) : S258x128.Idx → EReal) (ix2 (⟨256, by omega⟩ : Fin 258) cc) := by
  have e0 := idx8 t
  unfold iblk; rw [View.read_apply]; show V1 m c main_v3 _ = _; rw [V1_main_v3]
  refine (shapeCast_apply _ _ _ (ix2 (0 : Fin 1) cc) ?_).trans ?_
  · rw [Shape.rowMajor_val_two, Shape.rowMajor_val_one]
    show 0 * 128 + cc.val = win0_8.index t (0 : Fin 1) * 128 + 1 * cc.val
    rw [e0]; omega
  · refine (extractStridedSlice_apply _ _ _ _ (ix2 (⟨256, by omega⟩ : Fin 258) cc) ?_).trans rfl
    intro a
    match a with
    | ⟨0, _⟩ => rfl
    | ⟨1, _⟩ => show cc.val = 0 + cc.val; omega

theorem iblk9_apply (c : Dev nD) (t : Fin cfg0.N) (cc : Fin 128) :
    (iblk (V1 m) c 9 t : Vec Ideal S128 .f32) (ix1 cc)
      = (m ((c.tc : Thread nD τ).loc main_arg3) : S258x128.Idx → EReal) (ix2 (⟨257, by omega⟩ : Fin 258) cc) := by
  have e0 := idx9 t
  unfold iblk; rw [View.read_apply]; show V1 m c main_v5 _ = _; rw [V1_main_v5]
  refine (shapeCast_apply _ _ _ (ix2 (0 : Fin 1) cc) ?_).trans ?_
  · rw [Shape.rowMajor_val_two, Shape.rowMajor_val_one]
    show 0 * 128 + cc.val = win0_9.index t (0 : Fin 1) * 128 + 1 * cc.val
    rw [e0]; omega
  · refine (extractStridedSlice_apply _ _ _ _ (ix2 (⟨257, by omega⟩ : Fin 258) cc) ?_).trans rfl
    intro a
    match a with
    | ⟨0, _⟩ => rfl
    | ⟨1, _⟩ => show cc.val = 0 + cc.val; omega

end Cert.KernelIdeal.Hand

end
-- ==== Proof.KAccBlk2.lean ====
/-
  The weight blocks a grid point loads: each weight's window is its whole array at block index zero on every axis, so the
  block read at any point is the argument itself, entry by entry.
-/
import proofs.«145759_j13950053777588_1_alg».proof.Proof.KAccPt
import proofs.«145759_j13950053777588_1_alg».proof.Proof.KEntry
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The block indices, decided over the grid: all zero -/

theorem idx10 : ∀ t : Fin cfg0.N, win0_10.index t (0 : Fin 1) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 1) = 0 := (by decide +kernel : ∀ t : Fin grid0.N, _)
theorem idx13 : ∀ t : Fin cfg0.N, win0_13.index t (0 : Fin 2) = 0 ∧ win0_13.index t (1 : Fin 2) = 0 := (by decide +kernel : ∀ t : Fin grid0.N, _)
theorem idx14 : ∀ t : Fin cfg0.N, win0_14.index t (0 : Fin 1) = 0 := (by decide +kernel : ∀ t : Fin grid0.N, _)
theorem idx15 : ∀ t : Fin cfg0.N, win0_15.index t (0 : Fin 2) = 0 ∧ win0_15.index t (1 : Fin 2) = 0 := (by decide +kernel : ∀ t : Fin grid0.N, _)
theorem idx16 : ∀ t : Fin cfg0.N, win0_16.index t (0 : Fin 1) = 0 := (by decide +kernel : ∀ t : Fin grid0.N, _)
theorem idx17 : ∀ t : Fin cfg0.N, win0_17.index t (0 : Fin 2) = 0 ∧ win0_17.index t (1 : Fin 2) = 0 := (by decide +kernel : ∀ t : Fin grid0.N, _)
theorem idx18 : ∀ t : Fin cfg0.N, win0_18.index t (0 : Fin 2) = 0 ∧ win0_18.index t (1 : Fin 2) = 0 := (by decide +kernel : ∀ t : Fin grid0.N, _)
theorem idx19 : ∀ t : Fin cfg0.N, win0_19.index t (0 : Fin 1) = 0 := (by decide +kernel : ∀ t : Fin grid0.N, _)
theorem idx20 : ∀ t : Fin cfg0.N, win0_20.index t (0 : Fin 2) = 0 ∧ win0_20.index t (1 : Fin 2) = 0 := (by decide +kernel : ∀ t : Fin grid0.N, _)
theorem idx21 : ∀ t : Fin cfg0.N, win0_21.index t (0 : Fin 2) = 0 ∧ win0_21.index t (1 : Fin 2) = 0 := (by decide +kernel : ∀ t : Fin grid0.N, _)
theorem idx22 : ∀ t : Fin cfg0.N, win0_22.index t (0 : Fin 1) = 0 := (by decide +kernel : ∀ t : Fin grid0.N, _)
theorem idx23 : ∀ t : Fin cfg0.N, win0_23.index t (0 : Fin 2) = 0 ∧ win0_23.index t (1 : Fin 2) = 0 := (by decide +kernel : ∀ t : Fin grid0.N, _)
theorem idx24 : ∀ t : Fin cfg0.N, win0_24.index t (0 : Fin 1) = 0 := (by decide +kernel : ∀ t : Fin grid0.N, _)

/-! ## Each weight's block is the weight -/

theorem iblk10_apply (c : Dev nD) (t : Fin cfg0.N) (cc : Fin 128) :
    (iblk (V1 m) c 10 t : Vec Ideal S128 .f32) (ix1 cc) = (m ((c.tc : Thread nD τ).loc main_arg4) : S128.Idx → EReal) (ix1 cc) := by
  have e0 := idx10 t
  unfold iblk; rw [View.read_apply]; show V1 m c main_arg4 _ = _; rw [V1_main_arg4]
  refine congrArg _ (funext fun a => Fin.ext ?_)
  match a with
  | ⟨0, _⟩ => show win0_10.index t (0 : Fin 1) * 128 + 1 * cc.val = cc.val; rw [e0]; omega

theorem iblk11_apply (c : Dev nD) (t : Fin cfg0.N) (k cc : Fin 128) :
    (iblk (V1 m) c 11 t : Vec Ideal S128x128 .f32) (ix2 k cc) = (m ((c.tc : Thread nD τ).loc main_arg5) : S128x128.Idx → EReal) (ix2 k cc) := by
  obtain ⟨e0, e1⟩ := idx11 t
  unfold iblk; rw [View.read_apply]; show V1 m c main_arg5 _ = _; rw [V1_main_arg5]
  refine congrArg _ (funext fun a => Fin.ext ?_)
  match a with
  | ⟨0, _⟩ => show win0_11.index t (0 : Fin 2) * 128 + 1 * k.val = k.val; rw [e0]; omega
  | ⟨1, _⟩ => show win0_11.index t (1 : Fin 2) * 128 + 1 * cc.val = cc.val; rw [e1]; omega

theorem iblk12_apply (c : Dev nD) (t : Fin cfg0.N) (cc : Fin 128) :
    (iblk (V1 m) c 12 t : Vec Ideal S128 .f32) (ix1 cc) = (m ((c.tc : Thread nD τ).loc main_arg6) : S128.Idx → EReal) (ix1 cc) := by
  have e0 := idx12 t
  unfold iblk; rw [View.read_apply]; show V1 m c main_arg6 _ = _; rw [V1_main_arg6]
  refine congrArg _ (funext fun a => Fin.ext ?_)
  match a with
  | ⟨0, _⟩ => show win0_12.index t (0 : Fin 1) * 128 + 1 * cc.val = cc.val; rw [e0]; omega

theorem iblk13_apply (c : Dev nD) (t : Fin cfg0.N) (k : Fin 128) (o : Fin 1) :
    (iblk (V1 m) c 13 t : Vec Ideal S128x1 .f32) (ix2 k o) = (m ((c.tc : Thread nD τ).loc main_arg7) : S128x1.Idx → EReal) (ix2 k o) := by
  obtain ⟨e0, e1⟩ := idx13 t
  unfold iblk; rw [View.read_apply]; show V1 m c main_arg7 _ = _; rw [V1_main_arg7]
  refine congrArg _ (funext fun a => Fin.ext ?_)
  match a with
  | ⟨0, _⟩ => show win0_13.index t (0 : Fin 2) * 128 + 1 * k.val = k.val; rw [e0]; omega
  | ⟨1, _⟩ => show win0_13.index t (1 : Fin 2) * 1 + 1 * o.val = o.val; rw [e1]; omega

theorem iblk14_apply (c : Dev nD) (t : Fin cfg0.N) (o : Fin 1) :
    (iblk (V1 m) c 14 t : Vec Ideal S1 .f32) (ix1 o) = (m ((c.tc : Thread nD τ).loc main_arg8) : S1.Idx → EReal) (ix1 o) := by
  have e0 := idx14 t
  unfold iblk; rw [View.read_apply]; show V1 m c main_arg8 _ = _; rw [V1_main_arg8]
  refine congrArg _ (funext fun a => Fin.ext ?_)
  match a with
  | ⟨0, _⟩ => show win0_14.index t (0 : Fin 1) * 1 + 1 * o.val = o.val; rw [e0]; omega

theorem iblk15_apply (c : Dev nD) (t : Fin cfg0.N) (k cc : Fin 128) :
    (iblk (V1 m) c 15 t : Vec Ideal S128x128 .f32) (ix2 k cc) = (m ((c.tc : Thread nD τ).loc main_arg9) : S128x128.Idx → EReal) (ix2 k cc) := by
  obtain ⟨e0, e1⟩ := idx15 t
  unfold iblk; rw [View.read_apply]; show V1 m c main_arg9 _ = _; rw [V1_main_arg9]
  refine congrArg _ (funext fun a => Fin.ext ?_)
  match a with
  | ⟨0, _⟩ => show win0_15.index t (0 : Fin 2) * 128 + 1 * k.val = k.val; rw [e0]; omega
  | ⟨1, _⟩ => show win0_15.index t (1 : Fin 2) * 128 + 1 * cc.val = cc.val; rw [e1]; omega

theorem iblk16_apply (c : Dev nD) (t : Fin cfg0.N) (cc : Fin 128) :
    (iblk (V1 m) c 16 t : Vec Ideal S128 .f32) (ix1 cc) = (m ((c.tc : Thread nD τ).loc main_arg10) : S128.Idx → EReal) (ix1 cc) := by
  have e0 := idx16 t
  unfold iblk; rw [View.read_apply]; show V1 m c main_arg10 _ = _; rw [V1_main_arg10]
  refine congrArg _ (funext fun a => Fin.ext ?_)
  match a with
  | ⟨0, _⟩ => show win0_16.index t (0 : Fin 1) * 128 + 1 * cc.val = cc.val; rw [e0]; omega

theorem iblk17_apply (c : Dev nD) (t : Fin cfg0.N) (k : Fin 128) (o : Fin 1) :
    (iblk (V1 m) c 17 t : Vec Ideal S128x1 .f32) (ix2 k o) = (m ((c.tc : Thread nD τ).loc main_arg11) : S128x1.Idx → EReal) (ix2 k o) := by
  obtain ⟨e0, e1⟩ := idx17 t
  unfold iblk; rw [View.read_apply]; show V1 m c main_arg11 _ = _; rw [V1_main_arg11]
  refine congrArg _ (funext fun a => Fin.ext ?_)
  match a with
  | ⟨0, _⟩ => show win0_17.index t (0 : Fin 2) * 128 + 1 * k.val = k.val; rw [e0]; omega
  | ⟨1, _⟩ => show win0_17.index t (1 : Fin 2) * 1 + 1 * o.val = o.val; rw [e1]; omega

theorem iblk18_apply (c : Dev nD) (t : Fin cfg0.N) (k cc : Fin 128) :
    (iblk (V1 m) c 18 t : Vec Ideal S128x128 .f32) (ix2 k cc) = (m ((c.tc : Thread nD τ).loc main_arg12) : S128x128.Idx → EReal) (ix2 k cc) := by
  obtain ⟨e0, e1⟩ := idx18 t
  unfold iblk; rw [View.read_apply]; show V1 m c main_arg12 _ = _; rw [V1_main_arg12]
  refine congrArg _ (funext fun a => Fin.ext ?_)
  match a with
  | ⟨0, _⟩ => show win0_18.index t (0 : Fin 2) * 128 + 1 * k.val = k.val; rw [e0]; omega
  | ⟨1, _⟩ => show win0_18.index t (1 : Fin 2) * 128 + 1 * cc.val = cc.val; rw [e1]; omega

theorem iblk19_apply (c : Dev nD) (t : Fin cfg0.N) (cc : Fin 128) :
    (iblk (V1 m) c 19 t : Vec Ideal S128 .f32) (ix1 cc) = (m ((c.tc : Thread nD τ).loc main_arg13) : S128.Idx → EReal) (ix1 cc) := by
  have e0 := idx19 t
  unfold iblk; rw [View.read_apply]; show V1 m c main_arg13 _ = _; rw [V1_main_arg13]
  refine congrArg _ (funext fun a => Fin.ext ?_)
  match a with
  | ⟨0, _⟩ => show win0_19.index t (0 : Fin 1) * 128 + 1 * cc.val = cc.val; rw [e0]; omega

theorem iblk20_apply (c : Dev nD) (t : Fin cfg0.N) (k : Fin 128) (o : Fin 1) :
    (iblk (V1 m) c 20 t : Vec Ideal S128x1 .f32) (ix2 k o) = (m ((c.tc : Thread nD τ).loc main_arg14) : S128x1.Idx → EReal) (ix2 k o) := by
  obtain ⟨e0, e1⟩ := idx20 t
  unfold iblk; rw [View.read_apply]; show V1 m c main_arg14 _ = _; rw [V1_main_arg14]
  refine congrArg _ (funext fun a => Fin.ext ?_)
  match a with
  | ⟨0, _⟩ => show win0_20.index t (0 : Fin 2) * 128 + 1 * k.val = k.val; rw [e0]; omega
  | ⟨1, _⟩ => show win0_20.index t (1 : Fin 2) * 1 + 1 * o.val = o.val; rw [e1]; omega

theorem iblk21_apply (c : Dev nD) (t : Fin cfg0.N) (k : Fin 256) (cc : Fin 128) :
    (iblk (V1 m) c 21 t : Vec Ideal S256x128 .f32) (ix2 k cc) = (m ((c.tc : Thread nD τ).loc main_arg15) : S256x128.Idx → EReal) (ix2 k cc) := by
  obtain ⟨e0, e1⟩ := idx21 t
  unfold iblk; rw [View.read_apply]; show V1 m c main_arg15 _ = _; rw [V1_main_arg15]
  refine congrArg _ (funext fun a => Fin.ext ?_)
  match a with
  | ⟨0, _⟩ => show win0_21.index t (0 : Fin 2) * 256 + 1 * k.val = k.val; rw [e0]; omega
  | ⟨1, _⟩ => show win0_21.index t (1 : Fin 2) * 128 + 1 * cc.val = cc.val; rw [e1]; omega

theorem iblk22_apply (c : Dev nD) (t : Fin cfg0.N) (cc : Fin 128) :
    (iblk (V1 m) c 22 t : Vec Ideal S128 .f32) (ix1 cc) = (m ((c.tc : Thread nD τ).loc main_arg16) : S128.Idx → EReal) (ix1 cc) := by
  have e0 := idx22 t
  unfold iblk; rw [View.read_apply]; show V1 m c main_arg16 _ = _; rw [V1_main_arg16]
  refine congrArg _ (funext fun a => Fin.ext ?_)
  match a with
  | ⟨0, _⟩ => show win0_22.index t (0 : Fin 1) * 128 + 1 * cc.val = cc.val; rw [e0]; omega

theorem iblk23_apply (c : Dev nD) (t : Fin cfg0.N) (k cc : Fin 128) :
    (iblk (V1 m) c 23 t : Vec Ideal S128x128 .f32) (ix2 k cc) = (m ((c.tc : Thread nD τ).loc main_arg17) : S128x128.Idx → EReal) (ix2 k cc) := by
  obtain ⟨e0, e1⟩ := idx23 t
  unfold iblk; rw [View.read_apply]; show V1 m c main_arg17 _ = _; rw [V1_main_arg17]
  refine congrArg _ (funext fun a => Fin.ext ?_)
  match a with
  | ⟨0, _⟩ => show win0_23.index t (0 : Fin 2) * 128 + 1 * k.val = k.val; rw [e0]; omega
  | ⟨1, _⟩ => show win0_23.index t (1 : Fin 2) * 128 + 1 * cc.val = cc.val; rw [e1]; omega

theorem iblk24_apply (c : Dev nD) (t : Fin cfg0.N) (cc : Fin 128) :
    (iblk (V1 m) c 24 t : Vec Ideal S128 .f32) (ix1 cc) = (m ((c.tc : Thread nD τ).loc main_arg18) : S128.Idx → EReal) (ix1 cc) := by
  have e0 := idx24 t
  unfold iblk; rw [View.read_apply]; show V1 m c main_arg18 _ = _; rw [V1_main_arg18]
  refine congrArg _ (funext fun a => Fin.ext ?_)
  match a with
  | ⟨0, _⟩ => show win0_24.index t (0 : Fin 1) * 128 + 1 * cc.val = cc.val; rw [e0]; omega

end Cert.KernelIdeal.Hand

end
-- ==== Proof.KAccBlk.lean ====
/-
  The 25 blocks a grid point loads are the blocks of point (b, it, jt) over the layer's arguments.
-/
import proofs.«145759_j13950053777588_1_alg».proof.Proof.KAccBlk1
import proofs.«145759_j13950053777588_1_alg».proof.Proof.KAccBlk2

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

set_option maxHeartbeats 2000000 in
theorem blkOf (c : Dev nD) (t : Fin cfg0.N) :
    BlkOf (argsOf m c) (bOf t) (itOf t) (jtOf t) (blk (V1 m) c t) :=
  BlkOf.mk
    (fun r cc => iblk0_apply m c t r cc)
    (fun r cc => iblk1_apply m c t r cc)
    (fun r k => iblk2_apply m c t r k)
    (fun r k => iblk3_apply m c t r k)
    (fun r k => iblk4_apply m c t r k)
    (fun r k => iblk5_apply m c t r k)
    (fun k cc => iblk6_apply m c t k cc)
    (fun k cc => iblk7_apply m c t k cc)
    (fun cc => iblk8_apply m c t cc)
    (fun cc => iblk9_apply m c t cc)
    (fun cc => iblk10_apply m c t cc)
    (fun k cc => iblk11_apply m c t k cc)
    (fun cc => iblk12_apply m c t cc)
    (fun k o => iblk13_apply m c t k o)
    (fun o => iblk14_apply m c t o)
    (fun k cc => iblk15_apply m c t k cc)
    (fun cc => iblk16_apply m c t cc)
    (fun k o => iblk17_apply m c t k o)
    (fun k cc => iblk18_apply m c t k cc)
    (fun cc => iblk19_apply m c t cc)
    (fun k o => iblk20_apply m c t k o)
    (fun k cc => iblk21_apply m c t k cc)
    (fun cc => iblk22_apply m c t cc)
    (fun k cc => iblk23_apply m c t k cc)
    (fun cc => iblk24_apply m c t cc)

end Cert.KernelIdeal.Hand

end
-- ==== Proof.KStepLib.lean ====
/-
  Building blocks for reading the tile's arithmetic at an index, over the extended reals: a matrix product into a zero
  accumulator as the sum over the contracted coordinate; a bias row spread over all rows; a column spread over all
  lanes; the row-major casts between the 4096 edges of a tile and its 64 × 64 pairs (edge 64·ii + jj is the pair
  (ii, jj)); the casts that add a unit axis in the middle or in front; and a sum over the sending rows.
-/
import proofs.«145759_j13950053777588_1_alg».proof.Proof.KIface
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

variable {α : Type}

/-! ## A matrix product read at an index -/

/-- A product of an M × K by a K × N matrix into a zero accumulator, at row e and column c, is the sum over the contracted
    coordinate of the products of the two entries. -/
theorem matmul_plain_apply (M K N : Nat) (l : FVec Ideal ⟨2, ![M, K]⟩ .f32) (r : FVec Ideal ⟨2, ![K, N]⟩ .f32)
    (e : Fin M) (c : Fin N) :
    matmul (DotDims.plain M K N) none l r (constant (F := Ideal) ⟨2, ![M, N]⟩ .f32 0x00000000#32) (ix2 e c)
      = ∑ k : Fin K, l (ix2 e k) * r (ix2 k c) := by
  refine (Ideal.matmul_constant_zero_apply (DotDims.plain M K N) none l r (ix2 e c)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 e c) ((contrEquiv1 (DotDims.plain M K N) K rfl rfl).symm k) = ix2 e k :=
    funext fun a => Fin.ext (by
      match a with
      | ⟨0, _⟩ => rfl
      | ⟨1, _⟩ => exact ((DotDims.plain M K N).lhsIdx_val_of_single rfl _ _).trans hk)
  have er : (DotDims.plain M K N).rhsIdx (ix2 e c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-! ## Spreading a row, a column, a unit lane -/

/-- A vector of b entries, cast to one row and spread over a rows, reads its entry c at (p, c). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- One column spread over b lanes reads, at (p, c), its entry p. -/
theorem colSpread_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A unit last axis spread over c lanes reads, at (i, j, k), the entry (i, j, 0). -/
theorem laneSpread_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A unit middle axis spread over b rows reads, at (i, j, k), the entry (i, 0, k). -/
theorem midSpread_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A unit first axis spread over a blocks reads, at (i, j, k), the entry (0, j, k). -/
theorem frontSpread_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## Casts -/

/-- An [a, c] array cast to [a, 1, c] reads, at (i, o, k), the entry (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (o : Fin 1) (k : Fin c) :
    shapeCast ⟨3, ![a, 1, c]⟩ x h (ix3 i o k) = x (ix2 i k) :=
  shapeCast_apply x h _ _ (by
    have ho : o.val = 0 := by omega
    rw [Shape.rowMajor_val_three, Shape.rowMajor_val_two]
    show i.val * c + k.val = (i.val * 1 + o.val) * c + k.val
    rw [ho, Nat.mul_one, Nat.add_zero])

/-- The 4096 edges of a tile cast to its 64 × 64 pairs: the pair (ii, jj) is edge 64·ii + jj. -/
theorem shapeCast_edges_apply {c : ℕ} (x : (⟨2, ![4096, c]⟩ : Shape).Idx → α)
    (h : (⟨2, ![4096, c]⟩ : Shape).ShapeCasts ⟨3, ![64, 64, c]⟩) (ii jj : Fin 64) (k : Fin c) :
    shapeCast ⟨3, ![64, 64, c]⟩ x h (ix3 ii jj k) = x (ix2 (edge ii jj) k) :=
  shapeCast_apply x h _ _ (by
    rw [Shape.rowMajor_val_three, Shape.rowMajor_val_two]
    show (64 * ii.val + jj.val) * c + k.val = (ii.val * 64 + jj.val) * c + k.val
    rw [Nat.mul_comm 64])

/-! ## A sum over the sending rows -/

/-- A sum over the middle axis of a [64, 64, c] array, at (ii, k), is the sum over jj of the entries (ii, jj, k). -/
theorem sumMid_apply {c : ℕ} (src : FVec Ideal ⟨3, ![64, 64, c]⟩ .f32) (acc : BitVec 32)
    (h : (⟨3, ![64, 64, c]⟩ : Shape).Reduces [1] ⟨2, ![64, c]⟩) (hφ : FKind.Formats .f32)
    (hacc : acc = FKind.add.neutral .f32 hφ) (ii : Fin 64) (k : Fin c) :
    multiReduction .add [1] ⟨2, ![64, c]⟩ src acc h hφ hacc (ix2 ii k) = ∑ jj : Fin 64, src (ix3 ii jj k) := by
  refine (Ideal.multiReduction_add_single src acc h hφ hacc (ix2 ii k)).trans ?_
  refine Finset.sum_congr rfl fun jj _ => congrArg src (funext fun ax => Fin.ext ?_)
  match ax with
  | ⟨0, _⟩ => rfl
  | ⟨1, _⟩ => rfl
  | ⟨2, _⟩ => rfl

end Cert.KernelIdeal.Hand

end
-- ==== Proof.KStep1.lean ====
/-
  The tile's messages and the two scalar heads on them, read at an edge. The message of edge e in lane c is the
  second edge layer's output there times the logistic of the edge's logit. A head is two layers and tanh on the
  message row of the edge: the same two matrix products the layer's gate applies, so once the message rows are the
  layer's messages and the weights are the layer's weights, the head at edge 64·ii + jj is the layer's gate of the pair
  (64·it + ii, 64·jt + jj). The difference block at (ii, jj, k) is the receiving row's coordinate minus the sending
  row's.
-/
import proofs.«145759_j13950053777588_1_alg».proof.Proof.KStepLib

noncomputable section

namespace Cert.KernelIdeal.Hand

open Cert.KernelIdeal Cert.KernelIdeal.Gen
open Idealize.ShloMosaic Idealize.ShloMosaic.ValueIdx

/-! ## The messages -/

/-- The message at edge e, lane c: the second layer's output times the logistic of the edge's logit. -/
theorem msgVec_apply (v70 : FVec Ideal S4096x128 .f32) (v76 : FVec Ideal S4096x1 .f32) (e : Fin 4096) (c : Fin 128) :
    k0_pay22 v70 v76 (ix2 e c) = v70 (ix2 e c) * Ideal.logistic (v76 (ix2 e (0 : Fin 1))) := by
  unfold k0_pay22
  show v70 (ix2 e c) * broadcastTo S4096x128 (logistic v76) _ (ix2 e c) = _
  exact congrArg (v70 (ix2 e c) * ·) (colSpread_apply (logistic v76) _ e c)

/-! ## A scalar head on the messages -/

/-- The first layer of a head, before its activation: one row per edge. -/
def headHid (m : FVec Ideal S4096x128 .f32) (W1 : FVec Ideal S128x128 .f32) (b1 : FVec Ideal S128 .f32) :
    FVec Ideal S4096x128 .f32 :=
  addf (matmul dot_S4096x128_S128x128_S4096x128_1_0_0_1_n_n none m W1 (constant (F := Ideal) S4096x128 .f32 0x00000000#32))
    (broadcastTo S4096x128 (shapeCast S1x128 b1 shapeCasts_S128_S1x128) broadcasts_S1x128_S4096x128)

/-- The head: the first layer through x · logistic x, the second layer down to one value per edge, tanh. -/
def headGate (m : FVec Ideal S4096x128 .f32) (W1 : FVec Ideal S128x128 .f32) (b1 : FVec Ideal S128 .f32)
    (W2 : FVec Ideal S128x1 .f32) : FVec Ideal S4096x1 .f32 :=
  tanh (matmul dot_S4096x128_S128x1_S4096x1_1_0_0_1_n_n none (mulf (headHid m W1 b1) (logistic (headHid m W1 b1))) W2
    (constant (F := Ideal) S4096x1 .f32 0x00000000#32))

theorem headHid_apply (m : FVec Ideal S4096x128 .f32) (W1 : FVec Ideal S128x128 .f32) (b1 : FVec Ideal S128 .f32)
    (e : Fin 4096) (k : Fin 128) :
    headHid m W1 b1 (ix2 e k) = (∑ l : Fin 128, m (ix2 e l) * W1 (ix2 l k)) + b1 (ix1 k) := by
  unfold headHid
  show matmul _ none m W1 _ (ix2 e k) + broadcastTo S4096x128 (shapeCast S1x128 b1 _) _ (ix2 e k) = _
  exact congrArg₂ (· + ·) (matmul_plain_apply 4096 128 128 m W1 e k) (rowBias_apply b1 _ _ e k)

theorem headGate_apply (m : FVec Ideal S4096x128 .f32) (W1 : FVec Ideal S128x128 .f32) (b1 : FVec Ideal S128 .f32)
    (W2 : FVec Ideal S128x1 .f32) (e : Fin 4096) :
    headGate m W1 b1 W2 (ix2 e (0 : Fin 1))
      = Ideal.tanh (∑ k : Fin 128, Cert.Egnn.silu ((∑ l : Fin 128, m (ix2 e l) * W1 (ix2 l k)) + b1 (ix1 k))
          * W2 (ix2 k (0 : Fin 1))) := by
  unfold headGate
  show Ideal.tanh (matmul _ none _ W2 _ (ix2 e (0 : Fin 1))) = _
  refine congrArg Ideal.tanh ((matmul_plain_apply 4096 128 1 _ W2 e 0).trans ?_)
  refine Finset.sum_congr rfl fun k _ => congrArg (· * W2 (ix2 k (0 : Fin 1))) ?_
  show headHid m W1 b1 (ix2 e k) * Ideal.logistic (headHid m W1 b1 (ix2 e k)) = Cert.Egnn.silu _
  rw [headHid_apply]
  rfl

/-! ## The two gated sums and the message sum, over any blocks -/

/-- The gated position differences after the point: the sum before it plus, over the sending rows, the difference
    times the head's value at the edge. -/
theorem posStep_apply (v19 : FVec Ideal S64x64x3 .f32) (v70 : FVec Ideal S4096x128 .f32) (v76 : FVec Ideal S4096x1 .f32)
    (v80 : FVec Ideal S128x128 .f32) (v82 : FVec Ideal S128 .f32) (v88 : FVec Ideal S128x1 .f32)
    (v104 : FVec Ideal S64x3 .f32) (ii : Fin 64) (k : Fin 3) :
    k0_pay23 v19 v70 v76 v80 v82 v88 v104 (ix2 ii k)
      = v104 (ix2 ii k) + ∑ jj : Fin 64, v19 (ix3 ii jj k)
          * headGate (k0_pay22 v70 v76) v80 v82 v88 (ix2 (edge ii jj) (0 : Fin 1)) := by
  unfold k0_pay23
  refine (congrFun (shapeCast_self _ _) (ix2 ii k)).trans ?_
  show v104 (ix2 ii k) + multiReduction .add [1] S64x3 _ _ _ _ _ (ix2 ii k) = _
  refine congrArg (v104 (ix2 ii k) + ·) ((sumMid_apply _ _ _ _ _ ii k).trans ?_)
  refine Finset.sum_congr rfl fun jj _ => ?_
  show v19 (ix3 ii jj k) * broadcastTo S64x64x3 (shapeCast S64x64x1 _ _) _ (ix3 ii jj k) = _
  refine congrArg (v19 (ix3 ii jj k) * ·)
    ((laneSpread_apply _ _ ii jj k).trans ((shapeCast_edges_apply _ _ ii jj (0 : Fin 1)).trans ?_))
  rfl

/-- The gated velocity differences before they are summed. -/
theorem velGated_apply (v24 : FVec Ideal S64x64x3 .f32) (v70 : FVec Ideal S4096x128 .f32) (v76 : FVec Ideal S4096x1 .f32)
    (v91 : FVec Ideal S128x128 .f32) (v93 : FVec Ideal S128 .f32) (v99 : FVec Ideal S128x1 .f32)
    (ii jj : Fin 64) (k : Fin 3) :
    k0_pay24 v24 v70 v76 v91 v93 v99 (ix3 ii jj k)
      = v24 (ix3 ii jj k) * headGate (k0_pay22 v70 v76) v91 v93 v99 (ix2 (edge ii jj) (0 : Fin 1)) := by
  unfold k0_pay24
  show v24 (ix3 ii jj k) * broadcastTo S64x64x3 (shapeCast S64x64x1 _ _) _ (ix3 ii jj k) = _
  refine congrArg (v24 (ix3 ii jj k) * ·)
    ((laneSpread_apply _ _ ii jj k).trans ((shapeCast_edges_apply _ _ ii jj (0 : Fin 1)).trans ?_))
  rfl

/-- The running sum plus the sum over the sending rows. -/
theorem velStep_apply (v112 : FVec Ideal S64x3 .f32) (v114 : FVec Ideal S64x64x3 .f32) (ii : Fin 64) (k : Fin 3) :
    k0_pay1 v112 v114 (ix2 ii k) = v112 (ix2 ii k) + ∑ jj : Fin 64, v114 (ix3 ii jj k) := by
  unfold k0_pay1
  refine (congrFun (shapeCast_self _ _) (ix2 ii k)).trans ?_
  show v112 (ix2 ii k) + multiReduction .add [1] S64x3 _ _ _ _ _ (ix2 ii k) = _
  exact congrArg (v112 (ix2 ii k) + ·) (sumMid_apply _ _ _ _ _ ii k)

/-- The message sum after the point: the sum before it plus the messages of the sending rows. -/
theorem msgStep_apply (v79 : FVec Ideal S4096x128 .f32) (v120 : FVec Ideal S64x128 .f32) (ii : Fin 64) (c : Fin 128) :
    k0_pay2 v79 v120 (ix2 ii c) = v120 (ix2 ii c) + ∑ jj : Fin 64, v79 (ix2 (edge ii jj) c) := by
  unfold k0_pay2
  refine (congrFun (shapeCast_self _ _) (ix2 ii c)).trans ?_
  show v120 (ix2 ii c) + multiReduction .add [1] S64x128 _ _ _ _ _ (ix2 ii c) = _
  refine congrArg (v120 (ix2 ii c) + ·) ((sumMid_apply _ _ _ _ _ ii c).trans ?_)
  exact Finset.sum_congr rfl fun jj _ => shapeCast_edges_apply v79 _ ii jj c

/-! ## The difference blocks -/

/-- The position differences: receiving row ii's coordinate minus sending row jj's. -/
theorem posDiff_apply (v7 v9 : FVec Ideal S1x64x3 .f32) (ii jj : Fin 64) (k : Fin 3) :
    k0_pay15 v7 v9 (ix3 ii jj k) = v7 (ix3 (0 : Fin 1) ii k) - v9 (ix3 (0 : Fin 1) jj k) := by
  unfold k0_pay15 k0_pay13
  show broadcastTo S64x64x3 (shapeCast S64x1x3 (shapeCast S64x3 v7 _) _) _ (ix3 ii jj k)
    - broadcastTo S64x64x3 (shapeCast S1x64x3 (shapeCast S64x3 v9 _) _) _ (ix3 ii jj k) = _
  refine congrArg₂ (· - ·) ?_ ?_
  · exact (midSpread_apply _ _ ii jj k).trans
      ((shapeCast_ac_a1c_apply _ _ ii (0 : Fin 1) k).trans (shapeCast_1ab_ab_apply v7 _ ii k))
  · exact (frontSpread_apply _ _ ii jj k).trans
      ((shapeCast_ab_1ab_apply _ _ (0 : Fin 1) jj k).trans (shapeCast_1ab_ab_apply v9 _ jj k))

/-- The velocity differences likewise. -/
theorem velDiff_apply (v11 v13 : FVec Ideal S1x64x3 .f32) (ii jj : Fin 64) (k : Fin 3) :
    k0_pay16 v11 v13 (ix3 ii jj k) = v11 (ix3 (0 : Fin 1) ii k) - v13 (ix3 (0 : Fin 1) jj k) := by
  unfold k0_pay16 k0_pay14
  show broadcastTo S64x64x3 (shapeCast S64x1x3 (shapeCast S64x3 v11 _) _) _ (ix3 ii jj k)
    - broadcastTo S64x64x3 (shapeCast S1x64x3 (shapeCast S64x3 v13 _) _) _ (ix3 ii jj k) = _
  refine congrArg₂ (· - ·) ?_ ?_
  · exact (midSpread_apply _ _ ii jj k).trans
      ((shapeCast_ac_a1c_apply _ _ ii (0 : Fin 1) k).trans (shapeCast_1ab_ab_apply v11 _ ii k))
  · exact (frontSpread_apply _ _ ii jj k).trans
      ((shapeCast_ab_1ab_apply _ _ (0 : Fin 1) jj k).trans (shapeCast_1ab_ab_apply v13 _ jj k))

end Cert.KernelIdeal.Hand

end
-- ==== Proof.KStep2.lean ====
/-
  One grid point's effect on the three running sums, over the layer's arguments. With the second edge layer's output
  and the logit of every edge of the tile given as the layer's m2 and the layer's attention logit (the two facts about
  the edge layers, taken here as hypotheses), the tile's message at edge 64·ii + jj is the layer's message of the pair
  (64·it + ii, 64·jt + jj); each head on it is the layer's gate; and the three sums grow by the sending tile's
  contributions: the gated position and velocity differences and the messages, summed over the 64 sending rows.
-/
import proofs.«145759_j13950053777588_1_alg».proof.Proof.KStep1

noncomputable section

namespace Cert.KernelIdeal.Hand

open Cert.KernelIdeal Cert.KernelIdeal.Gen
open Idealize.ShloMosaic Idealize.ShloMosaic.ValueIdx

open Cert.Egnn

variable {a : Cert.Egnn.Args} {b : Fin 2} {it jt : Fin 8} {B : Blk Ideal}

/-- The tile's message at an edge is the layer's message of the pair. -/
theorem msg_apply_of (hE1 : ∀ (ii jj : Fin 64) (c : Fin 128), x70 B (ix2 (edge ii jj) c) = Cert.Egnn.m2 a b (row it ii) (row jt jj) c)
    (hE2 : ∀ (ii jj : Fin 64), x76 B (ix2 (edge ii jj) (0 : Fin 1))
      = (∑ k : Fin 128, Cert.Egnn.m2 a b (row it ii) (row jt jj) k * a.Wa (ix2 k (0 : Fin 1))) + a.ba (ix1 (0 : Fin 1)))
    (ii jj : Fin 64) (c : Fin 128) :
    k0_pay22 (x70 B) (x76 B) (ix2 (edge ii jj) c) = Cert.Egnn.msg a b (row it ii) (row jt jj) c := by
  rw [msgVec_apply, hE1, hE2]
  rfl

/-- A head on the tile's messages, with the layer's weights, is the layer's gate of the pair. -/
theorem headGate_edge
    (hmsg : ∀ (ii jj : Fin 64) (c : Fin 128), k0_pay22 (x70 B) (x76 B) (ix2 (edge ii jj) c) = Cert.Egnn.msg a b (row it ii) (row jt jj) c)
    (W1 : FVec Ideal S128x128 .f32) (b1 : FVec Ideal S128 .f32) (W2 : FVec Ideal S128x1 .f32)
    (W1' : A2 128 128) (b1' : A1 128) (W2' : A2 128 1)
    (h1 : ∀ (k c : Fin 128), W1 (ix2 k c) = W1' (ix2 k c)) (h2 : ∀ (c : Fin 128), b1 (ix1 c) = b1' (ix1 c))
    (h3 : ∀ (k : Fin 128) (o : Fin 1), W2 (ix2 k o) = W2' (ix2 k o)) (ii jj : Fin 64) :
    headGate (k0_pay22 (x70 B) (x76 B)) W1 b1 W2 (ix2 (edge ii jj) (0 : Fin 1))
      = Cert.Egnn.gate a W1' b1' W2' b (row it ii) (row jt jj) := by
  rw [headGate_apply]
  unfold Cert.Egnn.gate
  refine congrArg Ideal.tanh (Finset.sum_congr rfl fun k _ => ?_)
  rw [h2, h3]
  refine congrArg (fun z => Cert.Egnn.silu (z + b1' (ix1 k)) * W2' (ix2 k (0 : Fin 1))) (Finset.sum_congr rfl fun l _ => ?_)
  rw [hmsg, h1]

section
variable (hB : BlkOf a b it jt B)
  (hE1 : ∀ (ii jj : Fin 64) (c : Fin 128), x70 B (ix2 (edge ii jj) c) = Cert.Egnn.m2 a b (row it ii) (row jt jj) c)
  (hE2 : ∀ (ii jj : Fin 64), x76 B (ix2 (edge ii jj) (0 : Fin 1))
      = (∑ k : Fin 128, Cert.Egnn.m2 a b (row it ii) (row jt jj) k * a.Wa (ix2 k (0 : Fin 1))) + a.ba (ix1 (0 : Fin 1)))
include hB hE1 hE2

/-- The gated position differences after the point. -/
theorem stepP_apply_of (acc : Vec Ideal S64x3 .f32) (ii : Fin 64) (k : Fin 3) :
    stepP B acc (ix2 ii k) = acc (ix2 ii k) + ∑ jj : Fin 64,
      Cert.Egnn.dif a.pos b (row it ii) (row jt jj) k * Cert.Egnn.gateP a b (row it ii) (row jt jj) := by
  unfold stepP
  refine (posStep_apply _ _ _ _ _ _ acc ii k).trans ?_
  refine congrArg (acc (ix2 ii k) + ·) (Finset.sum_congr rfl fun jj _ => ?_)
  rw [posDiff_apply, hB.h2, hB.h3,
    headGate_edge (msg_apply_of hE1 hE2) B.b15 B.b16 B.b17 a.Wp1 a.bp1 a.Wp2 hB.h15 hB.h16 hB.h17 ii jj]
  rfl

/-- The gated velocity differences after the point. -/
theorem stepV_apply_of (acc : Vec Ideal S64x3 .f32) (ii : Fin 64) (k : Fin 3) :
    stepV B acc (ix2 ii k) = acc (ix2 ii k) + ∑ jj : Fin 64,
      Cert.Egnn.dif a.vel b (row it ii) (row jt jj) k * Cert.Egnn.gateV a b (row it ii) (row jt jj) := by
  unfold stepV
  refine (velStep_apply acc _ ii k).trans ?_
  refine congrArg (acc (ix2 ii k) + ·) (Finset.sum_congr rfl fun jj _ => ?_)
  rw [velGated_apply, velDiff_apply, hB.h4, hB.h5,
    headGate_edge (msg_apply_of hE1 hE2) B.b18 B.b19 B.b20 a.Wv1 a.bv1 a.Wv2 hB.h18 hB.h19 hB.h20 ii jj]
  rfl

omit hB in
/-- The message sums after the point. -/
theorem stepM_apply_of (acc : Vec Ideal S64x128 .f32) (ii : Fin 64) (c : Fin 128) :
    stepM B acc (ix2 ii c) = acc (ix2 ii c) + ∑ jj : Fin 64, Cert.Egnn.msg a b (row it ii) (row jt jj) c := by
  unfold stepM
  refine (msgStep_apply _ acc ii c).trans ?_
  exact congrArg (acc (ix2 ii c) + ·) (Finset.sum_congr rfl fun jj _ => msg_apply_of hE1 hE2 ii jj c)

end

/-! ## The sums a first sending tile starts from -/

theorem zAcc_1 (ii : Fin 64) (k : Fin 3) : (zAcc (F := Ideal)).1 (ix2 ii k) = 0 := by
  show k0_pay8 (F := Ideal) (ix2 ii k) = 0
  unfold k0_pay8
  refine (congrFun (shapeCast_self _ _) (ix2 ii k)).trans ?_
  exact Ideal.ofBits_zero_f32

theorem zAcc_2 (ii : Fin 64) (k : Fin 3) : (zAcc (F := Ideal)).2.1 (ix2 ii k) = 0 := by
  show k0_pay9 (F := Ideal) (ix2 ii k) = 0
  unfold k0_pay9
  refine (congrFun (shapeCast_self _ _) (ix2 ii k)).trans ?_
  exact Ideal.ofBits_zero_f32

theorem zAcc_3 (ii : Fin 64) (c : Fin 128) : (zAcc (F := Ideal)).2.2 (ix2 ii c) = 0 := by
  show k0_pay10 (F := Ideal) (ix2 ii c) = 0
  unfold k0_pay10
  refine (congrFun (shapeCast_self _ _) (ix2 ii c)).trans ?_
  exact Ideal.ofBits_zero_f32

end Cert.KernelIdeal.Hand

end
-- ==== Proof.KEdgeLib.lean ====
/-
  Building blocks for reading one tile's edge network at an index, at the ideal values: a matrix product into a zero
  accumulator as a finite sum over the contracted axis (for the three product shapes met), a row vector broadcast
  over rows, the layout casts and broadcasts between [64,128], [64,1,128], [1,64,128], [64,64,128] and [4096,128]
  (and the same with last extent 3 or 1), the sum over a last axis of extent 3, and x · logistic x.
-/
import proofs.«145759_j13950053777588_1_alg».proof.Proof.Gen.KernelIdeal.Skeleton
import proofs.«145759_j13950053777588_1_alg».proof.Proof.KIface
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

theorem mm_64_128_128_l0 (j : S64x128.Idx) (q : dot_S64x128_S128x128_S64x128_1_0_0_1_n_n.contr.Idx) : (dot_S64x128_S128x128_S64x128_1_0_0_1_n_n.lhsIdx j q 0).val = (j 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl
theorem mm_64_128_128_l1 (j : S64x128.Idx) (q : dot_S64x128_S128x128_S64x128_1_0_0_1_n_n.contr.Idx) : (dot_S64x128_S128x128_S64x128_1_0_0_1_n_n.lhsIdx j q 1).val = (q ⟨0, by decide⟩).val :=
  dot_S64x128_S128x128_S64x128_1_0_0_1_n_n.lhsIdx_val_of_single rfl j q
theorem mm_64_128_128_r0 (j : S64x128.Idx) (q : dot_S64x128_S128x128_S64x128_1_0_0_1_n_n.contr.Idx) : (dot_S64x128_S128x128_S64x128_1_0_0_1_n_n.rhsIdx j q 0).val = (q ⟨0, by decide⟩).val :=
  dot_S64x128_S128x128_S64x128_1_0_0_1_n_n.rhsIdx_val_of_single rfl j q
theorem mm_64_128_128_r1 (j : S64x128.Idx) (q : dot_S64x128_S128x128_S64x128_1_0_0_1_n_n.contr.Idx) : (dot_S64x128_S128x128_S64x128_1_0_0_1_n_n.rhsIdx j q 1).val = (j 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl

/-- A [64,128]·[128,128] product into the zero accumulator, at (i, c): the sum over k of l(i,k) · r(k,c). -/
theorem mm_64_128_128 (l : FVec Ideal S64x128 .f32) (r : FVec Ideal S128x128 .f32) (i : Fin 64) (c : Fin 128) :
    matmul dot_S64x128_S128x128_S64x128_1_0_0_1_n_n none l r (constant (F := Ideal) S64x128 .f32 0x00000000#32) (ix2 i c)
      = ∑ k : Fin 128, l (ix2 i k) * r (ix2 k c) := by
  refine (Ideal.matmul_constant_zero_apply dot_S64x128_S128x128_S64x128_1_0_0_1_n_n none l r (ix2 i c)).trans ?_
  rw [← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 i c) ((contrEquiv1 dot_S64x128_S128x128_S64x128_1_0_0_1_n_n 128 rfl rfl).symm k) = ix2 i k :=
    funext fun a => Fin.ext (by
      match a with
      | ⟨0, _⟩ => exact mm_64_128_128_l0 _ _
      | ⟨1, _⟩ => exact (mm_64_128_128_l1 _ _).trans hk)
  have er : dot_S64x128_S128x128_S64x128_1_0_0_1_n_n.rhsIdx (ix2 i c) ((contrEquiv1 dot_S64x128_S128x128_S64x128_1_0_0_1_n_n 128 rfl rfl).symm k) = ix2 k c :=
    funext fun a => Fin.ext (by
      match a with
      | ⟨0, _⟩ => exact (mm_64_128_128_r0 _ _).trans hk
      | ⟨1, _⟩ => exact mm_64_128_128_r1 _ _)
  rw [el, er]

theorem mm_4096_128_128_l0 (j : S4096x128.Idx) (q : dot_S4096x128_S128x128_S4096x128_1_0_0_1_n_n.contr.Idx) : (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
theorem mm_4096_128_128_l1 (j : S4096x128.Idx) (q : dot_S4096x128_S128x128_S4096x128_1_0_0_1_n_n.contr.Idx) : (dot_S4096x128_S128x128_S4096x128_1_0_0_1_n_n.lhsIdx j q 1).val = (q ⟨0, by decide⟩).val :=
  dot_S4096x128_S128x128_S4096x128_1_0_0_1_n_n.lhsIdx_val_of_single rfl j q
theorem mm_4096_128_128_r0 (j : S4096x128.Idx) (q : dot_S4096x128_S128x128_S4096x128_1_0_0_1_n_n.contr.Idx) : (dot_S4096x128_S128x128_S4096x128_1_0_0_1_n_n.rhsIdx j q 0).val = (q ⟨0, by decide⟩).val :=
  dot_S4096x128_S128x128_S4096x128_1_0_0_1_n_n.rhsIdx_val_of_single rfl j q
theorem mm_4096_128_128_r1 (j : S4096x128.Idx) (q : dot_S4096x128_S128x128_S4096x128_1_0_0_1_n_n.contr.Idx) : (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- A [4096,128]·[128,128] product into the zero accumulator, at (i, c): the sum over k of l(i,k) · r(k,c). -/
theorem mm_4096_128_128 (l : FVec Ideal S4096x128 .f32) (r : FVec Ideal S128x128 .f32) (i : Fin 4096) (c : Fin 128) :
    matmul dot_S4096x128_S128x128_S4096x128_1_0_0_1_n_n none l r (constant (F := Ideal) S4096x128 .f32 0x00000000#32) (ix2 i c)
      = ∑ k : Fin 128, l (ix2 i k) * r (ix2 k c) := by
  refine (Ideal.matmul_constant_zero_apply dot_S4096x128_S128x128_S4096x128_1_0_0_1_n_n none l r (ix2 i c)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 i c) ((contrEquiv1 dot_S4096x128_S128x128_S4096x128_1_0_0_1_n_n 128 rfl rfl).symm k) = ix2 i k :=
    funext fun a => Fin.ext (by
      match a with
      | ⟨0, _⟩ => exact mm_4096_128_128_l0 _ _
      | ⟨1, _⟩ => exact (mm_4096_128_128_l1 _ _).trans hk)
  have er : dot_S4096x128_S128x128_S4096x128_1_0_0_1_n_n.rhsIdx (ix2 i c) ((contrEquiv1 dot_S4096x128_S128x128_S4096x128_1_0_0_1_n_n 128 rfl rfl).symm k) = ix2 k c :=
    funext fun a => Fin.ext (by
      match a with
      | ⟨0, _⟩ => exact (mm_4096_128_128_r0 _ _).trans hk
      | ⟨1, _⟩ => exact mm_4096_128_128_r1 _ _)
  rw [el, er]

theorem mm_4096_128_1_l0 (j : S4096x1.Idx) (q : dot_S4096x128_S128x1_S4096x1_1_0_0_1_n_n.contr.Idx) : (dot_S4096x128_S128x1_S4096x1_1_0_0_1_n_n.lhsIdx j q 0).val = (j 0).val := by
  unfold DotDims.lhsIdx
  rw [dif_neg (show ¬(0 : Fin S4096x128.rank) ∈ dot_S4096x128_S128x1_S4096x1_1_0_0_1_n_n.lhsBatch by decide),
    dif_pos (show (0 : Fin S4096x128.rank) ∈ dot_S4096x128_S128x1_S4096x1_1_0_0_1_n_n.lhsNonContracting by decide)]
  rfl
theorem mm_4096_128_1_l1 (j : S4096x1.Idx) (q : dot_S4096x128_S128x1_S4096x1_1_0_0_1_n_n.contr.Idx) : (dot_S4096x128_S128x1_S4096x1_1_0_0_1_n_n.lhsIdx j q 1).val = (q ⟨0, by decide⟩).val :=
  dot_S4096x128_S128x1_S4096x1_1_0_0_1_n_n.lhsIdx_val_of_single rfl j q
theorem mm_4096_128_1_r0 (j : S4096x1.Idx) (q : dot_S4096x128_S128x1_S4096x1_1_0_0_1_n_n.contr.Idx) : (dot_S4096x128_S128x1_S4096x1_1_0_0_1_n_n.rhsIdx j q 0).val = (q ⟨0, by decide⟩).val :=
  dot_S4096x128_S128x1_S4096x1_1_0_0_1_n_n.rhsIdx_val_of_single rfl j q
theorem mm_4096_128_1_r1 (j : S4096x1.Idx) (q : dot_S4096x128_S128x1_S4096x1_1_0_0_1_n_n.contr.Idx) : (dot_S4096x128_S128x1_S4096x1_1_0_0_1_n_n.rhsIdx j q 1).val = (j 1).val := by
  unfold DotDims.rhsIdx
  rw [dif_neg (show ¬(1 : Fin S128x1.rank) ∈ dot_S4096x128_S128x1_S4096x1_1_0_0_1_n_n.rhsBatch by decide),
    dif_pos (show (1 : Fin S128x1.rank) ∈ dot_S4096x128_S128x1_S4096x1_1_0_0_1_n_n.rhsNonContracting by decide)]
  rfl

/-- A [4096,128]·[128,1] product into the zero accumulator, at (i, c): the sum over k of l(i,k) · r(k,c). -/
theorem mm_4096_128_1 (l : FVec Ideal S4096x128 .f32) (r : FVec Ideal S128x1 .f32) (i : Fin 4096) (c : Fin 1) :
    matmul dot_S4096x128_S128x1_S4096x1_1_0_0_1_n_n none l r (constant (F := Ideal) S4096x1 .f32 0x00000000#32) (ix2 i c)
      = ∑ k : Fin 128, l (ix2 i k) * r (ix2 k c) := by
  refine (Ideal.matmul_constant_zero_apply dot_S4096x128_S128x1_S4096x1_1_0_0_1_n_n none l r (ix2 i c)).trans ?_
  rw [← Equiv.sum_comp (contrEquiv1 dot_S4096x128_S128x1_S4096x1_1_0_0_1_n_n 128 rfl rfl).symm]
  refine Finset.sum_congr rfl fun k _ => ?_
  have hk := contrEquiv1_symm_val dot_S4096x128_S128x1_S4096x1_1_0_0_1_n_n 128 rfl rfl k
  have el : dot_S4096x128_S128x1_S4096x1_1_0_0_1_n_n.lhsIdx (ix2 i c) ((contrEquiv1 dot_S4096x128_S128x1_S4096x1_1_0_0_1_n_n 128 rfl rfl).symm k) = ix2 i k :=
    funext fun a => Fin.ext (by
      match a with
      | ⟨0, _⟩ => exact mm_4096_128_1_l0 _ _
      | ⟨1, _⟩ => exact (mm_4096_128_1_l1 _ _).trans hk)
  have er : dot_S4096x128_S128x1_S4096x1_1_0_0_1_n_n.rhsIdx (ix2 i c) ((contrEquiv1 dot_S4096x128_S128x1_S4096x1_1_0_0_1_n_n 128 rfl rfl).symm k) = ix2 k c :=
    funext fun a => Fin.ext (by
      match a with
      | ⟨0, _⟩ => exact (mm_4096_128_1_r0 _ _).trans hk
      | ⟨1, _⟩ => exact mm_4096_128_1_r1 _ _)
  rw [el, er]

/-! ## Layout: casts and broadcasts at an index -/

section Layout
variable {α : Type}

/-- An [a, b] array cast to [a, 1, b] reads, at (i, u, j), the operand at (i, j). -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b] array cast to [a, b, 1] reads, at (i, j, u), the operand at (i, j). -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [1, 1, a] reads, at (u, v, i), the operand at i. -/
theorem cast_a_11a {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A [64, 64, n] array cast to [4096, n] reads, at (64·i + j, c), the operand at (i, j, c). -/
theorem cast_tile_flat {n : ℕ} (x : (⟨3, ![64, 64, n]⟩ : Shape).Idx → α)
    (h : (⟨3, ![64, 64, n]⟩ : Shape).ShapeCasts ⟨2, ![4096, n]⟩) (i j : Fin 64) (c : Fin n) :
    shapeCast ⟨2, ![4096, n]⟩ x h (ix2 (edge i j) c) = x (ix3 i j c) :=
  shapeCast_apply x h _ _ (by
    rw [Shape.rowMajor_val_three, Shape.rowMajor_val_two]
    show (i.val * 64 + j.val) * n + c.val = (64 * i.val + j.val) * n + c.val
    rw [Nat.mul_comm i.val 64])

/-- A [4096, n] array cast to [64, 64, n] reads, at (i, j, c), the operand at (64·i + j, c). -/
theorem cast_flat_tile {n : ℕ} (x : (⟨2, ![4096, n]⟩ : Shape).Idx → α)
    (h : (⟨2, ![4096, n]⟩ : Shape).ShapeCasts ⟨3, ![64, 64, n]⟩) (i j : Fin 64) (c : Fin n) :
    shapeCast ⟨3, ![64, 64, n]⟩ x h (ix3 i j c) = x (ix2 (edge i j) c) :=
  shapeCast_apply x h _ _ (by
    rw [Shape.rowMajor_val_three, Shape.rowMajor_val_two]
    show (64 * i.val + j.val) * n + c.val = (i.val * 64 + j.val) * n + c.val
    rw [Nat.mul_comm i.val 64])

/-- An [a, 1, c] array broadcast to [a, b, c] reads, at (i, j, k), the operand at (i, 0, k). -/
theorem bcast_a1c_abc {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k). -/
theorem bcast_1bc_abc {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An [a, b, 1] array broadcast to [a, b, c] reads, at (i, j, k), the operand at (i, j, 0). -/
theorem bcast_ab1_abc {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A [1, 1, c] array broadcast to [a, b, c] reads, at (i, j, k), the operand at (0, 0, k). -/
theorem bcast_11c_abc {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An [a, 1] array broadcast to [a, b] reads, at (i, j), the operand at (i, 0). -/
theorem bcast_a1_ab {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- A vector [b] laid as one row [1, b] and broadcast over a rows reads, at (i, c), the vector at c. -/
theorem rowvec_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (i : Fin a) (c : Fin b) :
    broadcastTo ⟨2, ![a, b]⟩ (shapeCast ⟨2, ![1, b]⟩ v h1) h2 (ix2 i c) = v (ix1 c) :=
  (broadcastTo_1b_ab_apply _ h2 i c).trans (shapeCast_a_1a_apply v h1 0 c)

/-- A vector [c] laid as [1, 1, c] and broadcast to [a, b, c] reads, at (i, j, k), the vector at k. -/
theorem vec3_apply {a b c : ℕ} (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ v h1) h2 (ix3 i j k) = v (ix1 k) :=
  (bcast_11c_abc _ h2 i j k).trans (cast_a_11a v h1 0 0 k)

/-- An [a, c] array laid as [a, 1, c] and broadcast to [a, b, c] reads, at (i, j, k), the array at (i, k). -/
theorem recv3_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h1) h2 (ix3 i j k) = x (ix2 i k) :=
  (bcast_a1c_abc _ h2 i j k).trans (cast_ab_a1b x h1 i 0 k)

/-- A [b, c] array laid as [1, b, c] and broadcast to [a, b, c] reads, at (i, j, k), the array at (j, k). -/
theorem send3_apply {a b c : ℕ} (x : (⟨2, ![b, c]⟩ : Shape).Idx → α)
    (h1 : (⟨2, ![b, c]⟩ : Shape).ShapeCasts ⟨3, ![1, b, c]⟩) (h2 : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ x h1) h2 (ix3 i j k) = x (ix2 j k) :=
  (bcast_1bc_abc _ h2 i j k).trans (shapeCast_ab_1ab_apply x h1 0 j k)

/-- An [a, b] array laid as [a, b, 1] and broadcast to [a, b, c] reads, at (i, j, k), the array at (i, j). -/
theorem pair3_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h1) h2 (ix3 i j k) = x (ix2 i j) :=
  (bcast_ab1_abc _ h2 i j k).trans (cast_ab_ab1 x h1 i j 0)

end Layout

/-! ## A sum over the last axis, and x · logistic x -/

/-- The sum over the last axis (extent 3) of an [a, b, 3] array, at (i, j). -/
theorem sum_last3 {a b : ℕ} (src : FVec Ideal ⟨3, ![a, b, 3]⟩ .f32)
    (h : (⟨3, ![a, b, 3]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin 3, src (ix3 i j k) := by
  refine (Ideal.multiReduction_add_single src 0x00000000#32 h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- x · logistic x, at an index. -/
theorem silu_apply {s : Shape} (x : FVec Ideal s .f32) (i : s.Idx) :
    mulf x (logistic x) i = Cert.Egnn.silu (x i) := rfl

end Cert.KernelIdeal.Hand

end
-- ==== Proof.KEdge1.lean ====
/-
  One tile's first edge layer at an index: the coordinate differences of the receiving and the sending rows, their
  squared lengths, and the layer before its activation — the two node products, the two distance terms and the bias,
  added in the order the target's `pre` adds them.
-/
import proofs.«145759_j13950053777588_1_alg».proof.Proof.KEdgeLib

noncomputable section

namespace Cert.KernelIdeal.Hand

open Cert.KernelIdeal Cert.KernelIdeal.Gen
open Idealize.ShloMosaic Idealize.ShloMosaic.ValueIdx

/-- Row i of a [1, 64, n] block as a [64, n] array. -/
theorem pay11_apply (x : Vec Ideal S1x64x128 .f32) (i : Fin 64) (k : Fin 128) :
    k0_pay11 x (ix2 i k) = x (ix3 (0 : Fin 1) i k) :=
  shapeCast_1ab_ab_apply x _ i k

theorem pay12_apply (x : Vec Ideal S1x64x128 .f32) (i : Fin 64) (k : Fin 128) :
    k0_pay12 x (ix2 i k) = x (ix3 (0 : Fin 1) i k) :=
  shapeCast_1ab_ab_apply x _ i k

theorem pay13_apply (x : Vec Ideal S1x64x3 .f32) (i : Fin 64) (k : Fin 3) :
    k0_pay13 x (ix2 i k) = x (ix3 (0 : Fin 1) i k) :=
  shapeCast_1ab_ab_apply x _ i k

theorem pay14_apply (x : Vec Ideal S1x64x3 .f32) (i : Fin 64) (k : Fin 3) :
    k0_pay14 x (ix2 i k) = x (ix3 (0 : Fin 1) i k) :=
  shapeCast_1ab_ab_apply x _ i k

theorem pay19_eq (w : Vec Ideal S128x128 .f32) : k0_pay19 w = w := shapeCast_self w _

/-- The position block's difference: receiving row i minus sending row j, coordinate k. -/
theorem pay15_apply (p q : Vec Ideal S1x64x3 .f32) (i j : Fin 64) (k : Fin 3) :
    k0_pay15 p q (ix3 i j k) = p (ix3 (0 : Fin 1) i k) - q (ix3 (0 : Fin 1) j k) := by
  unfold k0_pay15
  refine (subf_apply _ _ _).trans ?_
  exact congrArg₂ (fun x y : EReal => x - y)
    ((recv3_apply _ _ _ i j k).trans (pay13_apply p i k))
    ((send3_apply _ _ _ i j k).trans (shapeCast_1ab_ab_apply q _ j k))

/-- The velocity block's difference. -/
theorem pay16_apply (p q : Vec Ideal S1x64x3 .f32) (i j : Fin 64) (k : Fin 3) :
    k0_pay16 p q (ix3 i j k) = p (ix3 (0 : Fin 1) i k) - q (ix3 (0 : Fin 1) j k) := by
  unfold k0_pay16
  refine (subf_apply _ _ _).trans ?_
  exact congrArg₂ (fun x y : EReal => x - y)
    ((recv3_apply _ _ _ i j k).trans (pay14_apply p i k))
    ((send3_apply _ _ _ i j k).trans (shapeCast_1ab_ab_apply q _ j k))

/-- The squared length of the position difference of rows i and j. -/
theorem pay17_apply (p q : Vec Ideal S1x64x3 .f32) (i j : Fin 64) :
    k0_pay17 p q (ix2 i j) = ∑ k : Fin 3, (p (ix3 (0 : Fin 1) i k) - q (ix3 (0 : Fin 1) j k))
      * (p (ix3 (0 : Fin 1) i k) - q (ix3 (0 : Fin 1) j k)) := by
  unfold k0_pay17
  refine (sum_last3 _ _ _ _ i j).trans ?_
  refine Finset.sum_congr rfl fun k _ => ?_
  refine (mulf_apply _ _ _).trans ?_
  rw [pay15_apply]

/-- The squared length of the velocity difference of rows i and j. -/
theorem pay18_apply (p q : Vec Ideal S1x64x3 .f32) (i j : Fin 64) :
    k0_pay18 p q (ix2 i j) = ∑ k : Fin 3, (p (ix3 (0 : Fin 1) i k) - q (ix3 (0 : Fin 1) j k))
      * (p (ix3 (0 : Fin 1) i k) - q (ix3 (0 : Fin 1) j k)) := by
  unfold k0_pay18
  refine (sum_last3 _ _ _ _ i j).trans ?_
  refine Finset.sum_congr rfl fun k _ => ?_
  refine (mulf_apply _ _ _).trans ?_
  rw [pay16_apply]

variable {a : Cert.Egnn.Args} {b : Fin 2} {it jt : Fin 8} {B : Blk Ideal}

theorem dsqP_apply (hB : BlkOf a b it jt B) (ii jj : Fin 64) :
    k0_pay17 B.b2 B.b3 (ix2 ii jj) = Cert.Egnn.dsq a.pos b (row it ii) (row jt jj) := by
  rw [pay17_apply]
  unfold Cert.Egnn.dsq Cert.Egnn.dif
  refine Finset.sum_congr rfl fun k _ => ?_
  rw [hB.h2, hB.h3]

theorem dsqV_apply (hB : BlkOf a b it jt B) (ii jj : Fin 64) :
    k0_pay18 B.b4 B.b5 (ix2 ii jj) = Cert.Egnn.dsq a.vel b (row it ii) (row jt jj) := by
  rw [pay18_apply]
  unfold Cert.Egnn.dsq Cert.Egnn.dif
  refine Finset.sum_congr rfl fun k _ => ?_
  rw [hB.h4, hB.h5]

/-- The tile's first layer before its activation, as laid out: a receiving-row term and a sending-row term broadcast
    over the 64 × 64 edges, two per-edge scalars each against a row vector, and a bias row, then flattened to one
    edge per row. At edge 64·i + j and column c it is the five terms at their own indices. -/
theorem tile_pre_apply (r s : FVec Ideal S64x128 .f32) (d e : FVec Ideal S64x64 .f32) (u v w : FVec Ideal S128 .f32)
    (h1 : S64x128.ShapeCasts S64x1x128) (h2 : S64x1x128.Broadcasts S64x64x128)
    (h3 : S64x128.ShapeCasts S1x64x128) (h4 : S1x64x128.Broadcasts S64x64x128)
    (h5 : S64x64.ShapeCasts S64x64x1) (h6 : S64x64x1.Broadcasts S64x64x128)
    (h7 : S128.ShapeCasts S1x1x128) (h8 : S1x1x128.Broadcasts S64x64x128)
    (h9 : S64x64x128.ShapeCasts S4096x128) (i j : Fin 64) (c : Fin 128) :
    shapeCast S4096x128
      (addf (addf (addf (addf (broadcastTo S64x64x128 (shapeCast S64x1x128 r h1) h2)
                              (broadcastTo S64x64x128 (shapeCast S1x64x128 s h3) h4))
                        (mulf (broadcastTo S64x64x128 (shapeCast S64x64x1 d h5) h6)
                              (broadcastTo S64x64x128 (shapeCast S1x1x128 u h7) h8)))
                  (mulf (broadcastTo S64x64x128 (shapeCast S64x64x1 e h5) h6)
                        (broadcastTo S64x64x128 (shapeCast S1x1x128 v h7) h8)))
            (broadcastTo S64x64x128 (shapeCast S1x1x128 w h7) h8)) h9 (ix2 (edge i j) c)
      = (((r (ix2 i c) + s (ix2 j c)) + d (ix2 i j) * u (ix1 c)) + e (ix2 i j) * v (ix1 c)) + w (ix1 c) := by
  refine (cast_tile_flat _ h9 i j c).trans ?_
  refine (addf_apply _ _ _).trans ?_
  refine congrArg₂ (fun x y : EReal => x + y) ?_ (vec3_apply w h7 h8 i j c)
  refine (addf_apply _ _ _).trans ?_
  refine congrArg₂ (fun x y : EReal => x + y) ?_ ?_
  · refine (addf_apply _ _ _).trans ?_
    refine congrArg₂ (fun x y : EReal => x + y) ?_ ?_
    · refine (addf_apply _ _ _).trans ?_
      exact congrArg₂ (fun x y : EReal => x + y) (recv3_apply r h1 h2 i j c) (send3_apply s h3 h4 i j c)
    · refine (mulf_apply _ _ _).trans ?_
      exact congrArg₂ (fun x y : EReal => x * y) (pair3_apply d h5 h6 i j c) (vec3_apply u h7 h8 i j c)
  · refine (mulf_apply _ _ _).trans ?_
    exact congrArg₂ (fun x y : EReal => x * y) (pair3_apply e h5 h6 i j c) (vec3_apply v h7 h8 i j c)

end Cert.KernelIdeal.Hand

end
-- ==== Proof.KEdge2.lean ====
/-
  One tile's edge network at an index: the second edge layer's output is the target's m2 at the edge's two nodes,
  and the attention logit is m2 against Wa plus ba.
-/
import proofs.«145759_j13950053777588_1_alg».proof.Proof.KEdge1

noncomputable section

namespace Cert.KernelIdeal.Hand

open Cert.KernelIdeal Cert.KernelIdeal.Gen
open Idealize.ShloMosaic Idealize.ShloMosaic.ValueIdx

variable {a : Cert.Egnn.Args} {b : Fin 2} {it jt : Fin 8} {B : Blk Ideal}

/-- The second edge layer's output at edge 64·ii + jj, column c. -/
theorem x70_apply (hB : BlkOf a b it jt B) (ii jj : Fin 64) (c : Fin 128) :
    x70 B (ix2 (edge ii jj) c) = Cert.Egnn.m2 a b (row it ii) (row jt jj) c := by
  unfold x70 k0_pay20 Cert.Egnn.m2
  refine (silu_apply _ _).trans (congrArg Cert.Egnn.silu ?_)
  refine (addf_apply _ _ _).trans ?_
  refine congrArg₂ (fun x y : EReal => x + y) ?_ ((rowvec_apply B.b12 _ _ (edge ii jj) c).trans (hB.h12 c))
  refine (mm_4096_128_128 _ _ (edge ii jj) c).trans ?_
  refine Finset.sum_congr rfl fun k _ => congrArg₂ (fun x y : EReal => x * y) ?_ (hB.h11 k c)
  unfold Cert.Egnn.m1
  refine (silu_apply _ _).trans (congrArg Cert.Egnn.silu ?_)
  refine (tile_pre_apply _ _ _ _ _ _ _ _ _ _ _ _ _ _ _ _ ii jj k).trans ?_
  unfold Cert.Egnn.pre
  refine congrArg₂ (fun x y : EReal => x + y) (congrArg₂ (fun x y : EReal => x + y)
    (congrArg₂ (fun x y : EReal => x + y) (congrArg₂ (fun x y : EReal => x + y) ?_ ?_) ?_) ?_) (hB.h10 k)
  · exact (mm_64_128_128 _ _ ii k).trans (Finset.sum_congr rfl fun l _ =>
      congrArg₂ (fun x y : EReal => x * y) ((pay11_apply B.b0 ii l).trans (hB.h0 ii l))
        ((congrFun (pay19_eq B.b6) _).trans (hB.h6 l k)))
  · exact (mm_64_128_128 _ _ jj k).trans (Finset.sum_congr rfl fun l _ =>
      congrArg₂ (fun x y : EReal => x * y) ((pay12_apply B.b1 jj l).trans (hB.h1 jj l))
        ((congrFun (shapeCast_self B.b7 _) _).trans (hB.h7 l k)))
  · exact congrArg₂ (fun x y : EReal => x * y) (dsqP_apply hB ii jj)
      ((congrFun (shapeCast_self B.b8 _) _).trans (hB.h8 k))
  · exact congrArg₂ (fun x y : EReal => x * y) (dsqV_apply hB ii jj)
      ((congrFun (shapeCast_self B.b9 _) _).trans (hB.h9 k))

/-- The attention logit of edge 64·ii + jj. -/
theorem x76_apply (hB : BlkOf a b it jt B) (ii jj : Fin 64) :
    x76 B (ix2 (edge ii jj) (0 : Fin 1))
      = (∑ k : Fin 128, Cert.Egnn.m2 a b (row it ii) (row jt jj) k * a.Wa (ix2 k (0 : Fin 1))) + a.ba (ix1 (0 : Fin 1)) := by
  unfold x76 k0_pay21
  refine (addf_apply _ _ _).trans ?_
  refine congrArg₂ (fun x y : EReal => x + y) ?_
    ((rowvec_apply B.b14 _ _ (edge ii jj) (0 : Fin 1)).trans (hB.h14 0))
  refine (mm_4096_128_1 _ _ (edge ii jj) 0).trans ?_
  exact Finset.sum_congr rfl fun k _ =>
    congrArg₂ (fun x y : EReal => x * y) (x70_apply hB ii jj k) (hB.h13 k 0)

end Cert.KernelIdeal.Hand

end
-- ==== Proof.KStep3.lean ====
/-
  One grid point's effect on the three running sums, over the layer's arguments: the tile's message at edge 64·ii + jj
  is the layer's message of the pair (64·it + ii, 64·jt + jj), and each sum grows by the sending tile's contributions,
  summed over its 64 rows. The two facts about the edge layers are now proved, so nothing is assumed.
-/
import proofs.«145759_j13950053777588_1_alg».proof.Proof.KStep2
import proofs.«145759_j13950053777588_1_alg».proof.Proof.KEdge2

noncomputable section

namespace Cert.KernelIdeal.Hand

open Cert.KernelIdeal Cert.KernelIdeal.Gen
open Idealize.ShloMosaic Idealize.ShloMosaic.ValueIdx

variable {a : Cert.Egnn.Args} {b : Fin 2} {it jt : Fin 8} {B : Blk Ideal}

/-- The tile's message at an edge is the layer's message of the pair. -/
theorem msg_apply (hB : BlkOf a b it jt B) (ii jj : Fin 64) (c : Fin 128) :
    k0_pay22 (x70 B) (x76 B) (ix2 (edge ii jj) c) = Cert.Egnn.msg a b (row it ii) (row jt jj) c :=
  msg_apply_of (x70_apply hB) (x76_apply hB) ii jj c

/-- The gated position differences after the point. -/
theorem stepP_apply (hB : BlkOf a b it jt B) (acc : Vec Ideal S64x3 .f32) (ii : Fin 64) (k : Fin 3) :
    stepP B acc (ix2 ii k) = acc (ix2 ii k) + ∑ jj : Fin 64,
      Cert.Egnn.dif a.pos b (row it ii) (row jt jj) k * Cert.Egnn.gateP a b (row it ii) (row jt jj) :=
  stepP_apply_of hB (x70_apply hB) (x76_apply hB) acc ii k

/-- The gated velocity differences after the point. -/
theorem stepV_apply (hB : BlkOf a b it jt B) (acc : Vec Ideal S64x3 .f32) (ii : Fin 64) (k : Fin 3) :
    stepV B acc (ix2 ii k) = acc (ix2 ii k) + ∑ jj : Fin 64,
      Cert.Egnn.dif a.vel b (row it ii) (row jt jj) k * Cert.Egnn.gateV a b (row it ii) (row jt jj) :=
  stepV_apply_of hB (x70_apply hB) (x76_apply hB) acc ii k

/-- The message sums after the point. -/
theorem stepM_apply (hB : BlkOf a b it jt B) (acc : Vec Ideal S64x128 .f32) (ii : Fin 64) (c : Fin 128) :
    stepM B acc (ix2 ii c) = acc (ix2 ii c) + ∑ jj : Fin 64, Cert.Egnn.msg a b (row it ii) (row jt jj) c :=
  stepM_apply_of (x70_apply hB) (x76_apply hB) acc ii c

end Cert.KernelIdeal.Hand

end
-- ==== Proof.KFinLib.lean ====
/-
  Building blocks for reading the result blocks of the tiled kernel at an index: a matrix product into a zero
  accumulator is the sum over the inner positions; a bias vector spread over the rows; x * logistic x; two arrays
  joined along the columns.
-/
import proofs.«145759_j13950053777588_1_alg».proof.Proof.KIface
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem

/-! ## Matrix products into a zero accumulator, read at an index -/

theorem fin_lhs256_0 (i : S64x128.Idx) (q : dot_S64x256_S256x128_S64x128_1_0_0_1_n_n.contr.Idx) :
    (dot_S64x256_S256x128_S64x128_1_0_0_1_n_n.lhsIdx i q 0).val = (i 0).val := by
  unfold DotDims.lhsIdx
  rw [dif_neg (show ¬(0 : Fin S64x256.rank) ∈ dot_S64x256_S256x128_S64x128_1_0_0_1_n_n.lhsBatch by decide),
    dif_pos (show (0 : Fin S64x256.rank) ∈ dot_S64x256_S256x128_S64x128_1_0_0_1_n_n.lhsNonContracting by decide)]
  rfl
theorem fin_lhs256_1 (i : S64x128.Idx) (q : dot_S64x256_S256x128_S64x128_1_0_0_1_n_n.contr.Idx) :
    (dot_S64x256_S256x128_S64x128_1_0_0_1_n_n.lhsIdx i q 1).val = (q ⟨0, by decide⟩).val :=
  dot_S64x256_S256x128_S64x128_1_0_0_1_n_n.lhsIdx_val_of_single rfl i q
theorem fin_rhs256_0 (i : S64x128.Idx) (q : dot_S64x256_S256x128_S64x128_1_0_0_1_n_n.contr.Idx) :
    (dot_S64x256_S256x128_S64x128_1_0_0_1_n_n.rhsIdx i q 0).val = (q ⟨0, by decide⟩).val :=
  dot_S64x256_S256x128_S64x128_1_0_0_1_n_n.rhsIdx_val_of_single rfl i q
theorem fin_rhs256_1 (i : S64x128.Idx) (q : dot_S64x256_S256x128_S64x128_1_0_0_1_n_n.contr.Idx) :
    (dot_S64x256_S256x128_S64x128_1_0_0_1_n_n.rhsIdx i q 1).val = (i 1).val := by
  unfold DotDims.rhsIdx
  rw [dif_neg (show ¬(1 : Fin S256x128.rank) ∈ dot_S64x256_S256x128_S64x128_1_0_0_1_n_n.rhsBatch by decide),
    dif_pos (show (1 : Fin S256x128.rank) ∈ dot_S64x256_S256x128_S64x128_1_0_0_1_n_n.rhsNonContracting by decide)]
  rfl

/-- Row ii, column k of a [64,256]·[256,128] product into a zero accumulator: the sum over the 256 inner positions. -/
theorem fin_mm256_apply (l : FVec Ideal S64x256 .f32) (r : FVec Ideal S256x128 .f32) (ii : Fin 64) (k : Fin 128) :
    matmul dot_S64x256_S256x128_S64x128_1_0_0_1_n_n none l r (constant S64x128 .f32 0x00000000#32) (ix2 ii k)
      = ∑ q : Fin 256, l (ix2 ii q) * r (ix2 q k) := by
  show FloatOps.matmul _ _ _ _ _ _ = _
  rw [Ideal.matmul_constant_zero_apply,
    ← Equiv.sum_comp (contrEquiv1 dot_S64x256_S256x128_S64x128_1_0_0_1_n_n 256 rfl rfl).symm]
  refine Finset.sum_congr rfl fun q _ => ?_
  have hk := contrEquiv1_symm_val dot_S64x256_S256x128_S64x128_1_0_0_1_n_n 256 rfl rfl q
  have el : dot_S64x256_S256x128_S64x128_1_0_0_1_n_n.lhsIdx (ix2 ii k)
      ((contrEquiv1 dot_S64x256_S256x128_S64x128_1_0_0_1_n_n 256 rfl rfl).symm q) = ix2 ii q :=
    funext fun d => Fin.ext (by
      match d with
      | ⟨0, _⟩ => exact fin_lhs256_0 _ _
      | ⟨1, _⟩ => exact (fin_lhs256_1 _ _).trans hk)
  have er : dot_S64x256_S256x128_S64x128_1_0_0_1_n_n.rhsIdx (ix2 ii k)
      ((contrEquiv1 dot_S64x256_S256x128_S64x128_1_0_0_1_n_n 256 rfl rfl).symm q) = ix2 q k :=
    funext fun d => Fin.ext (by
      match d with
      | ⟨0, _⟩ => exact (fin_rhs256_0 _ _).trans hk
      | ⟨1, _⟩ => exact fin_rhs256_1 _ _)
  rw [el, er]

theorem fin_lhs128_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl
theorem fin_lhs128_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem fin_rhs128_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem fin_rhs128_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl

/-- Row ii, column c of a [64,128]·[128,128] product into a zero accumulator: the sum over the 128 inner positions. -/
theorem fin_mm128_apply (l : FVec Ideal S64x128 .f32) (r : FVec Ideal S128x128 .f32) (ii : Fin 64) (c : Fin 128) :
    matmul dot_S64x128_S128x128_S64x128_1_0_0_1_n_n none l r (constant S64x128 .f32 0x00000000#32) (ix2 ii c)
      = ∑ k : Fin 128, l (ix2 ii k) * r (ix2 k c) := by
  show FloatOps.matmul _ _ _ _ _ _ = _
  rw [Ideal.matmul_constant_zero_apply,
    ← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 ii c)
      ((contrEquiv1 dot_S64x128_S128x128_S64x128_1_0_0_1_n_n 128 rfl rfl).symm k) = ix2 ii k :=
    funext fun d => Fin.ext (by
      match d with
      | ⟨0, _⟩ => exact fin_lhs128_0 _ _
      | ⟨1, _⟩ => exact (fin_lhs128_1 _ _).trans hk)
  have er : dot_S64x128_S128x128_S64x128_1_0_0_1_n_n.rhsIdx (ix2 ii c)
      ((contrEquiv1 dot_S64x128_S128x128_S64x128_1_0_0_1_n_n 128 rfl rfl).symm k) = ix2 k c :=
    funext fun d => Fin.ext (by
      match d with
      | ⟨0, _⟩ => exact (fin_rhs128_0 _ _).trans hk
      | ⟨1, _⟩ => exact fin_rhs128_1 _ _)
  rw [el, er]

/-! ## A bias row spread over the 64 rows, the activation, and two arrays joined along the columns -/

/-- A vector of 128 entries, cast to one row and spread over 64 rows, reads its entry c in every row. -/
theorem fin_bias_apply (v : FVec Ideal S128 .f32) (ii : Fin 64) (c : Fin 128) :
    broadcastTo S64x128 (shapeCast S1x128 v shapeCasts_S128_S1x128) broadcasts_S1x128_S64x128 (ix2 ii c) = v (ix1 c) :=
  (broadcastTo_1b_ab_apply _ _ ii c).trans (shapeCast_a_1a_apply v _ (0 : Fin 1) c)

/-- x * logistic x, entry by entry. -/
theorem fin_silu_apply {s : Shape} (x : FVec Ideal s .f32) (y : s.Idx) : mulf x (logistic x) y = Cert.Egnn.silu (x y) := rfl

/-- Two [64,128] arrays joined along the columns: columns 0..127 read the first, columns 128..255 the second. -/
theorem fin_cat_apply (y0 y1 : FVec Ideal S64x128 .f32) (ii : Fin 64) (q : Fin 256) :
    concatenate S64x256 1 [⟨S64x128, y0⟩, ⟨S64x128, y1⟩] concatenates_S64x128_S64x128_S64x256_d1 (ix2 ii q)
      = if hq : q.val < 128 then y0 (ix2 ii (⟨q.val, hq⟩ : Fin 128)) else y1 (ix2 ii (⟨q.val - 128, by omega⟩ : Fin 128)) := by
  by_cases hq : q.val < 128
  · rw [dif_pos hq]
    exact concatenate_apply_piece (1 : Fin S64x256.rank) _ _ _ 0 (by simp) S64x128 y0 rfl rfl 0 rfl
      (ix2 ii (⟨q.val, hq⟩ : Fin 128))
      (fun d hd => by match d with | ⟨0, _⟩ => rfl | ⟨1, _⟩ => exact absurd rfl hd)
      (Nat.zero_add _)
  · rw [dif_neg hq]
    exact concatenate_apply_piece (1 : Fin S64x256.rank) _ _ _ 1 (by simp) S64x128 y1 rfl rfl 128 rfl
      (ix2 ii (⟨q.val - 128, by omega⟩ : Fin 128))
      (fun d hd => by match d with | ⟨0, _⟩ => rfl | ⟨1, _⟩ => exact absurd rfl hd)
      (by show 128 + (q.val - 128) = q.val; omega)

end Cert.KernelIdeal.Hand

end
-- ==== Proof.KFin.lean ====
/-
  The three result blocks a last sending tile writes, read at an index: from the finished sums over all sending
  rows they are the specification's new node features, new positions and new velocities on the receiving tile's rows.
-/
import proofs.«145759_j13950053777588_1_alg».proof.Proof.KFinLib

noncomputable section

namespace Cert.KernelIdeal.Hand

open Cert.KernelIdeal Cert.KernelIdeal.Gen
open Idealize.ShloMosaic Idealize.ShloMosaic.TcCoe Idealize.ShloMosaic.ValueIdx Idealize.SL.Sem

/-! ## The payloads of the result blocks, read at an index -/

/-- A [1,64,128] block cast to [64,128] reads, at (ii, c), the block at (0, ii, c). -/
theorem fin_pay11_apply (v : Vec Ideal S1x64x128 .f32) (ii : Fin 64) (c : Fin 128) :
    k0_pay11 v (ix2 ii c) = v (ix3 (0 : Fin 1) ii c) :=
  shapeCast_1ab_ab_apply v _ ii c

/-- A [1,64,3] block cast to [64,3] likewise. -/
theorem fin_pay13_apply (v : Vec Ideal S1x64x3 .f32) (ii : Fin 64) (k : Fin 3) :
    k0_pay13 v (ix2 ii k) = v (ix3 (0 : Fin 1) ii k) :=
  shapeCast_1ab_ab_apply v _ ii k

theorem fin_pay14_apply (v : Vec Ideal S1x64x3 .f32) (ii : Fin 64) (k : Fin 3) :
    k0_pay14 v (ix2 ii k) = v (ix3 (0 : Fin 1) ii k) :=
  shapeCast_1ab_ab_apply v _ ii k

/-- A [64,3] array cast back to a [1,64,3] block. -/
theorem fin_pay3_apply (v : FVec Ideal S64x3 .f32) (u : Fin 1) (ii : Fin 64) (k : Fin 3) :
    k0_pay3 v (ix3 u ii k) = v (ix2 ii k) :=
  shapeCast_ab_1ab_apply v _ u ii k

theorem fin_pay4_apply (v : FVec Ideal S64x3 .f32) (u : Fin 1) (ii : Fin 64) (k : Fin 3) :
    k0_pay4 v (ix3 u ii k) = v (ix2 ii k) :=
  shapeCast_ab_1ab_apply v _ u ii k

/-- The row plus the sum divided by 511, clamped: max with the lower bound, then min with the upper. -/
theorem fin_pay5_apply (v8 : FVec Ideal S64x3 .f32) (v130 : Vec Ideal S64x3 .f32) (y : S64x3.Idx) :
    k0_pay5 v8 v130 y = min Cert.Egnn.cHi (max Cert.Egnn.cLo (v8 y + Ideal.div (v130 y) Cert.Egnn.c511)) := rfl

theorem fin_pay6_apply (v12 : FVec Ideal S64x3 .f32) (v133 : Vec Ideal S64x3 .f32) (y : S64x3.Idx) :
    k0_pay6 v12 v133 y = min Cert.Egnn.cHi (max Cert.Egnn.cLo (v12 y + Ideal.div (v133 y) Cert.Egnn.c511)) := rfl

/-- The node update on 64 rows: the rows joined with the summed messages, through the two layers, added to the rows. -/
theorem fin_pay7_apply (v4 : FVec Ideal S64x128 .f32) (v146 : Vec Ideal S64x128 .f32) (v148 : Vec Ideal S256x128 .f32)
    (v150 : Vec Ideal S128 .f32) (v156 : Vec Ideal S128x128 .f32) (v158 : Vec Ideal S128 .f32)
    (u : Fin 1) (ii : Fin 64) (c : Fin 128) :
    k0_pay7 v4 v146 v148 v150 v156 v158 (ix3 u ii c)
      = v4 (ix2 ii c) + ((∑ k : Fin 128, Cert.Egnn.silu ((∑ q : Fin 256,
            (if hq : q.val < 128 then v4 (ix2 ii (⟨q.val, hq⟩ : Fin 128))
              else v146 (ix2 ii (⟨q.val - 128, by omega⟩ : Fin 128))) * v148 (ix2 q k)) + v150 (ix1 k))
          * v156 (ix2 k c)) + v158 (ix1 c)) := by
  unfold k0_pay7
  refine (shapeCast_ab_1ab_apply _ _ u ii c).trans ?_
  simp only [addf_apply, fin_mm128_apply, fin_bias_apply, fin_silu_apply, fin_mm256_apply, fin_cat_apply]

variable {a : Cert.Egnn.Args} {b : Fin 2} {it jt : Fin 8} {B : Blk Ideal}

/-! ## The three result blocks -/

/-- The block of new node features a last sending tile writes, from the finished message sums. -/
theorem finH_apply (hB : BlkOf a b it jt B) (aM : Vec Ideal S64x128 .f32)
    (haM : ∀ (ii : Fin 64) (c : Fin 128), aM (ix2 ii c) = Cert.Egnn.agg a b (row it ii) c) (ii : Fin 64) (c : Fin 128) :
    finH B aM (ix3 (0 : Fin 1) ii c) = Cert.Egnn.hNew a b (row it ii) c := by
  unfold finH
  rw [fin_pay7_apply]
  simp only [fin_pay11_apply, hB.h0, haM, hB.h21, hB.h22, hB.h23, hB.h24]
  rfl

/-- The block of new positions, from the finished gated sums of position differences. -/
theorem finP_apply (hB : BlkOf a b it jt B) (aP : Vec Ideal S64x3 .f32)
    (haP : ∀ (ii : Fin 64) (k : Fin 3), aP (ix2 ii k) = Cert.Egnn.drift a.pos (Cert.Egnn.gateP a) b (row it ii) k)
    (ii : Fin 64) (k : Fin 3) :
    finP B aP (ix3 (0 : Fin 1) ii k) = Cert.Egnn.moved a.pos (Cert.Egnn.gateP a) b (row it ii) k := by
  unfold finP
  rw [fin_pay3_apply, fin_pay5_apply, fin_pay13_apply, hB.h2, haP]
  rfl

/-- The block of new velocities, from the finished gated sums of velocity differences. -/
theorem finV_apply (hB : BlkOf a b it jt B) (aV : Vec Ideal S64x3 .f32)
    (haV : ∀ (ii : Fin 64) (k : Fin 3), aV (ix2 ii k) = Cert.Egnn.drift a.vel (Cert.Egnn.gateV a) b (row it ii) k)
    (ii : Fin 64) (k : Fin 3) :
    finV B aV (ix3 (0 : Fin 1) ii k) = Cert.Egnn.moved a.vel (Cert.Egnn.gateV a) b (row it ii) k := by
  unfold finV
  rw [fin_pay4_apply, fin_pay6_apply, fin_pay14_apply, hB.h4, haV]
  rfl

end Cert.KernelIdeal.Hand

end
-- ==== Proof.KAccFacts.lean ====
/-
  One grid point's arithmetic, gathered: the three sums' steps, their zero start and the three result blocks hold for the
  blocks of every point over every setting of the layer's arguments.
-/
import proofs.«145759_j13950053777588_1_alg».proof.Proof.KAccHyp
import proofs.«145759_j13950053777588_1_alg».proof.Proof.KStep3
import proofs.«145759_j13950053777588_1_alg».proof.Proof.KFin

noncomputable section

namespace Cert.KernelIdeal.Hand

open Cert.KernelIdeal Cert.KernelIdeal.Gen
open Idealize.ShloMosaic Idealize.ShloMosaic.ValueIdx

theorem stepFacts (a : Cert.Egnn.Args) : StepFacts a :=
  StepFacts.mk
    (fun _ _ _ _ hB acc ii k => stepP_apply hB acc ii k)
    (fun _ _ _ _ hB acc ii k => stepV_apply hB acc ii k)
    (fun _ _ _ _ hB acc ii c => stepM_apply hB acc ii c)
    zAcc_1 zAcc_2 zAcc_3
    (fun _ _ _ _ hB aM haM ii c => finH_apply hB aM haM ii c)
    (fun _ _ _ _ hB aP haP ii k => finP_apply hB aP haP ii k)
    (fun _ _ _ _ hB aV haV ii k => finV_apply hB aV haV ii k)

end Cert.KernelIdeal.Hand

end
-- ==== Proof.KAccArr.lean ====
/-
  The three result arrays of the tiled kernel after the run, as the specification's functions of the program's
  nineteen arguments: the blocks each grid point loads are the arguments' rows and weights, one point's arithmetic is
  the layer's on its tile, and the writing points' blocks cover the arrays.
-/
import proofs.«145759_j13950053777588_1_alg».proof.Proof.KAccArr1
import proofs.«145759_j13950053777588_1_alg».proof.Proof.KAccBlk
import proofs.«145759_j13950053777588_1_alg».proof.Proof.KAccFacts

noncomputable section

namespace Cert.KernelIdeal.Hand

open Cert.KernelIdeal Cert.KernelIdeal.Gen
open Idealize.ShloMosaic Idealize.ShloMosaic.TcCoe Idealize.SL.Sem

/-- The array of node features after the run is the specification's new node features of the arguments. -/
theorem arrAt_h (m : (ℓ : Loc nD τ sig) → Buf (Elt Ideal) ℓ) (c : Dev nD) :
    (dat0 (V1 m) c).arrAt 25 cfg0.N = Cert.Egnn.hOut (argsOf m c) :=
  arr_arrAt_h (argsOf m c) (V1 m) c (fun t => blkOf m c t) (stepFacts (argsOf m c))

/-- The position array after the run is the specification's new positions of the arguments. -/
theorem arrAt_pos (m : (ℓ : Loc nD τ sig) → Buf (Elt Ideal) ℓ) (c : Dev nD) :
    (dat0 (V1 m) c).arrAt 26 cfg0.N = Cert.Egnn.posOut (argsOf m c) :=
  arr_arrAt_pos (argsOf m c) (V1 m) c (fun t => blkOf m c t) (stepFacts (argsOf m c))

/-- The velocity array after the run is the specification's new velocities of the arguments. -/
theorem arrAt_vel (m : (ℓ : Loc nD τ sig) → Buf (Elt Ideal) ℓ) (c : Dev nD) :
    (dat0 (V1 m) c).arrAt 27 cfg0.N = Cert.Egnn.velOut (argsOf m c) :=
  arr_arrAt_vel (argsOf m c) (V1 m) c (fun t => blkOf m c t) (stepFacts (argsOf m c))

end Cert.KernelIdeal.Hand

end
-- ==== Proof.RefValue1.lean ====
/-
  The plain program read index by index, first part: the pairwise differences of positions and velocities, their
  squared lengths, and the node features spread over the pairs of nodes.
-/
import proofs.«145759_j13950053777588_1_alg».proof.Proof.Gen.ReferenceIdeal.Read
import proofs.«145759_j13950053777588_1_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Differences and squared distances -/

/-- The position difference of the plain program at (b, i, j, k) is pos(b,i,k) - pos(b,j,k). -/
theorem v4_at (x : Egnn.A3 2 512 3) (b : Fin 2) (i j : Fin 512) (k : Fin 3) :
    val_main_v4 (F := Ideal) x (ix4 b i j k) = Egnn.dif x b i j k := by
  rw [val_main_v4_apply, val_main_v2_apply, val_main_v0_apply, val_main_v3_apply, val_main_v1_apply]
  have e1 : idx_main_v0 (idx_main_v2 (ix4 b i j k)) = ix3 b i k :=
    funext fun d => Fin.ext (by match d with | ⟨0, _⟩ => rfl | ⟨1, _⟩ => rfl | ⟨2, _⟩ => rfl)
  have e2 : idx_main_v1 (idx_main_v3 (ix4 b i j k)) = ix3 b j k :=
    funext fun d => Fin.ext (by match d with | ⟨0, _⟩ => rfl | ⟨1, _⟩ => rfl | ⟨2, _⟩ => rfl)
  rw [e1, e2]
  rfl

/-- The same for the velocities. -/
theorem v9_at (x : Egnn.A3 2 512 3) (b : Fin 2) (i j : Fin 512) (k : Fin 3) :
    val_main_v9 (F := Ideal) x (ix4 b i j k) = Egnn.dif x b i j k := by
  rw [val_main_v9_apply, val_main_v7_apply, val_main_v5_apply, val_main_v8_apply, val_main_v6_apply]
  have e1 : idx_main_v5 (idx_main_v7 (ix4 b i j k)) = ix3 b i k :=
    funext fun d => Fin.ext (by match d with | ⟨0, _⟩ => rfl | ⟨1, _⟩ => rfl | ⟨2, _⟩ => rfl)
  have e2 : idx_main_v6 (idx_main_v8 (ix4 b i j k)) = ix3 b j k :=
    funext fun d => Fin.ext (by match d with | ⟨0, _⟩ => rfl | ⟨1, _⟩ => rfl | ⟨2, _⟩ => rfl)
  rw [e1, e2]
  rfl

/-- The squared length of the position difference: the zero word plus the sum over the three coordinates. -/
theorem v11_at (x : Egnn.A3 2 512 3) (b : Fin 2) (i j : Fin 512) :
    val_main_v11 (F := Ideal) x (ix3 b i j) = Egnn.dsq x b i j := by
  rw [val_main_v11_apply, val_main_cst_apply, Ideal.ofBits_def, Ideal.ofBits_zero_f32, zero_add]
  refine Finset.sum_congr rfl fun k _ => ?_
  have e : idx_main_v11 (ix3 b i j) k = ix4 b i j k :=
    funext fun d => Fin.ext (by match d with | ⟨0, _⟩ => rfl | ⟨1, _⟩ => rfl | ⟨2, _⟩ => rfl | ⟨3, _⟩ => rfl)
  rw [e, val_main_v10_apply, v4_at]
  rfl

/-- The same for the velocities. -/
theorem v14_at (x : Egnn.A3 2 512 3) (b : Fin 2) (i j : Fin 512) :
    val_main_v14 (F := Ideal) x (ix3 b i j) = Egnn.dsq x b i j := by
  rw [val_main_v14_apply, val_main_cst_0_apply, Ideal.ofBits_def, Ideal.ofBits_zero_f32, zero_add]
  refine Finset.sum_congr rfl fun k _ => ?_
  have e : idx_main_v14 (ix3 b i j) k = ix4 b i j k :=
    funext fun d => Fin.ext (by match d with | ⟨0, _⟩ => rfl | ⟨1, _⟩ => rfl | ⟨2, _⟩ => rfl | ⟨3, _⟩ => rfl)
  rw [e, val_main_v13_apply, v9_at]
  rfl

/-- The squared distance with a trailing axis of size one. -/
theorem v12_at (x : Egnn.A3 2 512 3) (b : Fin 2) (i j : Fin 512) (o : Fin 1) :
    val_main_v12 (F := Ideal) x (ix4 b i j o) = Egnn.dsq x b i j := by
  rw [val_main_v12_apply]
  have e : idx_main_v12 (ix4 b i j o) = ix3 b i j :=
    funext fun d => Fin.ext (by match d with | ⟨0, _⟩ => rfl | ⟨1, _⟩ => rfl | ⟨2, _⟩ => rfl)
  rw [e, v11_at]

theorem v15_at (x : Egnn.A3 2 512 3) (b : Fin 2) (i j : Fin 512) (o : Fin 1) :
    val_main_v15 (F := Ideal) x (ix4 b i j o) = Egnn.dsq x b i j := by
  rw [val_main_v15_apply]
  have e : idx_main_v15 (ix4 b i j o) = ix3 b i j :=
    funext fun d => Fin.ext (by match d with | ⟨0, _⟩ => rfl | ⟨1, _⟩ => rfl | ⟨2, _⟩ => rfl)
  rw [e, v14_at]

/-! ## The node features spread over the pairs -/

/-- The receiving node's features at (b, i, j, c). -/
theorem v17_at (x : Egnn.A3 2 512 128) (b : Fin 2) (i j : Fin 512) (c : Fin 128) :
    val_main_v17 (F := Ideal) x (ix4 b i j c) = x (ix3 b i c) := by
  rw [val_main_v17_apply, val_main_v16_apply]
  exact congrArg x (funext fun d => Fin.ext (by match d with | ⟨0, _⟩ => rfl | ⟨1, _⟩ => rfl | ⟨2, _⟩ => rfl))

/-- The sending node's features at (b, i, j, c). -/
theorem v19_at (x : Egnn.A3 2 512 128) (b : Fin 2) (i j : Fin 512) (c : Fin 128) :
    val_main_v19 (F := Ideal) x (ix4 b i j c) = x (ix3 b j c) := by
  rw [val_main_v19_apply, val_main_v18_apply]
  exact congrArg x (funext fun d => Fin.ext (by match d with | ⟨0, _⟩ => rfl | ⟨1, _⟩ => rfl | ⟨2, _⟩ => rfl))

end Cert.ReferenceIdeal.RefValue

end
-- ==== Proof.RefAlg.lean ====
/-
  Pure facts used when the plain program is read index by index: a sum over 258 positions cut into the four
  ranges 0..127, 128..255, 256 and 257; the word 0x3F800000 is the number one; and the spelt-out forms
  x * (1 / (1 + exp (-x))) and 1 / (1 + exp (-x)) are x * logistic x and logistic x.
-/
import proofs.«145759_j13950053777588_1_alg».proof.Proof.Spec

noncomputable section

namespace Cert.ReferenceIdeal.RefValue

open Idealize.ShloMosaic

/-- A sum over 258 positions is the sum over the first 128, plus the sum over the next 128, plus the two last terms.
    Only commutativity and associativity of the addition are used. -/
theorem sum_258 {M : Type*} [AddCommMonoid M] (f : Fin 258 → M) :
    ∑ k : Fin 258, f k =
      (((∑ k : Fin 128, f ⟨k.val, by omega⟩) + (∑ k : Fin 128, f ⟨128 + k.val, by omega⟩))
        + f ⟨256, by omega⟩) + f ⟨257, by omega⟩ := by
  rw [Fin.sum_univ_castSucc (n := 257), Fin.sum_univ_castSucc (n := 256)]
  have h := Fin.sum_univ_add (a := 128) (b := 128) (fun k : Fin (128 + 128) => f (Fin.castSucc (Fin.castSucc k)))
  refine congrArg₂ (· + ·) (congrArg₂ (· + ·) (h.trans (congrArg₂ (· + ·) ?_ ?_)) ?_) ?_
  · exact Finset.sum_congr rfl fun k _ => congrArg f (Fin.ext rfl)
  · exact Finset.sum_congr rfl fun k _ => congrArg f (Fin.ext rfl)
  · exact congrArg f (Fin.ext rfl)
  · exact congrArg f (Fin.ext rfl)

/-- The word 0x3F800000 denotes the number one. -/
theorem ofBits_one_f32 : Ideal.ofBits .f32 0x3F800000#32 = 1 := by
  simp [Ideal.ofBits, Ideal.ieee, -EReal.coe_mul]; norm_num

/-- 1 / (1 + exp (-y)), with the ones spelt as words, is the logistic function. -/
theorem logistic_spelt (y : EReal) :
    Ideal.div (Ideal.ofBits .f32 0x3F800000#32) (Ideal.ofBits .f32 0x3F800000#32 + Ideal.exp (-y)) = Ideal.logistic y := by
  rw [ofBits_one_f32]; rfl

/-- y * (1 / (1 + exp (-y))) is y * logistic y. -/
theorem silu_spelt (y : EReal) :
    y * Ideal.div (Ideal.ofBits .f32 0x3F800000#32) (Ideal.ofBits .f32 0x3F800000#32 + Ideal.exp (-y)) = Cert.Egnn.silu y := by
  rw [logistic_spelt]; rfl

end Cert.ReferenceIdeal.RefValue

end
-- ==== Proof.RefValue2.lean ====
/-
  The plain program read index by index, second part: the edge input (the receiving node's features, the sending
  node's features and the two squared distances joined along the last axis) and the first edge layer before its
  activation, whose sum over 258 positions is cut into the four ranges of the specification.
-/
import proofs.«145759_j13950053777588_1_alg».proof.Proof.RefValue1
import proofs.«145759_j13950053777588_1_alg».proof.Proof.RefAlg

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The edge input: four arrays joined along the last axis -/

/-- Positions 0..127 of the joined axis read the first array. -/
theorem cat4_0 (y0 y1 : (⟨S2x512x512x128, .f32⟩ : BufTy).Contents (Elt Ideal))
    (y2 y3 : (⟨S2x512x512x1, .f32⟩ : BufTy).Contents (Elt Ideal)) (b : Fin 2) (i j : Fin 512) (k : Fin 128) :
    concatenate S2x512x512x258 3 [⟨S2x512x512x128, y0⟩, ⟨S2x512x512x128, y1⟩, ⟨S2x512x512x1, y2⟩, ⟨S2x512x512x1, y3⟩]
        concatenates_S2x512x512x128_S2x512x512x128_S2x512x512x1_S2x512x512x1_S2x512x512x258_d3
        (ix4 b i j (⟨k.val, by omega⟩ : Fin 258)) = y0 (ix4 b i j k) :=
  concatenate_apply_piece (3 : Fin S2x512x512x258.rank) _ _ _ 0 (by simp) S2x512x512x128 y0 rfl rfl 0 rfl (ix4 b i j k)
    (fun d hd => by match d with | ⟨0, _⟩ => rfl | ⟨1, _⟩ => rfl | ⟨2, _⟩ => rfl | ⟨3, _⟩ => exact absurd rfl hd)
    (Nat.zero_add _)

/-- Positions 128..255 read the second array. -/
theorem cat4_1 (y0 y1 : (⟨S2x512x512x128, .f32⟩ : BufTy).Contents (Elt Ideal))
    (y2 y3 : (⟨S2x512x512x1, .f32⟩ : BufTy).Contents (Elt Ideal)) (b : Fin 2) (i j : Fin 512) (k : Fin 128) :
    concatenate S2x512x512x258 3 [⟨S2x512x512x128, y0⟩, ⟨S2x512x512x128, y1⟩, ⟨S2x512x512x1, y2⟩, ⟨S2x512x512x1, y3⟩]
        concatenates_S2x512x512x128_S2x512x512x128_S2x512x512x1_S2x512x512x1_S2x512x512x258_d3
        (ix4 b i j (⟨128 + k.val, by omega⟩ : Fin 258)) = y1 (ix4 b i j k) :=
  concatenate_apply_piece (3 : Fin S2x512x512x258.rank) _ _ _ 1 (by simp) S2x512x512x128 y1 rfl rfl 128 rfl (ix4 b i j k)
    (fun d hd => by match d with | ⟨0, _⟩ => rfl | ⟨1, _⟩ => rfl | ⟨2, _⟩ => rfl | ⟨3, _⟩ => exact absurd rfl hd)
    rfl

/-- Position 256 reads the third array. -/
theorem cat4_2 (y0 y1 : (⟨S2x512x512x128, .f32⟩ : BufTy).Contents (Elt Ideal))
    (y2 y3 : (⟨S2x512x512x1, .f32⟩ : BufTy).Contents (Elt Ideal)) (b : Fin 2) (i j : Fin 512) :
    concatenate S2x512x512x258 3 [⟨S2x512x512x128, y0⟩, ⟨S2x512x512x128, y1⟩, ⟨S2x512x512x1, y2⟩, ⟨S2x512x512x1, y3⟩]
        concatenates_S2x512x512x128_S2x512x512x128_S2x512x512x1_S2x512x512x1_S2x512x512x258_d3
        (ix4 b i j (⟨256, by omega⟩ : Fin 258)) = y2 (ix4 b i j (0 : Fin 1)) :=
  concatenate_apply_piece (3 : Fin S2x512x512x258.rank) _ _ _ 2 (by simp) S2x512x512x1 y2 rfl rfl 256 rfl (ix4 b i j (0 : Fin 1))
    (fun d hd => by match d with | ⟨0, _⟩ => rfl | ⟨1, _⟩ => rfl | ⟨2, _⟩ => rfl | ⟨3, _⟩ => exact absurd rfl hd)
    rfl

/-- Position 257 reads the fourth array. -/
theorem cat4_3 (y0 y1 : (⟨S2x512x512x128, .f32⟩ : BufTy).Contents (Elt Ideal))
    (y2 y3 : (⟨S2x512x512x1, .f32⟩ : BufTy).Contents (Elt Ideal)) (b : Fin 2) (i j : Fin 512) :
    concatenate S2x512x512x258 3 [⟨S2x512x512x128, y0⟩, ⟨S2x512x512x128, y1⟩, ⟨S2x512x512x1, y2⟩, ⟨S2x512x512x1, y3⟩]
        concatenates_S2x512x512x128_S2x512x512x128_S2x512x512x1_S2x512x512x1_S2x512x512x258_d3
        (ix4 b i j (⟨257, by omega⟩ : Fin 258)) = y3 (ix4 b i j (0 : Fin 1)) :=
  concatenate_apply_piece (3 : Fin S2x512x512x258.rank) _ _ _ 3 (by simp) S2x512x512x1 y3 rfl rfl 257 rfl (ix4 b i j (0 : Fin 1))
    (fun d hd => by match d with | ⟨0, _⟩ => rfl | ⟨1, _⟩ => rfl | ⟨2, _⟩ => rfl | ⟨3, _⟩ => exact absurd rfl hd)
    rfl

variable (a : Egnn.Args)

/-- The edge input at a position below 128: the receiving node's feature. -/
theorem v20_lo (b : Fin 2) (i j : Fin 512) (k : Fin 128) :
    val_main_v20 (F := Ideal) a.h a.pos a.vel (ix4 b i j (⟨k.val, by omega⟩ : Fin 258)) = a.h (ix3 b i k) := by
  unfold val_main_v20
  exact (cat4_0 _ _ _ _ b i j k).trans (v17_at a.h b i j k)

/-- At a position 128 + k: the sending node's feature. -/
theorem v20_hi (b : Fin 2) (i j : Fin 512) (k : Fin 128) :
    val_main_v20 (F := Ideal) a.h a.pos a.vel (ix4 b i j (⟨128 + k.val, by omega⟩ : Fin 258)) = a.h (ix3 b j k) := by
  unfold val_main_v20
  exact (cat4_1 _ _ _ _ b i j k).trans (v19_at a.h b i j k)

/-- At position 256: the squared distance of the positions. -/
theorem v20_p (b : Fin 2) (i j : Fin 512) :
    val_main_v20 (F := Ideal) a.h a.pos a.vel (ix4 b i j (⟨256, by omega⟩ : Fin 258)) = Egnn.dsq a.pos b i j := by
  unfold val_main_v20
  exact (cat4_2 _ _ _ _ b i j).trans (v12_at a.pos b i j 0)

/-- At position 257: the squared distance of the velocities. -/
theorem v20_v (b : Fin 2) (i j : Fin 512) :
    val_main_v20 (F := Ideal) a.h a.pos a.vel (ix4 b i j (⟨257, by omega⟩ : Fin 258)) = Egnn.dsq a.vel b i j := by
  unfold val_main_v20
  exact (cat4_3 _ _ _ _ b i j).trans (v15_at a.vel b i j 0)

/-! ## The first edge layer before its activation -/

/-- The product with We1: its 258 terms cut into the two halves and the two single rows. -/
theorem v21_at (b : Fin 2) (i j : Fin 512) (c : Fin 128) :
    val_main_v21 (F := Ideal) a.h a.pos a.vel a.We1 (ix4 b i j c) =
      (((∑ k : Fin 128, a.h (ix3 b i k) * a.We1 (ix2 (⟨k.val, by omega⟩ : Fin 258) c))
        + (∑ k : Fin 128, a.h (ix3 b j k) * a.We1 (ix2 (⟨128 + k.val, by omega⟩ : Fin 258) c)))
        + Egnn.dsq a.pos b i j * a.We1 (ix2 (⟨256, by omega⟩ : Fin 258) c))
        + Egnn.dsq a.vel b i j * a.We1 (ix2 (⟨257, by omega⟩ : Fin 258) c) := by
  have el : ∀ k : Fin 258, lidx_main_v21 (ix4 b i j c) k = ix4 b i j k := fun k =>
    funext fun d => Fin.ext (by match d with | ⟨0, _⟩ => rfl | ⟨1, _⟩ => rfl | ⟨2, _⟩ => rfl | ⟨3, _⟩ => rfl)
  have er : ∀ k : Fin 258, ridx_main_v21 (ix4 b i j c) k = ix2 k c := fun k =>
    funext fun d => Fin.ext (by match d with | ⟨0, _⟩ => rfl | ⟨1, _⟩ => rfl)
  rw [val_main_v21_apply, sum_258]
  refine congrArg₂ (· + ·) (congrArg₂ (· + ·) (congrArg₂ (· + ·)
    (Finset.sum_congr rfl fun k _ => ?_) (Finset.sum_congr rfl fun k _ => ?_)) ?_) ?_
  · rw [el, er, v20_lo]
  · rw [el, er, v20_hi]
  · rw [el, er, v20_p]
  · rw [el, er, v20_v]

/-- With the bias: the first edge layer before its activation. -/
theorem v24_at (b : Fin 2) (i j : Fin 512) (c : Fin 128) :
    val_main_v24 (F := Ideal) a.h a.pos a.vel a.We1 a.be1 (ix4 b i j c) = Egnn.pre a b i j c := by
  have eb : idx_main_v22 (idx_main_v23 (ix4 b i j c)) = ix1 c :=
    funext fun d => Fin.ext (by match d with | ⟨0, _⟩ => rfl)
  rw [val_main_v24_apply, v21_at, val_main_v23_apply, val_main_v22_apply, eb]
  rfl

end Cert.ReferenceIdeal.RefValue

end
-- ==== Proof.RefValue3.lean ====
/-
  The plain program read index by index, third part: the two edge layers with their activations, the attention
  weight and the message.
-/
import proofs.«145759_j13950053777588_1_alg».proof.Proof.RefValue2

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (a : Egnn.Args)

/-! ## The two edge layers -/

/-- The first activation, at any index: x * (1 / (1 + exp (-x))) of the layer's value there. -/
theorem v25_silu (y : S2x512x512x128.Idx) :
    val_main_v25 (F := Ideal) a.h a.pos a.vel a.We1 a.be1 y
      = Egnn.silu (val_main_v24 (F := Ideal) a.h a.pos a.vel a.We1 a.be1 y) := by
  rw [val_main_v25_apply, val_main_call0_v5_apply, val_main_call0_v4_apply, val_main_call0_cst_0_apply,
    val_main_call0_v3_apply, val_main_call0_v2_apply, val_main_call0_cst_apply, val_main_call0_v1_apply,
    val_main_call0_v0_apply]
  exact silu_spelt _

/-- The first edge layer. -/
theorem v25_at (b : Fin 2) (i j : Fin 512) (c : Fin 128) :
    val_main_v25 (F := Ideal) a.h a.pos a.vel a.We1 a.be1 (ix4 b i j c) = Egnn.m1 a b i j c := by
  rw [v25_silu, v24_at]
  rfl

/-- The second edge layer before its activation. -/
theorem v29_at (b : Fin 2) (i j : Fin 512) (c : Fin 128) :
    val_main_v29 (F := Ideal) a.h a.pos a.vel a.We1 a.be1 a.We2 a.be2 (ix4 b i j c)
      = (∑ k : Fin 128, Egnn.m1 a b i j k * a.We2 (ix2 k c)) + a.be2 (ix1 c) := by
  have el : ∀ k : Fin 128, lidx_main_v26 (ix4 b i j c) k = ix4 b i j k := fun k =>
    funext fun d => Fin.ext (by match d with | ⟨0, _⟩ => rfl | ⟨1, _⟩ => rfl | ⟨2, _⟩ => rfl | ⟨3, _⟩ => rfl)
  have er : ∀ k : Fin 128, ridx_main_v26 (ix4 b i j c) k = ix2 k c := fun k =>
    funext fun d => Fin.ext (by match d with | ⟨0, _⟩ => rfl | ⟨1, _⟩ => rfl)
  have eb : idx_main_v27 (idx_main_v28 (ix4 b i j c)) = ix1 c :=
    funext fun d => Fin.ext (by match d with | ⟨0, _⟩ => rfl)
  rw [val_main_v29_apply, val_main_v26_apply, val_main_v28_apply, val_main_v27_apply, eb]
  refine congrArg₂ (· + ·) (Finset.sum_congr rfl fun k _ => ?_) rfl
  rw [el, er, v25_at]

/-- The second activation, at any index. -/
theorem v30_silu (y : S2x512x512x128.Idx) :
    val_main_v30 (F := Ideal) a.h a.pos a.vel a.We1 a.be1 a.We2 a.be2 y
      = Egnn.silu (val_main_v29 (F := Ideal) a.h a.pos a.vel a.We1 a.be1 a.We2 a.be2 y) := by
  rw [val_main_v30_apply, val_main_call1_v5_apply, val_main_call1_v4_apply, val_main_call1_cst_0_apply,
    val_main_call1_v3_apply, val_main_call1_v2_apply, val_main_call1_cst_apply, val_main_call1_v1_apply,
    val_main_call1_v0_apply]
  exact silu_spelt _

/-- The second edge layer. -/
theorem v30_at (b : Fin 2) (i j : Fin 512) (c : Fin 128) :
    val_main_v30 (F := Ideal) a.h a.pos a.vel a.We1 a.be1 a.We2 a.be2 (ix4 b i j c) = Egnn.m2 a b i j c := by
  rw [v30_silu, v29_at]
  rfl

/-! ## The attention weight and the message -/

/-- The attention weight of the edge: the logistic function, spelt 1 / (1 + exp (-x)), of the layer's one output. -/
theorem v40_at (b : Fin 2) (i j : Fin 512) :
    val_main_v40 (F := Ideal) a.h a.pos a.vel a.We1 a.be1 a.We2 a.be2 a.Wa a.ba (ix4 b i j (0 : Fin 1))
      = Egnn.att a b i j := by
  have el : ∀ k : Fin 128, lidx_main_v31 (ix4 b i j (0 : Fin 1)) k = ix4 b i j k := fun k =>
    funext fun d => Fin.ext (by match d with | ⟨0, _⟩ => rfl | ⟨1, _⟩ => rfl | ⟨2, _⟩ => rfl | ⟨3, _⟩ => rfl)
  have er : ∀ k : Fin 128, ridx_main_v31 (ix4 b i j (0 : Fin 1)) k = ix2 k (0 : Fin 1) := fun k =>
    funext fun d => Fin.ext (by match d with | ⟨0, _⟩ => rfl | ⟨1, _⟩ => rfl)
  have eb : idx_main_v32 (idx_main_v33 (ix4 b i j (0 : Fin 1))) = ix1 (0 : Fin 1) :=
    funext fun d => Fin.ext (by match d with | ⟨0, _⟩ => rfl)
  rw [val_main_v40_apply, val_main_v39_apply, val_main_cst_2_apply, val_main_v38_apply, val_main_v37_apply,
    val_main_cst_1_apply, val_main_v36_apply, val_main_v35_apply, val_main_v34_apply, val_main_v31_apply,
    val_main_v33_apply, val_main_v32_apply, eb]
  refine (logistic_spelt _).trans (congrArg Ideal.logistic ?_)
  refine congrArg₂ (· + ·) (Finset.sum_congr rfl fun k _ => ?_) rfl
  rw [el, er, v30_at]

/-- The message: the second layer times the attention weight. -/
theorem v42_at (b : Fin 2) (i j : Fin 512) (c : Fin 128) :
    val_main_v42 (F := Ideal) a.h a.pos a.vel a.We1 a.be1 a.We2 a.be2 a.Wa a.ba (ix4 b i j c)
      = Egnn.msg a b i j c := by
  have e : idx_main_v41 (ix4 b i j c) = ix4 b i j (0 : Fin 1) :=
    funext fun d => Fin.ext (by match d with | ⟨0, _⟩ => rfl | ⟨1, _⟩ => rfl | ⟨2, _⟩ => rfl | ⟨3, _⟩ => rfl)
  rw [val_main_v42_apply, val_main_v41_apply, e, v40_at, v30_at]
  rfl

end Cert.ReferenceIdeal.RefValue

end
-- ==== Proof.RefValue4.lean ====
/-
  The plain program read index by index, fourth part: the two scalar gates of an edge, each a two-layer head on
  the message through tanh.
-/
import proofs.«145759_j13950053777588_1_alg».proof.Proof.RefValue3

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (a : Egnn.Args)

/-! ## The position gate -/

/-- The position head's hidden layer before its activation. -/
theorem v46_at (b : Fin 2) (i j : Fin 512) (k : Fin 128) :
    val_main_v46 (F := Ideal) a.h a.pos a.vel a.We1 a.be1 a.We2 a.be2 a.Wa a.ba a.Wp1 a.bp1 (ix4 b i j k)
      = (∑ l : Fin 128, Egnn.msg a b i j l * a.Wp1 (ix2 l k)) + a.bp1 (ix1 k) := by
  have el : ∀ l : Fin 128, lidx_main_v43 (ix4 b i j k) l = ix4 b i j l := fun l =>
    funext fun d => Fin.ext (by match d with | ⟨0, _⟩ => rfl | ⟨1, _⟩ => rfl | ⟨2, _⟩ => rfl | ⟨3, _⟩ => rfl)
  have er : ∀ l : Fin 128, ridx_main_v43 (ix4 b i j k) l = ix2 l k := fun l =>
    funext fun d => Fin.ext (by match d with | ⟨0, _⟩ => rfl | ⟨1, _⟩ => rfl)
  have eb : idx_main_v44 (idx_main_v45 (ix4 b i j k)) = ix1 k :=
    funext fun d => Fin.ext (by match d with | ⟨0, _⟩ => rfl)
  rw [val_main_v46_apply, val_main_v43_apply, val_main_v45_apply, val_main_v44_apply, eb]
  refine congrArg₂ (· + ·) (Finset.sum_congr rfl fun l _ => ?_) rfl
  rw [el, er, v42_at]

/-- Its activation, at any index. -/
theorem v47_silu (y : S2x512x512x128.Idx) :
    val_main_v47 (F := Ideal) a.h a.pos a.vel a.We1 a.be1 a.We2 a.be2 a.Wa a.ba a.Wp1 a.bp1 y
      = Egnn.silu (val_main_v46 (F := Ideal) a.h a.pos a.vel a.We1 a.be1 a.We2 a.be2 a.Wa a.ba a.Wp1 a.bp1 y) := by
  rw [val_main_v47_apply, val_main_call2_v5_apply, val_main_call2_v4_apply, val_main_call2_cst_0_apply,
    val_main_call2_v3_apply, val_main_call2_v2_apply, val_main_call2_cst_apply, val_main_call2_v1_apply,
    val_main_call2_v0_apply]
  exact silu_spelt _

/-- The position gate of the edge. -/
theorem v49_at (b : Fin 2) (i j : Fin 512) :
    val_main_v49 (F := Ideal) a.h a.pos a.vel a.We1 a.be1 a.We2 a.be2 a.Wa a.ba a.Wp1 a.bp1 a.Wp2 (ix4 b i j (0 : Fin 1))
      = Egnn.gateP a b i j := by
  have el : ∀ k : Fin 128, lidx_main_v48 (ix4 b i j (0 : Fin 1)) k = ix4 b i j k := fun k =>
    funext fun d => Fin.ext (by match d with | ⟨0, _⟩ => rfl | ⟨1, _⟩ => rfl | ⟨2, _⟩ => rfl | ⟨3, _⟩ => rfl)
  have er : ∀ k : Fin 128, ridx_main_v48 (ix4 b i j (0 : Fin 1)) k = ix2 k (0 : Fin 1) := fun k =>
    funext fun d => Fin.ext (by match d with | ⟨0, _⟩ => rfl | ⟨1, _⟩ => rfl)
  rw [val_main_v49_apply, val_main_v48_apply]
  refine congrArg Ideal.tanh (Finset.sum_congr rfl fun k _ => ?_)
  rw [el, er, v47_silu, v46_at]

/-! ## The velocity gate -/

/-- The velocity head's hidden layer before its activation. -/
theorem v53_at (b : Fin 2) (i j : Fin 512) (k : Fin 128) :
    val_main_v53 (F := Ideal) a.h a.pos a.vel a.We1 a.be1 a.We2 a.be2 a.Wa a.ba a.Wv1 a.bv1 (ix4 b i j k)
      = (∑ l : Fin 128, Egnn.msg a b i j l * a.Wv1 (ix2 l k)) + a.bv1 (ix1 k) := by
  have el : ∀ l : Fin 128, lidx_main_v50 (ix4 b i j k) l = ix4 b i j l := fun l =>
    funext fun d => Fin.ext (by match d with | ⟨0, _⟩ => rfl | ⟨1, _⟩ => rfl | ⟨2, _⟩ => rfl | ⟨3, _⟩ => rfl)
  have er : ∀ l : Fin 128, ridx_main_v50 (ix4 b i j k) l = ix2 l k := fun l =>
    funext fun d => Fin.ext (by match d with | ⟨0, _⟩ => rfl | ⟨1, _⟩ => rfl)
  have eb : idx_main_v51 (idx_main_v52 (ix4 b i j k)) = ix1 k :=
    funext fun d => Fin.ext (by match d with | ⟨0, _⟩ => rfl)
  rw [val_main_v53_apply, val_main_v50_apply, val_main_v52_apply, val_main_v51_apply, eb]
  refine congrArg₂ (· + ·) (Finset.sum_congr rfl fun l _ => ?_) rfl
  rw [el, er, v42_at]

/-- Its activation, at any index. -/
theorem v54_silu (y : S2x512x512x128.Idx) :
    val_main_v54 (F := Ideal) a.h a.pos a.vel a.We1 a.be1 a.We2 a.be2 a.Wa a.ba a.Wv1 a.bv1 y
      = Egnn.silu (val_main_v53 (F := Ideal) a.h a.pos a.vel a.We1 a.be1 a.We2 a.be2 a.Wa a.ba a.Wv1 a.bv1 y) := by
  rw [val_main_v54_apply, val_main_call3_v5_apply, val_main_call3_v4_apply, val_main_call3_cst_0_apply,
    val_main_call3_v3_apply, val_main_call3_v2_apply, val_main_call3_cst_apply, val_main_call3_v1_apply,
    val_main_call3_v0_apply]
  exact silu_spelt _

/-- The velocity gate of the edge. -/
theorem v56_at (b : Fin 2) (i j : Fin 512) :
    val_main_v56 (F := Ideal) a.h a.pos a.vel a.We1 a.be1 a.We2 a.be2 a.Wa a.ba a.Wv1 a.bv1 a.Wv2 (ix4 b i j (0 : Fin 1))
      = Egnn.gateV a b i j := by
  have el : ∀ k : Fin 128, lidx_main_v55 (ix4 b i j (0 : Fin 1)) k = ix4 b i j k := fun k =>
    funext fun d => Fin.ext (by match d with | ⟨0, _⟩ => rfl | ⟨1, _⟩ => rfl | ⟨2, _⟩ => rfl | ⟨3, _⟩ => rfl)
  have er : ∀ k : Fin 128, ridx_main_v55 (ix4 b i j (0 : Fin 1)) k = ix2 k (0 : Fin 1) := fun k =>
    funext fun d => Fin.ext (by match d with | ⟨0, _⟩ => rfl | ⟨1, _⟩ => rfl)
  rw [val_main_v56_apply, val_main_v55_apply]
  refine congrArg Ideal.tanh (Finset.sum_congr rfl fun k _ => ?_)
  rw [el, er, v54_silu, v53_at]

end Cert.ReferenceIdeal.RefValue

end
-- ==== Proof.RefValue5.lean ====
/-
  The plain program read index by index, fifth part: the new positions and velocities, each coordinate moved by
  the gated sum of differences over all senders divided by 511 and clamped to [-100, 100].
-/
import proofs.«145759_j13950053777588_1_alg».proof.Proof.RefValue4

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (a : Egnn.Args)

/-! ## The new positions -/

/-- The gated sum of position differences over all senders: the zero word plus the sum. -/
theorem v59_at (b : Fin 2) (i : Fin 512) (k : Fin 3) :
    val_main_v59 (F := Ideal) a.h a.pos a.vel a.We1 a.be1 a.We2 a.be2 a.Wa a.ba a.Wp1 a.bp1 a.Wp2 (ix3 b i k)
      = Egnn.drift a.pos (Egnn.gateP a) b i k := by
  rw [val_main_v59_apply, val_main_cst_3_apply, Ideal.ofBits_def, Ideal.ofBits_zero_f32, zero_add]
  refine Finset.sum_congr rfl fun j _ => ?_
  have e : idx_main_v59 (ix3 b i k) j = ix4 b i j k :=
    funext fun d => Fin.ext (by match d with | ⟨0, _⟩ => rfl | ⟨1, _⟩ => rfl | ⟨2, _⟩ => rfl | ⟨3, _⟩ => rfl)
  have e' : idx_main_v57 (ix4 b i j k) = ix4 b i j (0 : Fin 1) :=
    funext fun d => Fin.ext (by match d with | ⟨0, _⟩ => rfl | ⟨1, _⟩ => rfl | ⟨2, _⟩ => rfl | ⟨3, _⟩ => rfl)
  rw [e, val_main_v58_apply, val_main_v57_apply, e', v4_at, v49_at]
  rfl

/-- The position moved by the mean drift and clamped: max with the lower bound, then min with the upper. -/
theorem v68_at (b : Fin 2) (i : Fin 512) (k : Fin 3) :
    val_main_v68 (F := Ideal) a.h a.pos a.vel a.We1 a.be1 a.We2 a.be2 a.Wa a.ba a.Wp1 a.bp1 a.Wp2 (ix3 b i k)
      = Egnn.moved a.pos (Egnn.gateP a) b i k := by
  rw [val_main_v68_apply, val_main_call4_v4_apply, val_main_call4_v3_apply, val_main_cst_8_apply,
    val_main_call4_v2_apply, val_main_call4_v1_apply, val_main_call4_v0_apply, val_main_cst_7_apply,
    val_main_v67_apply, val_main_v61_apply, val_main_v60_apply, val_main_cst_4_apply, v59_at]
  rfl

/-! ## The new velocities -/

/-- The gated sum of velocity differences over all senders. -/
theorem v64_at (b : Fin 2) (i : Fin 512) (k : Fin 3) :
    val_main_v64 (F := Ideal) a.h a.pos a.vel a.We1 a.be1 a.We2 a.be2 a.Wa a.ba a.Wv1 a.bv1 a.Wv2 (ix3 b i k)
      = Egnn.drift a.vel (Egnn.gateV a) b i k := by
  rw [val_main_v64_apply, val_main_cst_5_apply, Ideal.ofBits_def, Ideal.ofBits_zero_f32, zero_add]
  refine Finset.sum_congr rfl fun j _ => ?_
  have e : idx_main_v64 (ix3 b i k) j = ix4 b i j k :=
    funext fun d => Fin.ext (by match d with | ⟨0, _⟩ => rfl | ⟨1, _⟩ => rfl | ⟨2, _⟩ => rfl | ⟨3, _⟩ => rfl)
  have e' : idx_main_v62 (ix4 b i j k) = ix4 b i j (0 : Fin 1) :=
    funext fun d => Fin.ext (by match d with | ⟨0, _⟩ => rfl | ⟨1, _⟩ => rfl | ⟨2, _⟩ => rfl | ⟨3, _⟩ => rfl)
  rw [e, val_main_v63_apply, val_main_v62_apply, e', v9_at, v56_at]
  rfl

/-- The velocity moved by the mean drift and clamped. -/
theorem v70_at (b : Fin 2) (i : Fin 512) (k : Fin 3) :
    val_main_v70 (F := Ideal) a.h a.pos a.vel a.We1 a.be1 a.We2 a.be2 a.Wa a.ba a.Wv1 a.bv1 a.Wv2 (ix3 b i k)
      = Egnn.moved a.vel (Egnn.gateV a) b i k := by
  rw [val_main_v70_apply, val_main_call5_v4_apply, val_main_call5_v3_apply, val_main_cst_10_apply,
    val_main_call5_v2_apply, val_main_call5_v1_apply, val_main_call5_v0_apply, val_main_cst_9_apply,
    val_main_v69_apply, val_main_v66_apply, val_main_v65_apply, val_main_cst_6_apply, v64_at]
  rfl

end Cert.ReferenceIdeal.RefValue

end
-- ==== Proof.RefValue6.lean ====
/-
  The plain program read index by index, sixth part: the messages summed over all senders, the node input (the
  node's features joined with the aggregated messages), the node update and the new node features.
-/
import proofs.«145759_j13950053777588_1_alg».proof.Proof.RefValue3

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The node input: the node's features joined with its aggregated messages -/

/-- Positions 0..127 of the joined axis read the first array. -/
theorem cat2_lo (y0 y1 : (⟨S2x512x128, .f32⟩ : BufTy).Contents (Elt Ideal)) (b : Fin 2) (i : Fin 512) (c : Fin 256)
    (hc : c.val < 128) :
    concatenate S2x512x256 2 [⟨S2x512x128, y0⟩, ⟨S2x512x128, y1⟩] concatenates_S2x512x128_S2x512x128_S2x512x256_d2
        (ix3 b i c) = y0 (ix3 b i (⟨c.val, hc⟩ : Fin 128)) :=
  concatenate_apply_piece (2 : Fin S2x512x256.rank) _ _ _ 0 (by simp) S2x512x128 y0 rfl rfl 0 rfl
    (ix3 b i (⟨c.val, hc⟩ : Fin 128))
    (fun d hd => by match d with | ⟨0, _⟩ => rfl | ⟨1, _⟩ => rfl | ⟨2, _⟩ => exact absurd rfl hd)
    (Nat.zero_add _)

/-- Positions 128..255 read the second array, 128 positions earlier. -/
theorem cat2_hi (y0 y1 : (⟨S2x512x128, .f32⟩ : BufTy).Contents (Elt Ideal)) (b : Fin 2) (i : Fin 512) (c : Fin 256)
    (hc : ¬ c.val < 128) :
    concatenate S2x512x256 2 [⟨S2x512x128, y0⟩, ⟨S2x512x128, y1⟩] concatenates_S2x512x128_S2x512x128_S2x512x256_d2
        (ix3 b i c) = y1 (ix3 b i (⟨c.val - 128, by omega⟩ : Fin 128)) :=
  concatenate_apply_piece (2 : Fin S2x512x256.rank) _ _ _ 1 (by simp) S2x512x128 y1 rfl rfl 128 rfl
    (ix3 b i (⟨c.val - 128, by omega⟩ : Fin 128))
    (fun d hd => by match d with | ⟨0, _⟩ => rfl | ⟨1, _⟩ => rfl | ⟨2, _⟩ => exact absurd rfl hd)
    (by show 128 + (c.val - 128) = c.val; omega)

variable (a : Egnn.Args)

/-- The messages summed over all senders: the zero word plus the sum. -/
theorem v71_at (b : Fin 2) (i : Fin 512) (c : Fin 128) :
    val_main_v71 (F := Ideal) a.h a.pos a.vel a.We1 a.be1 a.We2 a.be2 a.Wa a.ba (ix3 b i c) = Egnn.agg a b i c := by
  rw [val_main_v71_apply, val_main_cst_11_apply, Ideal.ofBits_def, Ideal.ofBits_zero_f32, zero_add]
  refine Finset.sum_congr rfl fun j _ => ?_
  have e : idx_main_v71 (ix3 b i c) j = ix4 b i j c :=
    funext fun d => Fin.ext (by match d with | ⟨0, _⟩ => rfl | ⟨1, _⟩ => rfl | ⟨2, _⟩ => rfl | ⟨3, _⟩ => rfl)
  rw [e, v42_at]

/-- The node input at (b, i, c). -/
theorem v72_at (b : Fin 2) (i : Fin 512) (c : Fin 256) :
    val_main_v72 (F := Ideal) a.h a.pos a.vel a.We1 a.be1 a.We2 a.be2 a.Wa a.ba (ix3 b i c) = Egnn.nodeIn a b i c := by
  unfold val_main_v72 Egnn.nodeIn
  by_cases hc : c.val < 128
  · rw [dif_pos hc]
    exact cat2_lo _ _ b i c hc
  · rw [dif_neg hc]
    exact (cat2_hi _ _ b i c hc).trans (v71_at a b i _)

/-! ## The node update -/

/-- The node update's hidden layer before its activation. -/
theorem v76_at (b : Fin 2) (i : Fin 512) (k : Fin 128) :
    val_main_v76 (F := Ideal) a.h a.pos a.vel a.We1 a.be1 a.We2 a.be2 a.Wa a.ba a.Wn1 a.bn1 (ix3 b i k)
      = (∑ c : Fin 256, Egnn.nodeIn a b i c * a.Wn1 (ix2 c k)) + a.bn1 (ix1 k) := by
  have el : ∀ c : Fin 256, lidx_main_v73 (ix3 b i k) c = ix3 b i c := fun c =>
    funext fun d => Fin.ext (by match d with | ⟨0, _⟩ => rfl | ⟨1, _⟩ => rfl | ⟨2, _⟩ => rfl)
  have er : ∀ c : Fin 256, ridx_main_v73 (ix3 b i k) c = ix2 c k := fun c =>
    funext fun d => Fin.ext (by match d with | ⟨0, _⟩ => rfl | ⟨1, _⟩ => rfl)
  have eb : idx_main_v74 (idx_main_v75 (ix3 b i k)) = ix1 k :=
    funext fun d => Fin.ext (by match d with | ⟨0, _⟩ => rfl)
  rw [val_main_v76_apply, val_main_v73_apply, val_main_v75_apply, val_main_v74_apply, eb]
  refine congrArg₂ (· + ·) (Finset.sum_congr rfl fun c _ => ?_) rfl
  rw [el, er, v72_at]

/-- Its activation, at any index. -/
theorem v77_silu (y : S2x512x128.Idx) :
    val_main_v77 (F := Ideal) a.h a.pos a.vel a.We1 a.be1 a.We2 a.be2 a.Wa a.ba a.Wn1 a.bn1 y
      = Egnn.silu (val_main_v76 (F := Ideal) a.h a.pos a.vel a.We1 a.be1 a.We2 a.be2 a.Wa a.ba a.Wn1 a.bn1 y) := by
  rw [val_main_v77_apply, val_main_call6_v5_apply, val_main_call6_v4_apply, val_main_call6_cst_0_apply,
    val_main_call6_v3_apply, val_main_call6_v2_apply, val_main_call6_cst_apply, val_main_call6_v1_apply,
    val_main_call6_v0_apply]
  exact silu_spelt _

/-- The node update's hidden layer. -/
theorem v77_at (b : Fin 2) (i : Fin 512) (k : Fin 128) :
    val_main_v77 (F := Ideal) a.h a.pos a.vel a.We1 a.be1 a.We2 a.be2 a.Wa a.ba a.Wn1 a.bn1 (ix3 b i k)
      = Egnn.hid a b i k := by
  rw [v77_silu, v76_at]
  rfl

/-- The new node features: the old ones plus the node update. -/
theorem v82_at (b : Fin 2) (i : Fin 512) (c : Fin 128) :
    val_main_v82 (F := Ideal) a.h a.pos a.vel a.We1 a.be1 a.We2 a.be2 a.Wa a.ba a.Wn1 a.bn1 a.Wn2 a.bn2 (ix3 b i c)
      = Egnn.hNew a b i c := by
  have el : ∀ k : Fin 128, lidx_main_v78 (ix3 b i c) k = ix3 b i k := fun k =>
    funext fun d => Fin.ext (by match d with | ⟨0, _⟩ => rfl | ⟨1, _⟩ => rfl | ⟨2, _⟩ => rfl)
  have er : ∀ k : Fin 128, ridx_main_v78 (ix3 b i c) k = ix2 k c := fun k =>
    funext fun d => Fin.ext (by match d with | ⟨0, _⟩ => rfl | ⟨1, _⟩ => rfl)
  have eb : idx_main_v79 (idx_main_v80 (ix3 b i c)) = ix1 c :=
    funext fun d => Fin.ext (by match d with | ⟨0, _⟩ => rfl)
  rw [val_main_v82_apply, val_main_v81_apply, val_main_v78_apply, val_main_v80_apply, val_main_v79_apply, eb]
  refine congrArg (a.h (ix3 b i c) + ·) (congrArg₂ (· + ·) (Finset.sum_congr rfl fun k _ => ?_) rfl)
  rw [el, er, v77_at]

end Cert.ReferenceIdeal.RefValue

end
-- ==== Proof.RefValue.lean ====
/-
  The plain program computes the specification: each of its three results, as the run states it, is the
  specification's function of the nineteen argument arrays.
-/
import proofs.«145759_j13950053777588_1_alg».proof.Proof.RefValue5
import proofs.«145759_j13950053777588_1_alg».proof.Proof.RefValue6

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The nineteen argument arrays of the plain program, as the specification's inputs and weights. -/
def argsOf (m : (ℓ : Loc nD τ sig) → Buf (Elt Ideal) ℓ) (c : Dev nD) : Egnn.Args where
  h := m ((c.tc : Thread nD τ).loc main_arg0)
  pos := m ((c.tc : Thread nD τ).loc main_arg1)
  vel := m ((c.tc : Thread nD τ).loc main_arg2)
  We1 := m ((c.tc : Thread nD τ).loc main_arg3)
  be1 := m ((c.tc : Thread nD τ).loc main_arg4)
  We2 := m ((c.tc : Thread nD τ).loc main_arg5)
  be2 := m ((c.tc : Thread nD τ).loc main_arg6)
  Wa := m ((c.tc : Thread nD τ).loc main_arg7)
  ba := m ((c.tc : Thread nD τ).loc main_arg8)
  Wp1 := m ((c.tc : Thread nD τ).loc main_arg9)
  bp1 := m ((c.tc : Thread nD τ).loc main_arg10)
  Wp2 := m ((c.tc : Thread nD τ).loc main_arg11)
  Wv1 := m ((c.tc : Thread nD τ).loc main_arg12)
  bv1 := m ((c.tc : Thread nD τ).loc main_arg13)
  Wv2 := m ((c.tc : Thread nD τ).loc main_arg14)
  Wn1 := m ((c.tc : Thread nD τ).loc main_arg15)
  bn1 := m ((c.tc : Thread nD τ).loc main_arg16)
  Wn2 := m ((c.tc : Thread nD τ).loc main_arg17)
  bn2 := m ((c.tc : Thread nD τ).loc main_arg18)

/-- The first result of the plain program is the specification's new node features. -/
theorem res_out0_eq (m : (ℓ : Loc nD τ sig) → Buf (Elt Ideal) ℓ) (c : Dev nD) :
    Cert.ReferenceIdeal.Value.res_out0 (F := Ideal) m c = Egnn.hOut (argsOf m c) := by
  funext y
  obtain ⟨b, i, k, rfl⟩ : ∃ (b : Fin 2) (i : Fin 512) (k : Fin 128), y = ix3 b i k := ⟨y 0, y 1, y 2, eq_ix3 y⟩
  exact (congrFun (val_main_v82_eq m c) (ix3 b i k)).trans (v82_at (argsOf m c) b i k)

/-- The second result is the specification's new positions. -/
theorem res_out1_eq (m : (ℓ : Loc nD τ sig) → Buf (Elt Ideal) ℓ) (c : Dev nD) :
    Cert.ReferenceIdeal.Value.res_out1 (F := Ideal) m c = Egnn.posOut (argsOf m c) := by
  funext y
  obtain ⟨b, i, k, rfl⟩ : ∃ (b : Fin 2) (i : Fin 512) (k : Fin 3), y = ix3 b i k := ⟨y 0, y 1, y 2, eq_ix3 y⟩
  exact (congrFun (val_main_v68_eq m c) (ix3 b i k)).trans (v68_at (argsOf m c) b i k)

/-- The third result is the specification's new velocities. -/
theorem res_out2_eq (m : (ℓ : Loc nD τ sig) → Buf (Elt Ideal) ℓ) (c : Dev nD) :
    Cert.ReferenceIdeal.Value.res_out2 (F := Ideal) m c = Egnn.velOut (argsOf m c) := by
  funext y
  obtain ⟨b, i, k, rfl⟩ : ∃ (b : Fin 2) (i : Fin 512) (k : Fin 3), y = ix3 b i k := ⟨y 0, y 1, y 2, eq_ix3 y⟩
  exact (congrFun (val_main_v70_eq m c) (ix3 b i k)).trans (v70_at (argsOf m c) b i k)

end Cert.ReferenceIdeal.RefValue

end
-- ==== Proof.lean ====
/-
  The five claims of this certificate.

  The kernel is one layer of a dense, velocity-aware equivariant message-passing network, tiled: for each batch entry
  and each tile of 64 receiving nodes it sweeps the 8 tiles of 64 sending nodes, running the edge network on the
  64 × 64 edges of the pair of tiles and adding, per receiving node, the gated position differences, the gated velocity
  differences and the messages into three running sums; after the last sending tile it moves the positions and
  velocities by the mean of the gated differences, clamps them, and updates the node features from the summed messages.
  The reference computes the same layer on whole arrays: every edge at once, sums over all 512 senders.

  Both compute the function of Spec.lean. For the reference this is read off its operations one at a time; the one
  algebraic step is that the first edge layer's product of the concatenated edge input [h_i, h_j, s_pos, s_vel] with
  We1 splits into the four terms the kernel forms separately. For the kernel it is an induction over the sending
  tiles: the sums after tile j are the sums over the senders of tiles 0 … j, and a sum over 512 senders regroups as 8
  sums over 64. Addition on the extended reals is commutative and associative, logistic x is 1 / (1 + exp (-x)) on
  both sides, and nothing else is used: no step needs the inputs to be finite.

  The kernel's frame (it runs to the end, faults nowhere, leaves its arguments unchanged) is proved once for any float
  instance and used at the word level and at the ideal level: the body's effect at each of the three kinds of grid
  point, the invariant carried between points (the three sums in scratch), and the launch, in which the receiving and
  the sending window of h, of pos and of vel each hold half of their shared array.
-/
import proofs.«145759_j13950053777588_1_alg».proof.Defs
import proofs.«145759_j13950053777588_1_alg».proof.Proof.Gen.Kernel
import proofs.«145759_j13950053777588_1_alg».proof.Proof.Gen.KernelIdeal
import proofs.«145759_j13950053777588_1_alg».proof.Proof.Gen.ReferenceIdeal
import proofs.«145759_j13950053777588_1_alg».proof.Proof.Gen.Pre_finite_inputs
import proofs.«145759_j13950053777588_1_alg».proof.Proof.Gen.ReferenceIdeal.Run
import proofs.«145759_j13950053777588_1_alg».proof.Proof.Gen.ReferenceIdeal.Read
import proofs.«145759_j13950053777588_1_alg».proof.Proof.BRun
import proofs.«145759_j13950053777588_1_alg».proof.Proof.BBody
import proofs.«145759_j13950053777588_1_alg».proof.Proof.KRun
import proofs.«145759_j13950053777588_1_alg».proof.Proof.KBody
import proofs.«145759_j13950053777588_1_alg».proof.Proof.KAccArr
import proofs.«145759_j13950053777588_1_alg».proof.Proof.RefValue

noncomputable section

namespace Cert.Proof

open Idealize.ShloMosaic Idealize.SL.Sem

/-- The program as printed runs and leaves its arguments unchanged. -/
theorem frame_k : Cert.frame_Kernel := fun m ρ _ =>
  (θ_run Cert.Kernel.defs _ _).mono (fun _ h c => (h c).2.2.2)
    (Cert.Kernel.Hand.run_main (F := Bits) Cert.Kernel.Hand.body_obligation0 m ρ)

/-- So does its idealization. -/
theorem frame_ki : Cert.frame_KernelIdeal := fun m ρ _ =>
  (θ_run Cert.KernelIdeal.defs _ _).mono (fun _ h c => (h c).2.2.2)
    (Cert.KernelIdeal.Hand.run_main (F := Ideal) Cert.KernelIdeal.Hand.body_obligation0 m ρ)

/-- And the reference: its run with the results dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- The ideal pass rewrote nothing. -/
theorem preserves : Cert.preserves_Kernel_KernelIdeal := trivial

/-- Run from memories that agree on the arguments, the idealized kernel and the idealized reference both end with the
    three results at the layer's function of those arguments. -/
theorem algebraic : Cert.algebraic_KernelIdeal_ReferenceIdeal := by
  intro m ρ m' ρ' _ hagree
  have hargs : ∀ c, Cert.ReferenceIdeal.RefValue.argsOf m' c = Cert.KernelIdeal.Hand.argsOf m c := fun c => by
    obtain ⟨h0, h1, h2, h3, h4, h5, h6, h7, h8, h9, h10, h11, h12, h13, h14, h15, h16, h17, h18⟩ := hagree c
    unfold Cert.ReferenceIdeal.RefValue.argsOf Cert.KernelIdeal.Hand.argsOf
    rw [h0, h1, h2, h3, h4, h5, h6, h7, h8, h9, h10, h11, h12, h13, h14, h15, h16, h17, h18]
  refine ⟨fun c => Cert.Egnn.hOut (Cert.KernelIdeal.Hand.argsOf m c), fun c => Cert.Egnn.posOut (Cert.KernelIdeal.Hand.argsOf m c),
    fun c => Cert.Egnn.velOut (Cert.KernelIdeal.Hand.argsOf m c), ?_, ?_⟩
  · exact (θ_run Cert.KernelIdeal.defs _ _).mono (fun _ h c =>
      ⟨(h c).1.trans (Cert.KernelIdeal.Hand.arrAt_h m c), (h c).2.1.trans (Cert.KernelIdeal.Hand.arrAt_pos m c),
        (h c).2.2.1.trans (Cert.KernelIdeal.Hand.arrAt_vel m c), (h c).2.2.2⟩)
      (Cert.KernelIdeal.Hand.run_main (F := Ideal) Cert.KernelIdeal.Hand.body_obligation0 m ρ)
  · exact (θ_run Cert.ReferenceIdeal.defs _ _).mono (fun _ h c =>
      ⟨(h c).1.trans ((Cert.ReferenceIdeal.RefValue.res_out0_eq m' c).trans (congrArg Cert.Egnn.hOut (hargs c))),
        (h c).2.1.trans ((Cert.ReferenceIdeal.RefValue.res_out1_eq m' c).trans (congrArg Cert.Egnn.posOut (hargs c))),
        (h c).2.2.1.trans ((Cert.ReferenceIdeal.RefValue.res_out2_eq m' c).trans (congrArg Cert.Egnn.velOut (hargs c))),
        (h c).2.2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
